-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x320000 : S_.BroadcastsInDim S2x320000 (![] : Fin 0 → Fin S2x320000.rank)
  reducesTo_S2x320000_S_d0_1 : S2x320000.ReducesTo [0, 1] S_

variable [Facts]

def fn {F : FTy → Type} [FloatOps F] (main_arg0 : FVec F S10000x128 .f32) (main_arg1 : IVec S2x320000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_c_0 : IVec S_ 32 := constantI S_ 32 0#32
  let main_v4 : IVec S2x320000 32 := broadcastInDim S2x320000 ![] bcast_S_S2x320000 main_c_0
  let main_v5 : IVec S2x320000 1 := cmpi .sge main_arg1 main_v4
  let main_c_1 : IVec S_ 32 := constantI S_ 32 9999#32
  let main_v6 : IVec S2x320000 32 := broadcastInDim S2x320000 ![] bcast_S_S2x320000 main_c_1
  let main_v7 : IVec S2x320000 1 := cmpi .sle main_arg1 main_v6
  let main_v8 : IVec S2x320000 1 := andi main_v5 main_v7
  let main_c_2 : IVec S_ 1 := constantI S_ 1 1#1
  let main_v9 : IVec S_ 1 := (fun x v => Host.reduce IntOp.andi x v reducesTo_S2x320000_S_d0_1 h_S_) main_v8 main_c_2
  let main_v10 : IVec S_ 1 := andi main_v3 main_v9
  main_v10
-- ==== Kernel.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S10000 : Shape := ⟨1, ![10000]⟩
abbrev S80x128 : Shape := ⟨2, ![80, 128]⟩
abbrev S80 : Shape := ⟨1, ![80]⟩
abbrev S_ : Shape := ⟨0, ![]⟩
abbrev S16 : Shape := ⟨1, ![16]⟩

abbrev nBuf : Table → Nat
  | .hbm => 7
  | .local .scVector .vmem => 11
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S1x320000, .i32⟩
  | .hbm, ⟨3, _⟩ => ⟨S320000, .i32⟩
  | .hbm, ⟨4, _⟩ => ⟨S1x320000, .i32⟩
  | .hbm, ⟨5, _⟩ => ⟨S320000, .i32⟩
  | .hbm, ⟨6, _⟩ => ⟨S320000, .f32⟩
  | .local .scVector .vmem, ⟨0, _⟩ => ⟨S10000, .i32⟩
  | .local .scVector .vmem, ⟨1, _⟩ => ⟨S10000, .i32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | .local .scVector .vmem, ⟨5, _⟩ => ⟨S80x128, .f32⟩
  | .local .scVector .vmem, ⟨6, _⟩ => ⟨S80x128, .f32⟩
  | .local .scVector .vmem, ⟨7, _⟩ => ⟨S80x128, .f32⟩
  | .local .scVector .vmem, ⟨8, _⟩ => ⟨S80x128, .f32⟩
  | .local .scVector .vmem, ⟨9, _⟩ => ⟨S80x128, .f32⟩
  | .local .scVector .vmem, ⟨10, _⟩ => ⟨S80, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg0_scv : Ref sig .scVector := ⟨.hbm, 0, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k0_t1_loop : Scf.Loop 32 :=
  let c0_i32_21 : BitVec 32 := 0#32
  let c31_i32 : BitVec 32 := 31#32
  let v20 : BitVec 32 := Scalar.addi c0_i32_21 c31_i32
  let c1_i32 : BitVec 32 := 1#32
  ⟨c0_i32_21, v20, c1_i32⟩
@[reducible] def k0_t2_loop : Scf.Loop 32 :=
  let c0_i32_41 : BitVec 32 := 0#32
  let c5_i32_42 : BitVec 32 := 5#32
  let v33 : BitVec 32 := Scalar.addi c0_i32_41 c5_i32_42
  let c1_i32_43 : BitVec 32 := 1#32
  ⟨c0_i32_41, v33, c1_i32_43⟩
@[reducible] def k0_t3_loop : Scf.Loop 32 :=
  let c0_i32_98 : BitVec 32 := 0#32
  let c128_i32 : BitVec 32 := 128#32
  let v83 : BitVec 32 := Scalar.addi c0_i32_98 c128_i32
  let c1_i32_99 : BitVec 32 := 1#32
  ⟨c0_i32_98, v83, c1_i32_99⟩

def k0_chk1 (v81 : IVec S16 32) (v97 : IVec S16 32) : Prop :=
  (∀ a x, ((![v81, v97] : Fin 2 → IVec S16 32) a x).toNat < S80x128.size a) ∧
  (∀ a x, ((![v81, v97] : Fin 2 → IVec S16 32) a x).toNat < S80x128.size a)
instance k0_chk1.dec : ∀ (v81 : IVec S16 32) (v97 : IVec S16 32), Decidable (k0_chk1 v81 v97) := fun v81 v97 => decidable_of_iff' _ (Iff.of_eq (k0_chk1.eq_1 v81 v97))
theorem k0_idx1_inb : ∀ (v81 : IVec S16 32) (v97 : IVec S16 32) (k0_hw1 : k0_chk1 v81 v97), ∀ a x, ((![v81, v97] : Fin 2 → IVec S16 32) a x).toNat < S80x128.size a := fun v81 v97 k0_hw1 => k0_hw1.1
theorem k0_idx2_inb : ∀ (v81 : IVec S16 32) (v97 : IVec S16 32) (k0_hw1 : k0_chk1 v81 v97), ∀ a x, ((![v81, v97] : Fin 2 → IVec S16 32) a x).toNat < S80x128.size a := fun v81 v97 k0_hw1 => k0_hw1.2
def k0_off2 (k0_t2 : Fin k0_t2_loop.trips) : Fin 1 → Nat :=
  let c0_i32_41 : BitVec 32 := 0#32
  let c1_i32_43 : BitVec 32 := 1#32
  let arg26 : BitVec 32 := Scf.iv c0_i32_41 c1_i32_43 k0_t2
  let c16_i32 : BitVec 32 := 16#32
  let v79 : BitVec 32 := Scalar.muli arg26 c16_i32
  let v92 : Index := Scalar.indexCast v79
  ![v92.toNat]
def k0_off3 (i : grid0.Coords) (k0_t1 : Fin k0_t1_loop.trips) (c0_i32_33 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_21 : BitVec 32 := 0#32
  let c1_i32 : BitVec 32 := 1#32
  let arg25 : BitVec 32 := Scf.iv c0_i32_21 c1_i32 k0_t1
  let c4_i32 : BitVec 32 := 4#32
  let v27 : BitVec 32 := Scalar.muli arg25 c4_i32
  let v28 : BitVec 32 := Scalar.addi v27 c0_i32_33
  let c80_i32_45 : BitVec 32 := 80#32
  let v34 : BitVec 32 := Scalar.muli v28 c80_i32_45
  let v35 : BitVec 32 := Scalar.addi v2 v34
  ![v35.toNat]
def k0_cond1 (k0_t1 : Fin k0_t1_loop.trips) : BitVec 1 :=
  let c0_i32_21 : BitVec 32 := 0#32
  let c1_i32 : BitVec 32 := 1#32
  let arg25 : BitVec 32 := Scf.iv c0_i32_21 c1_i32 k0_t1
  let c4_i32 : BitVec 32 := 4#32
  let v27 : BitVec 32 := Scalar.muli arg25 c4_i32
  let c0_i32_33 : BitVec 32 := 0#32
  let v28 : BitVec 32 := Scalar.addi v27 c0_i32_33
  let c4_i32_46 : BitVec 32 := 4#32
  let v36 : BitVec 32 := Scalar.addi v28 c4_i32_46
  let c125_i32 : BitVec 32 := 125#32
  let v37 : BitVec 1 := Scalar.cmpi .slt v36 c125_i32
  let v38 : BitVec 32 := Scalar.extui v37
  let c0_i32_47 : BitVec 32 := 0#32
  let v39 : BitVec 1 := Scalar.cmpi .ne v38 c0_i32_47
  v39

def k0_off4 (k0_t1 : Fin k0_t1_loop.trips) : Fin 1 → Nat :=
  let c0_i32_21 : BitVec 32 := 0#32
  let c1_i32 : BitVec 32 := 1#32
  let arg25 : BitVec 32 := Scf.iv c0_i32_21 c1_i32 k0_t1
  let c4_i32 : BitVec 32 := 4#32
  let v27 : BitVec 32 := Scalar.muli arg25 c4_i32
  let c0_i32_33 : BitVec 32 := 0#32
  let v28 : BitVec 32 := Scalar.addi v27 c0_i32_33
  let c4_i32_98 : BitVec 32 := 4#32
  let v79 : BitVec 32 := Scalar.addi v28 c4_i32_98
  let c80_i32_99 : BitVec 32 := 80#32
  let v80 : BitVec 32 := Scalar.muli v79 c80_i32_99
  ![v80.toNat]
@[reducible] def k0_t4_loop : Scf.Loop 32 :=
  let c0_i32_57 : BitVec 32 := 0#32
  let c5_i32_58 : BitVec 32 := 5#32
  let v46 : BitVec 32 := Scalar.addi c0_i32_57 c5_i32_58
  let c1_i32_59 : BitVec 32 := 1#32
  ⟨c0_i32_57, v46, c1_i32_59⟩
@[reducible] def k0_t5_loop : Scf.Loop 32 :=
  let c0_i32_98 : BitVec 32 := 0#32
  let c128_i32 : BitVec 32 := 128#32
  let v83 : BitVec 32 := Scalar.addi c0_i32_98 c128_i32
  let c1_i32_99 : BitVec 32 := 1#32
  ⟨c0_i32_98, v83, c1_i32_99⟩

def k0_chk2 (v81 : IVec S16 32) (v97 : IVec S16 32) : Prop :=
  (∀ a x, ((![v81, v97] : Fin 2 → IVec S16 32) a x).toNat < S80x128.size a) ∧
  (∀ a x, ((![v81, v97] : Fin 2 → IVec S16 32) a x).toNat < S80x128.size a)
instance k0_chk2.dec : ∀ (v81 : IVec S16 32) (v97 : IVec S16 32), Decidable (k0_chk2 v81 v97) := fun v81 v97 => decidable_of_iff' _ (Iff.of_eq (k0_chk2.eq_1 v81 v97))
theorem k0_idx3_inb : ∀ (v81 : IVec S16 32) (v97 : IVec S16 32) (k0_hw2 : k0_chk2 v81 v97), ∀ a x, ((![v81, v97] : Fin 2 → IVec S16 32) a x).toNat < S80x128.size a := fun v81 v97 k0_hw2 => k0_hw2.1
theorem k0_idx4_inb : ∀ (v81 : IVec S16 32) (v97 : IVec S16 32) (k0_hw2 : k0_chk2 v81 v97), ∀ a x, ((![v81, v97] : Fin 2 → IVec S16 32) a x).toNat < S80x128.size a := fun v81 v97 k0_hw2 => k0_hw2.2
def k0_off5 (k0_t4 : Fin k0_t4_loop.trips) : Fin 1 → Nat :=
  let c0_i32_57 : BitVec 32 := 0#32
  let c1_i32_59 : BitVec 32 := 1#32
  let arg26 : BitVec 32 := Scf.iv c0_i32_57 c1_i32_59 k0_t4
  let c16_i32 : BitVec 32 := 16#32
  let v79 : BitVec 32 := Scalar.muli arg26 c16_i32
  let v92 : Index := Scalar.indexCast v79
  ![v92.toNat]
def k0_cond2 (k0_t1 : Fin k0_t1_loop.trips) : BitVec 1 :=
  let c0_i32_21 : BitVec 32 := 0#32
  let c1_i32 : BitVec 32 := 1#32
  let arg25 : BitVec 32 := Scf.iv c0_i32_21 c1_i32 k0_t1
  let c4_i32_48 : BitVec 32 := 4#32
  let v40 : BitVec 32 := Scalar.muli arg25 c4_i32_48
  let c1_i32_49 : BitVec 32 := 1#32
  let v41 : BitVec 32 := Scalar.addi v40 c1_i32_49
  let c4_i32_62 : BitVec 32 := 4#32
  let v49 : BitVec 32 := Scalar.addi v41 c4_i32_62
  let c125_i32_63 : BitVec 32 := 125#32
  let v50 : BitVec 1 := Scalar.cmpi .slt v49 c125_i32_63
  let v51 : BitVec 32 := Scalar.extui v50
  let c0_i32_64 : BitVec 32 := 0#32
  let v52 : BitVec 1 := Scalar.cmpi .ne v51 c0_i32_64
  v52

def k0_off6 (k0_t1 : Fin k0_t1_loop.trips) : Fin 1 → Nat :=
  let c0_i32_21 : BitVec 32 := 0#32
  let c1_i32 : BitVec 32 := 1#32
  let arg25 : BitVec 32 := Scf.iv c0_i32_21 c1_i32 k0_t1
  let c4_i32_48 : BitVec 32 := 4#32
  let v40 : BitVec 32 := Scalar.muli arg25 c4_i32_48
  let c1_i32_49 : BitVec 32 := 1#32
  let v41 : BitVec 32 := Scalar.addi v40 c1_i32_49
  let c4_i32_98 : BitVec 32 := 4#32
  let v79 : BitVec 32 := Scalar.addi v41 c4_i32_98
  let c80_i32_99 : BitVec 32 := 80#32
  let v80 : BitVec 32 := Scalar.muli v79 c80_i32_99
  ![v80.toNat]
@[reducible] def k0_t6_loop : Scf.Loop 32 :=
  let c0_i32_74 : BitVec 32 := 0#32
  let c5_i32_75 : BitVec 32 := 5#32
  let v59 : BitVec 32 := Scalar.addi c0_i32_74 c5_i32_75
  let c1_i32_76 : BitVec 32 := 1#32
  ⟨c0_i32_74, v59, c1_i32_76⟩
@[reducible] def k0_t7_loop : Scf.Loop 32 :=
  let c0_i32_98 : BitVec 32 := 0#32
  let c128_i32 : BitVec 32 := 128#32
  let v83 : BitVec 32 := Scalar.addi c0_i32_98 c128_i32
  let c1_i32_99 : BitVec 32 := 1#32
  ⟨c0_i32_98, v83, c1_i32_99⟩

def k0_chk3 (v81 : IVec S16 32) (v97 : IVec S16 32) : Prop :=
  (∀ a x, ((![v81, v97] : Fin 2 → IVec S16 32) a x).toNat < S80x128.size a) ∧
  (∀ a x, ((![v81, v97] : Fin 2 → IVec S16 32) a x).toNat < S80x128.size a)
instance k0_chk3.dec : ∀ (v81 : IVec S16 32) (v97 : IVec S16 32), Decidable (k0_chk3 v81 v97) := fun v81 v97 => decidable_of_iff' _ (Iff.of_eq (k0_chk3.eq_1 v81 v97))
theorem k0_idx5_inb : ∀ (v81 : IVec S16 32) (v97 : IVec S16 32) (k0_hw3 : k0_chk3 v81 v97), ∀ a x, ((![v81, v97] : Fin 2 → IVec S16 32) a x).toNat < S80x128.size a := fun v81 v97 k0_hw3 => k0_hw3.1
theorem k0_idx6_inb : ∀ (v81 : IVec S16 32) (v97 : IVec S16 32) (k0_hw3 : k0_chk3 v81 v97), ∀ a x, ((![v81, v97] : Fin 2 → IVec S16 32) a x).toNat < S80x128.size a := fun v81 v97 k0_hw3 => k0_hw3.2
def k0_off7 (k0_t6 : Fin k0_t6_loop.trips) : Fin 1 → Nat :=
  let c0_i32_74 : BitVec 32 := 0#32
  let c1_i32_76 : BitVec 32 := 1#32
  let arg26 : BitVec 32 := Scf.iv c0_i32_74 c1_i32_76 k0_t6
  let c16_i32 : BitVec 32 := 16#32
  let v79 : BitVec 32 := Scalar.muli arg26 c16_i32
  let v92 : Index := Scalar.indexCast v79
  ![v92.toNat]
def k0_cond3 (k0_t1 : Fin k0_t1_loop.trips) : BitVec 1 :=
  let c0_i32_21 : BitVec 32 := 0#32
  let c1_i32 : BitVec 32 := 1#32
  let arg25 : BitVec 32 := Scf.iv c0_i32_21 c1_i32 k0_t1
  let c4_i32_65 : BitVec 32 := 4#32
  let v53 : BitVec 32 := Scalar.muli arg25 c4_i32_65
  let c2_i32_66 : BitVec 32 := 2#32
  let v54 : BitVec 32 := Scalar.addi v53 c2_i32_66
  let c4_i32_79 : BitVec 32 := 4#32
  let v62 : BitVec 32 := Scalar.addi v54 c4_i32_79
  let c125_i32_80 : BitVec 32 := 125#32
  let v63 : BitVec 1 := Scalar.cmpi .slt v62 c125_i32_80
  let v64 : BitVec 32 := Scalar.extui v63
  let c0_i32_81 : BitVec 32 := 0#32
  let v65 : BitVec 1 := Scalar.cmpi .ne v64 c0_i32_81
  v65

def k0_off8 (k0_t1 : Fin k0_t1_loop.trips) : Fin 1 → Nat :=
  let c0_i32_21 : BitVec 32 := 0#32
  let c1_i32 : BitVec 32 := 1#32
  let arg25 : BitVec 32 := Scf.iv c0_i32_21 c1_i32 k0_t1
  let c4_i32_65 : BitVec 32 := 4#32
  let v53 : BitVec 32 := Scalar.muli arg25 c4_i32_65
  let c2_i32_66 : BitVec 32 := 2#32
  let v54 : BitVec 32 := Scalar.addi v53 c2_i32_66
  let c4_i32_98 : BitVec 32 := 4#32
  let v79 : BitVec 32 := Scalar.addi v54 c4_i32_98
  let c80_i32_99 : BitVec 32 := 80#32
  let v80 : BitVec 32 := Scalar.muli v79 c80_i32_99
  ![v80.toNat]
@[reducible] def k0_t8_loop : Scf.Loop 32 :=
  let c0_i32_90 : BitVec 32 := 0#32
  let c5_i32_91 : BitVec 32 := 5#32
  let v72 : BitVec 32 := Scalar.addi c0_i32_90 c5_i32_91
  let c1_i32_92 : BitVec 32 := 1#32
  ⟨c0_i32_90, v72, c1_i32_92⟩
@[reducible] def k0_t9_loop : Scf.Loop 32 :=
  let c0_i32_98 : BitVec 32 := 0#32
  let c128_i32 : BitVec 32 := 128#32
  let v83 : BitVec 32 := Scalar.addi c0_i32_98 c128_i32
  let c1_i32_99 : BitVec 32 := 1#32
  ⟨c0_i32_98, v83, c1_i32_99⟩

def k0_chk4 (v81 : IVec S16 32) (v97 : IVec S16 32) : Prop :=
  (∀ a x, ((![v81, v97] : Fin 2 → IVec S16 32) a x).toNat < S80x128.size a) ∧
  (∀ a x, ((![v81, v97] : Fin 2 → IVec S16 32) a x).toNat < S80x128.size a)
instance k0_chk4.dec : ∀ (v81 : IVec S16 32) (v97 : IVec S16 32), Decidable (k0_chk4 v81 v97) := fun v81 v97 => decidable_of_iff' _ (Iff.of_eq (k0_chk4.eq_1 v81 v97))
theorem k0_idx7_inb : ∀ (v81 : IVec S16 32) (v97 : IVec S16 32) (k0_hw4 : k0_chk4 v81 v97), ∀ a x, ((![v81, v97] : Fin 2 → IVec S16 32) a x).toNat < S80x128.size a := fun v81 v97 k0_hw4 => k0_hw4.1
theorem k0_idx8_inb : ∀ (v81 : IVec S16 32) (v97 : IVec S16 32) (k0_hw4 : k0_chk4 v81 v97), ∀ a x, ((![v81, v97] : Fin 2 → IVec S16 32) a x).toNat < S80x128.size a := fun v81 v97 k0_hw4 => k0_hw4.2
def k0_off9 (k0_t8 : Fin k0_t8_loop.trips) : Fin 1 → Nat :=
  let c0_i32_90 : BitVec 32 := 0#32
  let c1_i32_92 : BitVec 32 := 1#32
  let arg26 : BitVec 32 := Scf.iv c0_i32_90 c1_i32_92 k0_t8
  let c16_i32 : BitVec 32 := 16#32
  let v79 : BitVec 32 := Scalar.muli arg26 c16_i32
  let v92 : Index := Scalar.indexCast v79
  ![v92.toNat]
def k0_cond4 (k0_t1 : Fin k0_t1_loop.trips) : BitVec 1 :=
  let c0_i32_21 : BitVec 32 := 0#32
  let c1_i32 : BitVec 32 := 1#32
  let arg25 : BitVec 32 := Scf.iv c0_i32_21 c1_i32 k0_t1
  let c4_i32_82 : BitVec 32 := 4#32
  let v66 : BitVec 32 := Scalar.muli arg25 c4_i32_82
  let c3_i32 : BitVec 32 := 3#32
  let v67 : BitVec 32 := Scalar.addi v66 c3_i32
  let c4_i32_95 : BitVec 32 := 4#32
  let v75 : BitVec 32 := Scalar.addi v67 c4_i32_95
  let c125_i32_96 : BitVec 32 := 125#32
  let v76 : BitVec 1 := Scalar.cmpi .slt v75 c125_i32_96
  let v77 : BitVec 32 := Scalar.extui v76
  let c0_i32_97 : BitVec 32 := 0#32
  let v78 : BitVec 1 := Scalar.cmpi .ne v77 c0_i32_97
  v78

def k0_off10 (k0_t1 : Fin k0_t1_loop.trips) : Fin 1 → Nat :=
  let c0_i32_21 : BitVec 32 := 0#32
  let c1_i32 : BitVec 32 := 1#32
  let arg25 : BitVec 32 := Scf.iv c0_i32_21 c1_i32 k0_t1
  let c4_i32_82 : BitVec 32 := 4#32
  let v66 : BitVec 32 := Scalar.muli arg25 c4_i32_82
  let c3_i32 : BitVec 32 := 3#32
  let v67 : BitVec 32 := Scalar.addi v66 c3_i32
  let c4_i32_98 : BitVec 32 := 4#32
  let v79 : BitVec 32 := Scalar.addi v67 c4_i32_98
  let c80_i32_99 : BitVec 32 := 80#32
  let v80 : BitVec 32 := Scalar.muli v79 c80_i32_99
  ![v80.toNat]
@[reducible] def k0_t10_loop : Scf.Loop 32 :=
  let c0_i32_30 : BitVec 32 := 0#32
  let c5_i32 : BitVec 32 := 5#32
  let v25 : BitVec 32 := Scalar.addi c0_i32_30 c5_i32
  let c1_i32_31 : BitVec 32 := 1#32
  ⟨c0_i32_30, v25, c1_i32_31⟩
@[reducible] def k0_t11_loop : Scf.Loop 32 :=
  let c0_i32_33 : BitVec 32 := 0#32
  let c128_i32 : BitVec 32 := 128#32
  let v31 : BitVec 32 := Scalar.addi c0_i32_33 c128_i32
  let c1_i32_34 : BitVec 32 := 1#32
  ⟨c0_i32_33, v31, c1_i32_34⟩

def k0_chk5 (v29 : IVec S16 32) (v45 : IVec S16 32) : Prop :=
  (∀ a x, ((![v29, v45] : Fin 2 → IVec S16 32) a x).toNat < S80x128.size a) ∧
  (∀ a x, ((![v29, v45] : Fin 2 → IVec S16 32) a x).toNat < S80x128.size a)
instance k0_chk5.dec : ∀ (v29 : IVec S16 32) (v45 : IVec S16 32), Decidable (k0_chk5 v29 v45) := fun v29 v45 => decidable_of_iff' _ (Iff.of_eq (k0_chk5.eq_1 v29 v45))
theorem k0_idx9_inb : ∀ (v29 : IVec S16 32) (v45 : IVec S16 32) (k0_hw5 : k0_chk5 v29 v45), ∀ a x, ((![v29, v45] : Fin 2 → IVec S16 32) a x).toNat < S80x128.size a := fun v29 v45 k0_hw5 => k0_hw5.1
theorem k0_idx10_inb : ∀ (v29 : IVec S16 32) (v45 : IVec S16 32) (k0_hw5 : k0_chk5 v29 v45), ∀ a x, ((![v29, v45] : Fin 2 → IVec S16 32) a x).toNat < S80x128.size a := fun v29 v45 k0_hw5 => k0_hw5.2
def k0_off11 (k0_t10 : Fin k0_t10_loop.trips) : Fin 1 → Nat :=
  let c0_i32_30 : BitVec 32 := 0#32
  let c1_i32_31 : BitVec 32 := 1#32
  let arg25 : BitVec 32 := Scf.iv c0_i32_30 c1_i32_31 k0_t10
  let c16_i32 : BitVec 32 := 16#32
  let v27 : BitVec 32 := Scalar.muli arg25 c16_i32
  let v40 : Index := Scalar.indexCast v27
  ![v40.toNat]
def k0_off12 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c9920_i32 : BitVec 32 := 9920#32
  let v26 : BitVec 32 := Scalar.addi v2 c9920_i32
  ![v26.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S10000_S80_0 : ∀ a, (![0] : Fin 1 → Nat) a + S80.size a ≤ S10000.size a
  inb_S10000x128_S10000x128_0_0 : ∀ a, (![0, 0] : Fin 2 → Nat) a + S10000x128.size a ≤ S10000x128.size a
  gathers_S10000x128_S80x128 : S10000x128.Gathers 0 S80x128
  inb_S10000_S80_80 : ∀ a, (![80] : Fin 1 → Nat) a + S80.size a ≤ S10000.size a
  inb_S10000_S80_160 : ∀ a, (![160] : Fin 1 → Nat) a + S80.size a ≤ S10000.size a
  inb_S10000_S80_240 : ∀ a, (![240] : Fin 1 → Nat) a + S80.size a ≤ S10000.size a
  iota_S16_d0_w32_scVector : S16.Iotas .scVector 32 [0]
  h_S80x128 : 0 < S80x128.numel
  h_S16 : 0 < S16.numel
  hcc0_scratch11 : 0 + S_.numel ≤ 15
  hcc0_scratch12 : 1 + S_.numel ≤ 15
  hcc0_scratch13 : 2 + S_.numel ≤ 15
  hcc0_scratch14 : 3 + S_.numel ≤ 15
  hcc0_scratch15 : 4 + S_.numel ≤ 15
  hcc0_scratch16 : 5 + S_.numel ≤ 15
  hcc0_scratch17 : 6 + S_.numel ≤ 15
  hcc0_scratch18 : 7 + S_.numel ≤ 15
  hcc0_scoped0 : 8 + S_.numel ≤ 15
  hcc0_scoped1 : 9 + S_.numel ≤ 15
  hcc0_scoped2 : 10 + S_.numel ≤ 15
  hcc0_scoped3 : 11 + S_.numel ≤ 15
  hcc0_scoped4 : 12 + S_.numel ≤ 15
  hcc0_scoped5 : 13 + S_.numel ≤ 15
  hcc0_scoped6 : 14 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S10000.size a ≤ S320000.size a
  k0_t1_ok : k0_t1_loop.OK
  k0_t2_ok : k0_t2_loop.OK
  k0_t3_ok : k0_t3_loop.OK
  k0_off2_inb : ∀ k0_t2 : Fin k0_t2_loop.trips, ∀ a, (k0_off2 k0_t2) a + S16.size a ≤ S80.size a
  k0_off3_inb : ∀ (i : grid0.Coords) (k0_t1 : Fin k0_t1_loop.trips), ∀ (r : Fin 4), ∀ a, (k0_off3 i k0_t1 (BitVec.ofNat 32 r.val)) a + S80.size a ≤ S320000.size a
  k0_off4_inb : ∀ k0_t1 : Fin k0_t1_loop.trips, ∀ (k0_h1 : k0_cond1 k0_t1 = 1#1), ∀ a, (k0_off4 k0_t1) a + S80.size a ≤ S10000.size a
  k0_t4_ok : k0_t4_loop.OK
  k0_t5_ok : k0_t5_loop.OK
  k0_off5_inb : ∀ k0_t4 : Fin k0_t4_loop.trips, ∀ a, (k0_off5 k0_t4) a + S16.size a ≤ S80.size a
  k0_off6_inb : ∀ k0_t1 : Fin k0_t1_loop.trips, ∀ (k0_h2 : k0_cond2 k0_t1 = 1#1), ∀ a, (k0_off6 k0_t1) a + S80.size a ≤ S10000.size a
  k0_t6_ok : k0_t6_loop.OK
  k0_t7_ok : k0_t7_loop.OK
  k0_off7_inb : ∀ k0_t6 : Fin k0_t6_loop.trips, ∀ a, (k0_off7 k0_t6) a + S16.size a ≤ S80.size a
  k0_off8_inb : ∀ k0_t1 : Fin k0_t1_loop.trips, ∀ (k0_h3 : k0_cond3 k0_t1 = 1#1), ∀ a, (k0_off8 k0_t1) a + S80.size a ≤ S10000.size a
  k0_t8_ok : k0_t8_loop.OK
  k0_t9_ok : k0_t9_loop.OK
  k0_off9_inb : ∀ k0_t8 : Fin k0_t8_loop.trips, ∀ a, (k0_off9 k0_t8) a + S16.size a ≤ S80.size a
  k0_off10_inb : ∀ k0_t1 : Fin k0_t1_loop.trips, ∀ (k0_h4 : k0_cond4 k0_t1 = 1#1), ∀ a, (k0_off10 k0_t1) a + S80.size a ≤ S10000.size a
  k0_t10_ok : k0_t10_loop.OK
  k0_t11_ok : k0_t11_loop.OK
  k0_off11_inb : ∀ k0_t10 : Fin k0_t10_loop.trips, ∀ a, (k0_off11 k0_t10) a + S16.size a ≤ S80.size a
  k0_off12_inb : ∀ i : grid0.Coords, ∀ a, (k0_off12 i) a + S80.size a ≤ S320000.size a

variable [Facts₀]

abbrev cc0_scratch11 : DmaSems sig S_ := SemArray.consecutive 0 S_ hcc0_scratch11
abbrev cc0_scratch12 : DmaSems sig S_ := SemArray.consecutive 1 S_ hcc0_scratch12
abbrev cc0_scratch13 : DmaSems sig S_ := SemArray.consecutive 2 S_ hcc0_scratch13
abbrev cc0_scratch14 : DmaSems sig S_ := SemArray.consecutive 3 S_ hcc0_scratch14
abbrev cc0_scratch15 : DmaSems sig S_ := SemArray.consecutive 4 S_ hcc0_scratch15
abbrev cc0_scratch16 : DmaSems sig S_ := SemArray.consecutive 5 S_ hcc0_scratch16
abbrev cc0_scratch17 : DmaSems sig S_ := SemArray.consecutive 6 S_ hcc0_scratch17
abbrev cc0_scratch18 : DmaSems sig S_ := SemArray.consecutive 7 S_ hcc0_scratch18
abbrev cc0_scoped0 : DmaSems sig S_ := SemArray.consecutive 8 S_ hcc0_scoped0
abbrev cc0_scoped1 : DmaSems sig S_ := SemArray.consecutive 9 S_ hcc0_scoped1
abbrev cc0_scoped2 : DmaSems sig S_ := SemArray.consecutive 10 S_ hcc0_scoped2
abbrev cc0_scoped3 : DmaSems sig S_ := SemArray.consecutive 11 S_ hcc0_scoped3
abbrev cc0_scoped4 : DmaSems sig S_ := SemArray.consecutive 12 S_ hcc0_scoped4
abbrev cc0_scoped5 : DmaSems sig S_ := SemArray.consecutive 13 S_ hcc0_scoped5
abbrev cc0_scoped6 : DmaSems sig S_ := SemArray.consecutive 14 S_ hcc0_scoped6

class Facts : Prop extends Facts₀ where

variable [Facts]
-- ==== ReferenceIdeal.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩

abbrev nBuf : Space → Nat
  | .hbm => 63
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S1x320000, .i32⟩
  | .hbm, ⟨3, _⟩ => ⟨S320000, .i32⟩
  | .hbm, ⟨4, _⟩ => ⟨S1x320000, .i32⟩
  | .hbm, ⟨5, _⟩ => ⟨S320000, .i32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S1, .i32⟩
  | .hbm, ⟨15, _⟩ => ⟨S_, .i32⟩
  | .hbm, ⟨16, _⟩ => ⟨S320000x1, .i32⟩
  | .hbm, ⟨17, _⟩ => ⟨S320000x1, .i1⟩
  | .hbm, ⟨18, _⟩ => ⟨S1x1, .i32⟩
  | .hbm, ⟨19, _⟩ => ⟨S320000x1, .i32⟩
  | .hbm, ⟨20, _⟩ => ⟨S320000x1, .i1⟩
  | .hbm, ⟨21, _⟩ => ⟨S320000x1, .i1⟩
  | .hbm, ⟨22, _⟩ => ⟨S_, .i1⟩
  | .hbm, ⟨23, _⟩ => ⟨S320000, .i1⟩
  | .hbm, ⟨24, _⟩ => ⟨S320000x128, .f32⟩
  | .hbm, ⟨25, _⟩ => ⟨S320000x128, .i1⟩
  | .hbm, ⟨26, _⟩ => ⟨S_, .f32⟩
  | .hbm, ⟨27, _⟩ => ⟨S320000x128, .f32⟩
  | .hbm, ⟨28, _⟩ => ⟨S320000x128, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S1, .i32⟩
  | .hbm, ⟨38, _⟩ => ⟨S_, .i32⟩
  | .hbm, ⟨39, _⟩ => ⟨S320000x1, .i32⟩
  | .hbm, ⟨40, _⟩ => ⟨S320000x1, .i1⟩
  | .hbm, ⟨41, _⟩ => ⟨S1x1, .i32⟩
  | .hbm, ⟨42, _⟩ => ⟨S320000x1, .i32⟩
  | .hbm, ⟨43, _⟩ => ⟨S320000x1, .i1⟩
  | .hbm, ⟨44, _⟩ => ⟨S320000x1, .i1⟩
  | .hbm, ⟨45, _⟩ => ⟨S_, .i1⟩
  | .hbm, ⟨46, _⟩ => ⟨S320000, .i1⟩
  | .hbm, ⟨47, _⟩ => ⟨S320000x128, .f32⟩
  | .hbm, ⟨48, _⟩ => ⟨S320000x128, .i1⟩
  | .hbm, ⟨49, _⟩ => ⟨S_, .f32⟩
  | .hbm, ⟨50, _⟩ => ⟨S320000x128, .f32⟩
  | .hbm, ⟨51, _⟩ => ⟨S320000x128, .f32⟩
  | .hbm, ⟨52, _⟩ => ⟨S320000x128, .f32⟩
  | .hbm, ⟨53, _⟩ => ⟨S_, .f32⟩
  | .hbm, ⟨54, _⟩ => ⟨S320000, .f32⟩
  | .hbm, ⟨55, _⟩ => ⟨S320000, .f32⟩
  | .hbm, ⟨56, _⟩ => ⟨S320000, .f32⟩
  | .hbm, ⟨57, _⟩ => ⟨S_, .f32⟩
  | .hbm, ⟨58, _⟩ => ⟨S320000, .f32⟩
  | .hbm, ⟨59, _⟩ => ⟨S320000, .f32⟩
  | .hbm, ⟨60, _⟩ => ⟨S_, .f32⟩
  | .hbm, ⟨61, _⟩ => ⟨S320000, .f32⟩
  | .hbm, ⟨62, _⟩ => ⟨S320000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩
abbrev main_v6 : Ref sig .tc := ⟨.hbm, 52, rfl⟩
abbrev main_cst : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_cst_0 : Ref sig .tc := ⟨.hbm, 57, rfl⟩
abbrev main_v10 : Ref sig .tc := ⟨.hbm, 58, rfl⟩
abbrev main_v11 : Ref sig .tc := ⟨.hbm, 59, rfl⟩
abbrev main_cst_1 : Ref sig .tc := ⟨.hbm, 60, rfl⟩
abbrev main_v12 : Ref sig .tc := ⟨.hbm, 61, rfl⟩
abbrev main_v13 : Ref sig .tc := ⟨.hbm, 62, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  reducesTo_S320000x128_S320000_d1 : S320000x128.ReducesTo [1] S320000
  gather_S10000x128_S320000x1_S320000x128_1_0_n_n_0_1_1128_wf : GatherDims.WF S10000x128 S320000x1 S320000x128 [1] [0] [] [0] [] 1 ![1, 128]

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf

class Facts : Prop extends Facts₀ where

variable [Facts]
-- ==== Proof.KBIface.lean ====
/-
  The setting shared by the modules that prove the kernel's run: the program as the launch theorem sees it, the
  ghost state (the launch handshakes' rounds beside the transfers' counters), the arrays, what a vector subcore's task
  is handed and hands back, and the function of the arguments the kernel's result array is claimed to hold.

  The kernel scores 320000 edges. Vector subcore `s` of SparseCore `c` is worker `w = 2 s + c` and owns edges
  `[10000 w, 10000 w + 10000)`: it copies its 10000 row words and 10000 column words into its own memory, and for
  each chunk of 80 edges gathers the 80 rows `z[row e]` and the 80 rows `z[col e]`, and for each group of 16 edges
  (lane `l` = edge number mod 16) accumulates, over `t = 0 … 127`, the product of the two rows' entries at column
  `(l + t) mod 128`, from the zero word, left to right; the score is `1 / (1 + exp (0 - acc))`.
-/
import proofs.«209252_g55662776156339_cont_9to1_m_525_47_alg».proof.Defs
import proofs.«209252_g55662776156339_cont_9to1_m_525_47_alg».proof.Proof.Gen.Kernel
import proofs.«209252_g55662776156339_cont_9to1_m_525_47_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The node table `z`, the edge list (two rows of 320000 words), the row words and the column words as @main's
    host operations cut them out of the edge list, and the result. -/
abbrev zLoc (d : Dev nD) : Loc nD τ sig := (SparseCore.T d).loc main_arg0
abbrev eLoc (d : Dev nD) : Loc nD τ sig := (SparseCore.T d).loc main_arg1
abbrev rLoc (d : Dev nD) : Loc nD τ sig := (SparseCore.T d).loc main_v1
abbrev cLoc (d : Dev nD) : Loc nD τ sig := (SparseCore.T d).loc main_v3
abbrev oLoc (d : Dev nD) : Loc nD τ sig := (SparseCore.T d).loc main_v4

/-- The words `[o, o + n)` of a rank-one array of 320000 words. -/
def seg (o n : ℕ) : Finset S320000.Idx := Finset.univ.filter fun j => o ≤ (j 0).val ∧ (j 0).val < o + n

theorem mem_seg {o n : ℕ} {j : S320000.Idx} : j ∈ seg o n ↔ o ≤ (j 0).val ∧ (j 0).val < o + n := by
  simp [seg]

/-- Worker number of vector subcore `i` of SparseCore `c`. -/
def wid (c : Fin 2) (i : Fin 16) : ℕ := 2 * i.val + c.val

/-! ## The claimed result, as a function of the arguments -/

section Spec
variable [FloatOps F]

/-- The row of `z` a word names (the words are in range under the precondition; reduced so that the term is total). -/
def rowOfWord (w : BitVec 32) : Fin 10000 := ⟨w.toNat % 10000, Nat.mod_lt _ (by decide)⟩
/-- Lane `l`'s column at step `t`: the lanes walk the 128 columns in rotated order. -/
def colAt (l t : ℕ) : Fin 128 := ⟨(l + t) % 128, Nat.mod_lt _ (by decide)⟩

/-- A lane's accumulator after `t` steps, for the two row words `w₁`, `w₂` of its edge and its lane number `l`: from
    the zero word, each step adds the product of the two named rows' entries at the lane's column of that step. -/
def accL (z : FVec F S10000x128 .f32) (w₁ w₂ : BitVec 32) (l : ℕ) : ℕ → F .f32
  | 0 => Scalar.ofBits .f32 0x00000000#32
  | t + 1 => FloatOps.addf (accL z w₁ w₂ l t)
      (FloatOps.mulf (z (ix2 (rowOfWord w₁) (colAt l t))) (z (ix2 (rowOfWord w₂) (colAt l t))))

/-- The score of an accumulated dot product: `1 / (1 + exp (0 - a))`, the constants the words the kernel writes. -/
def score (a : F .f32) : F .f32 :=
  FloatOps.divf (Scalar.ofBits .f32 0x3F800000#32)
    (FloatOps.addf (Scalar.ofBits .f32 0x3F800000#32) (FloatOps.exp (FloatOps.subf (Scalar.ofBits .f32 0x00000000#32) a)))

/-- What the kernel leaves in its result array, from `z`, the row words and the column words: edge `e` is lane
    `e mod 16` of its group. -/
def outSpec (z : FVec F S10000x128 .f32) (ri ci : IVec S320000 32) : FVec F S320000 .f32 :=
  fun j => score (accL z (ri j) (ci j) ((j 0).val % 16) 128)

end Spec

/-- The row words and the column words held at the kernel's start, and the result the run ends with, per device. -/
structure Arrays (d : Dev nD) where
  ri : Buf (Elt F) (rLoc d)
  ci : Buf (Elt F) (cLoc d)

variable (A : (d : Dev nD) → Arrays (F := F) d)

/-- What the proof asks of the row and column words: every one names a row of `z`. -/
def InRange : Prop := ∀ (d : Dev nD) (j : S320000.Idx), ((A d).ri j).toNat < 10000 ∧ ((A d).ci j).toNat < 10000

variable [FloatOps F]

/-- Device `d`'s claimed result. -/
def outOf (d : Dev nD) : Buf (Elt F) (oLoc d) := outSpec (m (zLoc d)) (A d).ri (A d).ci

/-! ## What a task is handed, and what it hands back -/

/-- Task `(c, i)`: a read share of `z` (one of 32 tokens of the whole), its 10000 row words and column words, and
    its 10000 words of the result, at the launch contents `f`. -/
def taskRes (d : Dev nD) (c : Fin 2) (i : Fin 16) (f : Buf (Elt F) (oLoc d)) : sProp 𝕄 :=
  iprop((zLoc d ↦{Transfers.shareTokN fullShare (wid c i)} m (zLoc d))
    ∗ (rLoc d ↦[seg (10000 * wid c i) 10000]{fullShare} (A d).ri)
    ∗ (cLoc d ↦[seg (10000 * wid c i) 10000]{fullShare} (A d).ci)
    ∗ (oLoc d ↦[seg (10000 * wid c i) 10000]{fullShare} f))

/-- The one call: a SparseCore is handed its sixteen tasks' resources and hands them back, the result words at the
    claimed function. -/
def P : (K (F := F)).Pay (nD := nD) (Val := Elt F) (Name := ℕ) (U := UU) where
  st := fun q d c => match q with
    | 0 => bigSep Finset.univ fun i : Fin 16 => taskRes m A d (Fin.cast nCore_zero c) i (m (oLoc d))
  dn := fun q d c => match q with
    | 0 => bigSep Finset.univ fun i : Fin 16 => taskRes m A d (Fin.cast nCore_zero c) i (outOf m A d)
  go := fun q d c i => match q with
    | 0 => taskRes m A d (Fin.cast nCore_zero c) (Fin.cast nSub_zero i) (m (oLoc d))
  td := fun q d c i => match q with
    | 0 => taskRes m A d (Fin.cast nCore_zero c) (Fin.cast nSub_zero i) (outOf m A d)
  x := fun _ _ => iprop(emp)

end Cert.Proof.KB

end
-- ==== Proof.KBRes.lean ====
/-
  The resources of one vector subcore's task, named: the thread, the arrays and scratch buffers as the kernel's body
  is handed them, the scratch buffers and DMA semaphores the task owns, and the statement of the task's proof over them.
-/
import proofs.«209252_g55662776156339_cont_9to1_m_525_47_alg».proof.Proof.KBIface

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

/-! ## The thread and its memrefs -/

abbrev cV (L : grid0.Coords) : Fin τ.nSC := (L 0).castLE hcore0
abbrev jV (L : grid0.Coords) : Fin τ.nSub := (L 1).castLE hsub0
/-- The vector subcore at grid coordinates `L` of device `d`. -/
abbrev thrV (d : Dev nD) (L : grid0.Coords) : Thread nD τ := V d (cV L) (jV L)
abbrev EC : UEmb Counters (MT nD τ sig (HIx 1) (Elt F) ℕ UU ℕ) := countersEmb

theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

abbrev zW : Memref sig .scVector .hbm S10000x128 .f32 := Memref.whole main_arg0_scv
abbrev rW : Memref sig .scVector .hbm S320000 .i32 := Memref.whole main_v1_scv
abbrev cW : Memref sig .scVector .hbm S320000 .i32 := Memref.whole main_v3_scv
abbrev oW : Memref sig .scVector .hbm S320000 .f32 := Memref.whole main_v4_scv
abbrev s0 : Memref sig .scVector .vmem S10000 .i32 := Memref.whole cc0_scratch0
abbrev s1 : Memref sig .scVector .vmem S10000 .i32 := Memref.whole cc0_scratch1
abbrev s2 : Memref sig .scVector .vmem S80x128 .f32 := Memref.whole cc0_scratch2
abbrev s3 : Memref sig .scVector .vmem S80x128 .f32 := Memref.whole cc0_scratch3
abbrev s4 : Memref sig .scVector .vmem S80x128 .f32 := Memref.whole cc0_scratch4
abbrev s5 : Memref sig .scVector .vmem S80x128 .f32 := Memref.whole cc0_scratch5
abbrev s6 : Memref sig .scVector .vmem S80x128 .f32 := Memref.whole cc0_scratch6
abbrev s7 : Memref sig .scVector .vmem S80x128 .f32 := Memref.whole cc0_scratch7
abbrev s8 : Memref sig .scVector .vmem S80x128 .f32 := Memref.whole cc0_scratch8
abbrev s9 : Memref sig .scVector .vmem S80x128 .f32 := Memref.whole cc0_scratch9
abbrev s10 : Memref sig .scVector .vmem S80 .f32 := Memref.whole cc0_scratch10

/-- The kernel's body on the subcore at `L`, as the body table calls it. -/
abbrev bodyAt [FloatOps F] (L : grid0.Coords) :=
  cc0_body (F := F) L zW (Memref.isWhole_whole _) rW (Memref.isWhole_whole _) cW (Memref.isWhole_whole _) oW (Memref.isWhole_whole _)
    s0 (Memref.isWhole_whole _) s1 (Memref.isWhole_whole _) s2 (Memref.isWhole_whole _) s3 (Memref.isWhole_whole _) s4 (Memref.isWhole_whole _)
    s5 (Memref.isWhole_whole _) s6 (Memref.isWhole_whole _) s7 (Memref.isWhole_whole _) s8 (Memref.isWhole_whole _) s9 (Memref.isWhole_whole _)
    s10 (Memref.isWhole_whole _) cc0_scratch11 cc0_scratch12 cc0_scratch13 cc0_scratch14 cc0_scratch15 cc0_scratch16 cc0_scratch17 cc0_scratch18
    cc0_scoped0 cc0_scoped1 cc0_scoped2 cc0_scoped3 cc0_scoped4 cc0_scoped5 cc0_scoped6

/-! ## What the task owns -/

/-- A scratch buffer of the subcore, whole, at some contents. -/
abbrev anyBuf {s : Shape} {e : EltTy} (d : Dev nD) (L : grid0.Coords) (B : Memref sig .scVector .vmem s e) : sProp 𝕄 :=
  iprop(∃ f, B.view.loc (thrV d L) ↦{fullShare} f)

/-- The eleven scratch buffers. -/
def bufs (d : Dev nD) (L : grid0.Coords) : sProp 𝕄 :=
  iprop(anyBuf d L s0 ∗ anyBuf d L s1 ∗ anyBuf d L s2 ∗ anyBuf d L s3 ∗ anyBuf d L s4 ∗ anyBuf d L s5 ∗ anyBuf d L s6 ∗ anyBuf d L s7
    ∗ anyBuf d L s8 ∗ anyBuf d L s9 ∗ anyBuf d L s10)

/-- A DMA semaphore of the subcore at zero. -/
abbrev sem0 (d : Dev nD) (L : grid0.Coords) (a : DmaSems sig S_) : sProp 𝕄 := semVal (thrV d L, SemLoc.dma a.sem) 0

/-- The fifteen DMA semaphores, at zero. -/
def sems (d : Dev nD) (L : grid0.Coords) : sProp 𝕄 :=
  iprop(sem0 d L cc0_scratch11 ∗ sem0 d L cc0_scratch12 ∗ sem0 d L cc0_scratch13 ∗ sem0 d L cc0_scratch14 ∗ sem0 d L cc0_scratch15 ∗ sem0 d L cc0_scratch16 ∗ sem0 d L cc0_scratch17 ∗ sem0 d L cc0_scratch18 ∗ sem0 d L cc0_scoped0 ∗ sem0 d L cc0_scoped1 ∗ sem0 d L cc0_scoped2 ∗ sem0 d L cc0_scoped3 ∗ sem0 d L cc0_scoped4 ∗ sem0 d L cc0_scoped5 ∗ sem0 d L cc0_scoped6)

/-! ## The task's proof, stated over them -/

variable (m : (ℓ : Loc nD τ sig) → Buf (Elt F) ℓ) (A : (d : Dev nD) → Arrays (F := F) d)

/-- One task: from its share of the arrays at the launch contents, its scratch and its semaphores at zero, the body
    runs to the end and hands the same back, the result words at the claimed function. -/
def TileCore [FloatOps F] : Prop :=
  ∀ (d : Dev nD) (L : grid0.Coords) (O : CellTallies nD τ sig (HIx 1)) (W : Waits sig (HIx 1)),
    iprop(Transfers.MayWaits (thrV d L) (none : HIx 1) O ∗ taskRes m A d (cL L) (iL L) (m (oLoc d)) ∗ bufs d L ∗ sems d L ∗ owes (thrV d L) O W)
      ⊢ wp frame (wpE (defs₀ (F := F)) 𝒱₀ (thrV d L) none) Set.univ (bodyAt (F := F) L)
          fun _ => iprop(taskRes m A d (cL L) (iL L) (outOf m A d) ∗ bufs d L ∗ sems d L
            ∗ ∃ W', ⌜∀ p ∈ W', p ∈ W ∨ p.2 = none⌝ ∗ owes (thrV d L) O W')

end Cert.Proof.KB

end
-- ==== Proof.KBLaunch.lean ====
/-
  The launch of the kernel's SparseCore program: from the proof of one vector subcore's task (a hypothesis here) to
  the run of the whole program. The TensorCore cuts the row words and the column words out of the edge list by four
  host operations, hands each of the 32 vector subcores a read token of the node table and its 10000-word segments
  of the row words, the column words and the result, and gets them back with the result segments at the claimed
  function; the pieces join into the whole arrays again.
-/
import proofs.«209252_g55662776156339_cont_9to1_m_525_47_alg».proof.Proof.KBIface
import Idealize.ShloMosaic.Lib.Pipeline.Value
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix1 ix2)
open Idealize.ShloMosaic.Transfers (shareTokN shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

/-! ## The row words and the column words, as @main's host operations compute them -/

/-- Row `r` of the edge list (a slice of one row, then the cast that drops the unit axis). -/
def edgeRow (r : Fin 2) (hs : S2x320000.Slices ![r.val, 0] S1x320000) (e : (⟨S2x320000, .i32⟩ : BufTy).Contents (Elt F)) :
    (⟨S320000, .i32⟩ : BufTy).Contents (Elt F) :=
  fun i => shapeCast S320000 (extractStridedSlice S1x320000 ![r.val, 0] e hs) shapeCasts_S1x320000_S320000 i

/-- The row words are row 0 of the edge list, the column words row 1. -/
def A₀ : (d : Dev nD) → Arrays (F := F) d := fun d =>
  { ri := edgeRow 0 slices_S2x320000_S1x320000_0_0 (m (eLoc d))
    ci := edgeRow 1 slices_S2x320000_S1x320000_1_0 (m (eLoc d)) }

theorem edgeRow_apply (r : Fin 2) (hs : S2x320000.Slices ![r.val, 0] S1x320000) (x : (⟨S2x320000, .i32⟩ : BufTy).Contents (Elt F))
    (e : Fin 320000) : edgeRow r hs x (ix1 e) = x (ix2 r e) := by
  unfold edgeRow
  refine (shapeCast_apply _ shapeCasts_S1x320000_S320000 (ix1 e) (ix2 (0 : Fin 1) e) ?_).trans ?_
  · rw [Shape.rowMajor_val_two, Shape.rowMajor_val_one]; simp
  · refine extractStridedSlice_apply _ x hs _ (ix2 r e) fun a => ?_
    match a with
    | ⟨0, _⟩ => simp
    | ⟨1, _⟩ => simp

theorem A₀_ri (d : Dev nD) (e : Fin 320000) : (A₀ m d).ri (ix1 e) = m (eLoc d) (ix2 0 e) := edgeRow_apply 0 slices_S2x320000_S1x320000_0_0 _ e
theorem A₀_ci (d : Dev nD) (e : Fin 320000) : (A₀ m d).ci (ix1 e) = m (eLoc d) (ix2 1 e) := edgeRow_apply 1 slices_S2x320000_S1x320000_1_0 _ e

/-! ## The configuration's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The workers: vector subcore `i` of SparseCore `c` is worker `2 i + c`, one of 32 -/

/-- The 32 workers, as pairs (SparseCore, vector subcore). -/
def widEquiv : Fin 2 × Fin 16 ≃ Fin 32 where
  toFun p := ⟨wid p.1 p.2, by unfold wid; have := p.1.isLt; have := p.2.isLt; omega⟩
  invFun w := (⟨w.val % 2, Nat.mod_lt _ (by decide)⟩, ⟨w.val / 2, by have := w.isLt; omega⟩)
  left_inv p := by
    rcases p with ⟨c, i⟩
    have := c.isLt; have := i.isLt
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

theorem wid_inj {c c' : Fin 2} {i i' : Fin 16} (h : wid c i = wid c' i') : c = c' ∧ i = i' := by
  unfold wid at h
  have := c.isLt; have := c'.isLt
  exact ⟨Fin.ext (by omega), Fin.ext (by omega)⟩

/-- A family over the 32 workers is the family over the SparseCores of the families over their vector subcores. -/
theorem bigSep_workers (Φ : ℕ → sProp 𝕄) :
    (bigSep Finset.univ fun w : Fin 32 => Φ w.val) = bigSep Finset.univ fun c : Fin 2 => bigSep Finset.univ fun i : Fin 16 => Φ (wid c i) := by
  rw [bigSep_univ_equiv widEquiv (fun w : Fin 32 => Φ w.val), bigSep_univ_prod]
  rfl

/-- Worker `(c, i)`'s segment of a 320000-word array. -/
abbrev wseg (p : Fin 2 × Fin 16) : Finset S320000.Idx := seg (10000 * wid p.1 p.2) 10000

theorem wseg_disjoint : ∀ p ∈ (Finset.univ : Finset (Fin 2 × Fin 16)), ∀ p' ∈ (Finset.univ : Finset (Fin 2 × Fin 16)), p ≠ p' → Disjoint (wseg p) (wseg p') := by
  intro p _ p' _ hne
  rw [Finset.disjoint_left]
  intro j hj hj'
  rw [mem_seg] at hj hj'
  refine hne ?_
  have h : wid p.1 p.2 = wid p'.1 p'.2 := by omega
  exact Prod.ext (wid_inj h).1 (wid_inj h).2

theorem wseg_cover : (Finset.univ : Finset (Fin 2 × Fin 16)).biUnion wseg = Finset.univ := by
  ext j
  simp only [Finset.mem_biUnion, Finset.mem_univ, true_and, iff_true]
  have hj : (j 0).val < 320000 := (j 0).isLt
  refine ⟨(⟨(j 0).val / 10000 % 2, Nat.mod_lt _ (by decide)⟩, ⟨(j 0).val / 10000 / 2, by omega⟩), ?_⟩
  rw [mem_seg]
  show 10000 * (2 * ((j 0).val / 10000 / 2) + (j 0).val / 10000 % 2) ≤ (j 0).val ∧ (j 0).val < 10000 * (2 * ((j 0).val / 10000 / 2) + (j 0).val / 10000 % 2) + 10000
  omega

/-- A whole 320000-word array is its 32 segments. -/
theorem rPts_segs (d : Dev nD) (f : Buf (Elt F) (rLoc d)) :
    (rLoc d ↦{fullShare} f : sProp 𝕄) = bigSep Finset.univ fun p : Fin 2 × Fin 16 => rLoc d ↦[wseg p]{fullShare} f := by
  rw [← pointsTo_biUnion Finset.univ (ℓ := rLoc d) wseg wseg_disjoint, wseg_cover]; try rfl
theorem cPts_segs (d : Dev nD) (f : Buf (Elt F) (cLoc d)) :
    (cLoc d ↦{fullShare} f : sProp 𝕄) = bigSep Finset.univ fun p : Fin 2 × Fin 16 => cLoc d ↦[wseg p]{fullShare} f := by
  rw [← pointsTo_biUnion Finset.univ (ℓ := cLoc d) wseg wseg_disjoint, wseg_cover]; try rfl
theorem oPts_segs (d : Dev nD) (f : Buf (Elt F) (oLoc d)) :
    (oLoc d ↦{fullShare} f : sProp 𝕄) = bigSep Finset.univ fun p : Fin 2 × Fin 16 => oLoc d ↦[wseg p]{fullShare} f := by
  rw [← pointsTo_biUnion Finset.univ (ℓ := oLoc d) wseg wseg_disjoint, wseg_cover]; try rfl

/-- The node table whole is what remains after 32 read tokens, and the tokens, one per worker. -/
theorem zPts_toks (d : Dev nD) (f : Buf (Elt F) (zLoc d)) :
    (zLoc d ↦{fullShare} f : sProp 𝕄)
      ⊣⊢ iprop((zLoc d ↦{shareDrop fullShare 32} f) ∗ bigSep Finset.univ fun p : Fin 2 × Fin 16 => zLoc d ↦{shareTokN fullShare (wid p.1 p.2)} f) := by
  rw [bigSep_univ_prod (fun p : Fin 2 × Fin 16 => (zLoc d ↦{shareTokN fullShare (wid p.1 p.2)} f : sProp 𝕄)),
    ← bigSep_workers (fun w => (zLoc d ↦{shareTokN fullShare w} f : sProp 𝕄))]
  exact Transfers.pointsTo_toks fullShare 32

/-! ## The 32 tasks' resources and the arrays whole -/

variable (A : (d : Dev nD) → Arrays (F := F) d)
variable [FloatOps F]

/-- The 32 tasks' resources are the read tokens and the three 320000-word arrays whole. -/
theorem tasks_eq (d : Dev nD) (f : Buf (Elt F) (oLoc d)) :
    (bigSep Finset.univ fun c : Fin 2 => bigSep Finset.univ fun i : Fin 16 => taskRes m A d c i f)
      = iprop((bigSep Finset.univ fun p : Fin 2 × Fin 16 => zLoc d ↦{shareTokN fullShare (wid p.1 p.2)} m (zLoc d))
          ∗ (rLoc d ↦{fullShare} (A d).ri) ∗ (cLoc d ↦{fullShare} (A d).ci) ∗ (oLoc d ↦{fullShare} f)) := by
  rw [← bigSep_univ_prod (fun p : Fin 2 × Fin 16 => taskRes m A d p.1 p.2 f)]
  unfold taskRes
  rw [bigSep_sep', bigSep_sep', bigSep_sep', rPts_segs, cPts_segs, oPts_segs]

/-- Split: the node table and the three arrays whole give the 32 tasks' resources, a remainder of the table kept. -/
theorem tasks_split (d : Dev nD) (f : Buf (Elt F) (oLoc d)) :
    iprop((zLoc d ↦{fullShare} m (zLoc d)) ∗ (rLoc d ↦{fullShare} (A d).ri) ∗ (cLoc d ↦{fullShare} (A d).ci) ∗ (oLoc d ↦{fullShare} f))
      ⊢ iprop((zLoc d ↦{shareDrop fullShare 32} m (zLoc d))
          ∗ bigSep Finset.univ fun c : Fin 2 => bigSep Finset.univ fun i : Fin 16 => taskRes m A d c i f) := by
  rw [tasks_eq]
  iintro ⟨Hz, Hr, Hc, Ho⟩
  ihave Hz' := (zPts_toks d (m (zLoc d))).1 $$ Hz
  icases Hz' with ⟨Hd, Ht⟩
  isplitl [Hd]; · iexact Hd
  isplitl [Ht]; · iexact Ht
  isplitl [Hr]; · iexact Hr
  isplitl [Hc]; · iexact Hc
  iexact Ho

/-- and back. -/
theorem tasks_join (d : Dev nD) (f : Buf (Elt F) (oLoc d)) :
    iprop((zLoc d ↦{shareDrop fullShare 32} m (zLoc d))
          ∗ bigSep Finset.univ fun c : Fin 2 => bigSep Finset.univ fun i : Fin 16 => taskRes m A d c i f)
      ⊢ iprop((zLoc d ↦{fullShare} m (zLoc d)) ∗ (rLoc d ↦{fullShare} (A d).ri) ∗ (cLoc d ↦{fullShare} (A d).ci) ∗ (oLoc d ↦{fullShare} f)) := by
  rw [tasks_eq]
  iintro ⟨Hd, Ht, Hr, Hc, Ho⟩
  isplitl [Hd Ht]
  · iapply (zPts_toks d (m (zLoc d))).2
    isplitl [Hd]; · iexact Hd
    iexact Ht
  isplitl [Hr]; · iexact Hr
  isplitl [Hc]; · iexact Hc
  iexact Ho

/-! ## What the handshakes carry, as equations -/

theorem P_st (d : Dev nD) (c : Fin ((K (F := F)).nCore 0)) :
    (P m A).st 0 d c = bigSep Finset.univ fun i : Fin 16 => taskRes m A d (Fin.cast nCore_zero c) i (m (oLoc d)) := by unfold P; rfl
theorem P_dn (d : Dev nD) (c : Fin ((K (F := F)).nCore 0)) :
    (P m A).dn 0 d c = bigSep Finset.univ fun i : Fin 16 => taskRes m A d (Fin.cast nCore_zero c) i (outOf m A d) := by unfold P; rfl
theorem P_go (d : Dev nD) (c : Fin ((K (F := F)).nCore 0)) (i : Fin ((K (F := F)).nSub 0)) :
    (P m A).go 0 d c i = taskRes m A d (Fin.cast nCore_zero c) (Fin.cast nSub_zero i) (m (oLoc d)) := by unfold P; rfl
theorem P_td (d : Dev nD) (c : Fin ((K (F := F)).nCore 0)) (i : Fin ((K (F := F)).nSub 0)) :
    (P m A).td 0 d c i = taskRes m A d (Fin.cast nCore_zero c) (Fin.cast nSub_zero i) (outOf m A d) := by unfold P; rfl

instance taskRes_storable (d : Dev nD) (c : Fin 2) (i : Fin 16) (f : Buf (Elt F) (oLoc d)) :
    BI.Storable (upEmb : UEmb _ 𝕄) (taskRes m A d c i f) := by unfold taskRes; infer_instance

instance P_storable : (P (F := F) m A).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands ARE its sixteen tasks' resources, and its results theirs. -/
theorem vecSplit : (K (F := F)).VecSplit' (P m A) 0 := by
  intro d c
  rw [P_st, P_dn]
  simp only [P_go, P_td]
  rw [bigSep_tasks (F := F) (fun i => taskRes m A d (Fin.cast nCore_zero c) i (m (oLoc d))),
    bigSep_tasks (F := F) (fun i => taskRes m A d (Fin.cast nCore_zero c) i (outOf m A d))]
  iintro H; imodintro
  isplitl [H]; · iexact H
  iintro H; iexact H

theorem st0_eq (d : Dev nD) :
    (bigSep Finset.univ fun c : Fin ((K (F := F)).nCore 0) => (P m A).st 0 d c)
      = bigSep Finset.univ fun c : Fin 2 => bigSep Finset.univ fun i : Fin 16 => taskRes m A d c i (m (oLoc d)) := by
  simp only [P_st]
  exact bigSep_cores (F := F) (fun c => bigSep Finset.univ fun i : Fin 16 => taskRes m A d c i (m (oLoc d)))
theorem dn0_eq (d : Dev nD) :
    (bigSep Finset.univ fun c : Fin ((K (F := F)).nCore 0) => (P m A).dn 0 d c)
      = bigSep Finset.univ fun c : Fin 2 => bigSep Finset.univ fun i : Fin 16 => taskRes m A d c i (outOf m A d) := by
  simp only [P_dn]
  exact bigSep_cores (F := F) (fun c => bigSep Finset.univ fun i : Fin 16 => taskRes m A d c i (outOf m A d))

/-! ## The launch element: the handshakes' rounds; the counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m A).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m A).x q thr) = (iprop(emp) : sProp 𝕄) from by
    rw [show (fun thr : Thread nD τ => bigSep Finset.univ fun q : Fin 1 => (P m A).x q thr) = fun _ => (iprop(emp) : sProp 𝕄) from
      funext fun thr => (bigSep_univ_of_subsingleton (0 : Fin 1)).trans (by unfold P; rfl), bigSep_emp']]
  iempintro

/-! ## @main on the TensorCore -/

abbrev z' : DevRef τ sig := Proc.devRef .tc (main_arg0 : Ref sig .tc)
abbrev e' : DevRef τ sig := Proc.devRef .tc (main_arg1 : Ref sig .tc)
abbrev a' : DevRef τ sig := Proc.devRef .tc (main_v0 : Ref sig .tc)
abbrev r' : DevRef τ sig := Proc.devRef .tc (main_v1 : Ref sig .tc)
abbrev b' : DevRef τ sig := Proc.devRef .tc (main_v2 : Ref sig .tc)
abbrev c' : DevRef τ sig := Proc.devRef .tc (main_v3 : Ref sig .tc)
abbrev o' : DevRef τ sig := Proc.devRef .tc (main_v4 : Ref sig .tc)

/-- The four host operations: row 0 of the edge list, its cast to rank one, row 1, its cast. -/
abbrev op0 : HloOp τ sig (Elt F) :=
  StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
abbrev op1 : HloOp τ sig (Elt F) := StableHlo.reshape main_v0 main_v1 rfl shapeCasts_S1x320000_S320000
abbrev op2 : HloOp τ sig (Elt F) :=
  StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F))
abbrev op3 : HloOp τ sig (Elt F) := StableHlo.reshape main_v2 main_v3 rfl shapeCasts_S1x320000_S320000

/-- The TensorCore's arrays, all unscoped. -/
abbrev S7 : Finset (DevRef τ sig) := {z', e', a', r', b', c', o'}

omit [FloatOps F] in
theorem held_S7 (d : Dev nD) (W : Valuation τ sig (Elt F)) :
    (held (T d) S7 W : sProp 𝕄) = iprop((zLoc d ↦{fullShare} W z') ∗ (eLoc d ↦{fullShare} W e') ∗ ((SparseCore.T d).loc main_v0 ↦{fullShare} W a')
      ∗ (rLoc d ↦{fullShare} W r') ∗ ((SparseCore.T d).loc main_v2 ↦{fullShare} W b') ∗ (cLoc d ↦{fullShare} W c') ∗ (oLoc d ↦{fullShare} W o')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((zLoc d ↦{fullShare} W main_arg0) ∗ (eLoc d ↦{fullShare} W main_arg1) ∗ ((SparseCore.T d).loc main_v0 ↦{fullShare} W main_v0)
      ∗ (rLoc d ↦{fullShare} W main_v1) ∗ ((SparseCore.T d).loc main_v2 ↦{fullShare} W main_v2) ∗ (cLoc d ↦{fullShare} W main_v3) ∗ (oLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuations after each host operation. -/
def V0 (d : Dev nD) : Valuation τ sig (Elt F) := fun b => m (d, b)
abbrev V1 (d : Dev nD) : Valuation τ sig (Elt F) := (op0 (F := F)).result (V0 m d)
abbrev V2 (d : Dev nD) : Valuation τ sig (Elt F) := (op1 (F := F)).result (V1 m d)
abbrev V3 (d : Dev nD) : Valuation τ sig (Elt F) := (op2 (F := F)).result (V2 m d)
abbrev V4 (d : Dev nD) : Valuation τ sig (Elt F) := (op3 (F := F)).result (V3 m d)

omit [FloatOps F] in
theorem unscoped_held (d : Dev nD) : (unscopedBufs d (fun b => m ((SparseCore.T d).loc b)) : sProp 𝕄) = held (T d) S7 (V0 m d) := by
  rw [unscopedBufs_eq, held_S7]; rfl

omit [FloatOps F] in
theorem V4_z (d : Dev nD) : V4 m d z' = m (zLoc d) := by
  unfold V4 V3 V2 V1
  rw [StableHlo.reshape_result_ne (h := by decide), StableHlo.unary_result_ne (h := by decide),
    StableHlo.reshape_result_ne (h := by decide), StableHlo.unary_result_ne (h := by decide)]; rfl
omit [FloatOps F] in
theorem V4_e (d : Dev nD) : V4 m d e' = m (eLoc d) := by
  unfold V4 V3 V2 V1
  rw [StableHlo.reshape_result_ne (h := by decide), StableHlo.unary_result_ne (h := by decide),
    StableHlo.reshape_result_ne (h := by decide), StableHlo.unary_result_ne (h := by decide)]; rfl
omit [FloatOps F] in
theorem V4_o (d : Dev nD) : V4 m d o' = m (oLoc d) := by
  unfold V4 V3 V2 V1
  rw [StableHlo.reshape_result_ne (h := by decide), StableHlo.unary_result_ne (h := by decide),
    StableHlo.reshape_result_ne (h := by decide), StableHlo.unary_result_ne (h := by decide)]; rfl
omit [FloatOps F] in
theorem V4_r (d : Dev nD) : V4 m d r' = (A₀ m d).ri := by
  unfold V4 V3 V2 V1
  rw [StableHlo.reshape_result_ne (h := by decide), StableHlo.unary_result_ne (h := by decide),
    StableHlo.reshape_result, StableHlo.unary_result]; rfl
omit [FloatOps F] in
theorem V4_c (d : Dev nD) : V4 m d c' = (A₀ m d).ci := by
  unfold V4 V3 V2 V1
  rw [StableHlo.reshape_result, StableHlo.unary_result, StableHlo.reshape_result_ne (h := by decide), StableHlo.unary_result_ne (h := by decide)]; rfl

theorem hop0 : (op0 (F := F)).bufs ⊆ S7 := show ({e', a'} : Finset (DevRef τ sig)) ⊆ S7 by decide
theorem hop1 : (op1 (F := F)).bufs ⊆ S7 := show ({a', r'} : Finset (DevRef τ sig)) ⊆ S7 by decide
theorem hop2 : (op2 (F := F)).bufs ⊆ S7 := show ({e', b'} : Finset (DevRef τ sig)) ⊆ S7 by decide
theorem hop3 : (op3 (F := F)).bufs ⊆ S7 := show ({b', c'} : Finset (DevRef τ sig)) ⊆ S7 by decide

/-- What @main leaves the claim: the arguments at their launch contents, the result at the claimed function. -/
abbrev FIN (d : Dev nD) : sProp 𝕄 :=
  iprop((zLoc d ↦{fullShare} m (zLoc d)) ∗ (eLoc d ↦{fullShare} m (eLoc d)) ∗ (oLoc d ↦{fullShare} outOf m (A₀ m) d))

/-- @main on device `d`'s TensorCore: the four host operations, the 32-way split, the call, the join. -/
theorem hmain (κ : GSem nD τ sig → ℕ) (d : Dev nD) :
    iprop((K (F := F)).ctx EH (P m (A₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the four host operations
  iapply (wp_hlo_within 𝒱 (SparseCore.T d) none Set.univ (op := op0) (S := S7) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S7) hop1 (V := V1 m d)) $$ [Hb Hheld]
  · isplitl [Hb] <;> iassumption
  iintro ⟨Hb, Hheld⟩
  rw [wp_ret]; imodintro
  iapply (wp_hlo_within 𝒱 (SparseCore.T d) none Set.univ (op := op2) (S := S7) hop2 (V := V2 m d)) $$ [Hb Hheld]
  · isplitl [Hb] <;> iassumption
  iintro ⟨Hb, Hheld⟩
  rw [wp_ret]; imodintro
  iapply (wp_hlo_within 𝒱 (SparseCore.T d) none Set.univ (op := op3) (S := S7) hop3 (V := V3 m d)) $$ [Hb Hheld]
  · isplitl [Hb] <;> iassumption
  iintro ⟨Hb, Hheld⟩
  rw [wp_ret]; imodintro
  ihave Hh := (Entails.of_eq ((held_S7 (F := F) d (V4 m d)))) $$ Hheld
  rw [V4_z, V4_e, V4_r, V4_c, V4_o]
  icases Hh with ⟨Hz, He, -, Hr, -, Hc, Ho⟩
  -- the 32-way split
  ihave Hs := (tasks_split m (A₀ m) d (m (oLoc d))) $$ [Hz Hr Hc Ho]
  · isplitl [Hz]; · iexact Hz
    isplitl [Hr]; · iexact Hr
    isplitl [Hc]; · iexact Hc
    iexact Ho
  icases Hs with ⟨Hd, Hts⟩
  -- the call
  iapply ((K (F := F)).wp_run (D (F := F)) 𝒱 (EH := EH) (P := P m (A₀ m)) κ d 0) $$ [Hst Hts He Hd]
  isplitr; · iexact Hctx
  isplitl [Hst]; · iexact Hst
  isplitl [Hts]
  · rw [st0_eq]; iexact Hts
  iintro ⟨Hst, Hdn⟩
  ihave Hdn' := (Entails.of_eq (dn0_eq m (A₀ m) d)) $$ Hdn
  -- the join
  ihave Hj := (tasks_join m (A₀ m) d (outOf m (A₀ m) d)) $$ [Hd Hdn']
  · isplitl [Hd]; · iexact Hd
    iexact Hdn'
  icases Hj with ⟨Hz, -, -, Ho⟩
  imodintro
  isplitl [Hst]; · iexact Hst
  isplitl [Hz]; · iexact Hz
  isplitl [He]; · iexact He
  iexact Ho

/-! ## The final memory reads the claim -/

def fq (d : Dev nD) (s' : Phys nD τ sig (Elt F)) : Prop :=
  s'.mem.mem (oLoc d) = outOf m (A₀ m) d ∧ s'.mem.mem (zLoc d) = m (zLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Hz, He, Ho⟩, HSI⟩
  ihave H := (persistent_entails_right (SI_pointsTo_agree (st := s') (ℓ := zLoc d) (I := Finset.univ) (q := fullShare) (f := m (zLoc d)))) $$ [HSI Hz]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := oLoc d) (I := Finset.univ) (q := fullShare) (f := outOf m (A₀ m) d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From the proof of one vector subcore's task: every weakly fair execution of the device's threads terminates,
    the result array at the claimed function of the arguments, the arguments unchanged. -/
theorem run_main [∀ e, Nonempty (Elt F e)] (htile : (K (F := F)).TileObl (D (F := F)) 𝒱 (P m (A₀ m)) v₀ 0) :
    θ_run (Cert.Kernel.defs (F := F)) (Cert.Kernel.threads (F := F)) ⟨m, fun _ => 0, ρ⟩
      (fun r => ∀ c : Dev nD, r.2.mem (oLoc c) = outOf m (A₀ m) c ∧ r.2.mem (zLoc c) = m (zLoc c) ∧ r.2.mem (eLoc c) = m (eLoc c)) :=
  SparseCore.Cfg.θ_run_sc (K := K (F := F)) (D := D (F := F)) (𝒱 := 𝒱) (EH := EH) (P := P m (A₀ m)) facts v₀
    (fun q hq => match q with | 0 => nomatch hq)
    (fun q _ => match q with | 0 => htile)
    (fun q _ => match q with | 0 => SparseCore.Cfg.VecSplit.of_plain (vecSplit m (A₀ m)))
    m ρ main (fun _ => iprop(emp)) (FIN m) (u₀ (F := F)) (sep_elim_left.trans (hu₀ m (A₀ m))) (hmain m ρ) (fq m) (hfin m)
    (fun r => ∀ c : Dev nD, r.2.mem (oLoc c) = outOf m (A₀ m) c ∧ r.2.mem (zLoc c) = m (zLoc c) ∧ r.2.mem (eLoc c) = m (eLoc c)) (fun _ h => h)

end Cert.Proof.KB

end
-- ==== Proof.KBTile.lean ====
/-
  One vector subcore's task as the launch theorem asks for it: the wrapper around the task's proof proper. The
  launch theorem hands a vector subcore its scoped storage as two families (every buffer it owns, whole at some
  contents; every semaphore it owns, at zero); the task's proof is stated over the eleven scratch buffers and the
  fifteen DMA semaphores the kernel's body names. Here the named ones are taken out of the families, the rest kept
  aside around the task's proof and put back after it.
-/
import proofs.«209252_g55662776156339_cont_9to1_m_525_47_alg».proof.Proof.KBRes
import proofs.«209252_g55662776156339_cont_9to1_m_525_47_alg».proof.Proof.KBLaunch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}

local notation "𝕄" => MT nD τ sig (HIx 1) (Elt F) ℕ UU ℕ

/-! ## The body table at a vector subcore -/

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 () = SparseCore.onTile hcore0 hsub0 (fun c s => bodyAt (F := F) (coordsV c s)) ⟨⟩ c s := rfl

/-! ## The named scratch buffers among the subcore's own -/

/-- The eleven scratch buffers the body names. -/
abbrev scrRefs : Finset (Ref sig .scVector) :=
  {cc0_scratch0, cc0_scratch1, cc0_scratch2, cc0_scratch3, cc0_scratch4, cc0_scratch5, cc0_scratch6, cc0_scratch7, cc0_scratch8, cc0_scratch9, cc0_scratch10}

/-- A vector subcore's references as buffers of its device. -/
def devEmb (c : Fin τ.nSC) (i : Fin τ.nSub) : Ref sig .scVector ↪ DevRef τ sig :=
  ⟨(Proc.scVector c i).devRef, Proc.devRef_injective _⟩

theorem scr_sub (c : Fin τ.nSC) (i : Fin τ.nSub) : scrRefs.map (devEmb c i) ⊆ ownRefs (τ := τ) (.scVector c i) := by
  intro b hb
  obtain ⟨r, hr, rfl⟩ := Finset.mem_map.mp hb
  simp only [scrRefs, Finset.mem_insert, Finset.mem_singleton] at hr
  rcases hr with rfl | rfl | rfl | rfl | rfl | rfl | rfl | rfl | rfl | rfl | rfl <;>
    exact SparseCore.Cfg.mem_ownRefs_of_owner (p := Proc.scVector c i) rfl

/-- The subcore's other buffers, whole at some contents. -/
def bufsRest (d : Dev nD) (L : grid0.Coords) : sProp 𝕄 :=
  bigSep (ownRefs (τ := τ) (.scVector (cV L) (jV L)) \ scrRefs.map (devEmb (cV L) (jV L))) fun b => iprop(∃ f, ((d, b) : Loc nD τ sig) ↦{fullShare} f)

/-- The subcore's own buffers: the eleven named ones, and the rest. -/
theorem ownBufs_V (d : Dev nD) (L : grid0.Coords) : (ownBufs (thrV d L) : sProp 𝕄) = iprop(bufs d L ∗ bufsRest d L) := by
  unfold SparseCore.Cfg.ownBufs bufsRest
  rw [SparseCore.bigSep_sdiff_split' (scr_sub (cV L) (jV L)), bigSep_map]
  unfold scrRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  unfold bufs
  rfl

/-! ## The named DMA semaphores among the subcore's own -/

/-- The fifteen DMA semaphores the body names. -/
abbrev dmaSet : Finset (DmaSem sig) :=
  {cc0_scratch11.sem, cc0_scratch12.sem, cc0_scratch13.sem, cc0_scratch14.sem, cc0_scratch15.sem, cc0_scratch16.sem, cc0_scratch17.sem, cc0_scratch18.sem,
    cc0_scoped0.sem, cc0_scoped1.sem, cc0_scoped2.sem, cc0_scoped3.sem, cc0_scoped4.sem, cc0_scoped5.sem, cc0_scoped6.sem}

/-- A thread's DMA semaphores as cells. -/
def cellEmb (thr : Thread nD τ) : DmaSem sig ↪ GSem nD τ sig :=
  ⟨fun s => (thr, SemLoc.dma s), fun _ _ e => SemLoc.dma.inj (Prod.mk.inj e).2⟩

theorem dma_sub (d : Dev nD) (L : grid0.Coords) : dmaSet.map (cellEmb (thrV d L)) ⊆ ownCells (thrV d L) := by
  intro g hg
  obtain ⟨s, hs, rfl⟩ := Finset.mem_map.mp hg
  refine mem_ownCells.mpr ⟨rfl, ?_⟩
  have key : ∀ s : DmaSem sig, (SemLoc.dma s : SemLoc sig).isScoped .scVector = true := by decide
  exact key s

/-- The subcore's other semaphores, at zero. -/
def semsRest (d : Dev nD) (L : grid0.Coords) : sProp 𝕄 :=
  bigSep (ownCells (thrV d L) \ dmaSet.map (cellEmb (thrV d L))) fun g => semVal g 0

/-- The subcore's own semaphores at zero: the fifteen named ones, and the rest. -/
theorem ownSems0_V (d : Dev nD) (L : grid0.Coords) : (ownSems0 (thrV d L) : sProp 𝕄) = iprop(sems d L ∗ semsRest d L) := by
  unfold SparseCore.Cfg.ownSems0 semsRest
  rw [SparseCore.bigSep_sdiff_split' (dma_sub d L), bigSep_map]
  unfold dmaSet
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  unfold sems
  rfl

/-! ## The task, from the launch theorem's hypotheses to its conclusion -/

variable (m : (ℓ : Loc nD τ sig) → Buf (Elt F) ℓ) (A : (d : Dev nD) → Arrays (F := F) d)
variable [FloatOps F]

/-- The task on the vector subcore at `L`, its scoped storage as the launch theorem hands it over and takes it back. -/
theorem tile_body (hF : (K (F := F)).Facts) (h : TileCore m A) (d : Dev nD) (L : grid0.Coords)
    (O : CellTallies nD τ sig (HIx 1)) (W : Waits sig (HIx 1)) (hO : ∀ g, O g none = 0) :
    iprop(levAts (K (F := F)).L (K (F := F)).lev ∗ emp ∗ taskRes m A d (cL L) (iL L) (m (oLoc d))
        ∗ scopedBufs (thrV d L) ∗ scopedSems0 (thrV d L) ∗ owes (thrV d L) O W)
      ⊢ wp frame (wpE (defs₀ (F := F)) 𝒱₀ (thrV d L) none) Set.univ (bodyAt (F := F) L)
          fun _ => iprop(taskRes m A d (cL L) (iL L) (outOf m A d) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), ownBufs_V, ownSems0_V]
  iintro ⟨#Hlv, -, Htask, ⟨Hb, Hbrest⟩, ⟨Hs, Hsrest⟩, HO⟩
  ihave Hmw := ((K (F := F)).mayWaits_none (thr := thrV d L) hO) $$ Hlv
  ihave Hwp := (h d L O W) $$ [Hmw Htask Hb Hs HO]
  · isplitl [Hmw]; · iexact Hmw
    isplitl [Htask]; · iexact Htask
    isplitl [Hb]; · iexact Hb
    isplitl [Hs]; · iexact Hs
    iexact HO
  ihave Hwp' := (wp_frame_r frame (wpE (defs₀ (F := F)) 𝒱₀ (thrV d L) none) Set.univ (R := iprop(bufsRest d L ∗ semsRest d L))) $$ [Hwp Hbrest Hsrest]
  · isplitl [Hwp]; · iexact Hwp
    isplitl [Hbrest]; · iexact Hbrest
    iexact Hsrest
  iapply (wp_mono frame (wpE (defs₀ (F := F)) 𝒱₀ (thrV d L) none) Set.univ ?_) $$ Hwp'
  intro _
  iintro ⟨⟨Htask, Hb, Hs, HW⟩, Hbrest, Hsrest⟩
  isplitl [Htask]; · iexact Htask
  isplitl [Hb Hbrest]
  · isplitl [Hb]; · iexact Hb
    iexact Hbrest
  isplitl [Hs Hsrest]
  · isplitl [Hs]; · iexact Hs
    iexact Hsrest
  iexact HW

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The vector-subcore kernel's obligation, from the task's proof. -/
theorem tileObl_of_core (hF : (K (F := F)).Facts) (h : TileCore m A) : (K (F := F)).TileObl (D (F := F)) 𝒱 (P m A) v₀ 0 := by
  intro d c i O W hO _ _
  -- this kernel owes nothing for a protocol of its own
  simp only [show (P m A).ox = fun _ _ => 0 from rfl, add_zero]
  rw [P_go, P_td, show (P m A).x 0 (V d ((K (F := F)).core 0 c) ((K (F := F)).sub 0 i)) = (iprop(emp) : sProp 𝕄) from by unfold P; rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m A hF h d (coordsV ⟨_, hc.1⟩ ⟨_, hc.2⟩) O W hO).trans (wp_mono frame _ _ fun _ => obl_post)

end Cert.Proof.KB

end
-- ==== Proof.KBDefs.lean ====
/-
  The views through which the kernel's body addresses its arrays, and the plain functions its transfers deliver.
-/
import proofs.«209252_g55662776156339_cont_9to1_m_525_47_alg».proof.Proof.KBRes

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

/-- `z` as the kernel addresses it for a gather: the whole array through a slice that covers it. -/
abbrev zSl : Memref sig .scVector .hbm S10000x128 .f32 := (zW).slice (Rect.unit (s := S10000x128) ![0, 0] S10000x128.size inb_S10000x128_S10000x128_0_0) (fun _ => rfl)
/-- Eighty consecutive words of a list buffer. -/
abbrev lsl (Bl : Memref sig .scVector .vmem S10000 .i32) (o : Fin 1 → Nat) (h : ∀ a, o a + S80.size a ≤ S10000.size a) : Memref sig .scVector .vmem S80 .i32 :=
  Bl.slice (Rect.unit (s := S10000) o S80.size h) (fun _ => rfl)
/-- The subcore's 10000 words of a 320000-word array, and 80 consecutive words of the result. -/
abbrev wsl (B : Memref sig .scVector .hbm S320000 .i32) (L : grid0.Coords) : Memref sig .scVector .hbm S10000 .i32 :=
  B.slice (Rect.unit (s := S320000) (k0_off1 L) S10000.size (k0_off1_inb L)) (fun _ => rfl)
abbrev osl (o : Fin 1 → Nat) (h : ∀ a, o a + S80.size a ≤ S320000.size a) : Memref sig .scVector .hbm S80 .f32 :=
  (oW).slice (Rect.unit (s := S320000) o S80.size h) (fun _ => rfl)

/-- The rows of `z` eighty words name, as an 80 × 128 block. -/
def gath (z : FVec F S10000x128 .f32) (w : Fin 80 → BitVec 32) : FVec F S80x128 .f32 := fun x => z (ix2 (rowOfWord (w (x 0))) (x 1))
/-- The eighty words of a 10000-word list from offset `o`. -/
def wordsAt (lr : IVec S10000 32) (o : ℕ) (j : Fin 80) : BitVec 32 := lr (ix1 ⟨(o + j.val) % 10000, Nat.mod_lt _ (by decide)⟩)
/-- The subcore's first word's position in the 320000-word arrays. -/
def baseOf (L : grid0.Coords) : ℕ := 20000 * (L 1).val + 10000 * (L 0).val
/-- The 10000 words of a 320000-word array from position `b`. -/
def listOf (ri : IVec S320000 32) (b : ℕ) : IVec S10000 32 := fun j => ri (ix1 ⟨(b + (j 0).val) % 320000, Nat.mod_lt _ (by decide)⟩)

/-- Units of credit of one gather of eighty rows of 128 words, and of a copy of eighty words. -/
abbrev NG : ℕ := 327680

end Cert.Proof.KB

end
-- ==== Proof.KBAcc.lean ====
/-
  The arithmetic of one group of sixteen edges: the lanes' accumulators over the 128 steps, as plain functions of the two
  gathered blocks, and the index vectors the body computes, read lane by lane.
-/
import proofs.«209252_g55662776156339_cont_9to1_m_525_47_alg».proof.Proof.KBDefs

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

/-- Row `r` (of the eighty) and lane `l`: the accumulator after `t` steps, from the zero word, each step adding the
    product of the two blocks' entries of row `r` at column `(l + t) mod 128`. -/
def accB (fA fB : FVec F S80x128 .f32) (r l : ℕ) : ℕ → F .f32
  | 0 => Scalar.ofBits .f32 0x00000000#32
  | t + 1 => FloatOps.addf (accB fA fB r l t)
      (FloatOps.mulf (fA (ix2 ⟨r % 80, Nat.mod_lt _ (by decide)⟩ (colAt l t))) (fB (ix2 ⟨r % 80, Nat.mod_lt _ (by decide)⟩ (colAt l t))))

/-- The sixteen lanes of group `g` after `t` steps: lane `x` works on row `16 g + x`. -/
def laneAcc (fA fB : FVec F S80x128 .f32) (g t : ℕ) : FVec F S16 .f32 := fun x => accB fA fB (16 * g + (x 0).val) (x 0).val t

/-- The eighty scores of a chunk, from its two gathered blocks: edge `j` of the chunk is lane `j mod 16` of its group. -/
def chunkScore (fA fB : FVec F S80x128 .f32) : FVec F S80 .f32 := fun j => score (accB fA fB (j 0).val ((j 0).val % 16) 128)

/-- The lane numbers, as the kernel's `iota`. -/
abbrev lanes : IVec S16 32 := iota .scVector S16 32 [0] iota_S16_d0_w32_scVector

/-- The row index vector of group `g`: lane `x` reads row `16 g + x`, -/
def rowVec (g : ℕ) : IVec S16 32 := addi (broadcast S16 (Scalar.muli (Scf.iv (0#32 : BitVec 32) 1#32 g) 16#32)) lanes
/-- and the column index vector of step `t`: lane `x` reads column `(x + t) mod 128`. -/
def colVec (t : ℕ) : IVec S16 32 := andi (addi lanes (broadcast S16 (Scf.iv (0#32 : BitVec 32) 1#32 t))) (broadcast S16 127#32)

omit [FloatOps F] in
theorem rowVec_val : ∀ (g : Fin 5) (x : Fin 16), (rowVec g.val (ix1 x)).toNat = (16 * g.val + x.val) % 80 := by decide +kernel
omit [FloatOps F] in
theorem colVec_val : ∀ (t : Fin 128) (x : Fin 16), (colVec t.val (ix1 x)).toNat = (x.val + t.val) % 128 := by decide +kernel
omit [FloatOps F] in
theorem rowVec_lt (g : Fin 5) (x : S16.Idx) : (rowVec g.val x).toNat < 80 := by
  obtain ⟨x0, rfl⟩ : ∃ x0 : Fin 16, x = ix1 x0 := ⟨x 0, ValueIdx.eq_ix1 x⟩
  rw [rowVec_val]; exact Nat.mod_lt _ (by decide)
omit [FloatOps F] in
theorem colVec_lt (t : Fin 128) (x : S16.Idx) : (colVec t.val x).toNat < 128 := by
  obtain ⟨x0, rfl⟩ : ∃ x0 : Fin 16, x = ix1 x0 := ⟨x 0, ValueIdx.eq_ix1 x⟩
  rw [colVec_val]; exact Nat.mod_lt _ (by decide)

/-- Reading a buffer through its whole rectangle is reading it. -/
theorem read_access_whole {κ : Kind} {sp : Space} {s : Shape} {e : EltTy} (m : Memref sig κ sp s e) (f : m.view.ty.Contents (Elt F)) :
    (m.access (Rect.whole s)).read (Elt F) f = m.view.read (Elt F) f := by
  funext y
  simp only [View.read_apply, View.emb_slice, Function.Embedding.trans_apply, Rect.emb_whole_apply]

/-- The indexed load of a block at a row vector and a column vector, lane by lane. -/
theorem loadIdx_block (f : FVec F S80x128 .f32) (v w : IVec S16 32) (h : ∀ a x, ((![v, w] : Fin 2 → IVec S16 32) a x).toNat < S80x128.size a)
    (x : S16.Idx) (hv : (v x).toNat < 80) (hw : (w x).toNat < 128) :
    loadIdx (F := F) (e := .f32) f ![v, w] h x = f (ix2 ⟨(v x).toNat, hv⟩ ⟨(w x).toNat, hw⟩) := by
  unfold loadIdx
  refine congrArg f ?_
  funext a
  match a with
  | ⟨0, _⟩ => rfl
  | ⟨1, _⟩ => rfl

/-- One step of the lanes: the body's update of the accumulators is `accB`'s. -/
theorem laneAcc_succ (fA fB : FVec F S80x128 .f32) (g : Fin 5) (t : Fin 128) (vA vB : FVec F S16 .f32)
    (hA : ∀ x : S16.Idx, vA x = fA (ix2 ⟨(rowVec g.val x).toNat, rowVec_lt g x⟩ ⟨(colVec t.val x).toNat, colVec_lt t x⟩))
    (hB : ∀ x : S16.Idx, vB x = fB (ix2 ⟨(rowVec g.val x).toNat, rowVec_lt g x⟩ ⟨(colVec t.val x).toNat, colVec_lt t x⟩)) :
    addf (laneAcc fA fB g.val t.val) (mulf vA vB) = laneAcc fA fB g.val (t.val + 1) := by
  funext x
  obtain ⟨x0, rfl⟩ : ∃ x0 : Fin 16, x = ix1 x0 := ⟨x 0, ValueIdx.eq_ix1 x⟩
  have e1 : (⟨(rowVec g.val (ix1 x0)).toNat, rowVec_lt g (ix1 x0)⟩ : Fin 80) = ⟨(16 * g.val + x0.val) % 80, Nat.mod_lt _ (by decide)⟩ :=
    Fin.ext (rowVec_val g x0)
  have e2 : (⟨(colVec t.val (ix1 x0)).toNat, colVec_lt t (ix1 x0)⟩ : Fin 128) = colAt x0.val t.val :=
    Fin.ext (colVec_val t x0)
  show FloatOps.addf (accB fA fB (16 * g.val + x0.val) x0.val t.val) (FloatOps.mulf (vA (ix1 x0)) (vB (ix1 x0)))
    = accB fA fB (16 * g.val + x0.val) x0.val (t.val + 1)
  rw [hA (ix1 x0), hB (ix1 x0), e1, e2]
  rfl

end Cert.Proof.KB

end
-- ==== Proof.KBViews.lean ====
/-
  The kernel body's views and transfers, read as plain functions and plain sets.

  Every view here is a unit-stride rectangle of a whole buffer, so an element of the view at `y` is the buffer's element
  at `offset + y` on each axis. Hence: a word of a list buffer read through an eighty-word slice at offset `o` is word
  `o + y` of the list; what a row gather through such a slice delivers is, at `(x₀, x₁)`, the table's entry at the row
  that word `o + x₀` names and column `x₁` (the table's own slice covers it whole, offsets zero); the prologue's copy of
  a subcore's 10000 words into a list buffer leaves there word `base + j` of the 320000 at `j`; the copy-out of eighty
  result words puts word `j − o` of the scratch at position `j` of its segment. The element sets of these views are
  the segments `[base, base + 10000)`, `[o, o + 80)` and the whole table; a segment splits at any interior point into
  two disjoint segments, and so does the ownership of the words in it.
-/
import proofs.«209252_g55662776156339_cont_9to1_m_525_47_alg».proof.Proof.KBDefs

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

/-! ## Grid coordinates and the subcore's base -/

theorem L0_lt (L : grid0.Coords) : (L 0).val < 2 := (cL L).isLt
theorem L1_lt (L : grid0.Coords) : (L 1).val < 16 := (iL L).isLt

/-- The subcore's slice of a 320000-word array starts at its base. -/
theorem k0_off1_zero (L : grid0.Coords) : k0_off1 L 0 = baseOf L := by
  rw [k0_off1_eq]; rfl

/-- Every subcore's 10000 words lie inside the 320000. -/
theorem baseOf_le (L : grid0.Coords) : baseOf L + 10000 ≤ 320000 := by
  have := L0_lt L; have := L1_lt L; unfold baseOf; omega

/-! ## (V1)–(V3) the list buffers: a word through the slice, the gather's rows, the prologue's copy -/

/-- A word of the list buffer read through the eighty-word slice at `y`: word `o + y` of the list. -/
theorem read_lsl_s0 (lr : IVec S10000 32) (o : Fin 1 → Nat) (h : ∀ a, o a + S80.size a ≤ S10000.size a) (y : S80.Idx) :
    (lsl s0 o h).view.read (Elt F) lr y = lr (ix1 ⟨(o 0 + (y 0).val) % 10000, Nat.mod_lt _ (by decide)⟩) := by
  rw [View.read_apply]
  simp only [cast_eq]
  refine congrArg lr (funext fun a => Fin.ext ?_)
  have h0 : o 0 + 80 ≤ 10000 := h 0
  have hy : (y 0).val < 80 := (y 0).isLt
  match a with
  | ⟨0, _⟩ =>
    show o 0 + 1 * (y 0).val = (o 0 + (y 0).val) % 10000
    rw [Nat.mod_eq_of_lt (by omega)]; omega

/-- (V2) the in-range fact the gather's rule asks, from every word of the list being below 10000. -/
theorem hin_of_range_s0 (lr : IVec S10000 32) (hr : ∀ j, (lr j).toNat < 10000) (o : Fin 1 → Nat) (h : ∀ a, o a + S80.size a ≤ S10000.size a) :
    ∀ x, ((lsl s0 o h).view.read (Elt F) lr x).toNat < S10000x128.size gathers_S10000x128_S80x128.axis := by
  intro x
  rw [read_lsl_s0]
  exact hr _

/-- (V1) what the gather delivers is `gath`. -/
theorem gather_payload_s0 (fz : FVec F S10000x128 .f32) (lr : IVec S10000 32) (o : Fin 1 → Nat)
    (h : ∀ a, o a + S80.size a ≤ S10000.size a)
    (hin : ∀ x, ((lsl s0 o h).view.read (Elt F) lr x).toNat < S10000x128.size gathers_S10000x128_S80x128.axis) :
    SparseCore.gatherPayload gathers_S10000x128_S80x128 ((zSl).view.read (Elt F) fz) (SparseCore.rows ((lsl s0 o h).view.read (Elt F) lr) rfl hin)
      = gath (F := F) fz (wordsAt lr (o 0)) := by
  funext x
  unfold SparseCore.gatherPayload gath
  rw [View.read_apply]
  simp only [cast_eq]
  refine congrArg fz (funext fun a => Fin.ext ?_)
  match a with
  | ⟨0, _⟩ =>
    have hw := hin (S80.rowMajor.symm ((x 0).cast rfl))
    rw [read_lsl_s0] at hw
    have hy : ((S80.rowMajor.symm ((x 0).cast rfl)) 0).val = (x 0).val := by
      have := Shape.rowMajor_val_one (S80.rowMajor.symm ((x 0).cast rfl))
      rw [Equiv.apply_symm_apply] at this
      exact this.symm
    show 0 + 1 * ((lsl s0 o h).view.read (Elt F) lr (S80.rowMajor.symm ((x 0).cast rfl))).toNat
        = (wordsAt lr (o 0) (x 0)).toNat % 10000
    rw [read_lsl_s0]
    unfold wordsAt
    rw [hy] at hw ⊢
    have hw' : (lr (ix1 ⟨(o 0 + (x 0).val) % 10000, Nat.mod_lt _ (by decide)⟩)).toNat < 10000 := hw
    rw [Nat.mod_eq_of_lt hw']; omega
  | ⟨1, _⟩ =>
    show 0 + 1 * (x 1).val = (x 1).val
    omega

/-- A word of the list buffer read through the eighty-word slice at `y`: word `o + y` of the list. -/
theorem read_lsl_s1 (lr : IVec S10000 32) (o : Fin 1 → Nat) (h : ∀ a, o a + S80.size a ≤ S10000.size a) (y : S80.Idx) :
    (lsl s1 o h).view.read (Elt F) lr y = lr (ix1 ⟨(o 0 + (y 0).val) % 10000, Nat.mod_lt _ (by decide)⟩) := by
  rw [View.read_apply]
  simp only [cast_eq]
  refine congrArg lr (funext fun a => Fin.ext ?_)
  have h0 : o 0 + 80 ≤ 10000 := h 0
  have hy : (y 0).val < 80 := (y 0).isLt
  match a with
  | ⟨0, _⟩ =>
    show o 0 + 1 * (y 0).val = (o 0 + (y 0).val) % 10000
    rw [Nat.mod_eq_of_lt (by omega)]; omega

/-- (V2) the in-range fact the gather's rule asks, from every word of the list being below 10000. -/
theorem hin_of_range_s1 (lr : IVec S10000 32) (hr : ∀ j, (lr j).toNat < 10000) (o : Fin 1 → Nat) (h : ∀ a, o a + S80.size a ≤ S10000.size a) :
    ∀ x, ((lsl s1 o h).view.read (Elt F) lr x).toNat < S10000x128.size gathers_S10000x128_S80x128.axis := by
  intro x
  rw [read_lsl_s1]
  exact hr _

/-- (V1) what the gather delivers is `gath`. -/
theorem gather_payload_s1 (fz : FVec F S10000x128 .f32) (lr : IVec S10000 32) (o : Fin 1 → Nat)
    (h : ∀ a, o a + S80.size a ≤ S10000.size a)
    (hin : ∀ x, ((lsl s1 o h).view.read (Elt F) lr x).toNat < S10000x128.size gathers_S10000x128_S80x128.axis) :
    SparseCore.gatherPayload gathers_S10000x128_S80x128 ((zSl).view.read (Elt F) fz) (SparseCore.rows ((lsl s1 o h).view.read (Elt F) lr) rfl hin)
      = gath (F := F) fz (wordsAt lr (o 0)) := by
  funext x
  unfold SparseCore.gatherPayload gath
  rw [View.read_apply]
  simp only [cast_eq]
  refine congrArg fz (funext fun a => Fin.ext ?_)
  match a with
  | ⟨0, _⟩ =>
    have hw := hin (S80.rowMajor.symm ((x 0).cast rfl))
    rw [read_lsl_s1] at hw
    have hy : ((S80.rowMajor.symm ((x 0).cast rfl)) 0).val = (x 0).val := by
      have := Shape.rowMajor_val_one (S80.rowMajor.symm ((x 0).cast rfl))
      rw [Equiv.apply_symm_apply] at this
      exact this.symm
    show 0 + 1 * ((lsl s1 o h).view.read (Elt F) lr (S80.rowMajor.symm ((x 0).cast rfl))).toNat
        = (wordsAt lr (o 0) (x 0)).toNat % 10000
    rw [read_lsl_s1]
    unfold wordsAt
    rw [hy] at hw ⊢
    have hw' : (lr (ix1 ⟨(o 0 + (x 0).val) % 10000, Nat.mod_lt _ (by decide)⟩)).toNat < 10000 := hw
    rw [Nat.mod_eq_of_lt hw']; omega
  | ⟨1, _⟩ =>
    show 0 + 1 * (x 1).val = (x 1).val
    omega

/-- (V3) the prologue's copy: the subcore's 10000 words land in the list buffer whole. -/
theorem list_landed_s0 (L : grid0.Coords) (f0 : IVec S10000 32) (ri : IVec S320000 32) :
    (s0).view.write (Elt F) f0 (ReadAs.same.apply ((wsl rW L).view.read (Elt F) ri)) Finset.univ = listOf ri (baseOf L) := by
  rw [View.write_whole_univ]
  funext j
  show (wsl rW L).view.read (Elt F) ri j = _
  rw [View.read_apply]
  simp only [cast_eq]
  unfold listOf
  refine congrArg ri (funext fun a => Fin.ext ?_)
  have hb := baseOf_le L
  have hj : (j 0).val < 10000 := (j 0).isLt
  match a with
  | ⟨0, _⟩ =>
    show k0_off1 L 0 + 1 * (j 0).val = (baseOf L + (j 0).val) % 320000
    rw [k0_off1_zero, Nat.mod_eq_of_lt (by omega)]; omega

/-- (V3) the prologue's copy: the subcore's 10000 words land in the list buffer whole. -/
theorem list_landed_s1 (L : grid0.Coords) (f0 : IVec S10000 32) (ri : IVec S320000 32) :
    (s1).view.write (Elt F) f0 (ReadAs.same.apply ((wsl cW L).view.read (Elt F) ri)) Finset.univ = listOf ri (baseOf L) := by
  rw [View.write_whole_univ]
  funext j
  show (wsl cW L).view.read (Elt F) ri j = _
  rw [View.read_apply]
  simp only [cast_eq]
  unfold listOf
  refine congrArg ri (funext fun a => Fin.ext ?_)
  have hb := baseOf_le L
  have hj : (j 0).val < 10000 := (j 0).isLt
  match a with
  | ⟨0, _⟩ =>
    show k0_off1 L 0 + 1 * (j 0).val = (baseOf L + (j 0).val) % 320000
    rw [k0_off1_zero, Nat.mod_eq_of_lt (by omega)]; omega

/-! ## (V5) the copy-out -/

/-- (V5) the copy-out: eighty words of the out scratch land on their segment of the result. -/
theorem out_landed (o : Fin 1 → Nat) (h : ∀ a, o a + S80.size a ≤ S320000.size a) (fo : FVec F S320000 .f32) (fv : FVec F S80 .f32)
    (j : S320000.Idx) (hj : j ∈ seg (o 0) 80) :
    (osl o h).view.write (Elt F) fo (ReadAs.same.apply ((s10).view.read (Elt F) fv)) Finset.univ j
      = fv (ix1 ⟨((j 0).val - o 0) % 80, Nat.mod_lt _ (by decide)⟩) := by
  rw [mem_seg] at hj
  have hlt : (j 0).val - o 0 < 80 := by omega
  have hje : j = (osl o h).view.emb (ix1 ⟨(j 0).val - o 0, hlt⟩) := by
    funext a
    obtain rfl : a = 0 := Subsingleton.elim _ _
    apply Fin.ext
    show (j 0).val = o 0 + 1 * ((j 0).val - o 0)
    omega
  conv_lhs => rw [hje]
  rw [View.write_emb_of_mem _ _ (Finset.mem_univ _)]
  simp only [cast_eq]
  show fv (ix1 ⟨(j 0).val - o 0, hlt⟩) = _
  refine congrArg fv (congrArg ix1 (Fin.ext ?_))
  show (j 0).val - o 0 = ((j 0).val - o 0) % 80
  rw [Nat.mod_eq_of_lt hlt]

/-! ## (V4) element sets as segments -/

theorem set_wsl (L : grid0.Coords) : (wsl rW L).view.set = seg (baseOf L) 10000 := by
  ext j
  rw [View.set_slice_whole, Rect.mem_set_unit, mem_seg]
  constructor
  · intro H
    have H0 := H (0 : Fin 1)
    rw [k0_off1_zero] at H0
    exact H0
  · intro H a
    match a with
    | ⟨0, _⟩ =>
      show k0_off1 L 0 ≤ (j 0).val ∧ (j 0).val < k0_off1 L 0 + 10000
      rw [k0_off1_zero]
      exact H

theorem set_wsl_c (L : grid0.Coords) : (wsl cW L).view.set = seg (baseOf L) 10000 := by
  ext j
  rw [View.set_slice_whole, Rect.mem_set_unit, mem_seg]
  constructor
  · intro H
    have H0 := H (0 : Fin 1)
    rw [k0_off1_zero] at H0
    exact H0
  · intro H a
    match a with
    | ⟨0, _⟩ =>
      show k0_off1 L 0 ≤ (j 0).val ∧ (j 0).val < k0_off1 L 0 + 10000
      rw [k0_off1_zero]
      exact H

theorem set_osl (o : Fin 1 → Nat) (h : ∀ a, o a + S80.size a ≤ S320000.size a) : (osl o h).view.set = seg (o 0) 80 := by
  ext j
  rw [View.set_slice_whole, Rect.mem_set_unit, mem_seg]
  constructor
  · intro H
    exact H (0 : Fin 1)
  · intro H a
    match a with
    | ⟨0, _⟩ => exact H

theorem set_zSl : (zSl).view.set = Finset.univ := by
  ext j
  rw [View.set_slice_whole, Rect.mem_set_unit]
  simp only [Finset.mem_univ, iff_true]
  intro a
  match a with
  | ⟨0, _⟩ =>
    have hj : (j 0).val < 10000 := (j 0).isLt
    exact ⟨Nat.zero_le _, show (j 0).val < 0 + 10000 by omega⟩
  | ⟨1, _⟩ =>
    have hj : (j 1).val < 128 := (j 1).isLt
    exact ⟨Nat.zero_le _, show (j 1).val < 0 + 128 by omega⟩

/-! ## (V6) a segment split in two -/

theorem seg_union (o a b : ℕ) : seg o (a + b) = seg o a ∪ seg (o + a) b := by
  ext j
  simp only [Finset.mem_union, mem_seg]
  omega

theorem seg_disjoint (o a b : ℕ) : Disjoint (seg o a) (seg (o + a) b) := by
  rw [Finset.disjoint_left]
  intro j h1 h2
  rw [mem_seg] at h1 h2
  omega

theorem seg_split (d : Dev nD) (o a b : ℕ) (q : PosShare TreeShare) (f : Buf (Elt F) (oLoc d)) :
    (oLoc d ↦[seg o (a + b)]{q} f : sProp 𝕄) ⊣⊢ iprop((oLoc d ↦[seg o a]{q} f) ∗ oLoc d ↦[seg (o + a) b]{q} f) := by
  rw [seg_union]
  exact pointsTo_union (seg_disjoint o a b)

/-! ## (V7) a store of sixteen words into the eighty-word result scratch -/

/-- A store of sixteen words at offset `16 gv` of the eighty-word scratch: the sixteen positions take the stored words,
    every other position keeps what it held. -/
theorem out_store (gv : ℕ) (off : Fin 1 → Nat) (hoff : off = ![16 * gv]) (inb : ∀ a, off a + S16.size a ≤ S80.size a)
    (fv : FVec F S80 .f32) (w : FVec F S16 .f32) (j : Fin 80) :
    ((s10).access (Rect.unit (s := S80) off S16.size inb)).write (Elt F) fv w Finset.univ (ix1 j)
      = if h : 16 * gv ≤ j.val ∧ j.val < 16 * gv + 16 then w (ix1 ⟨j.val - 16 * gv, by omega⟩) else fv (ix1 j) := by
  subst hoff
  by_cases h : 16 * gv ≤ j.val ∧ j.val < 16 * gv + 16
  · rw [dif_pos h]
    have hlt : j.val - 16 * gv < 16 := by omega
    have hje : (ix1 j : S80.Idx)
        = ((s10).access (Rect.unit (s := S80) ![16 * gv] S16.size inb)).emb (ix1 ⟨j.val - 16 * gv, hlt⟩) := by
      funext a
      match a with
      | ⟨0, _⟩ =>
        apply Fin.ext
        show j.val = 16 * gv + 1 * (j.val - 16 * gv)
        omega
    conv_lhs => rw [hje]
    rw [View.write_emb_of_mem _ _ (Finset.mem_univ _)]
    simp only [cast_eq]
  · rw [dif_neg h]
    refine View.write_of_not_mem _ _ _ fun hm => h ?_
    rw [View.setOn_univ, View.set_slice_whole, Rect.mem_set_unit] at hm
    exact hm (0 : Fin 1)

end Cert.Proof.KB

end
-- ==== Proof.KBState.lean ====
/-
  The state of one vector subcore's task between the steps of its body: which share of `z` and of the two word lists
  each of the four slots holds, what a slot holds while its two gathers are in flight, and how far the result is written.
-/
import proofs.«209252_g55662776156339_cont_9to1_m_525_47_alg».proof.Proof.KBAcc
import proofs.«209252_g55662776156339_cont_9to1_m_525_47_alg».proof.Proof.KBViews

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]
variable (m : (ℓ : Loc nD τ sig) → Buf (Elt F) ℓ) (A : (d : Dev nD) → Arrays (F := F) d) (d : Dev nD) (L : grid0.Coords)

/-- The task's share of `z` (worker `w`'s token of the whole), -/
abbrev qz (L : grid0.Coords) : PosShare TreeShare := Transfers.shareTokN fullShare (wid (cL L) (iL L))
/-- the row words and the column words of the task, as its list buffers hold them after the first two copies, -/
abbrev lrR : IVec S10000 32 := listOf (A d).ri (baseOf L)
abbrev lrC : IVec S10000 32 := listOf (A d).ci (baseOf L)
/-- and the two blocks chunk `n` gathers. -/
abbrev blkR (n : ℕ) : FVec F S80x128 .f32 := gath (m (zLoc d)) (wordsAt (lrR A d L) (80 * n))
abbrev blkC (n : ℕ) : FVec F S80x128 .f32 := gath (m (zLoc d)) (wordsAt (lrC A d L) (80 * n))

/-- The eighty words of chunk `n` in a list buffer. -/
theorem chunk_inb (n : ℕ) (hn : n < 125) : ∀ a, (![80 * n] : Fin 1 → Nat) a + S80.size a ≤ S10000.size a := by
  intro a; match a with | ⟨0, _⟩ => show 80 * n + 80 ≤ 10000; omega
abbrev lslN (Bl : Memref sig .scVector .vmem S10000 .i32) (n : ℕ) (hn : n < 125) : Memref sig .scVector .vmem S80 .i32 := lsl Bl ![80 * n] (chunk_inb n hn)

/-- Token `j` of the task's share of `z`, as a gather's source; token `b` of a list buffer. -/
abbrev zTok (j : ℕ) : sProp 𝕄 := (zSl).view.loc (thrV d L) ↦[(zSl).view.set]{Transfers.shareTokN (qz L) j} m (zLoc d)
abbrev lTokR (b : ℕ) : sProp 𝕄 := (s0).view.loc (thrV d L) ↦{Transfers.shareTokN fullShare b} lrR A d L
abbrev lTokC (b : ℕ) : sProp 𝕄 := (s1).view.loc (thrV d L) ↦{Transfers.shareTokN fullShare b} lrC A d L

/-- Chunk `n`'s gather into `s2` in flight on its semaphore, over the words of `s0` (contents `lr`, token `ql`), reading `z`
    under token `q`: the flight, which delivers the block at the named rows and both tokens' parts, and the rest of the list's token. -/
def gfl_s2 (q ql : PosShare TreeShare) (lr : IVec S10000 32) (n : ℕ) (hn : n < 125) : sProp 𝕄 :=
  iprop(Transfers.Flight (EC (F := F)) (thrV d L) (.dma cc0_scratch11.sem) (none : HIx 1) NG
      iprop(((s2).view.loc (thrV d L) ↦{fullShare} gath (m (zLoc d)) (wordsAt lr (80 * n)))
        ∗ ((zSl).view.loc (thrV d L) ↦[(zSl).view.set]{q} m (zLoc d))
        ∗ ((lslN s0 n hn).view.loc (thrV d L) ↦[(lslN s0 n hn).view.set]{ql} lr))
    ∗ ((s0).view.loc (thrV d L) ↦[Finset.univ \ (lslN s0 n hn).view.set]{ql} lr))

/-- Chunk `n`'s gather into `s6` in flight on its semaphore, over the words of `s1` (contents `lr`, token `ql`), reading `z`
    under token `q`: the flight, which delivers the block at the named rows and both tokens' parts, and the rest of the list's token. -/
def gfl_s6 (q ql : PosShare TreeShare) (lr : IVec S10000 32) (n : ℕ) (hn : n < 125) : sProp 𝕄 :=
  iprop(Transfers.Flight (EC (F := F)) (thrV d L) (.dma cc0_scratch15.sem) (none : HIx 1) NG
      iprop(((s6).view.loc (thrV d L) ↦{fullShare} gath (m (zLoc d)) (wordsAt lr (80 * n)))
        ∗ ((zSl).view.loc (thrV d L) ↦[(zSl).view.set]{q} m (zLoc d))
        ∗ ((lslN s1 n hn).view.loc (thrV d L) ↦[(lslN s1 n hn).view.set]{ql} lr))
    ∗ ((s1).view.loc (thrV d L) ↦[Finset.univ \ (lslN s1 n hn).view.set]{ql} lr))

/-- Chunk `n`'s gather into `s3` in flight on its semaphore, over the words of `s0` (contents `lr`, token `ql`), reading `z`
    under token `q`: the flight, which delivers the block at the named rows and both tokens' parts, and the rest of the list's token. -/
def gfl_s3 (q ql : PosShare TreeShare) (lr : IVec S10000 32) (n : ℕ) (hn : n < 125) : sProp 𝕄 :=
  iprop(Transfers.Flight (EC (F := F)) (thrV d L) (.dma cc0_scratch12.sem) (none : HIx 1) NG
      iprop(((s3).view.loc (thrV d L) ↦{fullShare} gath (m (zLoc d)) (wordsAt lr (80 * n)))
        ∗ ((zSl).view.loc (thrV d L) ↦[(zSl).view.set]{q} m (zLoc d))
        ∗ ((lslN s0 n hn).view.loc (thrV d L) ↦[(lslN s0 n hn).view.set]{ql} lr))
    ∗ ((s0).view.loc (thrV d L) ↦[Finset.univ \ (lslN s0 n hn).view.set]{ql} lr))

/-- Chunk `n`'s gather into `s7` in flight on its semaphore, over the words of `s1` (contents `lr`, token `ql`), reading `z`
    under token `q`: the flight, which delivers the block at the named rows and both tokens' parts, and the rest of the list's token. -/
def gfl_s7 (q ql : PosShare TreeShare) (lr : IVec S10000 32) (n : ℕ) (hn : n < 125) : sProp 𝕄 :=
  iprop(Transfers.Flight (EC (F := F)) (thrV d L) (.dma cc0_scratch16.sem) (none : HIx 1) NG
      iprop(((s7).view.loc (thrV d L) ↦{fullShare} gath (m (zLoc d)) (wordsAt lr (80 * n)))
        ∗ ((zSl).view.loc (thrV d L) ↦[(zSl).view.set]{q} m (zLoc d))
        ∗ ((lslN s1 n hn).view.loc (thrV d L) ↦[(lslN s1 n hn).view.set]{ql} lr))
    ∗ ((s1).view.loc (thrV d L) ↦[Finset.univ \ (lslN s1 n hn).view.set]{ql} lr))

/-- Chunk `n`'s gather into `s4` in flight on its semaphore, over the words of `s0` (contents `lr`, token `ql`), reading `z`
    under token `q`: the flight, which delivers the block at the named rows and both tokens' parts, and the rest of the list's token. -/
def gfl_s4 (q ql : PosShare TreeShare) (lr : IVec S10000 32) (n : ℕ) (hn : n < 125) : sProp 𝕄 :=
  iprop(Transfers.Flight (EC (F := F)) (thrV d L) (.dma cc0_scratch13.sem) (none : HIx 1) NG
      iprop(((s4).view.loc (thrV d L) ↦{fullShare} gath (m (zLoc d)) (wordsAt lr (80 * n)))
        ∗ ((zSl).view.loc (thrV d L) ↦[(zSl).view.set]{q} m (zLoc d))
        ∗ ((lslN s0 n hn).view.loc (thrV d L) ↦[(lslN s0 n hn).view.set]{ql} lr))
    ∗ ((s0).view.loc (thrV d L) ↦[Finset.univ \ (lslN s0 n hn).view.set]{ql} lr))

/-- Chunk `n`'s gather into `s8` in flight on its semaphore, over the words of `s1` (contents `lr`, token `ql`), reading `z`
    under token `q`: the flight, which delivers the block at the named rows and both tokens' parts, and the rest of the list's token. -/
def gfl_s8 (q ql : PosShare TreeShare) (lr : IVec S10000 32) (n : ℕ) (hn : n < 125) : sProp 𝕄 :=
  iprop(Transfers.Flight (EC (F := F)) (thrV d L) (.dma cc0_scratch17.sem) (none : HIx 1) NG
      iprop(((s8).view.loc (thrV d L) ↦{fullShare} gath (m (zLoc d)) (wordsAt lr (80 * n)))
        ∗ ((zSl).view.loc (thrV d L) ↦[(zSl).view.set]{q} m (zLoc d))
        ∗ ((lslN s1 n hn).view.loc (thrV d L) ↦[(lslN s1 n hn).view.set]{ql} lr))
    ∗ ((s1).view.loc (thrV d L) ↦[Finset.univ \ (lslN s1 n hn).view.set]{ql} lr))

/-- Chunk `n`'s gather into `s5` in flight on its semaphore, over the words of `s0` (contents `lr`, token `ql`), reading `z`
    under token `q`: the flight, which delivers the block at the named rows and both tokens' parts, and the rest of the list's token. -/
def gfl_s5 (q ql : PosShare TreeShare) (lr : IVec S10000 32) (n : ℕ) (hn : n < 125) : sProp 𝕄 :=
  iprop(Transfers.Flight (EC (F := F)) (thrV d L) (.dma cc0_scratch14.sem) (none : HIx 1) NG
      iprop(((s5).view.loc (thrV d L) ↦{fullShare} gath (m (zLoc d)) (wordsAt lr (80 * n)))
        ∗ ((zSl).view.loc (thrV d L) ↦[(zSl).view.set]{q} m (zLoc d))
        ∗ ((lslN s0 n hn).view.loc (thrV d L) ↦[(lslN s0 n hn).view.set]{ql} lr))
    ∗ ((s0).view.loc (thrV d L) ↦[Finset.univ \ (lslN s0 n hn).view.set]{ql} lr))

/-- Chunk `n`'s gather into `s9` in flight on its semaphore, over the words of `s1` (contents `lr`, token `ql`), reading `z`
    under token `q`: the flight, which delivers the block at the named rows and both tokens' parts, and the rest of the list's token. -/
def gfl_s9 (q ql : PosShare TreeShare) (lr : IVec S10000 32) (n : ℕ) (hn : n < 125) : sProp 𝕄 :=
  iprop(Transfers.Flight (EC (F := F)) (thrV d L) (.dma cc0_scratch18.sem) (none : HIx 1) NG
      iprop(((s9).view.loc (thrV d L) ↦{fullShare} gath (m (zLoc d)) (wordsAt lr (80 * n)))
        ∗ ((zSl).view.loc (thrV d L) ↦[(zSl).view.set]{q} m (zLoc d))
        ∗ ((lslN s1 n hn).view.loc (thrV d L) ↦[(lslN s1 n hn).view.set]{ql} lr))
    ∗ ((s1).view.loc (thrV d L) ↦[Finset.univ \ (lslN s1 n hn).view.set]{ql} lr))

/-- Slot 0 at rest: its two blocks at some contents, its tokens, its two semaphores at zero. -/
def slotIdle0 : sProp 𝕄 :=
  iprop(anyBuf d L s2 ∗ anyBuf d L s6 ∗ zTok m d L 0 ∗ zTok m d L 4 ∗ lTokR A d L 0 ∗ lTokC A d L 0 ∗ sem0 d L cc0_scratch11 ∗ sem0 d L cc0_scratch15)
/-- Slot 0 with chunk `n`'s two gathers in flight. -/
def slotFl0 (n : ℕ) (hn : n < 125) : sProp 𝕄 :=
  iprop(gfl_s2 m d L (Transfers.shareTokN (qz L) 0) (Transfers.shareTokN fullShare 0) (lrR A d L) n hn
    ∗ gfl_s6 m d L (Transfers.shareTokN (qz L) 4) (Transfers.shareTokN fullShare 0) (lrC A d L) n hn)
/-- Slot 0 before chunk `n` is computed: in flight if there is such a chunk, at rest otherwise. -/
def slot0 (n : ℕ) : sProp 𝕄 := if hn : n < 125 then slotFl0 m A d L n hn else slotIdle0 m A d L

/-- Slot 1 at rest: its two blocks at some contents, its tokens, its two semaphores at zero. -/
def slotIdle1 : sProp 𝕄 :=
  iprop(anyBuf d L s3 ∗ anyBuf d L s7 ∗ zTok m d L 1 ∗ zTok m d L 5 ∗ lTokR A d L 1 ∗ lTokC A d L 1 ∗ sem0 d L cc0_scratch12 ∗ sem0 d L cc0_scratch16)
/-- Slot 1 with chunk `n`'s two gathers in flight. -/
def slotFl1 (n : ℕ) (hn : n < 125) : sProp 𝕄 :=
  iprop(gfl_s3 m d L (Transfers.shareTokN (qz L) 1) (Transfers.shareTokN fullShare 1) (lrR A d L) n hn
    ∗ gfl_s7 m d L (Transfers.shareTokN (qz L) 5) (Transfers.shareTokN fullShare 1) (lrC A d L) n hn)
/-- Slot 1 before chunk `n` is computed: in flight if there is such a chunk, at rest otherwise. -/
def slot1 (n : ℕ) : sProp 𝕄 := if hn : n < 125 then slotFl1 m A d L n hn else slotIdle1 m A d L

/-- Slot 2 at rest: its two blocks at some contents, its tokens, its two semaphores at zero. -/
def slotIdle2 : sProp 𝕄 :=
  iprop(anyBuf d L s4 ∗ anyBuf d L s8 ∗ zTok m d L 2 ∗ zTok m d L 6 ∗ lTokR A d L 2 ∗ lTokC A d L 2 ∗ sem0 d L cc0_scratch13 ∗ sem0 d L cc0_scratch17)
/-- Slot 2 with chunk `n`'s two gathers in flight. -/
def slotFl2 (n : ℕ) (hn : n < 125) : sProp 𝕄 :=
  iprop(gfl_s4 m d L (Transfers.shareTokN (qz L) 2) (Transfers.shareTokN fullShare 2) (lrR A d L) n hn
    ∗ gfl_s8 m d L (Transfers.shareTokN (qz L) 6) (Transfers.shareTokN fullShare 2) (lrC A d L) n hn)
/-- Slot 2 before chunk `n` is computed: in flight if there is such a chunk, at rest otherwise. -/
def slot2 (n : ℕ) : sProp 𝕄 := if hn : n < 125 then slotFl2 m A d L n hn else slotIdle2 m A d L

/-- Slot 3 at rest: its two blocks at some contents, its tokens, its two semaphores at zero. -/
def slotIdle3 : sProp 𝕄 :=
  iprop(anyBuf d L s5 ∗ anyBuf d L s9 ∗ zTok m d L 3 ∗ zTok m d L 7 ∗ lTokR A d L 3 ∗ lTokC A d L 3 ∗ sem0 d L cc0_scratch14 ∗ sem0 d L cc0_scratch18)
/-- Slot 3 with chunk `n`'s two gathers in flight. -/
def slotFl3 (n : ℕ) (hn : n < 125) : sProp 𝕄 :=
  iprop(gfl_s5 m d L (Transfers.shareTokN (qz L) 3) (Transfers.shareTokN fullShare 3) (lrR A d L) n hn
    ∗ gfl_s9 m d L (Transfers.shareTokN (qz L) 7) (Transfers.shareTokN fullShare 3) (lrC A d L) n hn)
/-- Slot 3 before chunk `n` is computed: in flight if there is such a chunk, at rest otherwise. -/
def slot3 (n : ℕ) : sProp 𝕄 := if hn : n < 125 then slotFl3 m A d L n hn else slotIdle3 m A d L

/-- The result with the first `n` chunks of the task written: those words at the claimed function, the rest as launched. -/
def outSt (n : ℕ) : sProp 𝕄 :=
  iprop((oLoc d ↦[seg (baseOf L) (80 * n)]{fullShare} outOf m A d)
    ∗ (oLoc d ↦[seg (baseOf L + 80 * n) (10000 - 80 * n)]{fullShare} m (oLoc d)))

/-- What the task holds besides the four slots and the result: the remainders of the split shares, the row and column
    words of the launch arrays, the out scratch, the copy semaphores. -/
def restSt : sProp 𝕄 :=
  iprop(((zSl).view.loc (thrV d L) ↦[(zSl).view.set]{Transfers.shareDrop (qz L) 8} m (zLoc d))
    ∗ ((s0).view.loc (thrV d L) ↦{Transfers.shareDrop fullShare 4} lrR A d L)
    ∗ ((s1).view.loc (thrV d L) ↦{Transfers.shareDrop fullShare 4} lrC A d L)
    ∗ (rLoc d ↦[seg (baseOf L) 10000]{fullShare} (A d).ri)
    ∗ (cLoc d ↦[seg (baseOf L) 10000]{fullShare} (A d).ci)
    ∗ anyBuf d L s10
    ∗ sem0 d L cc0_scoped0 ∗ sem0 d L cc0_scoped1 ∗ sem0 d L cc0_scoped2 ∗ sem0 d L cc0_scoped3 ∗ sem0 d L cc0_scoped4 ∗ sem0 d L cc0_scoped5 ∗ sem0 d L cc0_scoped6)

end Cert.Proof.KB

end
-- ==== Proof.KBOps.lean ====
/-
  The transfers of the body, one rule each: the issue of a chunk's gather and its wait, per block; the copy of a chunk's
  scores out to the result and its wait, per copy semaphore.
-/
import proofs.«209252_g55662776156339_cont_9to1_m_525_47_alg».proof.Proof.KBState

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ
theorem credit_s2 : ∑ j, ((s2).slice (S80x128.rowRect gathers_S10000x128_S80x128.axis' j) (S80x128.stride_rowRect gathers_S10000x128_S80x128.axis' j)).view.dmaCredit = NG := by decide +kernel
theorem wcredit_s2 : (s2).view.dmaCredit = NG := by decide +kernel
theorem credit_s6 : ∑ j, ((s6).slice (S80x128.rowRect gathers_S10000x128_S80x128.axis' j) (S80x128.stride_rowRect gathers_S10000x128_S80x128.axis' j)).view.dmaCredit = NG := by decide +kernel
theorem wcredit_s6 : (s6).view.dmaCredit = NG := by decide +kernel
theorem credit_s3 : ∑ j, ((s3).slice (S80x128.rowRect gathers_S10000x128_S80x128.axis' j) (S80x128.stride_rowRect gathers_S10000x128_S80x128.axis' j)).view.dmaCredit = NG := by decide +kernel
theorem wcredit_s3 : (s3).view.dmaCredit = NG := by decide +kernel
theorem credit_s7 : ∑ j, ((s7).slice (S80x128.rowRect gathers_S10000x128_S80x128.axis' j) (S80x128.stride_rowRect gathers_S10000x128_S80x128.axis' j)).view.dmaCredit = NG := by decide +kernel
theorem wcredit_s7 : (s7).view.dmaCredit = NG := by decide +kernel
theorem credit_s4 : ∑ j, ((s4).slice (S80x128.rowRect gathers_S10000x128_S80x128.axis' j) (S80x128.stride_rowRect gathers_S10000x128_S80x128.axis' j)).view.dmaCredit = NG := by decide +kernel
theorem wcredit_s4 : (s4).view.dmaCredit = NG := by decide +kernel
theorem credit_s8 : ∑ j, ((s8).slice (S80x128.rowRect gathers_S10000x128_S80x128.axis' j) (S80x128.stride_rowRect gathers_S10000x128_S80x128.axis' j)).view.dmaCredit = NG := by decide +kernel
theorem wcredit_s8 : (s8).view.dmaCredit = NG := by decide +kernel
theorem credit_s5 : ∑ j, ((s5).slice (S80x128.rowRect gathers_S10000x128_S80x128.axis' j) (S80x128.stride_rowRect gathers_S10000x128_S80x128.axis' j)).view.dmaCredit = NG := by decide +kernel
theorem wcredit_s5 : (s5).view.dmaCredit = NG := by decide +kernel
theorem credit_s9 : ∑ j, ((s9).slice (S80x128.rowRect gathers_S10000x128_S80x128.axis' j) (S80x128.stride_rowRect gathers_S10000x128_S80x128.axis' j)).view.dmaCredit = NG := by decide +kernel
theorem wcredit_s9 : (s9).view.dmaCredit = NG := by decide +kernel

variable [FloatOps F]
variable (m : (ℓ : Loc nD τ sig) → Buf (Elt F) ℓ)

/-- Issue of chunk `n`'s gather into `s2`: from the block, a token of `z`, a token of the list and the semaphore at zero
    to the gather in flight. -/
theorem issue_s2 (d : Dev nD) (L : grid0.Coords) (q ql : PosShare TreeShare)
    (fd : Buf (Elt F) ((s2).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s2).view.loc (thrV d L) ↦{fullShare} fd)
        ∗ ((s0).view.loc (thrV d L) ↦{ql} lr) ∗ sem0 d L cc0_scratch11)
      ⊢ iprop((gfl_s2 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s2 gathers_S10000x128_S80x128 (lsl s0 o h) rfl cc0_scratch11.sem (View.wordExact_bits rfl) rfl (Or.inl rfl) >>= k) Q) := by
  subst ho
  iintro ⟨Hz, Hd, Hl, Hs⟩ Hk
  have hin := hin_of_range_s0 (F := F) lr hr ![80 * n] h
  ihave Hl' := (pointsTo_split_subset (Finset.subset_univ (lsl s0 ![80 * n] h).view.set)).1 $$ Hl
  icases Hl' with ⟨Hl1, Hl2⟩
  iapply (SparseCore.wp_indirectGatherLocal (EC (F := F)) 𝒱₀ (thrV d L) none (none : HIx 1) NG credit_s2 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s2
  isplitl [Hfl]
  · iapply (Transfers.Flight_mono (EC (F := F)) (thrV d L) ?_) $$ Hfl
    rw [View.set_whole, View.write_whole_univ, gather_payload_s0]
    exact .rfl
  · iexact Hl2

/-- The wait for it: the block at the named rows, the two tokens whole, the semaphore at zero. -/
theorem waitg_s2 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s2).view.WordExact}
    {α : Type} (k : PUnit → Prog (TpuEff nD τ sig (Elt F) Λ₀ (thrV d L).2) α) (Q : α → sProp 𝕄) :
    iprop(gfl_s2 m d L q ql lr n hn ∗ owes (thrV d L) O W ∗ Transfers.MayWaits (thrV d L) (none : HIx 1) O)
      ⊢ iprop((iprop(((s2).view.loc (thrV d L) ↦{fullShare} gath (m (zLoc d)) (wordsAt lr (80 * n)))
              ∗ ((zSl).view.loc (thrV d L) ↦[(zSl).view.set]{q} m (zLoc d))
              ∗ ((s0).view.loc (thrV d L) ↦{ql} lr) ∗ sem0 d L cc0_scratch11
              ∗ owes (thrV d L) O (insert (SemLoc.dma cc0_scratch11.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch11.sem zSl s2 hsrc hdst) k) Q) := by
  unfold gfl_s2
  iintro ⟨⟨Hfl, Hl2⟩, HO, #Hmw⟩ Hk
  iapply (Transfers.wp_waitLocalO (EC (F := F)) 𝒱₀ (thrV d L) none (none : HIx 1) wcredit_s2) $$ [Hfl HO]
  · isplitl [Hfl]; · iexact Hfl
    isplitl [HO]; · iexact HO
    iapply (Transfers.MayWaits.elim (SemLoc.dma cc0_scratch11.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s0 n hn).view.set)).2
    isplitl [Hl1]; · iexact Hl1
    iexact Hl2
  isplitl [Hs]; · iexact Hs
  iexact HO

/-- Issue of chunk `n`'s gather into `s6`: from the block, a token of `z`, a token of the list and the semaphore at zero
    to the gather in flight. -/
theorem issue_s6 (d : Dev nD) (L : grid0.Coords) (q ql : PosShare TreeShare)
    (fd : Buf (Elt F) ((s6).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s6).view.loc (thrV d L) ↦{fullShare} fd)
        ∗ ((s1).view.loc (thrV d L) ↦{ql} lr) ∗ sem0 d L cc0_scratch15)
      ⊢ iprop((gfl_s6 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s6 gathers_S10000x128_S80x128 (lsl s1 o h) rfl cc0_scratch15.sem (View.wordExact_bits rfl) rfl (Or.inl rfl) >>= k) Q) := by
  subst ho
  iintro ⟨Hz, Hd, Hl, Hs⟩ Hk
  have hin := hin_of_range_s1 (F := F) lr hr ![80 * n] h
  ihave Hl' := (pointsTo_split_subset (Finset.subset_univ (lsl s1 ![80 * n] h).view.set)).1 $$ Hl
  icases Hl' with ⟨Hl1, Hl2⟩
  iapply (SparseCore.wp_indirectGatherLocal (EC (F := F)) 𝒱₀ (thrV d L) none (none : HIx 1) NG credit_s6 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s6
  isplitl [Hfl]
  · iapply (Transfers.Flight_mono (EC (F := F)) (thrV d L) ?_) $$ Hfl
    rw [View.set_whole, View.write_whole_univ, gather_payload_s1]
    exact .rfl
  · iexact Hl2

/-- The wait for it: the block at the named rows, the two tokens whole, the semaphore at zero. -/
theorem waitg_s6 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s6).view.WordExact}
    {α : Type} (k : PUnit → Prog (TpuEff nD τ sig (Elt F) Λ₀ (thrV d L).2) α) (Q : α → sProp 𝕄) :
    iprop(gfl_s6 m d L q ql lr n hn ∗ owes (thrV d L) O W ∗ Transfers.MayWaits (thrV d L) (none : HIx 1) O)
      ⊢ iprop((iprop(((s6).view.loc (thrV d L) ↦{fullShare} gath (m (zLoc d)) (wordsAt lr (80 * n)))
              ∗ ((zSl).view.loc (thrV d L) ↦[(zSl).view.set]{q} m (zLoc d))
              ∗ ((s1).view.loc (thrV d L) ↦{ql} lr) ∗ sem0 d L cc0_scratch15
              ∗ owes (thrV d L) O (insert (SemLoc.dma cc0_scratch15.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch15.sem zSl s6 hsrc hdst) k) Q) := by
  unfold gfl_s6
  iintro ⟨⟨Hfl, Hl2⟩, HO, #Hmw⟩ Hk
  iapply (Transfers.wp_waitLocalO (EC (F := F)) 𝒱₀ (thrV d L) none (none : HIx 1) wcredit_s6) $$ [Hfl HO]
  · isplitl [Hfl]; · iexact Hfl
    isplitl [HO]; · iexact HO
    iapply (Transfers.MayWaits.elim (SemLoc.dma cc0_scratch15.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s1 n hn).view.set)).2
    isplitl [Hl1]; · iexact Hl1
    iexact Hl2
  isplitl [Hs]; · iexact Hs
  iexact HO

/-- Issue of chunk `n`'s gather into `s3`: from the block, a token of `z`, a token of the list and the semaphore at zero
    to the gather in flight. -/
theorem issue_s3 (d : Dev nD) (L : grid0.Coords) (q ql : PosShare TreeShare)
    (fd : Buf (Elt F) ((s3).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s3).view.loc (thrV d L) ↦{fullShare} fd)
        ∗ ((s0).view.loc (thrV d L) ↦{ql} lr) ∗ sem0 d L cc0_scratch12)
      ⊢ iprop((gfl_s3 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s3 gathers_S10000x128_S80x128 (lsl s0 o h) rfl cc0_scratch12.sem (View.wordExact_bits rfl) rfl (Or.inl rfl) >>= k) Q) := by
  subst ho
  iintro ⟨Hz, Hd, Hl, Hs⟩ Hk
  have hin := hin_of_range_s0 (F := F) lr hr ![80 * n] h
  ihave Hl' := (pointsTo_split_subset (Finset.subset_univ (lsl s0 ![80 * n] h).view.set)).1 $$ Hl
  icases Hl' with ⟨Hl1, Hl2⟩
  iapply (SparseCore.wp_indirectGatherLocal (EC (F := F)) 𝒱₀ (thrV d L) none (none : HIx 1) NG credit_s3 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s3
  isplitl [Hfl]
  · iapply (Transfers.Flight_mono (EC (F := F)) (thrV d L) ?_) $$ Hfl
    rw [View.set_whole, View.write_whole_univ, gather_payload_s0]
    exact .rfl
  · iexact Hl2

/-- The wait for it: the block at the named rows, the two tokens whole, the semaphore at zero. -/
theorem waitg_s3 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s3).view.WordExact}
    {α : Type} (k : PUnit → Prog (TpuEff nD τ sig (Elt F) Λ₀ (thrV d L).2) α) (Q : α → sProp 𝕄) :
    iprop(gfl_s3 m d L q ql lr n hn ∗ owes (thrV d L) O W ∗ Transfers.MayWaits (thrV d L) (none : HIx 1) O)
      ⊢ iprop((iprop(((s3).view.loc (thrV d L) ↦{fullShare} gath (m (zLoc d)) (wordsAt lr (80 * n)))
              ∗ ((zSl).view.loc (thrV d L) ↦[(zSl).view.set]{q} m (zLoc d))
              ∗ ((s0).view.loc (thrV d L) ↦{ql} lr) ∗ sem0 d L cc0_scratch12
              ∗ owes (thrV d L) O (insert (SemLoc.dma cc0_scratch12.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch12.sem zSl s3 hsrc hdst) k) Q) := by
  unfold gfl_s3
  iintro ⟨⟨Hfl, Hl2⟩, HO, #Hmw⟩ Hk
  iapply (Transfers.wp_waitLocalO (EC (F := F)) 𝒱₀ (thrV d L) none (none : HIx 1) wcredit_s3) $$ [Hfl HO]
  · isplitl [Hfl]; · iexact Hfl
    isplitl [HO]; · iexact HO
    iapply (Transfers.MayWaits.elim (SemLoc.dma cc0_scratch12.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s0 n hn).view.set)).2
    isplitl [Hl1]; · iexact Hl1
    iexact Hl2
  isplitl [Hs]; · iexact Hs
  iexact HO

/-- Issue of chunk `n`'s gather into `s7`: from the block, a token of `z`, a token of the list and the semaphore at zero
    to the gather in flight. -/
theorem issue_s7 (d : Dev nD) (L : grid0.Coords) (q ql : PosShare TreeShare)
    (fd : Buf (Elt F) ((s7).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s7).view.loc (thrV d L) ↦{fullShare} fd)
        ∗ ((s1).view.loc (thrV d L) ↦{ql} lr) ∗ sem0 d L cc0_scratch16)
      ⊢ iprop((gfl_s7 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s7 gathers_S10000x128_S80x128 (lsl s1 o h) rfl cc0_scratch16.sem (View.wordExact_bits rfl) rfl (Or.inl rfl) >>= k) Q) := by
  subst ho
  iintro ⟨Hz, Hd, Hl, Hs⟩ Hk
  have hin := hin_of_range_s1 (F := F) lr hr ![80 * n] h
  ihave Hl' := (pointsTo_split_subset (Finset.subset_univ (lsl s1 ![80 * n] h).view.set)).1 $$ Hl
  icases Hl' with ⟨Hl1, Hl2⟩
  iapply (SparseCore.wp_indirectGatherLocal (EC (F := F)) 𝒱₀ (thrV d L) none (none : HIx 1) NG credit_s7 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s7
  isplitl [Hfl]
  · iapply (Transfers.Flight_mono (EC (F := F)) (thrV d L) ?_) $$ Hfl
    rw [View.set_whole, View.write_whole_univ, gather_payload_s1]
    exact .rfl
  · iexact Hl2

/-- The wait for it: the block at the named rows, the two tokens whole, the semaphore at zero. -/
theorem waitg_s7 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s7).view.WordExact}
    {α : Type} (k : PUnit → Prog (TpuEff nD τ sig (Elt F) Λ₀ (thrV d L).2) α) (Q : α → sProp 𝕄) :
    iprop(gfl_s7 m d L q ql lr n hn ∗ owes (thrV d L) O W ∗ Transfers.MayWaits (thrV d L) (none : HIx 1) O)
      ⊢ iprop((iprop(((s7).view.loc (thrV d L) ↦{fullShare} gath (m (zLoc d)) (wordsAt lr (80 * n)))
              ∗ ((zSl).view.loc (thrV d L) ↦[(zSl).view.set]{q} m (zLoc d))
              ∗ ((s1).view.loc (thrV d L) ↦{ql} lr) ∗ sem0 d L cc0_scratch16
              ∗ owes (thrV d L) O (insert (SemLoc.dma cc0_scratch16.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch16.sem zSl s7 hsrc hdst) k) Q) := by
  unfold gfl_s7
  iintro ⟨⟨Hfl, Hl2⟩, HO, #Hmw⟩ Hk
  iapply (Transfers.wp_waitLocalO (EC (F := F)) 𝒱₀ (thrV d L) none (none : HIx 1) wcredit_s7) $$ [Hfl HO]
  · isplitl [Hfl]; · iexact Hfl
    isplitl [HO]; · iexact HO
    iapply (Transfers.MayWaits.elim (SemLoc.dma cc0_scratch16.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s1 n hn).view.set)).2
    isplitl [Hl1]; · iexact Hl1
    iexact Hl2
  isplitl [Hs]; · iexact Hs
  iexact HO

/-- Issue of chunk `n`'s gather into `s4`: from the block, a token of `z`, a token of the list and the semaphore at zero
    to the gather in flight. -/
theorem issue_s4 (d : Dev nD) (L : grid0.Coords) (q ql : PosShare TreeShare)
    (fd : Buf (Elt F) ((s4).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s4).view.loc (thrV d L) ↦{fullShare} fd)
        ∗ ((s0).view.loc (thrV d L) ↦{ql} lr) ∗ sem0 d L cc0_scratch13)
      ⊢ iprop((gfl_s4 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s4 gathers_S10000x128_S80x128 (lsl s0 o h) rfl cc0_scratch13.sem (View.wordExact_bits rfl) rfl (Or.inl rfl) >>= k) Q) := by
  subst ho
  iintro ⟨Hz, Hd, Hl, Hs⟩ Hk
  have hin := hin_of_range_s0 (F := F) lr hr ![80 * n] h
  ihave Hl' := (pointsTo_split_subset (Finset.subset_univ (lsl s0 ![80 * n] h).view.set)).1 $$ Hl
  icases Hl' with ⟨Hl1, Hl2⟩
  iapply (SparseCore.wp_indirectGatherLocal (EC (F := F)) 𝒱₀ (thrV d L) none (none : HIx 1) NG credit_s4 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s4
  isplitl [Hfl]
  · iapply (Transfers.Flight_mono (EC (F := F)) (thrV d L) ?_) $$ Hfl
    rw [View.set_whole, View.write_whole_univ, gather_payload_s0]
    exact .rfl
  · iexact Hl2

/-- The wait for it: the block at the named rows, the two tokens whole, the semaphore at zero. -/
theorem waitg_s4 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s4).view.WordExact}
    {α : Type} (k : PUnit → Prog (TpuEff nD τ sig (Elt F) Λ₀ (thrV d L).2) α) (Q : α → sProp 𝕄) :
    iprop(gfl_s4 m d L q ql lr n hn ∗ owes (thrV d L) O W ∗ Transfers.MayWaits (thrV d L) (none : HIx 1) O)
      ⊢ iprop((iprop(((s4).view.loc (thrV d L) ↦{fullShare} gath (m (zLoc d)) (wordsAt lr (80 * n)))
              ∗ ((zSl).view.loc (thrV d L) ↦[(zSl).view.set]{q} m (zLoc d))
              ∗ ((s0).view.loc (thrV d L) ↦{ql} lr) ∗ sem0 d L cc0_scratch13
              ∗ owes (thrV d L) O (insert (SemLoc.dma cc0_scratch13.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch13.sem zSl s4 hsrc hdst) k) Q) := by
  unfold gfl_s4
  iintro ⟨⟨Hfl, Hl2⟩, HO, #Hmw⟩ Hk
  iapply (Transfers.wp_waitLocalO (EC (F := F)) 𝒱₀ (thrV d L) none (none : HIx 1) wcredit_s4) $$ [Hfl HO]
  · isplitl [Hfl]; · iexact Hfl
    isplitl [HO]; · iexact HO
    iapply (Transfers.MayWaits.elim (SemLoc.dma cc0_scratch13.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s0 n hn).view.set)).2
    isplitl [Hl1]; · iexact Hl1
    iexact Hl2
  isplitl [Hs]; · iexact Hs
  iexact HO

/-- Issue of chunk `n`'s gather into `s8`: from the block, a token of `z`, a token of the list and the semaphore at zero
    to the gather in flight. -/
theorem issue_s8 (d : Dev nD) (L : grid0.Coords) (q ql : PosShare TreeShare)
    (fd : Buf (Elt F) ((s8).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s8).view.loc (thrV d L) ↦{fullShare} fd)
        ∗ ((s1).view.loc (thrV d L) ↦{ql} lr) ∗ sem0 d L cc0_scratch17)
      ⊢ iprop((gfl_s8 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s8 gathers_S10000x128_S80x128 (lsl s1 o h) rfl cc0_scratch17.sem (View.wordExact_bits rfl) rfl (Or.inl rfl) >>= k) Q) := by
  subst ho
  iintro ⟨Hz, Hd, Hl, Hs⟩ Hk
  have hin := hin_of_range_s1 (F := F) lr hr ![80 * n] h
  ihave Hl' := (pointsTo_split_subset (Finset.subset_univ (lsl s1 ![80 * n] h).view.set)).1 $$ Hl
  icases Hl' with ⟨Hl1, Hl2⟩
  iapply (SparseCore.wp_indirectGatherLocal (EC (F := F)) 𝒱₀ (thrV d L) none (none : HIx 1) NG credit_s8 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s8
  isplitl [Hfl]
  · iapply (Transfers.Flight_mono (EC (F := F)) (thrV d L) ?_) $$ Hfl
    rw [View.set_whole, View.write_whole_univ, gather_payload_s1]
    exact .rfl
  · iexact Hl2

/-- The wait for it: the block at the named rows, the two tokens whole, the semaphore at zero. -/
theorem waitg_s8 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s8).view.WordExact}
    {α : Type} (k : PUnit → Prog (TpuEff nD τ sig (Elt F) Λ₀ (thrV d L).2) α) (Q : α → sProp 𝕄) :
    iprop(gfl_s8 m d L q ql lr n hn ∗ owes (thrV d L) O W ∗ Transfers.MayWaits (thrV d L) (none : HIx 1) O)
      ⊢ iprop((iprop(((s8).view.loc (thrV d L) ↦{fullShare} gath (m (zLoc d)) (wordsAt lr (80 * n)))
              ∗ ((zSl).view.loc (thrV d L) ↦[(zSl).view.set]{q} m (zLoc d))
              ∗ ((s1).view.loc (thrV d L) ↦{ql} lr) ∗ sem0 d L cc0_scratch17
              ∗ owes (thrV d L) O (insert (SemLoc.dma cc0_scratch17.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch17.sem zSl s8 hsrc hdst) k) Q) := by
  unfold gfl_s8
  iintro ⟨⟨Hfl, Hl2⟩, HO, #Hmw⟩ Hk
  iapply (Transfers.wp_waitLocalO (EC (F := F)) 𝒱₀ (thrV d L) none (none : HIx 1) wcredit_s8) $$ [Hfl HO]
  · isplitl [Hfl]; · iexact Hfl
    isplitl [HO]; · iexact HO
    iapply (Transfers.MayWaits.elim (SemLoc.dma cc0_scratch17.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s1 n hn).view.set)).2
    isplitl [Hl1]; · iexact Hl1
    iexact Hl2
  isplitl [Hs]; · iexact Hs
  iexact HO

/-- Issue of chunk `n`'s gather into `s5`: from the block, a token of `z`, a token of the list and the semaphore at zero
    to the gather in flight. -/
theorem issue_s5 (d : Dev nD) (L : grid0.Coords) (q ql : PosShare TreeShare)
    (fd : Buf (Elt F) ((s5).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s5).view.loc (thrV d L) ↦{fullShare} fd)
        ∗ ((s0).view.loc (thrV d L) ↦{ql} lr) ∗ sem0 d L cc0_scratch14)
      ⊢ iprop((gfl_s5 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s5 gathers_S10000x128_S80x128 (lsl s0 o h) rfl cc0_scratch14.sem (View.wordExact_bits rfl) rfl (Or.inl rfl) >>= k) Q) := by
  subst ho
  iintro ⟨Hz, Hd, Hl, Hs⟩ Hk
  have hin := hin_of_range_s0 (F := F) lr hr ![80 * n] h
  ihave Hl' := (pointsTo_split_subset (Finset.subset_univ (lsl s0 ![80 * n] h).view.set)).1 $$ Hl
  icases Hl' with ⟨Hl1, Hl2⟩
  iapply (SparseCore.wp_indirectGatherLocal (EC (F := F)) 𝒱₀ (thrV d L) none (none : HIx 1) NG credit_s5 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s5
  isplitl [Hfl]
  · iapply (Transfers.Flight_mono (EC (F := F)) (thrV d L) ?_) $$ Hfl
    rw [View.set_whole, View.write_whole_univ, gather_payload_s0]
    exact .rfl
  · iexact Hl2

/-- The wait for it: the block at the named rows, the two tokens whole, the semaphore at zero. -/
theorem waitg_s5 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s5).view.WordExact}
    {α : Type} (k : PUnit → Prog (TpuEff nD τ sig (Elt F) Λ₀ (thrV d L).2) α) (Q : α → sProp 𝕄) :
    iprop(gfl_s5 m d L q ql lr n hn ∗ owes (thrV d L) O W ∗ Transfers.MayWaits (thrV d L) (none : HIx 1) O)
      ⊢ iprop((iprop(((s5).view.loc (thrV d L) ↦{fullShare} gath (m (zLoc d)) (wordsAt lr (80 * n)))
              ∗ ((zSl).view.loc (thrV d L) ↦[(zSl).view.set]{q} m (zLoc d))
              ∗ ((s0).view.loc (thrV d L) ↦{ql} lr) ∗ sem0 d L cc0_scratch14
              ∗ owes (thrV d L) O (insert (SemLoc.dma cc0_scratch14.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch14.sem zSl s5 hsrc hdst) k) Q) := by
  unfold gfl_s5
  iintro ⟨⟨Hfl, Hl2⟩, HO, #Hmw⟩ Hk
  iapply (Transfers.wp_waitLocalO (EC (F := F)) 𝒱₀ (thrV d L) none (none : HIx 1) wcredit_s5) $$ [Hfl HO]
  · isplitl [Hfl]; · iexact Hfl
    isplitl [HO]; · iexact HO
    iapply (Transfers.MayWaits.elim (SemLoc.dma cc0_scratch14.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s0 n hn).view.set)).2
    isplitl [Hl1]; · iexact Hl1
    iexact Hl2
  isplitl [Hs]; · iexact Hs
  iexact HO

/-- Issue of chunk `n`'s gather into `s9`: from the block, a token of `z`, a token of the list and the semaphore at zero
    to the gather in flight. -/
theorem issue_s9 (d : Dev nD) (L : grid0.Coords) (q ql : PosShare TreeShare)
    (fd : Buf (Elt F) ((s9).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s9).view.loc (thrV d L) ↦{fullShare} fd)
        ∗ ((s1).view.loc (thrV d L) ↦{ql} lr) ∗ sem0 d L cc0_scratch18)
      ⊢ iprop((gfl_s9 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s9 gathers_S10000x128_S80x128 (lsl s1 o h) rfl cc0_scratch18.sem (View.wordExact_bits rfl) rfl (Or.inl rfl) >>= k) Q) := by
  subst ho
  iintro ⟨Hz, Hd, Hl, Hs⟩ Hk
  have hin := hin_of_range_s1 (F := F) lr hr ![80 * n] h
  ihave Hl' := (pointsTo_split_subset (Finset.subset_univ (lsl s1 ![80 * n] h).view.set)).1 $$ Hl
  icases Hl' with ⟨Hl1, Hl2⟩
  iapply (SparseCore.wp_indirectGatherLocal (EC (F := F)) 𝒱₀ (thrV d L) none (none : HIx 1) NG credit_s9 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s9
  isplitl [Hfl]
  · iapply (Transfers.Flight_mono (EC (F := F)) (thrV d L) ?_) $$ Hfl
    rw [View.set_whole, View.write_whole_univ, gather_payload_s1]
    exact .rfl
  · iexact Hl2

/-- The wait for it: the block at the named rows, the two tokens whole, the semaphore at zero. -/
theorem waitg_s9 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s9).view.WordExact}
    {α : Type} (k : PUnit → Prog (TpuEff nD τ sig (Elt F) Λ₀ (thrV d L).2) α) (Q : α → sProp 𝕄) :
    iprop(gfl_s9 m d L q ql lr n hn ∗ owes (thrV d L) O W ∗ Transfers.MayWaits (thrV d L) (none : HIx 1) O)
      ⊢ iprop((iprop(((s9).view.loc (thrV d L) ↦{fullShare} gath (m (zLoc d)) (wordsAt lr (80 * n)))
              ∗ ((zSl).view.loc (thrV d L) ↦[(zSl).view.set]{q} m (zLoc d))
              ∗ ((s1).view.loc (thrV d L) ↦{ql} lr) ∗ sem0 d L cc0_scratch18
              ∗ owes (thrV d L) O (insert (SemLoc.dma cc0_scratch18.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch18.sem zSl s9 hsrc hdst) k) Q) := by
  unfold gfl_s9
  iintro ⟨⟨Hfl, Hl2⟩, HO, #Hmw⟩ Hk
  iapply (Transfers.wp_waitLocalO (EC (F := F)) 𝒱₀ (thrV d L) none (none : HIx 1) wcredit_s9) $$ [Hfl HO]
  · isplitl [Hfl]; · iexact Hfl
    isplitl [HO]; · iexact HO
    iapply (Transfers.MayWaits.elim (SemLoc.dma cc0_scratch18.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s1 n hn).view.set)).2
    isplitl [Hl1]; · iexact Hl1
    iexact Hl2
  isplitl [Hs]; · iexact Hs
  iexact HO

/-- The copy of the eighty scores out of the out scratch onto eighty words of the result, on a semaphore of its own,
    and its wait: the words hold what the scratch held. -/
theorem copyout_2 (d : Dev nD) (L : grid0.Coords) (o : Fin 1 → Nat) (h : ∀ a, o a + S80.size a ≤ S320000.size a)
    (fv : Buf (Elt F) ((s10).view.loc (thrV d L))) (fo : Buf (Elt F) ((osl o h).view.loc (thrV d L)))
    (O : CellTallies nD τ sig (HIx 1)) (W : Waits sig (HIx 1))
    {α : Type} (k : PUnit → Prog (TpuEff nD τ sig (Elt F) Λ₀ (thrV d L).2) α) (Q : α → sProp 𝕄) :
    iprop(((s10).view.loc (thrV d L) ↦{fullShare} fv) ∗ ((osl o h).view.loc (thrV d L) ↦[(osl o h).view.set]{fullShare} fo)
        ∗ sem0 d L cc0_scoped2 ∗ owes (thrV d L) O W ∗ Transfers.MayWaits (thrV d L) (none : HIx 1) O)
      ⊢ iprop((iprop(((s10).view.loc (thrV d L) ↦{fullShare} fv)
              ∗ ((osl o h).view.loc (thrV d L) ↦[(osl o h).view.set]{fullShare}
                  (osl o h).view.write (Elt F) fo (ReadAs.same.apply ((s10).view.read (Elt F) fv)) Finset.univ)
              ∗ sem0 d L cc0_scoped2 ∗ owes (thrV d L) O (insert (SemLoc.dma cc0_scoped2.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma s10 (.here (osl o h)) (.dma cc0_scoped2.sem) (Memref.isWhole_whole _).wordExact (View.wordExact_bits rfl) ⟨Or.inl rfl, trivial⟩) fun _ =>
               Prog.op (.waitDma2 cc0_scoped2.sem s10 (osl o h) (Memref.isWhole_whole _).wordExact (View.wordExact_bits rfl)) k) Q) := by
  iintro ⟨Hv, Ho, Hs, HO, #Hmw⟩ Hk
  iapply (Transfers.wp_dmaLocal (EC (F := F)) 𝒱₀ (thrV d L) none (none : HIx 1) ((osl o h).view.amount (.dma cc0_scoped2.sem)) rfl
      (View.amount_pos _ _ (by decide)) (Finset.Subset.refl _)) $$ [Hv Ho Hs]
  · isplitl [Hv]; · rw [View.set_whole]; iexact Hv
    isplitl [Ho]; · iexact Ho
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped2.sem)); iexact Hmw
  iintro ⟨⟨Ho, Hv⟩, Hs, HO⟩
  iapply Hk
  isplitl [Hv]; · rw [View.set_whole]; iexact Hv
  isplitl [Ho]; · iexact Ho
  isplitl [Hs]; · iexact Hs
  iexact HO

/-- The copy of the eighty scores out of the out scratch onto eighty words of the result, on a semaphore of its own,
    and its wait: the words hold what the scratch held. -/
theorem copyout_3 (d : Dev nD) (L : grid0.Coords) (o : Fin 1 → Nat) (h : ∀ a, o a + S80.size a ≤ S320000.size a)
    (fv : Buf (Elt F) ((s10).view.loc (thrV d L))) (fo : Buf (Elt F) ((osl o h).view.loc (thrV d L)))
    (O : CellTallies nD τ sig (HIx 1)) (W : Waits sig (HIx 1))
    {α : Type} (k : PUnit → Prog (TpuEff nD τ sig (Elt F) Λ₀ (thrV d L).2) α) (Q : α → sProp 𝕄) :
    iprop(((s10).view.loc (thrV d L) ↦{fullShare} fv) ∗ ((osl o h).view.loc (thrV d L) ↦[(osl o h).view.set]{fullShare} fo)
        ∗ sem0 d L cc0_scoped3 ∗ owes (thrV d L) O W ∗ Transfers.MayWaits (thrV d L) (none : HIx 1) O)
      ⊢ iprop((iprop(((s10).view.loc (thrV d L) ↦{fullShare} fv)
              ∗ ((osl o h).view.loc (thrV d L) ↦[(osl o h).view.set]{fullShare}
                  (osl o h).view.write (Elt F) fo (ReadAs.same.apply ((s10).view.read (Elt F) fv)) Finset.univ)
              ∗ sem0 d L cc0_scoped3 ∗ owes (thrV d L) O (insert (SemLoc.dma cc0_scoped3.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma s10 (.here (osl o h)) (.dma cc0_scoped3.sem) (Memref.isWhole_whole _).wordExact (View.wordExact_bits rfl) ⟨Or.inl rfl, trivial⟩) fun _ =>
               Prog.op (.waitDma2 cc0_scoped3.sem s10 (osl o h) (Memref.isWhole_whole _).wordExact (View.wordExact_bits rfl)) k) Q) := by
  iintro ⟨Hv, Ho, Hs, HO, #Hmw⟩ Hk
  iapply (Transfers.wp_dmaLocal (EC (F := F)) 𝒱₀ (thrV d L) none (none : HIx 1) ((osl o h).view.amount (.dma cc0_scoped3.sem)) rfl
      (View.amount_pos _ _ (by decide)) (Finset.Subset.refl _)) $$ [Hv Ho Hs]
  · isplitl [Hv]; · rw [View.set_whole]; iexact Hv
    isplitl [Ho]; · iexact Ho
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped3.sem)); iexact Hmw
  iintro ⟨⟨Ho, Hv⟩, Hs, HO⟩
  iapply Hk
  isplitl [Hv]; · rw [View.set_whole]; iexact Hv
  isplitl [Ho]; · iexact Ho
  isplitl [Hs]; · iexact Hs
  iexact HO

/-- The copy of the eighty scores out of the out scratch onto eighty words of the result, on a semaphore of its own,
    and its wait: the words hold what the scratch held. -/
theorem copyout_4 (d : Dev nD) (L : grid0.Coords) (o : Fin 1 → Nat) (h : ∀ a, o a + S80.size a ≤ S320000.size a)
    (fv : Buf (Elt F) ((s10).view.loc (thrV d L))) (fo : Buf (Elt F) ((osl o h).view.loc (thrV d L)))
    (O : CellTallies nD τ sig (HIx 1)) (W : Waits sig (HIx 1))
    {α : Type} (k : PUnit → Prog (TpuEff nD τ sig (Elt F) Λ₀ (thrV d L).2) α) (Q : α → sProp 𝕄) :
    iprop(((s10).view.loc (thrV d L) ↦{fullShare} fv) ∗ ((osl o h).view.loc (thrV d L) ↦[(osl o h).view.set]{fullShare} fo)
        ∗ sem0 d L cc0_scoped4 ∗ owes (thrV d L) O W ∗ Transfers.MayWaits (thrV d L) (none : HIx 1) O)
      ⊢ iprop((iprop(((s10).view.loc (thrV d L) ↦{fullShare} fv)
              ∗ ((osl o h).view.loc (thrV d L) ↦[(osl o h).view.set]{fullShare}
                  (osl o h).view.write (Elt F) fo (ReadAs.same.apply ((s10).view.read (Elt F) fv)) Finset.univ)
              ∗ sem0 d L cc0_scoped4 ∗ owes (thrV d L) O (insert (SemLoc.dma cc0_scoped4.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma s10 (.here (osl o h)) (.dma cc0_scoped4.sem) (Memref.isWhole_whole _).wordExact (View.wordExact_bits rfl) ⟨Or.inl rfl, trivial⟩) fun _ =>
               Prog.op (.waitDma2 cc0_scoped4.sem s10 (osl o h) (Memref.isWhole_whole _).wordExact (View.wordExact_bits rfl)) k) Q) := by
  iintro ⟨Hv, Ho, Hs, HO, #Hmw⟩ Hk
  iapply (Transfers.wp_dmaLocal (EC (F := F)) 𝒱₀ (thrV d L) none (none : HIx 1) ((osl o h).view.amount (.dma cc0_scoped4.sem)) rfl
      (View.amount_pos _ _ (by decide)) (Finset.Subset.refl _)) $$ [Hv Ho Hs]
  · isplitl [Hv]; · rw [View.set_whole]; iexact Hv
    isplitl [Ho]; · iexact Ho
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped4.sem)); iexact Hmw
  iintro ⟨⟨Ho, Hv⟩, Hs, HO⟩
  iapply Hk
  isplitl [Hv]; · rw [View.set_whole]; iexact Hv
  isplitl [Ho]; · iexact Ho
  isplitl [Hs]; · iexact Hs
  iexact HO

/-- The copy of the eighty scores out of the out scratch onto eighty words of the result, on a semaphore of its own,
    and its wait: the words hold what the scratch held. -/
theorem copyout_5 (d : Dev nD) (L : grid0.Coords) (o : Fin 1 → Nat) (h : ∀ a, o a + S80.size a ≤ S320000.size a)
    (fv : Buf (Elt F) ((s10).view.loc (thrV d L))) (fo : Buf (Elt F) ((osl o h).view.loc (thrV d L)))
    (O : CellTallies nD τ sig (HIx 1)) (W : Waits sig (HIx 1))
    {α : Type} (k : PUnit → Prog (TpuEff nD τ sig (Elt F) Λ₀ (thrV d L).2) α) (Q : α → sProp 𝕄) :
    iprop(((s10).view.loc (thrV d L) ↦{fullShare} fv) ∗ ((osl o h).view.loc (thrV d L) ↦[(osl o h).view.set]{fullShare} fo)
        ∗ sem0 d L cc0_scoped5 ∗ owes (thrV d L) O W ∗ Transfers.MayWaits (thrV d L) (none : HIx 1) O)
      ⊢ iprop((iprop(((s10).view.loc (thrV d L) ↦{fullShare} fv)
              ∗ ((osl o h).view.loc (thrV d L) ↦[(osl o h).view.set]{fullShare}
                  (osl o h).view.write (Elt F) fo (ReadAs.same.apply ((s10).view.read (Elt F) fv)) Finset.univ)
              ∗ sem0 d L cc0_scoped5 ∗ owes (thrV d L) O (insert (SemLoc.dma cc0_scoped5.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma s10 (.here (osl o h)) (.dma cc0_scoped5.sem) (Memref.isWhole_whole _).wordExact (View.wordExact_bits rfl) ⟨Or.inl rfl, trivial⟩) fun _ =>
               Prog.op (.waitDma2 cc0_scoped5.sem s10 (osl o h) (Memref.isWhole_whole _).wordExact (View.wordExact_bits rfl)) k) Q) := by
  iintro ⟨Hv, Ho, Hs, HO, #Hmw⟩ Hk
  iapply (Transfers.wp_dmaLocal (EC (F := F)) 𝒱₀ (thrV d L) none (none : HIx 1) ((osl o h).view.amount (.dma cc0_scoped5.sem)) rfl
      (View.amount_pos _ _ (by decide)) (Finset.Subset.refl _)) $$ [Hv Ho Hs]
  · isplitl [Hv]; · rw [View.set_whole]; iexact Hv
    isplitl [Ho]; · iexact Ho
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped5.sem)); iexact Hmw
  iintro ⟨⟨Ho, Hv⟩, Hs, HO⟩
  iapply Hk
  isplitl [Hv]; · rw [View.set_whole]; iexact Hv
  isplitl [Ho]; · iexact Ho
  isplitl [Hs]; · iexact Hs
  iexact HO

/-- The copy of the eighty scores out of the out scratch onto eighty words of the result, on a semaphore of its own,
    and its wait: the words hold what the scratch held. -/
theorem copyout_6 (d : Dev nD) (L : grid0.Coords) (o : Fin 1 → Nat) (h : ∀ a, o a + S80.size a ≤ S320000.size a)
    (fv : Buf (Elt F) ((s10).view.loc (thrV d L))) (fo : Buf (Elt F) ((osl o h).view.loc (thrV d L)))
    (O : CellTallies nD τ sig (HIx 1)) (W : Waits sig (HIx 1))
    {α : Type} (k : PUnit → Prog (TpuEff nD τ sig (Elt F) Λ₀ (thrV d L).2) α) (Q : α → sProp 𝕄) :
    iprop(((s10).view.loc (thrV d L) ↦{fullShare} fv) ∗ ((osl o h).view.loc (thrV d L) ↦[(osl o h).view.set]{fullShare} fo)
        ∗ sem0 d L cc0_scoped6 ∗ owes (thrV d L) O W ∗ Transfers.MayWaits (thrV d L) (none : HIx 1) O)
      ⊢ iprop((iprop(((s10).view.loc (thrV d L) ↦{fullShare} fv)
              ∗ ((osl o h).view.loc (thrV d L) ↦[(osl o h).view.set]{fullShare}
                  (osl o h).view.write (Elt F) fo (ReadAs.same.apply ((s10).view.read (Elt F) fv)) Finset.univ)
              ∗ sem0 d L cc0_scoped6 ∗ owes (thrV d L) O (insert (SemLoc.dma cc0_scoped6.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma s10 (.here (osl o h)) (.dma cc0_scoped6.sem) (Memref.isWhole_whole _).wordExact (View.wordExact_bits rfl) ⟨Or.inl rfl, trivial⟩) fun _ =>
               Prog.op (.waitDma2 cc0_scoped6.sem s10 (osl o h) (Memref.isWhole_whole _).wordExact (View.wordExact_bits rfl)) k) Q) := by
  iintro ⟨Hv, Ho, Hs, HO, #Hmw⟩ Hk
  iapply (Transfers.wp_dmaLocal (EC (F := F)) 𝒱₀ (thrV d L) none (none : HIx 1) ((osl o h).view.amount (.dma cc0_scoped6.sem)) rfl
      (View.amount_pos _ _ (by decide)) (Finset.Subset.refl _)) $$ [Hv Ho Hs]
  · isplitl [Hv]; · rw [View.set_whole]; iexact Hv
    isplitl [Ho]; · iexact Ho
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped6.sem)); iexact Hmw
  iintro ⟨⟨Ho, Hv⟩, Hs, HO⟩
  iapply Hk
  isplitl [Hv]; · rw [View.set_whole]; iexact Hv
  isplitl [Ho]; · iexact Ho
  isplitl [Hs]; · iexact Hs
  iexact HO

end Cert.Proof.KB
end
-- ==== Proof.KBLoops.lean ====
/-
  The two counted loops of one chunk, per copy of the body's text: the 128 steps of a group, whose lanes end at their
  accumulated products, and the five groups, after which the out scratch holds the chunk's eighty scores.
-/
import proofs.«209252_g55662776156339_cont_9to1_m_525_47_alg».proof.Proof.KBAcc
import proofs.«209252_g55662776156339_cont_9to1_m_525_47_alg».proof.Proof.KBViews

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

theorem k0_t3_trips : k0_t3_loop.trips = 128 := by decide
theorem k0_t2_trips : k0_t2_loop.trips = 5 := by decide

/-- The 128 steps of one group on the blocks `s2`, `s6`: the lanes end at their accumulated products. -/
theorem inner_a (d : Dev nD) (L : grid0.Coords) (v2 c0 c1 : BitVec 32) (k1 : Fin k0_t1_loop.trips) (g : Fin k0_t2_loop.trips)
    (fA : Buf (Elt F) ((s2).view.loc (thrV d L))) (fB : Buf (Elt F) ((s6).view.loc (thrV d L)))
    {α : Type} (k : FVec F S16 .f32 → Prog (TpuEff nD τ sig (Elt F) Λ₀ (thrV d L).2) α) (Q : α → sProp 𝕄) :
    iprop(((s2).view.loc (thrV d L) ↦{fullShare} fA) ∗ ((s6).view.loc (thrV d L) ↦{fullShare} fB))
      ⊢ iprop((iprop(((s2).view.loc (thrV d L) ↦{fullShare} fA) ∗ ((s6).view.loc (thrV d L) ↦{fullShare} fB))
            -∗ wp frame (wpE (defs₀ (F := F)) 𝒱₀ (thrV d L) none) Set.univ (k (laneAcc fA fB g.val 128)) Q)
          -∗ wp frame (wpE (defs₀ (F := F)) 𝒱₀ (thrV d L) none) Set.univ
              (Scf.Loop.for k0_t3_loop k0_t3_ok (k0_pay12 (F := F)) (k0_t3_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes c0 c1 k1 (k0_pay11 lanes g)) >>= k) Q) := by
  have hg : g.val < 5 := Nat.lt_of_lt_of_eq g.isLt k0_t2_trips
  iintro ⟨HA, HB⟩ Hk
  iapply (Scf.wp_for_bind frame (wpE (defs₀ (F := F)) 𝒱₀ (thrV d L) none) Set.univ _ _ _ k0_t3_ok (k0_pay12 (F := F)) _
      (fun t acc => iprop(⌜acc = laneAcc fA fB g.val t⌝ ∗ ((s2).view.loc (thrV d L) ↦{fullShare} fA) ∗ ((s6).view.loc (thrV d L) ↦{fullShare} fB))) ?step) $$ [HA HB] [Hk]
  case step =>
    intro t acc
    have ht : t.val < 128 := Nat.lt_of_lt_of_eq t.isLt k0_t3_trips
    iintro ⟨%hacc, HA, HB⟩
    subst hacc
    unfold k0_t3_body
    simp only [Prog.lift, Prog.bind_op, Prog.bind_ret, Prog.pure_eq_ret]
    have hchk : k0_chk1 (k0_pay11 lanes g) (k0_pay13 lanes t) := by
      refine ⟨fun a x => ?_, fun a x => ?_⟩ <;>
      · match a with
        | ⟨0, _⟩ => exact rowVec_lt ⟨g.val, hg⟩ x
        | ⟨1, _⟩ => exact colVec_lt ⟨t.val, ht⟩ x
    rw [wp_assume_of _ _ _ _ hchk]
    ihave HA' := (Entails.of_eq (show ((s2).view.loc (thrV d L) ↦{fullShare} fA : sProp 𝕄) = (((s2).access (.whole S80x128)).loc (thrV d L) ↦{fullShare} fA) from rfl)) $$ HA
    iapply (SparseCore.wp_vectorLoadIdx 𝒱₀ (thrV d L) none Set.univ (base := s2) (S := Finset.univ) (q := fullShare) (Finset.subset_univ _)) $$ HA'; iintro HA'
    ihave HB' := (Entails.of_eq (show ((s6).view.loc (thrV d L) ↦{fullShare} fB : sProp 𝕄) = (((s6).access (.whole S80x128)).loc (thrV d L) ↦{fullShare} fB) from rfl)) $$ HB
    iapply (SparseCore.wp_vectorLoadIdx 𝒱₀ (thrV d L) none Set.univ (base := s6) (S := Finset.univ) (q := fullShare) (Finset.subset_univ _)) $$ HB'; iintro HB'
    rw [wp_ret]; imodintro
    isplitr
    · ipureintro
      show addf (laneAcc fA fB g.val t.val) (mulf _ _) = _
      refine laneAcc_succ fA fB ⟨g.val, hg⟩ ⟨t.val, ht⟩ _ _ (fun x => ?_) (fun x => ?_)
      · rw [read_access_whole]; exact loadIdx_block fA _ _ _ x _ _
      · rw [read_access_whole]; exact loadIdx_block fB _ _ _ x _ _
    isplitl [HA']; · iexact HA'
    iexact HB'
  · isplitr; · ipureintro; rfl
    isplitl [HA]; · iexact HA
    iexact HB
  · iintro %acc ⟨%hacc, HA, HB⟩
    subst hacc
    rw [show Scf.trips k0_t3_loop.lb k0_t3_loop.ub k0_t3_loop.st = 128 from k0_t3_trips]
    iapply Hk
    isplitl [HA]; · iexact HA
    iexact HB

/-- The five groups of a chunk on the blocks `s2`, `s6`: the out scratch ends at the chunk's eighty scores. -/
theorem group_a (d : Dev nD) (L : grid0.Coords) (v2 c0 c1 : BitVec 32) (k1 : Fin k0_t1_loop.trips)
    (fA : Buf (Elt F) ((s2).view.loc (thrV d L))) (fB : Buf (Elt F) ((s6).view.loc (thrV d L))) (fv0 : Buf (Elt F) ((s10).view.loc (thrV d L)))
    {α : Type} (k : Unit → Prog (TpuEff nD τ sig (Elt F) Λ₀ (thrV d L).2) α) (Q : α → sProp 𝕄) :
    iprop(((s2).view.loc (thrV d L) ↦{fullShare} fA) ∗ ((s6).view.loc (thrV d L) ↦{fullShare} fB) ∗ ((s10).view.loc (thrV d L) ↦{fullShare} fv0))
      ⊢ iprop((iprop(((s2).view.loc (thrV d L) ↦{fullShare} fA) ∗ ((s6).view.loc (thrV d L) ↦{fullShare} fB)
              ∗ ((s10).view.loc (thrV d L) ↦{fullShare} chunkScore fA fB))
            -∗ wp frame (wpE (defs₀ (F := F)) 𝒱₀ (thrV d L) none) Set.univ (k ()) Q)
          -∗ wp frame (wpE (defs₀ (F := F)) 𝒱₀ (thrV d L) none) Set.univ
              (Scf.Loop.for k0_t2_loop k0_t2_ok ⟨⟩ (k0_t2_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes c0 c1 k1) >>= k) Q) := by
  iintro ⟨HA, HB, Hv⟩ Hk
  iapply (Scf.wp_for_bind frame (wpE (defs₀ (F := F)) 𝒱₀ (thrV d L) none) Set.univ _ _ _ k0_t2_ok ⟨⟩ _
      (fun g _ => iprop(((s2).view.loc (thrV d L) ↦{fullShare} fA) ∗ ((s6).view.loc (thrV d L) ↦{fullShare} fB)
        ∗ ∃ fv : Buf (Elt F) ((s10).view.loc (thrV d L)), ((s10).view.loc (thrV d L) ↦{fullShare} fv)
            ∗ ⌜∀ j : Fin 80, j.val < 16 * g → fv (ix1 j) = chunkScore fA fB (ix1 j)⌝)) ?step) $$ [HA HB Hv] [Hk]
  case step =>
    intro g u
    have hg : g.val < 5 := Nat.lt_of_lt_of_eq g.isLt k0_t2_trips
    iintro ⟨HA, HB, %fv, Hv, %hfv⟩
    unfold k0_t2_body
    simp only [Prog.lift, Prog.bind_op, Prog.bind_ret, Prog.pure_eq_ret]
    iapply (inner_a d L v2 c0 c1 k1 g fA fB _ _) $$ [HA HB]
    · isplitl [HA]; · iexact HA
      iexact HB
    iintro ⟨HA, HB⟩
    iapply (wp_load 𝒱₀ (thrV d L) none Set.univ (m := s10) (S := Finset.univ) (Finset.subset_univ _)) $$ Hv; iintro Hv
    ihave Hv' := (Entails.of_eq (show ((s10).view.loc (thrV d L) ↦{fullShare} fv : sProp 𝕄)
        = (((s10).access (Rect.unit (s := S80) (k0_off2 g) S16.size (k0_off2_inb g))).loc (thrV d L) ↦{fullShare} fv) from rfl)) $$ Hv
    iapply (wp_store 𝒱₀ (thrV d L) none Set.univ (m := s10) (r := Rect.unit (s := S80) (k0_off2 g) S16.size (k0_off2_inb g)) (Mk := Finset.univ) (S := Finset.univ) (Finset.subset_univ _)) $$ Hv'; iintro Hv'
    rw [wp_ret]; imodintro
    isplitl [HA]; · iexact HA
    isplitl [HB]; · iexact HB
    iexists _
    isplitl [Hv']; · iexact Hv'
    ipureintro
    intro j hj
    rw [out_store g.val (k0_off2 g) (k0_off2_eq g) (k0_off2_inb g)]
    split
    · rename_i hin
      show score (laneAcc fA fB g.val 128 (ix1 ⟨j.val - 16 * g.val, by omega⟩)) = score (accB fA fB j.val (j.val % 16) 128)
      show score (accB fA fB (16 * g.val + (j.val - 16 * g.val)) (j.val - 16 * g.val) 128) = _
      rw [show 16 * g.val + (j.val - 16 * g.val) = j.val by omega, show j.val - 16 * g.val = j.val % 16 by omega]
    · rename_i hin
      exact hfv j (by omega)
  · isplitl [HA]; · iexact HA
    isplitl [HB]; · iexact HB
    iexists fv0
    isplitl [Hv]; · iexact Hv
    ipureintro; intro j hj; omega
  · iintro %u ⟨HA, HB, %fv, Hv, %hfv⟩
    iapply Hk
    isplitl [HA]; · iexact HA
    isplitl [HB]; · iexact HB
    have hall : ∀ i ∈ (Finset.univ : Finset (S80.Idx)), fv i = chunkScore fA fB i := by
      intro i _
      obtain ⟨j, rfl⟩ : ∃ j : Fin 80, i = ix1 j := ⟨i 0, ValueIdx.eq_ix1 i⟩
      exact hfv j (by have := j.isLt; rw [show Scf.trips k0_t2_loop.lb k0_t2_loop.ub k0_t2_loop.st = 5 from k0_t2_trips]; omega)
    rw [← pointsTo_congr (f := fv) (g := chunkScore fA fB) hall]
    iexact Hv

theorem k0_t5_trips : k0_t5_loop.trips = 128 := by decide
theorem k0_t4_trips : k0_t4_loop.trips = 5 := by decide

/-- The 128 steps of one group on the blocks `s3`, `s7`: the lanes end at their accumulated products. -/
theorem inner_b (d : Dev nD) (L : grid0.Coords) (v2 : BitVec 32) (k1 : Fin k0_t1_loop.trips) (a25 v41 c5 : BitVec 32) (g : Fin k0_t4_loop.trips)
    (fA : Buf (Elt F) ((s3).view.loc (thrV d L))) (fB : Buf (Elt F) ((s7).view.loc (thrV d L)))
    {α : Type} (k : FVec F S16 .f32 → Prog (TpuEff nD τ sig (Elt F) Λ₀ (thrV d L).2) α) (Q : α → sProp 𝕄) :
    iprop(((s3).view.loc (thrV d L) ↦{fullShare} fA) ∗ ((s7).view.loc (thrV d L) ↦{fullShare} fB))
      ⊢ iprop((iprop(((s3).view.loc (thrV d L) ↦{fullShare} fA) ∗ ((s7).view.loc (thrV d L) ↦{fullShare} fB))
            -∗ wp frame (wpE (defs₀ (F := F)) 𝒱₀ (thrV d L) none) Set.univ (k (laneAcc fA fB g.val 128)) Q)
          -∗ wp frame (wpE (defs₀ (F := F)) 𝒱₀ (thrV d L) none) Set.univ
              (Scf.Loop.for k0_t5_loop k0_t5_ok (k0_pay17 (F := F)) (k0_t5_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 0#32 c5 (k0_pay16 lanes 0#32 g)) >>= k) Q) := by
  have hg : g.val < 5 := Nat.lt_of_lt_of_eq g.isLt k0_t4_trips
  iintro ⟨HA, HB⟩ Hk
  iapply (Scf.wp_for_bind frame (wpE (defs₀ (F := F)) 𝒱₀ (thrV d L) none) Set.univ _ _ _ k0_t5_ok (k0_pay17 (F := F)) _
      (fun t acc => iprop(⌜acc = laneAcc fA fB g.val t⌝ ∗ ((s3).view.loc (thrV d L) ↦{fullShare} fA) ∗ ((s7).view.loc (thrV d L) ↦{fullShare} fB))) ?step) $$ [HA HB] [Hk]
  case step =>
    intro t acc
    have ht : t.val < 128 := Nat.lt_of_lt_of_eq t.isLt k0_t5_trips
    iintro ⟨%hacc, HA, HB⟩
    subst hacc
    unfold k0_t5_body
    simp only [Prog.lift, Prog.bind_op, Prog.bind_ret, Prog.pure_eq_ret]
    have hchk : k0_chk2 (k0_pay16 lanes 0#32 g) (k0_pay18 lanes t) := by
      refine ⟨fun a x => ?_, fun a x => ?_⟩ <;>
      · match a with
        | ⟨0, _⟩ => exact rowVec_lt ⟨g.val, hg⟩ x
        | ⟨1, _⟩ => exact colVec_lt ⟨t.val, ht⟩ x
    rw [wp_assume_of _ _ _ _ hchk]
    ihave HA' := (Entails.of_eq (show ((s3).view.loc (thrV d L) ↦{fullShare} fA : sProp 𝕄) = (((s3).access (.whole S80x128)).loc (thrV d L) ↦{fullShare} fA) from rfl)) $$ HA
    iapply (SparseCore.wp_vectorLoadIdx 𝒱₀ (thrV d L) none Set.univ (base := s3) (S := Finset.univ) (q := fullShare) (Finset.subset_univ _)) $$ HA'; iintro HA'
    ihave HB' := (Entails.of_eq (show ((s7).view.loc (thrV d L) ↦{fullShare} fB : sProp 𝕄) = (((s7).access (.whole S80x128)).loc (thrV d L) ↦{fullShare} fB) from rfl)) $$ HB
    iapply (SparseCore.wp_vectorLoadIdx 𝒱₀ (thrV d L) none Set.univ (base := s7) (S := Finset.univ) (q := fullShare) (Finset.subset_univ _)) $$ HB'; iintro HB'
    rw [wp_ret]; imodintro
    isplitr
    · ipureintro
      show addf (laneAcc fA fB g.val t.val) (mulf _ _) = _
      refine laneAcc_succ fA fB ⟨g.val, hg⟩ ⟨t.val, ht⟩ _ _ (fun x => ?_) (fun x => ?_)
      · rw [read_access_whole]; exact loadIdx_block fA _ _ _ x _ _
      · rw [read_access_whole]; exact loadIdx_block fB _ _ _ x _ _
    isplitl [HA']; · iexact HA'
    iexact HB'
  · isplitr; · ipureintro; rfl
    isplitl [HA]; · iexact HA
    iexact HB
  · iintro %acc ⟨%hacc, HA, HB⟩
    subst hacc
    rw [show Scf.trips k0_t5_loop.lb k0_t5_loop.ub k0_t5_loop.st = 128 from k0_t5_trips]
    iapply Hk
    isplitl [HA]; · iexact HA
    iexact HB

/-- The five groups of a chunk on the blocks `s3`, `s7`: the out scratch ends at the chunk's eighty scores. -/
theorem group_b (d : Dev nD) (L : grid0.Coords) (v2 : BitVec 32) (k1 : Fin k0_t1_loop.trips) (a25 v41 c5 : BitVec 32)
    (fA : Buf (Elt F) ((s3).view.loc (thrV d L))) (fB : Buf (Elt F) ((s7).view.loc (thrV d L))) (fv0 : Buf (Elt F) ((s10).view.loc (thrV d L)))
    {α : Type} (k : Unit → Prog (TpuEff nD τ sig (Elt F) Λ₀ (thrV d L).2) α) (Q : α → sProp 𝕄) :
    iprop(((s3).view.loc (thrV d L) ↦{fullShare} fA) ∗ ((s7).view.loc (thrV d L) ↦{fullShare} fB) ∗ ((s10).view.loc (thrV d L) ↦{fullShare} fv0))
      ⊢ iprop((iprop(((s3).view.loc (thrV d L) ↦{fullShare} fA) ∗ ((s7).view.loc (thrV d L) ↦{fullShare} fB)
              ∗ ((s10).view.loc (thrV d L) ↦{fullShare} chunkScore fA fB))
            -∗ wp frame (wpE (defs₀ (F := F)) 𝒱₀ (thrV d L) none) Set.univ (k ()) Q)
          -∗ wp frame (wpE (defs₀ (F := F)) 𝒱₀ (thrV d L) none) Set.univ
              (Scf.Loop.for k0_t4_loop k0_t4_ok ⟨⟩ (k0_t4_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 0#32 c5) >>= k) Q) := by
  iintro ⟨HA, HB, Hv⟩ Hk
  iapply (Scf.wp_for_bind frame (wpE (defs₀ (F := F)) 𝒱₀ (thrV d L) none) Set.univ _ _ _ k0_t4_ok ⟨⟩ _
      (fun g _ => iprop(((s3).view.loc (thrV d L) ↦{fullShare} fA) ∗ ((s7).view.loc (thrV d L) ↦{fullShare} fB)
        ∗ ∃ fv : Buf (Elt F) ((s10).view.loc (thrV d L)), ((s10).view.loc (thrV d L) ↦{fullShare} fv)
            ∗ ⌜∀ j : Fin 80, j.val < 16 * g → fv (ix1 j) = chunkScore fA fB (ix1 j)⌝)) ?step) $$ [HA HB Hv] [Hk]
  case step =>
    intro g u
    have hg : g.val < 5 := Nat.lt_of_lt_of_eq g.isLt k0_t4_trips
    iintro ⟨HA, HB, %fv, Hv, %hfv⟩
    unfold k0_t4_body
    simp only [Prog.lift, Prog.bind_op, Prog.bind_ret, Prog.pure_eq_ret]
    iapply (inner_b d L v2 k1 a25 v41 c5 g fA fB _ _) $$ [HA HB]
    · isplitl [HA]; · iexact HA
      iexact HB
    iintro ⟨HA, HB⟩
    iapply (wp_load 𝒱₀ (thrV d L) none Set.univ (m := s10) (S := Finset.univ) (Finset.subset_univ _)) $$ Hv; iintro Hv
    ihave Hv' := (Entails.of_eq (show ((s10).view.loc (thrV d L) ↦{fullShare} fv : sProp 𝕄)
        = (((s10).access (Rect.unit (s := S80) (k0_off5 g) S16.size (k0_off5_inb g))).loc (thrV d L) ↦{fullShare} fv) from rfl)) $$ Hv
    iapply (wp_store 𝒱₀ (thrV d L) none Set.univ (m := s10) (r := Rect.unit (s := S80) (k0_off5 g) S16.size (k0_off5_inb g)) (Mk := Finset.univ) (S := Finset.univ) (Finset.subset_univ _)) $$ Hv'; iintro Hv'
    rw [wp_ret]; imodintro
    isplitl [HA]; · iexact HA
    isplitl [HB]; · iexact HB
    iexists _
    isplitl [Hv']; · iexact Hv'
    ipureintro
    intro j hj
    rw [out_store g.val (k0_off5 g) (k0_off5_eq g) (k0_off5_inb g)]
    split
    · rename_i hin
      show score (laneAcc fA fB g.val 128 (ix1 ⟨j.val - 16 * g.val, by omega⟩)) = score (accB fA fB j.val (j.val % 16) 128)
      show score (accB fA fB (16 * g.val + (j.val - 16 * g.val)) (j.val - 16 * g.val) 128) = _
      rw [show 16 * g.val + (j.val - 16 * g.val) = j.val by omega, show j.val - 16 * g.val = j.val % 16 by omega]
    · rename_i hin
      exact hfv j (by omega)
  · isplitl [HA]; · iexact HA
    isplitl [HB]; · iexact HB
    iexists fv0
    isplitl [Hv]; · iexact Hv
    ipureintro; intro j hj; omega
  · iintro %u ⟨HA, HB, %fv, Hv, %hfv⟩
    iapply Hk
    isplitl [HA]; · iexact HA
    isplitl [HB]; · iexact HB
    have hall : ∀ i ∈ (Finset.univ : Finset (S80.Idx)), fv i = chunkScore fA fB i := by
      intro i _
      obtain ⟨j, rfl⟩ : ∃ j : Fin 80, i = ix1 j := ⟨i 0, ValueIdx.eq_ix1 i⟩
      exact hfv j (by have := j.isLt; rw [show Scf.trips k0_t4_loop.lb k0_t4_loop.ub k0_t4_loop.st = 5 from k0_t4_trips]; omega)
    rw [← pointsTo_congr (f := fv) (g := chunkScore fA fB) hall]
    iexact Hv

theorem k0_t7_trips : k0_t7_loop.trips = 128 := by decide
theorem k0_t6_trips : k0_t6_loop.trips = 5 := by decide

/-- The 128 steps of one group on the blocks `s4`, `s8`: the lanes end at their accumulated products. -/
theorem inner_c (d : Dev nD) (L : grid0.Coords) (v2 : BitVec 32) (k1 : Fin k0_t1_loop.trips) (a25 v41 c057 c5 : BitVec 32) (g : Fin k0_t6_loop.trips)
    (fA : Buf (Elt F) ((s4).view.loc (thrV d L))) (fB : Buf (Elt F) ((s8).view.loc (thrV d L)))
    {α : Type} (k : FVec F S16 .f32 → Prog (TpuEff nD τ sig (Elt F) Λ₀ (thrV d L).2) α) (Q : α → sProp 𝕄) :
    iprop(((s4).view.loc (thrV d L) ↦{fullShare} fA) ∗ ((s8).view.loc (thrV d L) ↦{fullShare} fB))
      ⊢ iprop((iprop(((s4).view.loc (thrV d L) ↦{fullShare} fA) ∗ ((s8).view.loc (thrV d L) ↦{fullShare} fB))
            -∗ wp frame (wpE (defs₀ (F := F)) 𝒱₀ (thrV d L) none) Set.univ (k (laneAcc fA fB g.val 128)) Q)
          -∗ wp frame (wpE (defs₀ (F := F)) 𝒱₀ (thrV d L) none) Set.univ
              (Scf.Loop.for k0_t7_loop k0_t7_ok (k0_pay22 (F := F)) (k0_t7_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 c057 c5 (k0_pay21 lanes g)) >>= k) Q) := by
  have hg : g.val < 5 := Nat.lt_of_lt_of_eq g.isLt k0_t6_trips
  iintro ⟨HA, HB⟩ Hk
  iapply (Scf.wp_for_bind frame (wpE (defs₀ (F := F)) 𝒱₀ (thrV d L) none) Set.univ _ _ _ k0_t7_ok (k0_pay22 (F := F)) _
      (fun t acc => iprop(⌜acc = laneAcc fA fB g.val t⌝ ∗ ((s4).view.loc (thrV d L) ↦{fullShare} fA) ∗ ((s8).view.loc (thrV d L) ↦{fullShare} fB))) ?step) $$ [HA HB] [Hk]
  case step =>
    intro t acc
    have ht : t.val < 128 := Nat.lt_of_lt_of_eq t.isLt k0_t7_trips
    iintro ⟨%hacc, HA, HB⟩
    subst hacc
    unfold k0_t7_body
    simp only [Prog.lift, Prog.bind_op, Prog.bind_ret, Prog.pure_eq_ret]
    have hchk : k0_chk3 (k0_pay21 lanes g) (k0_pay23 lanes t) := by
      refine ⟨fun a x => ?_, fun a x => ?_⟩ <;>
      · match a with
        | ⟨0, _⟩ => exact rowVec_lt ⟨g.val, hg⟩ x
        | ⟨1, _⟩ => exact colVec_lt ⟨t.val, ht⟩ x
    rw [wp_assume_of _ _ _ _ hchk]
    ihave HA' := (Entails.of_eq (show ((s4).view.loc (thrV d L) ↦{fullShare} fA : sProp 𝕄) = (((s4).access (.whole S80x128)).loc (thrV d L) ↦{fullShare} fA) from rfl)) $$ HA
    iapply (SparseCore.wp_vectorLoadIdx 𝒱₀ (thrV d L) none Set.univ (base := s4) (S := Finset.univ) (q := fullShare) (Finset.subset_univ _)) $$ HA'; iintro HA'
    ihave HB' := (Entails.of_eq (show ((s8).view.loc (thrV d L) ↦{fullShare} fB : sProp 𝕄) = (((s8).access (.whole S80x128)).loc (thrV d L) ↦{fullShare} fB) from rfl)) $$ HB
    iapply (SparseCore.wp_vectorLoadIdx 𝒱₀ (thrV d L) none Set.univ (base := s8) (S := Finset.univ) (q := fullShare) (Finset.subset_univ _)) $$ HB'; iintro HB'
    rw [wp_ret]; imodintro
    isplitr
    · ipureintro
      show addf (laneAcc fA fB g.val t.val) (mulf _ _) = _
      refine laneAcc_succ fA fB ⟨g.val, hg⟩ ⟨t.val, ht⟩ _ _ (fun x => ?_) (fun x => ?_)
      · rw [read_access_whole]; exact loadIdx_block fA _ _ _ x _ _
      · rw [read_access_whole]; exact loadIdx_block fB _ _ _ x _ _
    isplitl [HA']; · iexact HA'
    iexact HB'
  · isplitr; · ipureintro; rfl
    isplitl [HA]; · iexact HA
    iexact HB
  · iintro %acc ⟨%hacc, HA, HB⟩
    subst hacc
    rw [show Scf.trips k0_t7_loop.lb k0_t7_loop.ub k0_t7_loop.st = 128 from k0_t7_trips]
    iapply Hk
    isplitl [HA]; · iexact HA
    iexact HB

/-- The five groups of a chunk on the blocks `s4`, `s8`: the out scratch ends at the chunk's eighty scores. -/
theorem group_c (d : Dev nD) (L : grid0.Coords) (v2 : BitVec 32) (k1 : Fin k0_t1_loop.trips) (a25 v41 c057 c5 : BitVec 32)
    (fA : Buf (Elt F) ((s4).view.loc (thrV d L))) (fB : Buf (Elt F) ((s8).view.loc (thrV d L))) (fv0 : Buf (Elt F) ((s10).view.loc (thrV d L)))
    {α : Type} (k : Unit → Prog (TpuEff nD τ sig (Elt F) Λ₀ (thrV d L).2) α) (Q : α → sProp 𝕄) :
    iprop(((s4).view.loc (thrV d L) ↦{fullShare} fA) ∗ ((s8).view.loc (thrV d L) ↦{fullShare} fB) ∗ ((s10).view.loc (thrV d L) ↦{fullShare} fv0))
      ⊢ iprop((iprop(((s4).view.loc (thrV d L) ↦{fullShare} fA) ∗ ((s8).view.loc (thrV d L) ↦{fullShare} fB)
              ∗ ((s10).view.loc (thrV d L) ↦{fullShare} chunkScore fA fB))
            -∗ wp frame (wpE (defs₀ (F := F)) 𝒱₀ (thrV d L) none) Set.univ (k ()) Q)
          -∗ wp frame (wpE (defs₀ (F := F)) 𝒱₀ (thrV d L) none) Set.univ
              (Scf.Loop.for k0_t6_loop k0_t6_ok ⟨⟩ (k0_t6_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 c057 c5) >>= k) Q) := by
  iintro ⟨HA, HB, Hv⟩ Hk
  iapply (Scf.wp_for_bind frame (wpE (defs₀ (F := F)) 𝒱₀ (thrV d L) none) Set.univ _ _ _ k0_t6_ok ⟨⟩ _
      (fun g _ => iprop(((s4).view.loc (thrV d L) ↦{fullShare} fA) ∗ ((s8).view.loc (thrV d L) ↦{fullShare} fB)
        ∗ ∃ fv : Buf (Elt F) ((s10).view.loc (thrV d L)), ((s10).view.loc (thrV d L) ↦{fullShare} fv)
            ∗ ⌜∀ j : Fin 80, j.val < 16 * g → fv (ix1 j) = chunkScore fA fB (ix1 j)⌝)) ?step) $$ [HA HB Hv] [Hk]
  case step =>
    intro g u
    have hg : g.val < 5 := Nat.lt_of_lt_of_eq g.isLt k0_t6_trips
    iintro ⟨HA, HB, %fv, Hv, %hfv⟩
    unfold k0_t6_body
    simp only [Prog.lift, Prog.bind_op, Prog.bind_ret, Prog.pure_eq_ret]
    iapply (inner_c d L v2 k1 a25 v41 c057 c5 g fA fB _ _) $$ [HA HB]
    · isplitl [HA]; · iexact HA
      iexact HB
    iintro ⟨HA, HB⟩
    iapply (wp_load 𝒱₀ (thrV d L) none Set.univ (m := s10) (S := Finset.univ) (Finset.subset_univ _)) $$ Hv; iintro Hv
    ihave Hv' := (Entails.of_eq (show ((s10).view.loc (thrV d L) ↦{fullShare} fv : sProp 𝕄)
        = (((s10).access (Rect.unit (s := S80) (k0_off7 g) S16.size (k0_off7_inb g))).loc (thrV d L) ↦{fullShare} fv) from rfl)) $$ Hv
    iapply (wp_store 𝒱₀ (thrV d L) none Set.univ (m := s10) (r := Rect.unit (s := S80) (k0_off7 g) S16.size (k0_off7_inb g)) (Mk := Finset.univ) (S := Finset.univ) (Finset.subset_univ _)) $$ Hv'; iintro Hv'
    rw [wp_ret]; imodintro
    isplitl [HA]; · iexact HA
    isplitl [HB]; · iexact HB
    iexists _
    isplitl [Hv']; · iexact Hv'
    ipureintro
    intro j hj
    rw [out_store g.val (k0_off7 g) (k0_off7_eq g) (k0_off7_inb g)]
    split
    · rename_i hin
      show score (laneAcc fA fB g.val 128 (ix1 ⟨j.val - 16 * g.val, by omega⟩)) = score (accB fA fB j.val (j.val % 16) 128)
      show score (accB fA fB (16 * g.val + (j.val - 16 * g.val)) (j.val - 16 * g.val) 128) = _
      rw [show 16 * g.val + (j.val - 16 * g.val) = j.val by omega, show j.val - 16 * g.val = j.val % 16 by omega]
    · rename_i hin
      exact hfv j (by omega)
  · isplitl [HA]; · iexact HA
    isplitl [HB]; · iexact HB
    iexists fv0
    isplitl [Hv]; · iexact Hv
    ipureintro; intro j hj; omega
  · iintro %u ⟨HA, HB, %fv, Hv, %hfv⟩
    iapply Hk
    isplitl [HA]; · iexact HA
    isplitl [HB]; · iexact HB
    have hall : ∀ i ∈ (Finset.univ : Finset (S80.Idx)), fv i = chunkScore fA fB i := by
      intro i _
      obtain ⟨j, rfl⟩ : ∃ j : Fin 80, i = ix1 j := ⟨i 0, ValueIdx.eq_ix1 i⟩
      exact hfv j (by have := j.isLt; rw [show Scf.trips k0_t6_loop.lb k0_t6_loop.ub k0_t6_loop.st = 5 from k0_t6_trips]; omega)
    rw [← pointsTo_congr (f := fv) (g := chunkScore fA fB) hall]
    iexact Hv

theorem k0_t9_trips : k0_t9_loop.trips = 128 := by decide
theorem k0_t8_trips : k0_t8_loop.trips = 5 := by decide

/-- The 128 steps of one group on the blocks `s5`, `s9`: the lanes end at their accumulated products. -/
theorem inner_d (d : Dev nD) (L : grid0.Coords)  (g : Fin k0_t8_loop.trips)
    (fA : Buf (Elt F) ((s5).view.loc (thrV d L))) (fB : Buf (Elt F) ((s9).view.loc (thrV d L)))
    {α : Type} (k : FVec F S16 .f32 → Prog (TpuEff nD τ sig (Elt F) Λ₀ (thrV d L).2) α) (Q : α → sProp 𝕄) :
    iprop(((s5).view.loc (thrV d L) ↦{fullShare} fA) ∗ ((s9).view.loc (thrV d L) ↦{fullShare} fB))
      ⊢ iprop((iprop(((s5).view.loc (thrV d L) ↦{fullShare} fA) ∗ ((s9).view.loc (thrV d L) ↦{fullShare} fB))
            -∗ wp frame (wpE (defs₀ (F := F)) 𝒱₀ (thrV d L) none) Set.univ (k (laneAcc fA fB g.val 128)) Q)
          -∗ wp frame (wpE (defs₀ (F := F)) 𝒱₀ (thrV d L) none) Set.univ
              (Scf.Loop.for k0_t9_loop k0_t9_ok (k0_pay2 (F := F)) (k0_t9_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 (k0_pay1 g)) >>= k) Q) := by
  have hg : g.val < 5 := Nat.lt_of_lt_of_eq g.isLt k0_t8_trips
  iintro ⟨HA, HB⟩ Hk
  iapply (Scf.wp_for_bind frame (wpE (defs₀ (F := F)) 𝒱₀ (thrV d L) none) Set.univ _ _ _ k0_t9_ok (k0_pay2 (F := F)) _
      (fun t acc => iprop(⌜acc = laneAcc fA fB g.val t⌝ ∗ ((s5).view.loc (thrV d L) ↦{fullShare} fA) ∗ ((s9).view.loc (thrV d L) ↦{fullShare} fB))) ?step) $$ [HA HB] [Hk]
  case step =>
    intro t acc
    have ht : t.val < 128 := Nat.lt_of_lt_of_eq t.isLt k0_t9_trips
    iintro ⟨%hacc, HA, HB⟩
    subst hacc
    unfold k0_t9_body
    simp only [Prog.lift, Prog.bind_op, Prog.bind_ret, Prog.pure_eq_ret]
    have hchk : k0_chk4 (k0_pay1 g) (k0_pay3 t) := by
      refine ⟨fun a x => ?_, fun a x => ?_⟩ <;>
      · match a with
        | ⟨0, _⟩ => exact rowVec_lt ⟨g.val, hg⟩ x
        | ⟨1, _⟩ => exact colVec_lt ⟨t.val, ht⟩ x
    rw [wp_assume_of _ _ _ _ hchk]
    ihave HA' := (Entails.of_eq (show ((s5).view.loc (thrV d L) ↦{fullShare} fA : sProp 𝕄) = (((s5).access (.whole S80x128)).loc (thrV d L) ↦{fullShare} fA) from rfl)) $$ HA
    iapply (SparseCore.wp_vectorLoadIdx 𝒱₀ (thrV d L) none Set.univ (base := s5) (S := Finset.univ) (q := fullShare) (Finset.subset_univ _)) $$ HA'; iintro HA'
    ihave HB' := (Entails.of_eq (show ((s9).view.loc (thrV d L) ↦{fullShare} fB : sProp 𝕄) = (((s9).access (.whole S80x128)).loc (thrV d L) ↦{fullShare} fB) from rfl)) $$ HB
    iapply (SparseCore.wp_vectorLoadIdx 𝒱₀ (thrV d L) none Set.univ (base := s9) (S := Finset.univ) (q := fullShare) (Finset.subset_univ _)) $$ HB'; iintro HB'
    rw [wp_ret]; imodintro
    isplitr
    · ipureintro
      show addf (laneAcc fA fB g.val t.val) (mulf _ _) = _
      refine laneAcc_succ fA fB ⟨g.val, hg⟩ ⟨t.val, ht⟩ _ _ (fun x => ?_) (fun x => ?_)
      · rw [read_access_whole]; exact loadIdx_block fA _ _ _ x _ _
      · rw [read_access_whole]; exact loadIdx_block fB _ _ _ x _ _
    isplitl [HA']; · iexact HA'
    iexact HB'
  · isplitr; · ipureintro; rfl
    isplitl [HA]; · iexact HA
    iexact HB
  · iintro %acc ⟨%hacc, HA, HB⟩
    subst hacc
    rw [show Scf.trips k0_t9_loop.lb k0_t9_loop.ub k0_t9_loop.st = 128 from k0_t9_trips]
    iapply Hk
    isplitl [HA]; · iexact HA
    iexact HB

/-- The five groups of a chunk on the blocks `s5`, `s9`: the out scratch ends at the chunk's eighty scores. -/
theorem group_d (d : Dev nD) (L : grid0.Coords)
    (fA : Buf (Elt F) ((s5).view.loc (thrV d L))) (fB : Buf (Elt F) ((s9).view.loc (thrV d L))) (fv0 : Buf (Elt F) ((s10).view.loc (thrV d L)))
    {α : Type} (k : Unit → Prog (TpuEff nD τ sig (Elt F) Λ₀ (thrV d L).2) α) (Q : α → sProp 𝕄) :
    iprop(((s5).view.loc (thrV d L) ↦{fullShare} fA) ∗ ((s9).view.loc (thrV d L) ↦{fullShare} fB) ∗ ((s10).view.loc (thrV d L) ↦{fullShare} fv0))
      ⊢ iprop((iprop(((s5).view.loc (thrV d L) ↦{fullShare} fA) ∗ ((s9).view.loc (thrV d L) ↦{fullShare} fB)
              ∗ ((s10).view.loc (thrV d L) ↦{fullShare} chunkScore fA fB))
            -∗ wp frame (wpE (defs₀ (F := F)) 𝒱₀ (thrV d L) none) Set.univ (k ()) Q)
          -∗ wp frame (wpE (defs₀ (F := F)) 𝒱₀ (thrV d L) none) Set.univ
              (Scf.Loop.for k0_t8_loop k0_t8_ok ⟨⟩ (k0_t8_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 ) >>= k) Q) := by
  iintro ⟨HA, HB, Hv⟩ Hk
  iapply (Scf.wp_for_bind frame (wpE (defs₀ (F := F)) 𝒱₀ (thrV d L) none) Set.univ _ _ _ k0_t8_ok ⟨⟩ _
      (fun g _ => iprop(((s5).view.loc (thrV d L) ↦{fullShare} fA) ∗ ((s9).view.loc (thrV d L) ↦{fullShare} fB)
        ∗ ∃ fv : Buf (Elt F) ((s10).view.loc (thrV d L)), ((s10).view.loc (thrV d L) ↦{fullShare} fv)
            ∗ ⌜∀ j : Fin 80, j.val < 16 * g → fv (ix1 j) = chunkScore fA fB (ix1 j)⌝)) ?step) $$ [HA HB Hv] [Hk]
  case step =>
    intro g u
    have hg : g.val < 5 := Nat.lt_of_lt_of_eq g.isLt k0_t8_trips
    iintro ⟨HA, HB, %fv, Hv, %hfv⟩
    unfold k0_t8_body
    simp only [Prog.lift, Prog.bind_op, Prog.bind_ret, Prog.pure_eq_ret]
    iapply (inner_d d L  g fA fB _ _) $$ [HA HB]
    · isplitl [HA]; · iexact HA
      iexact HB
    iintro ⟨HA, HB⟩
    iapply (wp_load 𝒱₀ (thrV d L) none Set.univ (m := s10) (S := Finset.univ) (Finset.subset_univ _)) $$ Hv; iintro Hv
    ihave Hv' := (Entails.of_eq (show ((s10).view.loc (thrV d L) ↦{fullShare} fv : sProp 𝕄)
        = (((s10).access (Rect.unit (s := S80) (k0_off9 g) S16.size (k0_off9_inb g))).loc (thrV d L) ↦{fullShare} fv) from rfl)) $$ Hv
    iapply (wp_store 𝒱₀ (thrV d L) none Set.univ (m := s10) (r := Rect.unit (s := S80) (k0_off9 g) S16.size (k0_off9_inb g)) (Mk := Finset.univ) (S := Finset.univ) (Finset.subset_univ _)) $$ Hv'; iintro Hv'
    rw [wp_ret]; imodintro
    isplitl [HA]; · iexact HA
    isplitl [HB]; · iexact HB
    iexists _
    isplitl [Hv']; · iexact Hv'
    ipureintro
    intro j hj
    rw [out_store g.val (k0_off9 g) (k0_off9_eq g) (k0_off9_inb g)]
    split
    · rename_i hin
      show score (laneAcc fA fB g.val 128 (ix1 ⟨j.val - 16 * g.val, by omega⟩)) = score (accB fA fB j.val (j.val % 16) 128)
      show score (accB fA fB (16 * g.val + (j.val - 16 * g.val)) (j.val - 16 * g.val) 128) = _
      rw [show 16 * g.val + (j.val - 16 * g.val) = j.val by omega, show j.val - 16 * g.val = j.val % 16 by omega]
    · rename_i hin
      exact hfv j (by omega)
  · isplitl [HA]; · iexact HA
    isplitl [HB]; · iexact HB
    iexists fv0
    isplitl [Hv]; · iexact Hv
    ipureintro; intro j hj; omega
  · iintro %u ⟨HA, HB, %fv, Hv, %hfv⟩
    iapply Hk
    isplitl [HA]; · iexact HA
    isplitl [HB]; · iexact HB
    have hall : ∀ i ∈ (Finset.univ : Finset (S80.Idx)), fv i = chunkScore fA fB i := by
      intro i _
      obtain ⟨j, rfl⟩ : ∃ j : Fin 80, i = ix1 j := ⟨i 0, ValueIdx.eq_ix1 i⟩
      exact hfv j (by have := j.isLt; rw [show Scf.trips k0_t8_loop.lb k0_t8_loop.ub k0_t8_loop.st = 5 from k0_t8_trips]; omega)
    rw [← pointsTo_congr (f := fv) (g := chunkScore fA fB) hall]
    iexact Hv

theorem k0_t11_trips : k0_t11_loop.trips = 128 := by decide
theorem k0_t10_trips : k0_t10_loop.trips = 5 := by decide

/-- The 128 steps of one group on the blocks `s2`, `s6`: the lanes end at their accumulated products. -/
theorem inner_e (d : Dev nD) (L : grid0.Coords)  (g : Fin k0_t10_loop.trips)
    (fA : Buf (Elt F) ((s2).view.loc (thrV d L))) (fB : Buf (Elt F) ((s6).view.loc (thrV d L)))
    {α : Type} (k : FVec F S16 .f32 → Prog (TpuEff nD τ sig (Elt F) Λ₀ (thrV d L).2) α) (Q : α → sProp 𝕄) :
    iprop(((s2).view.loc (thrV d L) ↦{fullShare} fA) ∗ ((s6).view.loc (thrV d L) ↦{fullShare} fB))
      ⊢ iprop((iprop(((s2).view.loc (thrV d L) ↦{fullShare} fA) ∗ ((s6).view.loc (thrV d L) ↦{fullShare} fB))
            -∗ wp frame (wpE (defs₀ (F := F)) 𝒱₀ (thrV d L) none) Set.univ (k (laneAcc fA fB g.val 128)) Q)
          -∗ wp frame (wpE (defs₀ (F := F)) 𝒱₀ (thrV d L) none) Set.univ
              (Scf.Loop.for k0_t11_loop k0_t11_ok (k0_pay7 (F := F)) (k0_t11_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 (k0_pay6 g)) >>= k) Q) := by
  have hg : g.val < 5 := Nat.lt_of_lt_of_eq g.isLt k0_t10_trips
  iintro ⟨HA, HB⟩ Hk
  iapply (Scf.wp_for_bind frame (wpE (defs₀ (F := F)) 𝒱₀ (thrV d L) none) Set.univ _ _ _ k0_t11_ok (k0_pay7 (F := F)) _
      (fun t acc => iprop(⌜acc = laneAcc fA fB g.val t⌝ ∗ ((s2).view.loc (thrV d L) ↦{fullShare} fA) ∗ ((s6).view.loc (thrV d L) ↦{fullShare} fB))) ?step) $$ [HA HB] [Hk]
  case step =>
    intro t acc
    have ht : t.val < 128 := Nat.lt_of_lt_of_eq t.isLt k0_t11_trips
    iintro ⟨%hacc, HA, HB⟩
    subst hacc
    unfold k0_t11_body
    simp only [Prog.lift, Prog.bind_op, Prog.bind_ret, Prog.pure_eq_ret]
    have hchk : k0_chk5 (k0_pay6 g) (k0_pay8 t) := by
      refine ⟨fun a x => ?_, fun a x => ?_⟩ <;>
      · match a with
        | ⟨0, _⟩ => exact rowVec_lt ⟨g.val, hg⟩ x
        | ⟨1, _⟩ => exact colVec_lt ⟨t.val, ht⟩ x
    rw [wp_assume_of _ _ _ _ hchk]
    ihave HA' := (Entails.of_eq (show ((s2).view.loc (thrV d L) ↦{fullShare} fA : sProp 𝕄) = (((s2).access (.whole S80x128)).loc (thrV d L) ↦{fullShare} fA) from rfl)) $$ HA
    iapply (SparseCore.wp_vectorLoadIdx 𝒱₀ (thrV d L) none Set.univ (base := s2) (S := Finset.univ) (q := fullShare) (Finset.subset_univ _)) $$ HA'; iintro HA'
    ihave HB' := (Entails.of_eq (show ((s6).view.loc (thrV d L) ↦{fullShare} fB : sProp 𝕄) = (((s6).access (.whole S80x128)).loc (thrV d L) ↦{fullShare} fB) from rfl)) $$ HB
    iapply (SparseCore.wp_vectorLoadIdx 𝒱₀ (thrV d L) none Set.univ (base := s6) (S := Finset.univ) (q := fullShare) (Finset.subset_univ _)) $$ HB'; iintro HB'
    rw [wp_ret]; imodintro
    isplitr
    · ipureintro
      show addf (laneAcc fA fB g.val t.val) (mulf _ _) = _
      refine laneAcc_succ fA fB ⟨g.val, hg⟩ ⟨t.val, ht⟩ _ _ (fun x => ?_) (fun x => ?_)
      · rw [read_access_whole]; exact loadIdx_block fA _ _ _ x _ _
      · rw [read_access_whole]; exact loadIdx_block fB _ _ _ x _ _
    isplitl [HA']; · iexact HA'
    iexact HB'
  · isplitr; · ipureintro; rfl
    isplitl [HA]; · iexact HA
    iexact HB
  · iintro %acc ⟨%hacc, HA, HB⟩
    subst hacc
    rw [show Scf.trips k0_t11_loop.lb k0_t11_loop.ub k0_t11_loop.st = 128 from k0_t11_trips]
    iapply Hk
    isplitl [HA]; · iexact HA
    iexact HB

/-- The five groups of a chunk on the blocks `s2`, `s6`: the out scratch ends at the chunk's eighty scores. -/
theorem group_e (d : Dev nD) (L : grid0.Coords)
    (fA : Buf (Elt F) ((s2).view.loc (thrV d L))) (fB : Buf (Elt F) ((s6).view.loc (thrV d L))) (fv0 : Buf (Elt F) ((s10).view.loc (thrV d L)))
    {α : Type} (k : Unit → Prog (TpuEff nD τ sig (Elt F) Λ₀ (thrV d L).2) α) (Q : α → sProp 𝕄) :
    iprop(((s2).view.loc (thrV d L) ↦{fullShare} fA) ∗ ((s6).view.loc (thrV d L) ↦{fullShare} fB) ∗ ((s10).view.loc (thrV d L) ↦{fullShare} fv0))
      ⊢ iprop((iprop(((s2).view.loc (thrV d L) ↦{fullShare} fA) ∗ ((s6).view.loc (thrV d L) ↦{fullShare} fB)
              ∗ ((s10).view.loc (thrV d L) ↦{fullShare} chunkScore fA fB))
            -∗ wp frame (wpE (defs₀ (F := F)) 𝒱₀ (thrV d L) none) Set.univ (k ()) Q)
          -∗ wp frame (wpE (defs₀ (F := F)) 𝒱₀ (thrV d L) none) Set.univ
              (Scf.Loop.for k0_t10_loop k0_t10_ok ⟨⟩ (k0_t10_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 ) >>= k) Q) := by
  iintro ⟨HA, HB, Hv⟩ Hk
  iapply (Scf.wp_for_bind frame (wpE (defs₀ (F := F)) 𝒱₀ (thrV d L) none) Set.univ _ _ _ k0_t10_ok ⟨⟩ _
      (fun g _ => iprop(((s2).view.loc (thrV d L) ↦{fullShare} fA) ∗ ((s6).view.loc (thrV d L) ↦{fullShare} fB)
        ∗ ∃ fv : Buf (Elt F) ((s10).view.loc (thrV d L)), ((s10).view.loc (thrV d L) ↦{fullShare} fv)
            ∗ ⌜∀ j : Fin 80, j.val < 16 * g → fv (ix1 j) = chunkScore fA fB (ix1 j)⌝)) ?step) $$ [HA HB Hv] [Hk]
  case step =>
    intro g u
    have hg : g.val < 5 := Nat.lt_of_lt_of_eq g.isLt k0_t10_trips
    iintro ⟨HA, HB, %fv, Hv, %hfv⟩
    unfold k0_t10_body
    simp only [Prog.lift, Prog.bind_op, Prog.bind_ret, Prog.pure_eq_ret]
    iapply (inner_e d L  g fA fB _ _) $$ [HA HB]
    · isplitl [HA]; · iexact HA
      iexact HB
    iintro ⟨HA, HB⟩
    iapply (wp_load 𝒱₀ (thrV d L) none Set.univ (m := s10) (S := Finset.univ) (Finset.subset_univ _)) $$ Hv; iintro Hv
    ihave Hv' := (Entails.of_eq (show ((s10).view.loc (thrV d L) ↦{fullShare} fv : sProp 𝕄)
        = (((s10).access (Rect.unit (s := S80) (k0_off11 g) S16.size (k0_off11_inb g))).loc (thrV d L) ↦{fullShare} fv) from rfl)) $$ Hv
    iapply (wp_store 𝒱₀ (thrV d L) none Set.univ (m := s10) (r := Rect.unit (s := S80) (k0_off11 g) S16.size (k0_off11_inb g)) (Mk := Finset.univ) (S := Finset.univ) (Finset.subset_univ _)) $$ Hv'; iintro Hv'
    rw [wp_ret]; imodintro
    isplitl [HA]; · iexact HA
    isplitl [HB]; · iexact HB
    iexists _
    isplitl [Hv']; · iexact Hv'
    ipureintro
    intro j hj
    rw [out_store g.val (k0_off11 g) (k0_off11_eq g) (k0_off11_inb g)]
    split
    · rename_i hin
      show score (laneAcc fA fB g.val 128 (ix1 ⟨j.val - 16 * g.val, by omega⟩)) = score (accB fA fB j.val (j.val % 16) 128)
      show score (accB fA fB (16 * g.val + (j.val - 16 * g.val)) (j.val - 16 * g.val) 128) = _
      rw [show 16 * g.val + (j.val - 16 * g.val) = j.val by omega, show j.val - 16 * g.val = j.val % 16 by omega]
    · rename_i hin
      exact hfv j (by omega)
  · isplitl [HA]; · iexact HA
    isplitl [HB]; · iexact HB
    iexists fv0
    isplitl [Hv]; · iexact Hv
    ipureintro; intro j hj; omega
  · iintro %u ⟨HA, HB, %fv, Hv, %hfv⟩
    iapply Hk
    isplitl [HA]; · iexact HA
    isplitl [HB]; · iexact HB
    have hall : ∀ i ∈ (Finset.univ : Finset (S80.Idx)), fv i = chunkScore fA fB i := by
      intro i _
      obtain ⟨j, rfl⟩ : ∃ j : Fin 80, i = ix1 j := ⟨i 0, ValueIdx.eq_ix1 i⟩
      exact hfv j (by have := j.isLt; rw [show Scf.trips k0_t10_loop.lb k0_t10_loop.ub k0_t10_loop.st = 5 from k0_t10_trips]; omega)
    rw [← pointsTo_congr (f := fv) (g := chunkScore fA fB) hall]
    iexact Hv

end Cert.Proof.KB
end
-- ==== Proof.KBChunk.lean ====
/-
  The value of one chunk of eighty edges.

  A chunk's two gathered blocks hold, in row `q`, the table's rows named by word `b + 80 n + q` of the row words and of
  the column words (the list's offset `80 n + q` stays below 10000 and the subcore's base plus 10000 stays inside the
  320000, so the two reductions in the lists' definitions do nothing). A lane's accumulator over the blocks is therefore,
  step by step, the accumulator over the table at those two words; and because the subcore's base and `80 n` are
  multiples of sixteen, edge `b + 80 n + q` is lane `q mod 16` of its group, the lane the specification gives it. So
  the chunk's eighty scores, copied out, are the claimed result on the chunk's segment.
-/
import proofs.«209252_g55662776156339_cont_9to1_m_525_47_alg».proof.Proof.KBViews
import proofs.«209252_g55662776156339_cont_9to1_m_525_47_alg».proof.Proof.KBAcc

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

/-- A lane's accumulator over a gathered pair of blocks is the accumulator over the table itself, when the lane's row
    of each block is the table's row a word names. -/
theorem accB_eq_accL (z : FVec F S10000x128 .f32) (fA fB : FVec F S80x128 .f32) (w₁ w₂ : BitVec 32) (r l : ℕ)
    (hA : ∀ c : Fin 128, fA (ix2 ⟨r % 80, Nat.mod_lt _ (by decide)⟩ c) = z (ix2 (rowOfWord w₁) c))
    (hB : ∀ c : Fin 128, fB (ix2 ⟨r % 80, Nat.mod_lt _ (by decide)⟩ c) = z (ix2 (rowOfWord w₂) c)) :
    ∀ t : ℕ, accB fA fB r l t = accL z w₁ w₂ l t
  | 0 => rfl
  | t + 1 => by
    rw [accB, accL, accB_eq_accL z fA fB w₁ w₂ r l hA hB t, hA, hB]

/-- Row `q` of the block gathered at the eighty words from offset `80 n` of the subcore's list is the table's row named by
    word `b + 80 n + q` of the 320000. -/
theorem gath_row (z : FVec F S10000x128 .f32) (ri : IVec S320000 32) (b n : ℕ) (hb : b + 10000 ≤ 320000) (hn : n < 125)
    (q : ℕ) (hq : q < 80) (j : S320000.Idx) (hj : (j 0).val = b + 80 * n + q) (c : Fin 128) :
    gath z (wordsAt (listOf ri b) (80 * n)) (ix2 ⟨q % 80, Nat.mod_lt _ (by decide)⟩ c) = z (ix2 (rowOfWord (ri j)) c) := by
  show z (ix2 (rowOfWord (wordsAt (listOf ri b) (80 * n) ⟨q % 80, Nat.mod_lt _ (by decide)⟩)) c) = z (ix2 (rowOfWord (ri j)) c)
  refine congrArg (fun w => z (ix2 (rowOfWord w) c)) ?_
  unfold wordsAt listOf
  refine congrArg ri (funext fun a => ?_)
  match a with
  | ⟨0, _⟩ =>
    apply Fin.ext
    show (b + (80 * n + q % 80) % 10000) % 320000 = (j 0).val
    omega

/-- THE VALUE OF ONE CHUNK, at plain arrays: score `q` of the chunk at offset `80 n` of the list starting at word `b`
    (a multiple of 16) is the claimed result at word `b + 80 n + q`. -/
theorem chunk_value (z : FVec F S10000x128 .f32) (ri ci : IVec S320000 32) (b n : ℕ) (hb : b + 10000 ≤ 320000)
    (h16 : b % 16 = 0) (hn : n < 125) (q : ℕ) (hq : q < 80) (j : S320000.Idx) (hj : (j 0).val = b + 80 * n + q) :
    chunkScore (gath z (wordsAt (listOf ri b) (80 * n))) (gath z (wordsAt (listOf ci b) (80 * n)))
        (ix1 ⟨q % 80, Nat.mod_lt _ (by decide)⟩)
      = outSpec z ri ci j := by
  have hl : q % 80 % 16 = (j 0).val % 16 := by omega
  show score (accB _ _ (q % 80) (q % 80 % 16) 128) = score (accL z (ri j) (ci j) ((j 0).val % 16) 128)
  rw [hl]
  refine congrArg score (accB_eq_accL z _ _ (ri j) (ci j) (q % 80) _ (fun c => ?_) (fun c => ?_) 128)
  · have := gath_row z ri b n hb hn (q % 80) (Nat.mod_lt _ (by decide)) j (by omega) c
    exact this
  · have := gath_row z ci b n hb hn (q % 80) (Nat.mod_lt _ (by decide)) j (by omega) c
    exact this

/-- Every subcore's base is a multiple of sixteen. -/
theorem baseOf_mod16 (L : grid0.Coords) : baseOf L % 16 = 0 := by
  unfold baseOf; omega

/-- THE VALUE OF ONE CHUNK: the copy-out of chunk `n`'s eighty scores leaves, on its segment of the result, the claimed
    result. -/
theorem chunk_landed (m : (ℓ : Loc nD τ sig) → Buf (Elt F) ℓ) (A : (d : Dev nD) → Arrays (F := F) d) (d : Dev nD)
    (L : grid0.Coords) (n : ℕ) (hn : n < 125) (o : Fin 1 → Nat) (ho : o 0 = baseOf L + 80 * n)
    (h : ∀ a, o a + S80.size a ≤ S320000.size a) (fo : Buf (Elt F) (oLoc d)) :
    ∀ j ∈ seg (o 0) 80,
      (osl o h).view.write (Elt F) fo (ReadAs.same.apply ((s10).view.read (Elt F)
          (chunkScore (gath (m (zLoc d)) (wordsAt (listOf (A d).ri (baseOf L)) (80 * n)))
            (gath (m (zLoc d)) (wordsAt (listOf (A d).ci (baseOf L)) (80 * n)))))) Finset.univ j
        = outOf m A d j := by
  intro j hj
  rw [out_landed o h fo _ j hj]
  rw [mem_seg] at hj
  exact chunk_value (m (zLoc d)) (A d).ri (A d).ci (baseOf L) n (baseOf_le L) (baseOf_mod16 L) hn ((j 0).val - o 0)
    (by omega) j (by omega)

end Cert.Proof.KB

end
-- ==== Proof.KBOut.lean ====
/-
  The result array between chunks, and the main loop's conditions and offsets in closed form.

  With the first `n` chunks written, the subcore's 10000 result words are the `80 n` written ones followed by the
  `10000 − 80 n` still as launched. Taking chunk `n` splits the latter at 80 into the chunk's words and the rest;
  putting it back, once the chunk's eighty words hold the claimed result, joins them to the written ones: `80 n + 80 =
  80 (n + 1)`, and the rest is what remains after `n + 1` chunks. Ownership of a segment splits and joins as the
  segment does. The loop's trip `k` (of 31) works on chunks `4 k … 4 k + 3` and prefetches chunks `4 k + 4 … 4 k + 7`
  when they exist: the first always does (`4 k + 4 < 125` for every `k < 31`), the other three exactly when `k < 30`.
-/
import proofs.«209252_g55662776156339_cont_9to1_m_525_47_alg».proof.Proof.KBState
import proofs.«209252_g55662776156339_cont_9to1_m_525_47_alg».proof.Proof.KBChunk

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

variable (m : (ℓ : Loc nD τ sig) → Buf (Elt F) ℓ) (A : (d : Dev nD) → Arrays (F := F) d) (d : Dev nD) (L : grid0.Coords)

/-! ## The result between chunks -/

/-- (O1) Before chunk `n`: the words already written, the chunk's eighty words, and the words after them. -/
theorem out_take (n : ℕ) (hn : n < 125) :
    outSt m A d L n ⊢ iprop((oLoc d ↦[seg (baseOf L) (80 * n)]{fullShare} outOf m A d)
      ∗ (oLoc d ↦[seg (baseOf L + 80 * n) 80]{fullShare} m (oLoc d))
      ∗ (oLoc d ↦[seg (baseOf L + 80 * n + 80) (10000 - 80 * n - 80)]{fullShare} m (oLoc d))) := by
  unfold outSt
  have e : 10000 - 80 * n = 80 + (10000 - 80 * n - 80) := by omega
  conv_lhs => rw [e]
  exact sep_mono_right (seg_split d (baseOf L + 80 * n) 80 (10000 - 80 * n - 80) fullShare (m (oLoc d))).mp

/-- (O2) After chunk `n`: its eighty words, now at the claimed result, join the words already written. -/
theorem out_put (n : ℕ) (hn : n < 125) (f : Buf (Elt F) (oLoc d))
    (hf : ∀ j ∈ seg (baseOf L + 80 * n) 80, f j = outOf m A d j) :
    iprop((oLoc d ↦[seg (baseOf L) (80 * n)]{fullShare} outOf m A d)
      ∗ (oLoc d ↦[seg (baseOf L + 80 * n) 80]{fullShare} f)
      ∗ (oLoc d ↦[seg (baseOf L + 80 * n + 80) (10000 - 80 * n - 80)]{fullShare} m (oLoc d)))
      ⊢ outSt m A d L (n + 1) := by
  unfold outSt
  have e1 : 80 * (n + 1) = 80 * n + 80 := by omega
  have e2 : baseOf L + (80 * n + 80) = baseOf L + 80 * n + 80 := by omega
  have e3 : 10000 - (80 * n + 80) = 10000 - 80 * n - 80 := by omega
  have hB : (oLoc d ↦[seg (baseOf L + 80 * n) 80]{fullShare} f : sProp 𝕄)
      = (oLoc d ↦[seg (baseOf L + 80 * n) 80]{fullShare} outOf m A d) := pointsTo_congr hf
  rw [e1, e2, e3, hB]
  exact sep_assoc.mpr.trans
    (sep_mono_left (seg_split d (baseOf L) (80 * n) 80 fullShare (outOf m A d)).mpr)

/-! ## (O3) the generated conditions and offsets of the main loop, in the forms the body's proof uses -/

theorem cond1_true : ∀ k : Fin k0_t1_loop.trips, k0_cond1 k = 1#1 := by decide +kernel
theorem cond2_iff : ∀ k : Fin k0_t1_loop.trips, k0_cond2 k = 1#1 ↔ k.val < 30 := by decide +kernel
theorem cond3_iff : ∀ k : Fin k0_t1_loop.trips, k0_cond3 k = 1#1 ↔ k.val < 30 := by decide +kernel
theorem cond4_iff : ∀ k : Fin k0_t1_loop.trips, k0_cond4 k = 1#1 ↔ k.val < 30 := by decide +kernel

theorem off4_eq (k : Fin k0_t1_loop.trips) : k0_off4 k = ![80 * (4 * k.val + 4)] :=
  (k0_off4_eq k).trans (congrArg (fun x : ℕ => (![x] : Fin 1 → ℕ)) (by omega))
theorem off6_eq (k : Fin k0_t1_loop.trips) : k0_off6 k = ![80 * (4 * k.val + 5)] :=
  (k0_off6_eq k).trans (congrArg (fun x : ℕ => (![x] : Fin 1 → ℕ)) (by omega))
theorem off8_eq (k : Fin k0_t1_loop.trips) : k0_off8 k = ![80 * (4 * k.val + 6)] :=
  (k0_off8_eq k).trans (congrArg (fun x : ℕ => (![x] : Fin 1 → ℕ)) (by omega))
theorem off10_eq (k : Fin k0_t1_loop.trips) : k0_off10 k = ![80 * (4 * k.val + 7)] :=
  (k0_off10_eq k).trans (congrArg (fun x : ℕ => (![x] : Fin 1 → ℕ)) (by omega))

theorem off3_eq (L : grid0.Coords) (k : Fin k0_t1_loop.trips) (r : Fin 4) :
    k0_off3 L k (BitVec.ofNat 32 r.val) 0 = baseOf L + 80 * (4 * k.val + r.val) := by
  rw [k0_off3_eq]
  show 20000 * (L 1).val + 10000 * (L 0).val + 320 * k.val + 80 * r.val = baseOf L + 80 * (4 * k.val + r.val)
  unfold baseOf
  omega

theorem off12_eq (L : grid0.Coords) : k0_off12 L 0 = baseOf L + 80 * 124 := by
  rw [k0_off12_eq]
  show 20000 * (L 1).val + 10000 * (L 0).val + 9920 = baseOf L + 80 * 124
  unfold baseOf
  omega

end Cert.Proof.KB

end
-- ==== Proof.KBSlots.lean ====
/-
  The body's larger steps: the first copies of the word lists, a slot launching a chunk (its two gathers), and a whole
  chunk computed on a slot (two waits, the groups, the copy out), each from and to the task's state.
-/
import proofs.«209252_g55662776156339_cont_9to1_m_525_47_alg».proof.Proof.KBOps
import proofs.«209252_g55662776156339_cont_9to1_m_525_47_alg».proof.Proof.KBLoops
import proofs.«209252_g55662776156339_cont_9to1_m_525_47_alg».proof.Proof.KBOut

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]
variable (m : (ℓ : Loc nD τ sig) → Buf (Elt F) ℓ) (A : (d : Dev nD) → Arrays (F := F) d)

omit [FloatOps F] in
theorem lrR_range (d : Dev nD) (L : grid0.Coords) (hR : InRange A) : ∀ j, (lrR A d L j).toNat < 10000 := fun _ => (hR d _).1
omit [FloatOps F] in
theorem lrC_range (d : Dev nD) (L : grid0.Coords) (hR : InRange A) : ∀ j, (lrC A d L j).toNat < 10000 := fun _ => (hR d _).2

/-- What the task owes, with its waits so far beyond `W` all at the kernel's own index. -/
def owesSt (d : Dev nD) (L : grid0.Coords) (O : CellTallies nD τ sig (HIx 1)) (W : Waits sig (HIx 1)) : sProp 𝕄 :=
  iprop(∃ W', ⌜∀ p ∈ W', p ∈ W ∨ p.2 = none⌝ ∗ owes (thrV d L) O W')

/-- Slot 0 launches chunk `n`: its two gathers, one after the other, each on its own semaphore. -/
theorem launch0 (d : Dev nD) (L : grid0.Coords) (hR : InRange A) (n : ℕ) (hn : n < 125)
    (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    slotIdle0 m A d L
      ⊢ iprop((slotFl0 m A d L n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s2 gathers_S10000x128_S80x128 (lsl s0 o h) rfl cc0_scratch11.sem (View.wordExact_bits rfl) rfl (Or.inl rfl) >>= fun _ =>
               SparseCore.enqueueIndirectGather rfl zSl s6 gathers_S10000x128_S80x128 (lsl s1 o h) rfl cc0_scratch15.sem (View.wordExact_bits rfl) rfl (Or.inl rfl) >>= k) Q) := by
  unfold slotIdle0 slotFl0
  iintro ⟨⟨%fa, HA⟩, ⟨%fb, HB⟩, HzR, HzC, HlR, HlC, HsR, HsC⟩ Hk
  iapply (issue_s2 m d L _ _ fa (lrR A d L) (lrR_range A d L hR) n hn o h ho _ _) $$ [HzR HA HlR HsR]
  · isplitl [HzR]; · iexact HzR
    isplitl [HA]; · iexact HA
    isplitl [HlR]; · iexact HlR
    iexact HsR
  iintro HflR
  iapply (issue_s6 m d L _ _ fb (lrC A d L) (lrC_range A d L hR) n hn o h ho _ _) $$ [HzC HB HlC HsC]
  · isplitl [HzC]; · iexact HzC
    isplitl [HB]; · iexact HB
    isplitl [HlC]; · iexact HlC
    iexact HsC
  iintro HflC
  iapply Hk
  isplitl [HflR]; · iexact HflR
  iexact HflC

/-- Slot 0 after a chunk: launch chunk `n` if there is one (the printed condition `c`), else stay at rest. -/
theorem relaunch0 (d : Dev nD) (L : grid0.Coords) (hR : InRange A) (n : ℕ) (c : BitVec 1) (hc : c = 1#1 ↔ n < 125)
    (o : Fin 1 → Nat) (hb : c = 1#1 → ∀ a, o a + S80.size a ≤ S10000.size a) (ho : o = ![80 * n])
    {α : Type} (k : PUnit → Prog (TpuEff nD τ sig (Elt F) Λ₀ (thrV d L).2) α) (Q : α → sProp 𝕄) :
    slotIdle0 m A d L
      ⊢ iprop((slot0 m A d L n -∗ wp frame (wpE (defs₀ (F := F)) 𝒱₀ (thrV d L) none) Set.univ (k ⟨⟩) Q)
          -∗ wp frame (wpE (defs₀ (F := F)) 𝒱₀ (thrV d L) none) Set.univ
              ((if h : c = 1#1 then
                  (SparseCore.enqueueIndirectGather rfl zSl s2 gathers_S10000x128_S80x128 (lsl s0 o (hb h)) rfl cc0_scratch11.sem (View.wordExact_bits rfl) rfl (Or.inl rfl) >>= fun _ =>
                   SparseCore.enqueueIndirectGather rfl zSl s6 gathers_S10000x128_S80x128 (lsl s1 o (hb h)) rfl cc0_scratch15.sem (View.wordExact_bits rfl) rfl (Or.inl rfl) >>= fun _ =>
                   Prog.ret ⟨⟩)
                else Prog.ret ⟨⟩) >>= k) Q) := by
  by_cases h : c = 1#1
  · have hn : n < 125 := hc.1 h
    rw [dif_pos h]
    simp only [bind_assoc, Prog.bind_ret]
    iintro HI Hk
    iapply (launch0 m A d L hR n hn o (hb h) ho _ _) $$ HI
    iintro HF
    iapply Hk
    unfold slot0; rw [dif_pos hn]
    iexact HF
  · have hn : ¬ n < 125 := fun hn => h (hc.2 hn)
    rw [dif_neg h]
    simp only [Prog.bind_ret]
    iintro HI Hk
    iapply Hk
    unfold slot0; rw [dif_neg hn]
    iexact HI

/-- Slot 1 launches chunk `n`: its two gathers, one after the other, each on its own semaphore. -/
theorem launch1 (d : Dev nD) (L : grid0.Coords) (hR : InRange A) (n : ℕ) (hn : n < 125)
    (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    slotIdle1 m A d L
      ⊢ iprop((slotFl1 m A d L n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s3 gathers_S10000x128_S80x128 (lsl s0 o h) rfl cc0_scratch12.sem (View.wordExact_bits rfl) rfl (Or.inl rfl) >>= fun _ =>
               SparseCore.enqueueIndirectGather rfl zSl s7 gathers_S10000x128_S80x128 (lsl s1 o h) rfl cc0_scratch16.sem (View.wordExact_bits rfl) rfl (Or.inl rfl) >>= k) Q) := by
  unfold slotIdle1 slotFl1
  iintro ⟨⟨%fa, HA⟩, ⟨%fb, HB⟩, HzR, HzC, HlR, HlC, HsR, HsC⟩ Hk
  iapply (issue_s3 m d L _ _ fa (lrR A d L) (lrR_range A d L hR) n hn o h ho _ _) $$ [HzR HA HlR HsR]
  · isplitl [HzR]; · iexact HzR
    isplitl [HA]; · iexact HA
    isplitl [HlR]; · iexact HlR
    iexact HsR
  iintro HflR
  iapply (issue_s7 m d L _ _ fb (lrC A d L) (lrC_range A d L hR) n hn o h ho _ _) $$ [HzC HB HlC HsC]
  · isplitl [HzC]; · iexact HzC
    isplitl [HB]; · iexact HB
    isplitl [HlC]; · iexact HlC
    iexact HsC
  iintro HflC
  iapply Hk
  isplitl [HflR]; · iexact HflR
  iexact HflC

/-- Slot 1 after a chunk: launch chunk `n` if there is one (the printed condition `c`), else stay at rest. -/
theorem relaunch1 (d : Dev nD) (L : grid0.Coords) (hR : InRange A) (n : ℕ) (c : BitVec 1) (hc : c = 1#1 ↔ n < 125)
    (o : Fin 1 → Nat) (hb : c = 1#1 → ∀ a, o a + S80.size a ≤ S10000.size a) (ho : o = ![80 * n])
    {α : Type} (k : PUnit → Prog (TpuEff nD τ sig (Elt F) Λ₀ (thrV d L).2) α) (Q : α → sProp 𝕄) :
    slotIdle1 m A d L
      ⊢ iprop((slot1 m A d L n -∗ wp frame (wpE (defs₀ (F := F)) 𝒱₀ (thrV d L) none) Set.univ (k ⟨⟩) Q)
          -∗ wp frame (wpE (defs₀ (F := F)) 𝒱₀ (thrV d L) none) Set.univ
              ((if h : c = 1#1 then
                  (SparseCore.enqueueIndirectGather rfl zSl s3 gathers_S10000x128_S80x128 (lsl s0 o (hb h)) rfl cc0_scratch12.sem (View.wordExact_bits rfl) rfl (Or.inl rfl) >>= fun _ =>
                   SparseCore.enqueueIndirectGather rfl zSl s7 gathers_S10000x128_S80x128 (lsl s1 o (hb h)) rfl cc0_scratch16.sem (View.wordExact_bits rfl) rfl (Or.inl rfl) >>= fun _ =>
                   Prog.ret ⟨⟩)
                else Prog.ret ⟨⟩) >>= k) Q) := by
  by_cases h : c = 1#1
  · have hn : n < 125 := hc.1 h
    rw [dif_pos h]
    simp only [bind_assoc, Prog.bind_ret]
    iintro HI Hk
    iapply (launch1 m A d L hR n hn o (hb h) ho _ _) $$ HI
    iintro HF
    iapply Hk
    unfold slot1; rw [dif_pos hn]
    iexact HF
  · have hn : ¬ n < 125 := fun hn => h (hc.2 hn)
    rw [dif_neg h]
    simp only [Prog.bind_ret]
    iintro HI Hk
    iapply Hk
    unfold slot1; rw [dif_neg hn]
    iexact HI

/-- Slot 2 launches chunk `n`: its two gathers, one after the other, each on its own semaphore. -/
theorem launch2 (d : Dev nD) (L : grid0.Coords) (hR : InRange A) (n : ℕ) (hn : n < 125)
    (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    slotIdle2 m A d L
      ⊢ iprop((slotFl2 m A d L n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s4 gathers_S10000x128_S80x128 (lsl s0 o h) rfl cc0_scratch13.sem (View.wordExact_bits rfl) rfl (Or.inl rfl) >>= fun _ =>
               SparseCore.enqueueIndirectGather rfl zSl s8 gathers_S10000x128_S80x128 (lsl s1 o h) rfl cc0_scratch17.sem (View.wordExact_bits rfl) rfl (Or.inl rfl) >>= k) Q) := by
  unfold slotIdle2 slotFl2
  iintro ⟨⟨%fa, HA⟩, ⟨%fb, HB⟩, HzR, HzC, HlR, HlC, HsR, HsC⟩ Hk
  iapply (issue_s4 m d L _ _ fa (lrR A d L) (lrR_range A d L hR) n hn o h ho _ _) $$ [HzR HA HlR HsR]
  · isplitl [HzR]; · iexact HzR
    isplitl [HA]; · iexact HA
    isplitl [HlR]; · iexact HlR
    iexact HsR
  iintro HflR
  iapply (issue_s8 m d L _ _ fb (lrC A d L) (lrC_range A d L hR) n hn o h ho _ _) $$ [HzC HB HlC HsC]
  · isplitl [HzC]; · iexact HzC
    isplitl [HB]; · iexact HB
    isplitl [HlC]; · iexact HlC
    iexact HsC
  iintro HflC
  iapply Hk
  isplitl [HflR]; · iexact HflR
  iexact HflC

/-- Slot 2 after a chunk: launch chunk `n` if there is one (the printed condition `c`), else stay at rest. -/
theorem relaunch2 (d : Dev nD) (L : grid0.Coords) (hR : InRange A) (n : ℕ) (c : BitVec 1) (hc : c = 1#1 ↔ n < 125)
    (o : Fin 1 → Nat) (hb : c = 1#1 → ∀ a, o a + S80.size a ≤ S10000.size a) (ho : o = ![80 * n])
    {α : Type} (k : PUnit → Prog (TpuEff nD τ sig (Elt F) Λ₀ (thrV d L).2) α) (Q : α → sProp 𝕄) :
    slotIdle2 m A d L
      ⊢ iprop((slot2 m A d L n -∗ wp frame (wpE (defs₀ (F := F)) 𝒱₀ (thrV d L) none) Set.univ (k ⟨⟩) Q)
          -∗ wp frame (wpE (defs₀ (F := F)) 𝒱₀ (thrV d L) none) Set.univ
              ((if h : c = 1#1 then
                  (SparseCore.enqueueIndirectGather rfl zSl s4 gathers_S10000x128_S80x128 (lsl s0 o (hb h)) rfl cc0_scratch13.sem (View.wordExact_bits rfl) rfl (Or.inl rfl) >>= fun _ =>
                   SparseCore.enqueueIndirectGather rfl zSl s8 gathers_S10000x128_S80x128 (lsl s1 o (hb h)) rfl cc0_scratch17.sem (View.wordExact_bits rfl) rfl (Or.inl rfl) >>= fun _ =>
                   Prog.ret ⟨⟩)
                else Prog.ret ⟨⟩) >>= k) Q) := by
  by_cases h : c = 1#1
  · have hn : n < 125 := hc.1 h
    rw [dif_pos h]
    simp only [bind_assoc, Prog.bind_ret]
    iintro HI Hk
    iapply (launch2 m A d L hR n hn o (hb h) ho _ _) $$ HI
    iintro HF
    iapply Hk
    unfold slot2; rw [dif_pos hn]
    iexact HF
  · have hn : ¬ n < 125 := fun hn => h (hc.2 hn)
    rw [dif_neg h]
    simp only [Prog.bind_ret]
    iintro HI Hk
    iapply Hk
    unfold slot2; rw [dif_neg hn]
    iexact HI

/-- Slot 3 launches chunk `n`: its two gathers, one after the other, each on its own semaphore. -/
theorem launch3 (d : Dev nD) (L : grid0.Coords) (hR : InRange A) (n : ℕ) (hn : n < 125)
    (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    slotIdle3 m A d L
      ⊢ iprop((slotFl3 m A d L n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s5 gathers_S10000x128_S80x128 (lsl s0 o h) rfl cc0_scratch14.sem (View.wordExact_bits rfl) rfl (Or.inl rfl) >>= fun _ =>
               SparseCore.enqueueIndirectGather rfl zSl s9 gathers_S10000x128_S80x128 (lsl s1 o h) rfl cc0_scratch18.sem (View.wordExact_bits rfl) rfl (Or.inl rfl) >>= k) Q) := by
  unfold slotIdle3 slotFl3
  iintro ⟨⟨%fa, HA⟩, ⟨%fb, HB⟩, HzR, HzC, HlR, HlC, HsR, HsC⟩ Hk
  iapply (issue_s5 m d L _ _ fa (lrR A d L) (lrR_range A d L hR) n hn o h ho _ _) $$ [HzR HA HlR HsR]
  · isplitl [HzR]; · iexact HzR
    isplitl [HA]; · iexact HA
    isplitl [HlR]; · iexact HlR
    iexact HsR
  iintro HflR
  iapply (issue_s9 m d L _ _ fb (lrC A d L) (lrC_range A d L hR) n hn o h ho _ _) $$ [HzC HB HlC HsC]
  · isplitl [HzC]; · iexact HzC
    isplitl [HB]; · iexact HB
    isplitl [HlC]; · iexact HlC
    iexact HsC
  iintro HflC
  iapply Hk
  isplitl [HflR]; · iexact HflR
  iexact HflC

/-- Slot 3 after a chunk: launch chunk `n` if there is one (the printed condition `c`), else stay at rest. -/
theorem relaunch3 (d : Dev nD) (L : grid0.Coords) (hR : InRange A) (n : ℕ) (c : BitVec 1) (hc : c = 1#1 ↔ n < 125)
    (o : Fin 1 → Nat) (hb : c = 1#1 → ∀ a, o a + S80.size a ≤ S10000.size a) (ho : o = ![80 * n])
    {α : Type} (k : PUnit → Prog (TpuEff nD τ sig (Elt F) Λ₀ (thrV d L).2) α) (Q : α → sProp 𝕄) :
    slotIdle3 m A d L
      ⊢ iprop((slot3 m A d L n -∗ wp frame (wpE (defs₀ (F := F)) 𝒱₀ (thrV d L) none) Set.univ (k ⟨⟩) Q)
          -∗ wp frame (wpE (defs₀ (F := F)) 𝒱₀ (thrV d L) none) Set.univ
              ((if h : c = 1#1 then
                  (SparseCore.enqueueIndirectGather rfl zSl s5 gathers_S10000x128_S80x128 (lsl s0 o (hb h)) rfl cc0_scratch14.sem (View.wordExact_bits rfl) rfl (Or.inl rfl) >>= fun _ =>
                   SparseCore.enqueueIndirectGather rfl zSl s9 gathers_S10000x128_S80x128 (lsl s1 o (hb h)) rfl cc0_scratch18.sem (View.wordExact_bits rfl) rfl (Or.inl rfl) >>= fun _ =>
                   Prog.ret ⟨⟩)
                else Prog.ret ⟨⟩) >>= k) Q) := by
  by_cases h : c = 1#1
  · have hn : n < 125 := hc.1 h
    rw [dif_pos h]
    simp only [bind_assoc, Prog.bind_ret]
    iintro HI Hk
    iapply (launch3 m A d L hR n hn o (hb h) ho _ _) $$ HI
    iintro HF
    iapply Hk
    unfold slot3; rw [dif_pos hn]
    iexact HF
  · have hn : ¬ n < 125 := fun hn => h (hc.2 hn)
    rw [dif_neg h]
    simp only [Prog.bind_ret]
    iintro HI Hk
    iapply Hk
    unfold slot3; rw [dif_neg hn]
    iexact HI

/-- One chunk on slot 0 (loops `k0_t2`, `k0_t3`): the two waits, the five groups, the copy of the scores out to the
    chunk's eighty words of the result and its wait. The slot comes back at rest, the result one chunk further. -/
theorem compute_a (d : Dev nD) (L : grid0.Coords) (v2 c0 c1 : BitVec 32) (k1 : Fin k0_t1_loop.trips) (n : ℕ) (hn : n < 125)
    (o : Fin 1 → Nat) (h : ∀ a, o a + S80.size a ≤ S320000.size a) (ho : o 0 = baseOf L + 80 * n)
    (O : CellTallies nD τ sig (HIx 1)) (W : Waits sig (HIx 1))
    {hs1 : (zSl).view.WordExact} {hd1 : (s2).view.WordExact} {hs2 : (zSl).view.WordExact} {hd2 : (s6).view.WordExact}
    {hw1 : (s10).view.WordExact} {hw2 : (osl o h).view.WordExact} {hw3 : (DmaTarget.here (osl o h) : DmaTarget nD τ sig (thrV d L).2 Space.hbm S80 EltTy.f32).Typed Space.vmem (SemLoc.dma cc0_scoped2.sem)}
    {hw4 : (s10).view.WordExact} {hw5 : (osl o h).view.WordExact}
    {α : Type} (k : PUnit → Prog (TpuEff nD τ sig (Elt F) Λ₀ (thrV d L).2) α) (Q : α → sProp 𝕄) :
    iprop(slotFl0 m A d L n hn ∗ anyBuf d L s10 ∗ outSt m A d L n ∗ sem0 d L cc0_scoped2 ∗ owesSt d L O W
        ∗ Transfers.MayWaits (thrV d L) (none : HIx 1) O)
      ⊢ iprop((iprop(slotIdle0 m A d L ∗ anyBuf d L s10 ∗ outSt m A d L (n + 1) ∗ sem0 d L cc0_scoped2 ∗ owesSt d L O W)
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch11.sem zSl s2 hs1 hd1) fun _ =>
               Prog.op (TpuEff.waitDma2 cc0_scratch15.sem zSl s6 hs2 hd2) fun _ =>
               (Scf.Loop.for k0_t2_loop k0_t2_ok ⟨⟩ (k0_t2_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes c0 c1 k1) >>= fun _ =>
                Prog.op (TpuEff.enqueueDma s10 (.here (osl o h)) (.dma cc0_scoped2.sem) hw1 hw2 hw3) fun _ =>
                Prog.op (TpuEff.waitDma2 cc0_scoped2.sem s10 (osl o h) hw4 hw5) k)) Q) := by
  unfold slotFl0 owesSt
  iintro ⟨⟨HflR, HflC⟩, ⟨%fv, Hv⟩, Hout, HsX, ⟨%W', %hW', HO⟩, #Hmw⟩ Hk
  iapply (waitg_s2 m d L _ _ _ n hn O W' _ _) $$ [HflR HO]
  · isplitl [HflR]; · iexact HflR
    isplitl [HO]; · iexact HO
    iexact Hmw
  iintro ⟨HA, HzR, HlR, HsR, HO⟩
  iapply (waitg_s6 m d L _ _ _ n hn O _ _ _) $$ [HflC HO]
  · isplitl [HflC]; · iexact HflC
    isplitl [HO]; · iexact HO
    iexact Hmw
  iintro ⟨HB, HzC, HlC, HsC, HO⟩
  iapply (group_a d L v2 c0 c1 k1 (blkR m A d L n) (blkC m A d L n) fv _ _) $$ [HA HB Hv]
  · isplitl [HA]; · iexact HA
    isplitl [HB]; · iexact HB
    iexact Hv
  iintro ⟨HA, HB, Hv⟩
  ihave Ho := (out_take m A d L n hn) $$ Hout
  icases Ho with ⟨Hdone, Hcur, Hrest⟩
  ihave Hcur' := (Entails.of_eq (show (oLoc d ↦[seg (baseOf L + 80 * n) 80]{fullShare} m (oLoc d) : sProp 𝕄)
      = ((osl o h).view.loc (thrV d L) ↦[(osl o h).view.set]{fullShare} m (oLoc d)) from by rw [set_osl, ho])) $$ Hcur
  iapply (copyout_2 d L o h _ _ O _ _ _) $$ [Hv Hcur' HsX HO]
  · isplitl [Hv]; · iexact Hv
    isplitl [Hcur']; · iexact Hcur'
    isplitl [HsX]; · iexact HsX
    isplitl [HO]; · iexact HO
    iexact Hmw
  iintro ⟨Hv, Hcur', HsX, HO⟩
  iapply Hk
  isplitl [HA HB HzR HzC HlR HlC HsR HsC]
  · unfold slotIdle0
    isplitl [HA]; · iexists _; iexact HA
    isplitl [HB]; · iexists _; iexact HB
    isplitl [HzR]; · iexact HzR
    isplitl [HzC]; · iexact HzC
    isplitl [HlR]; · iexact HlR
    isplitl [HlC]; · iexact HlC
    isplitl [HsR]; · iexact HsR
    iexact HsC
  isplitl [Hv]; · iexists _; iexact Hv
  isplitl [Hdone Hcur' Hrest]
  · iapply (out_put m A d L n hn _ ?hf)
    case hf =>
      have := chunk_landed m A d L n hn o ho h (m (oLoc d))
      rw [ho] at this
      exact this
    isplitl [Hdone]; · iexact Hdone
    isplitl [Hcur']
    · iapply (Entails.of_eq (show ((osl o h).view.loc (thrV d L) ↦[(osl o h).view.set]{fullShare} _ : sProp 𝕄)
          = (oLoc d ↦[seg (baseOf L + 80 * n) 80]{fullShare} _) from by rw [set_osl, ho])) $$ Hcur'
    iexact Hrest
  isplitl [HsX]; · iexact HsX
  iexists (insert (SemLoc.dma cc0_scoped2.sem, (none : HIx 1)) (insert (SemLoc.dma cc0_scratch15.sem, (none : HIx 1)) (insert (SemLoc.dma cc0_scratch11.sem, (none : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- One chunk on slot 1 (loops `k0_t4`, `k0_t5`): the two waits, the five groups, the copy of the scores out to the
    chunk's eighty words of the result and its wait. The slot comes back at rest, the result one chunk further. -/
theorem compute_b (d : Dev nD) (L : grid0.Coords) (v2 : BitVec 32) (k1 : Fin k0_t1_loop.trips) (a25 v41 c5 : BitVec 32) (n : ℕ) (hn : n < 125)
    (o : Fin 1 → Nat) (h : ∀ a, o a + S80.size a ≤ S320000.size a) (ho : o 0 = baseOf L + 80 * n)
    (O : CellTallies nD τ sig (HIx 1)) (W : Waits sig (HIx 1))
    {hs1 : (zSl).view.WordExact} {hd1 : (s3).view.WordExact} {hs2 : (zSl).view.WordExact} {hd2 : (s7).view.WordExact}
    {hw1 : (s10).view.WordExact} {hw2 : (osl o h).view.WordExact} {hw3 : (DmaTarget.here (osl o h) : DmaTarget nD τ sig (thrV d L).2 Space.hbm S80 EltTy.f32).Typed Space.vmem (SemLoc.dma cc0_scoped3.sem)}
    {hw4 : (s10).view.WordExact} {hw5 : (osl o h).view.WordExact}
    {α : Type} (k : PUnit → Prog (TpuEff nD τ sig (Elt F) Λ₀ (thrV d L).2) α) (Q : α → sProp 𝕄) :
    iprop(slotFl1 m A d L n hn ∗ anyBuf d L s10 ∗ outSt m A d L n ∗ sem0 d L cc0_scoped3 ∗ owesSt d L O W
        ∗ Transfers.MayWaits (thrV d L) (none : HIx 1) O)
      ⊢ iprop((iprop(slotIdle1 m A d L ∗ anyBuf d L s10 ∗ outSt m A d L (n + 1) ∗ sem0 d L cc0_scoped3 ∗ owesSt d L O W)
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch12.sem zSl s3 hs1 hd1) fun _ =>
               Prog.op (TpuEff.waitDma2 cc0_scratch16.sem zSl s7 hs2 hd2) fun _ =>
               (Scf.Loop.for k0_t4_loop k0_t4_ok ⟨⟩ (k0_t4_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 0#32 c5) >>= fun _ =>
                Prog.op (TpuEff.enqueueDma s10 (.here (osl o h)) (.dma cc0_scoped3.sem) hw1 hw2 hw3) fun _ =>
                Prog.op (TpuEff.waitDma2 cc0_scoped3.sem s10 (osl o h) hw4 hw5) k)) Q) := by
  unfold slotFl1 owesSt
  iintro ⟨⟨HflR, HflC⟩, ⟨%fv, Hv⟩, Hout, HsX, ⟨%W', %hW', HO⟩, #Hmw⟩ Hk
  iapply (waitg_s3 m d L _ _ _ n hn O W' _ _) $$ [HflR HO]
  · isplitl [HflR]; · iexact HflR
    isplitl [HO]; · iexact HO
    iexact Hmw
  iintro ⟨HA, HzR, HlR, HsR, HO⟩
  iapply (waitg_s7 m d L _ _ _ n hn O _ _ _) $$ [HflC HO]
  · isplitl [HflC]; · iexact HflC
    isplitl [HO]; · iexact HO
    iexact Hmw
  iintro ⟨HB, HzC, HlC, HsC, HO⟩
  iapply (group_b d L v2 k1 a25 v41 c5 (blkR m A d L n) (blkC m A d L n) fv _ _) $$ [HA HB Hv]
  · isplitl [HA]; · iexact HA
    isplitl [HB]; · iexact HB
    iexact Hv
  iintro ⟨HA, HB, Hv⟩
  ihave Ho := (out_take m A d L n hn) $$ Hout
  icases Ho with ⟨Hdone, Hcur, Hrest⟩
  ihave Hcur' := (Entails.of_eq (show (oLoc d ↦[seg (baseOf L + 80 * n) 80]{fullShare} m (oLoc d) : sProp 𝕄)
      = ((osl o h).view.loc (thrV d L) ↦[(osl o h).view.set]{fullShare} m (oLoc d)) from by rw [set_osl, ho])) $$ Hcur
  iapply (copyout_3 d L o h _ _ O _ _ _) $$ [Hv Hcur' HsX HO]
  · isplitl [Hv]; · iexact Hv
    isplitl [Hcur']; · iexact Hcur'
    isplitl [HsX]; · iexact HsX
    isplitl [HO]; · iexact HO
    iexact Hmw
  iintro ⟨Hv, Hcur', HsX, HO⟩
  iapply Hk
  isplitl [HA HB HzR HzC HlR HlC HsR HsC]
  · unfold slotIdle1
    isplitl [HA]; · iexists _; iexact HA
    isplitl [HB]; · iexists _; iexact HB
    isplitl [HzR]; · iexact HzR
    isplitl [HzC]; · iexact HzC
    isplitl [HlR]; · iexact HlR
    isplitl [HlC]; · iexact HlC
    isplitl [HsR]; · iexact HsR
    iexact HsC
  isplitl [Hv]; · iexists _; iexact Hv
  isplitl [Hdone Hcur' Hrest]
  · iapply (out_put m A d L n hn _ ?hf)
    case hf =>
      have := chunk_landed m A d L n hn o ho h (m (oLoc d))
      rw [ho] at this
      exact this
    isplitl [Hdone]; · iexact Hdone
    isplitl [Hcur']
    · iapply (Entails.of_eq (show ((osl o h).view.loc (thrV d L) ↦[(osl o h).view.set]{fullShare} _ : sProp 𝕄)
          = (oLoc d ↦[seg (baseOf L + 80 * n) 80]{fullShare} _) from by rw [set_osl, ho])) $$ Hcur'
    iexact Hrest
  isplitl [HsX]; · iexact HsX
  iexists (insert (SemLoc.dma cc0_scoped3.sem, (none : HIx 1)) (insert (SemLoc.dma cc0_scratch16.sem, (none : HIx 1)) (insert (SemLoc.dma cc0_scratch12.sem, (none : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- One chunk on slot 2 (loops `k0_t6`, `k0_t7`): the two waits, the five groups, the copy of the scores out to the
    chunk's eighty words of the result and its wait. The slot comes back at rest, the result one chunk further. -/
theorem compute_c (d : Dev nD) (L : grid0.Coords) (v2 : BitVec 32) (k1 : Fin k0_t1_loop.trips) (a25 v41 c057 c5 : BitVec 32) (n : ℕ) (hn : n < 125)
    (o : Fin 1 → Nat) (h : ∀ a, o a + S80.size a ≤ S320000.size a) (ho : o 0 = baseOf L + 80 * n)
    (O : CellTallies nD τ sig (HIx 1)) (W : Waits sig (HIx 1))
    {hs1 : (zSl).view.WordExact} {hd1 : (s4).view.WordExact} {hs2 : (zSl).view.WordExact} {hd2 : (s8).view.WordExact}
    {hw1 : (s10).view.WordExact} {hw2 : (osl o h).view.WordExact} {hw3 : (DmaTarget.here (osl o h) : DmaTarget nD τ sig (thrV d L).2 Space.hbm S80 EltTy.f32).Typed Space.vmem (SemLoc.dma cc0_scoped4.sem)}
    {hw4 : (s10).view.WordExact} {hw5 : (osl o h).view.WordExact}
    {α : Type} (k : PUnit → Prog (TpuEff nD τ sig (Elt F) Λ₀ (thrV d L).2) α) (Q : α → sProp 𝕄) :
    iprop(slotFl2 m A d L n hn ∗ anyBuf d L s10 ∗ outSt m A d L n ∗ sem0 d L cc0_scoped4 ∗ owesSt d L O W
        ∗ Transfers.MayWaits (thrV d L) (none : HIx 1) O)
      ⊢ iprop((iprop(slotIdle2 m A d L ∗ anyBuf d L s10 ∗ outSt m A d L (n + 1) ∗ sem0 d L cc0_scoped4 ∗ owesSt d L O W)
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch13.sem zSl s4 hs1 hd1) fun _ =>
               Prog.op (TpuEff.waitDma2 cc0_scratch17.sem zSl s8 hs2 hd2) fun _ =>
               (Scf.Loop.for k0_t6_loop k0_t6_ok ⟨⟩ (k0_t6_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 c057 c5) >>= fun _ =>
                Prog.op (TpuEff.enqueueDma s10 (.here (osl o h)) (.dma cc0_scoped4.sem) hw1 hw2 hw3) fun _ =>
                Prog.op (TpuEff.waitDma2 cc0_scoped4.sem s10 (osl o h) hw4 hw5) k)) Q) := by
  unfold slotFl2 owesSt
  iintro ⟨⟨HflR, HflC⟩, ⟨%fv, Hv⟩, Hout, HsX, ⟨%W', %hW', HO⟩, #Hmw⟩ Hk
  iapply (waitg_s4 m d L _ _ _ n hn O W' _ _) $$ [HflR HO]
  · isplitl [HflR]; · iexact HflR
    isplitl [HO]; · iexact HO
    iexact Hmw
  iintro ⟨HA, HzR, HlR, HsR, HO⟩
  iapply (waitg_s8 m d L _ _ _ n hn O _ _ _) $$ [HflC HO]
  · isplitl [HflC]; · iexact HflC
    isplitl [HO]; · iexact HO
    iexact Hmw
  iintro ⟨HB, HzC, HlC, HsC, HO⟩
  iapply (group_c d L v2 k1 a25 v41 c057 c5 (blkR m A d L n) (blkC m A d L n) fv _ _) $$ [HA HB Hv]
  · isplitl [HA]; · iexact HA
    isplitl [HB]; · iexact HB
    iexact Hv
  iintro ⟨HA, HB, Hv⟩
  ihave Ho := (out_take m A d L n hn) $$ Hout
  icases Ho with ⟨Hdone, Hcur, Hrest⟩
  ihave Hcur' := (Entails.of_eq (show (oLoc d ↦[seg (baseOf L + 80 * n) 80]{fullShare} m (oLoc d) : sProp 𝕄)
      = ((osl o h).view.loc (thrV d L) ↦[(osl o h).view.set]{fullShare} m (oLoc d)) from by rw [set_osl, ho])) $$ Hcur
  iapply (copyout_4 d L o h _ _ O _ _ _) $$ [Hv Hcur' HsX HO]
  · isplitl [Hv]; · iexact Hv
    isplitl [Hcur']; · iexact Hcur'
    isplitl [HsX]; · iexact HsX
    isplitl [HO]; · iexact HO
    iexact Hmw
  iintro ⟨Hv, Hcur', HsX, HO⟩
  iapply Hk
  isplitl [HA HB HzR HzC HlR HlC HsR HsC]
  · unfold slotIdle2
    isplitl [HA]; · iexists _; iexact HA
    isplitl [HB]; · iexists _; iexact HB
    isplitl [HzR]; · iexact HzR
    isplitl [HzC]; · iexact HzC
    isplitl [HlR]; · iexact HlR
    isplitl [HlC]; · iexact HlC
    isplitl [HsR]; · iexact HsR
    iexact HsC
  isplitl [Hv]; · iexists _; iexact Hv
  isplitl [Hdone Hcur' Hrest]
  · iapply (out_put m A d L n hn _ ?hf)
    case hf =>
      have := chunk_landed m A d L n hn o ho h (m (oLoc d))
      rw [ho] at this
      exact this
    isplitl [Hdone]; · iexact Hdone
    isplitl [Hcur']
    · iapply (Entails.of_eq (show ((osl o h).view.loc (thrV d L) ↦[(osl o h).view.set]{fullShare} _ : sProp 𝕄)
          = (oLoc d ↦[seg (baseOf L + 80 * n) 80]{fullShare} _) from by rw [set_osl, ho])) $$ Hcur'
    iexact Hrest
  isplitl [HsX]; · iexact HsX
  iexists (insert (SemLoc.dma cc0_scoped4.sem, (none : HIx 1)) (insert (SemLoc.dma cc0_scratch17.sem, (none : HIx 1)) (insert (SemLoc.dma cc0_scratch13.sem, (none : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- One chunk on slot 3 (loops `k0_t8`, `k0_t9`): the two waits, the five groups, the copy of the scores out to the
    chunk's eighty words of the result and its wait. The slot comes back at rest, the result one chunk further. -/
theorem compute_d (d : Dev nD) (L : grid0.Coords)  (n : ℕ) (hn : n < 125)
    (o : Fin 1 → Nat) (h : ∀ a, o a + S80.size a ≤ S320000.size a) (ho : o 0 = baseOf L + 80 * n)
    (O : CellTallies nD τ sig (HIx 1)) (W : Waits sig (HIx 1))
    {hs1 : (zSl).view.WordExact} {hd1 : (s5).view.WordExact} {hs2 : (zSl).view.WordExact} {hd2 : (s9).view.WordExact}
    {hw1 : (s10).view.WordExact} {hw2 : (osl o h).view.WordExact} {hw3 : (DmaTarget.here (osl o h) : DmaTarget nD τ sig (thrV d L).2 Space.hbm S80 EltTy.f32).Typed Space.vmem (SemLoc.dma cc0_scoped5.sem)}
    {hw4 : (s10).view.WordExact} {hw5 : (osl o h).view.WordExact}
    {α : Type} (k : PUnit → Prog (TpuEff nD τ sig (Elt F) Λ₀ (thrV d L).2) α) (Q : α → sProp 𝕄) :
    iprop(slotFl3 m A d L n hn ∗ anyBuf d L s10 ∗ outSt m A d L n ∗ sem0 d L cc0_scoped5 ∗ owesSt d L O W
        ∗ Transfers.MayWaits (thrV d L) (none : HIx 1) O)
      ⊢ iprop((iprop(slotIdle3 m A d L ∗ anyBuf d L s10 ∗ outSt m A d L (n + 1) ∗ sem0 d L cc0_scoped5 ∗ owesSt d L O W)
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch14.sem zSl s5 hs1 hd1) fun _ =>
               Prog.op (TpuEff.waitDma2 cc0_scratch18.sem zSl s9 hs2 hd2) fun _ =>
               (Scf.Loop.for k0_t8_loop k0_t8_ok ⟨⟩ (k0_t8_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 ) >>= fun _ =>
                Prog.op (TpuEff.enqueueDma s10 (.here (osl o h)) (.dma cc0_scoped5.sem) hw1 hw2 hw3) fun _ =>
                Prog.op (TpuEff.waitDma2 cc0_scoped5.sem s10 (osl o h) hw4 hw5) k)) Q) := by
  unfold slotFl3 owesSt
  iintro ⟨⟨HflR, HflC⟩, ⟨%fv, Hv⟩, Hout, HsX, ⟨%W', %hW', HO⟩, #Hmw⟩ Hk
  iapply (waitg_s5 m d L _ _ _ n hn O W' _ _) $$ [HflR HO]
  · isplitl [HflR]; · iexact HflR
    isplitl [HO]; · iexact HO
    iexact Hmw
  iintro ⟨HA, HzR, HlR, HsR, HO⟩
  iapply (waitg_s9 m d L _ _ _ n hn O _ _ _) $$ [HflC HO]
  · isplitl [HflC]; · iexact HflC
    isplitl [HO]; · iexact HO
    iexact Hmw
  iintro ⟨HB, HzC, HlC, HsC, HO⟩
  iapply (group_d d L  (blkR m A d L n) (blkC m A d L n) fv _ _) $$ [HA HB Hv]
  · isplitl [HA]; · iexact HA
    isplitl [HB]; · iexact HB
    iexact Hv
  iintro ⟨HA, HB, Hv⟩
  ihave Ho := (out_take m A d L n hn) $$ Hout
  icases Ho with ⟨Hdone, Hcur, Hrest⟩
  ihave Hcur' := (Entails.of_eq (show (oLoc d ↦[seg (baseOf L + 80 * n) 80]{fullShare} m (oLoc d) : sProp 𝕄)
      = ((osl o h).view.loc (thrV d L) ↦[(osl o h).view.set]{fullShare} m (oLoc d)) from by rw [set_osl, ho])) $$ Hcur
  iapply (copyout_5 d L o h _ _ O _ _ _) $$ [Hv Hcur' HsX HO]
  · isplitl [Hv]; · iexact Hv
    isplitl [Hcur']; · iexact Hcur'
    isplitl [HsX]; · iexact HsX
    isplitl [HO]; · iexact HO
    iexact Hmw
  iintro ⟨Hv, Hcur', HsX, HO⟩
  iapply Hk
  isplitl [HA HB HzR HzC HlR HlC HsR HsC]
  · unfold slotIdle3
    isplitl [HA]; · iexists _; iexact HA
    isplitl [HB]; · iexists _; iexact HB
    isplitl [HzR]; · iexact HzR
    isplitl [HzC]; · iexact HzC
    isplitl [HlR]; · iexact HlR
    isplitl [HlC]; · iexact HlC
    isplitl [HsR]; · iexact HsR
    iexact HsC
  isplitl [Hv]; · iexists _; iexact Hv
  isplitl [Hdone Hcur' Hrest]
  · iapply (out_put m A d L n hn _ ?hf)
    case hf =>
      have := chunk_landed m A d L n hn o ho h (m (oLoc d))
      rw [ho] at this
      exact this
    isplitl [Hdone]; · iexact Hdone
    isplitl [Hcur']
    · iapply (Entails.of_eq (show ((osl o h).view.loc (thrV d L) ↦[(osl o h).view.set]{fullShare} _ : sProp 𝕄)
          = (oLoc d ↦[seg (baseOf L + 80 * n) 80]{fullShare} _) from by rw [set_osl, ho])) $$ Hcur'
    iexact Hrest
  isplitl [HsX]; · iexact HsX
  iexists (insert (SemLoc.dma cc0_scoped5.sem, (none : HIx 1)) (insert (SemLoc.dma cc0_scratch18.sem, (none : HIx 1)) (insert (SemLoc.dma cc0_scratch14.sem, (none : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- One chunk on slot 0 (loops `k0_t10`, `k0_t11`): the two waits, the five groups, the copy of the scores out to the
    chunk's eighty words of the result and its wait. The slot comes back at rest, the result one chunk further. -/
theorem compute_e (d : Dev nD) (L : grid0.Coords)  (n : ℕ) (hn : n < 125)
    (o : Fin 1 → Nat) (h : ∀ a, o a + S80.size a ≤ S320000.size a) (ho : o 0 = baseOf L + 80 * n)
    (O : CellTallies nD τ sig (HIx 1)) (W : Waits sig (HIx 1))
    {hs1 : (zSl).view.WordExact} {hd1 : (s2).view.WordExact} {hs2 : (zSl).view.WordExact} {hd2 : (s6).view.WordExact}
    {hw1 : (s10).view.WordExact} {hw2 : (osl o h).view.WordExact} {hw3 : (DmaTarget.here (osl o h) : DmaTarget nD τ sig (thrV d L).2 Space.hbm S80 EltTy.f32).Typed Space.vmem (SemLoc.dma cc0_scoped6.sem)}
    {hw4 : (s10).view.WordExact} {hw5 : (osl o h).view.WordExact}
    {α : Type} (k : PUnit → Prog (TpuEff nD τ sig (Elt F) Λ₀ (thrV d L).2) α) (Q : α → sProp 𝕄) :
    iprop(slotFl0 m A d L n hn ∗ anyBuf d L s10 ∗ outSt m A d L n ∗ sem0 d L cc0_scoped6 ∗ owesSt d L O W
        ∗ Transfers.MayWaits (thrV d L) (none : HIx 1) O)
      ⊢ iprop((iprop(slotIdle0 m A d L ∗ anyBuf d L s10 ∗ outSt m A d L (n + 1) ∗ sem0 d L cc0_scoped6 ∗ owesSt d L O W)
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch11.sem zSl s2 hs1 hd1) fun _ =>
               Prog.op (TpuEff.waitDma2 cc0_scratch15.sem zSl s6 hs2 hd2) fun _ =>
               (Scf.Loop.for k0_t10_loop k0_t10_ok ⟨⟩ (k0_t10_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 ) >>= fun _ =>
                Prog.op (TpuEff.enqueueDma s10 (.here (osl o h)) (.dma cc0_scoped6.sem) hw1 hw2 hw3) fun _ =>
                Prog.op (TpuEff.waitDma2 cc0_scoped6.sem s10 (osl o h) hw4 hw5) k)) Q) := by
  unfold slotFl0 owesSt
  iintro ⟨⟨HflR, HflC⟩, ⟨%fv, Hv⟩, Hout, HsX, ⟨%W', %hW', HO⟩, #Hmw⟩ Hk
  iapply (waitg_s2 m d L _ _ _ n hn O W' _ _) $$ [HflR HO]
  · isplitl [HflR]; · iexact HflR
    isplitl [HO]; · iexact HO
    iexact Hmw
  iintro ⟨HA, HzR, HlR, HsR, HO⟩
  iapply (waitg_s6 m d L _ _ _ n hn O _ _ _) $$ [HflC HO]
  · isplitl [HflC]; · iexact HflC
    isplitl [HO]; · iexact HO
    iexact Hmw
  iintro ⟨HB, HzC, HlC, HsC, HO⟩
  iapply (group_e d L  (blkR m A d L n) (blkC m A d L n) fv _ _) $$ [HA HB Hv]
  · isplitl [HA]; · iexact HA
    isplitl [HB]; · iexact HB
    iexact Hv
  iintro ⟨HA, HB, Hv⟩
  ihave Ho := (out_take m A d L n hn) $$ Hout
  icases Ho with ⟨Hdone, Hcur, Hrest⟩
  ihave Hcur' := (Entails.of_eq (show (oLoc d ↦[seg (baseOf L + 80 * n) 80]{fullShare} m (oLoc d) : sProp 𝕄)
      = ((osl o h).view.loc (thrV d L) ↦[(osl o h).view.set]{fullShare} m (oLoc d)) from by rw [set_osl, ho])) $$ Hcur
  iapply (copyout_6 d L o h _ _ O _ _ _) $$ [Hv Hcur' HsX HO]
  · isplitl [Hv]; · iexact Hv
    isplitl [Hcur']; · iexact Hcur'
    isplitl [HsX]; · iexact HsX
    isplitl [HO]; · iexact HO
    iexact Hmw
  iintro ⟨Hv, Hcur', HsX, HO⟩
  iapply Hk
  isplitl [HA HB HzR HzC HlR HlC HsR HsC]
  · unfold slotIdle0
    isplitl [HA]; · iexists _; iexact HA
    isplitl [HB]; · iexists _; iexact HB
    isplitl [HzR]; · iexact HzR
    isplitl [HzC]; · iexact HzC
    isplitl [HlR]; · iexact HlR
    isplitl [HlC]; · iexact HlC
    isplitl [HsR]; · iexact HsR
    iexact HsC
  isplitl [Hv]; · iexists _; iexact Hv
  isplitl [Hdone Hcur' Hrest]
  · iapply (out_put m A d L n hn _ ?hf)
    case hf =>
      have := chunk_landed m A d L n hn o ho h (m (oLoc d))
      rw [ho] at this
      exact this
    isplitl [Hdone]; · iexact Hdone
    isplitl [Hcur']
    · iapply (Entails.of_eq (show ((osl o h).view.loc (thrV d L) ↦[(osl o h).view.set]{fullShare} _ : sProp 𝕄)
          = (oLoc d ↦[seg (baseOf L + 80 * n) 80]{fullShare} _) from by rw [set_osl, ho])) $$ Hcur'
    iexact Hrest
  isplitl [HsX]; · iexact HsX
  iexists (insert (SemLoc.dma cc0_scoped6.sem, (none : HIx 1)) (insert (SemLoc.dma cc0_scratch15.sem, (none : HIx 1)) (insert (SemLoc.dma cc0_scratch11.sem, (none : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- The first copies: the task's 10000 row words into its list buffer, and the wait. -/
theorem loadlist_R (d : Dev nD) (L : grid0.Coords) (f0 : Buf (Elt F) ((s0).view.loc (thrV d L)))
    (O : CellTallies nD τ sig (HIx 1)) (W : Waits sig (HIx 1))
    {hw1 : (wsl rW L).view.WordExact} {hw2 : (s0).view.WordExact} {hw3 : (DmaTarget.here s0 : DmaTarget nD τ sig (thrV d L).2 Space.vmem S10000 EltTy.i32).Typed Space.hbm (SemLoc.dma cc0_scoped0.sem)}
    {hw4 : (wsl rW L).view.WordExact} {hw5 : (s0).view.WordExact}
    {α : Type} (k : PUnit → Prog (TpuEff nD τ sig (Elt F) Λ₀ (thrV d L).2) α) (Q : α → sProp 𝕄) :
    iprop((rLoc d ↦[seg (baseOf L) 10000]{fullShare} (A d).ri) ∗ ((s0).view.loc (thrV d L) ↦{fullShare} f0)
        ∗ sem0 d L cc0_scoped0 ∗ owes (thrV d L) O W ∗ Transfers.MayWaits (thrV d L) (none : HIx 1) O)
      ⊢ iprop((iprop((rLoc d ↦[seg (baseOf L) 10000]{fullShare} (A d).ri) ∗ ((s0).view.loc (thrV d L) ↦{fullShare} lrR A d L)
              ∗ sem0 d L cc0_scoped0 ∗ owes (thrV d L) O (insert (SemLoc.dma cc0_scoped0.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma (wsl rW L) (.here s0) (.dma cc0_scoped0.sem) hw1 hw2 hw3) fun _ =>
               Prog.op (TpuEff.waitDma2 cc0_scoped0.sem (wsl rW L) s0 hw4 hw5) k) Q) := by
  iintro ⟨Hr, H0, Hs, HO, #Hmw⟩ Hk
  ihave Hr' := (Entails.of_eq (show (rLoc d ↦[seg (baseOf L) 10000]{fullShare} (A d).ri : sProp 𝕄)
      = ((wsl rW L).view.loc (thrV d L) ↦[(wsl rW L).view.set]{fullShare} (A d).ri) from by rw [set_wsl])) $$ Hr
  iapply (Transfers.wp_dmaLocal (EC (F := F)) 𝒱₀ (thrV d L) none (none : HIx 1) (s0).view.dmaCredit rfl (by decide) (Finset.subset_univ _)) $$ [Hr' H0 Hs]
  · isplitl [Hr']; · iexact Hr'
    isplitl [H0]; · iexact H0
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped0.sem)); iexact Hmw
  iintro ⟨⟨H0, Hr'⟩, Hs, HO⟩
  iapply Hk
  isplitl [Hr']
  · iapply (Entails.of_eq (show ((wsl rW L).view.loc (thrV d L) ↦[(wsl rW L).view.set]{fullShare} (A d).ri : sProp 𝕄)
        = (rLoc d ↦[seg (baseOf L) 10000]{fullShare} (A d).ri) from by rw [set_wsl])) $$ Hr'
  isplitl [H0]
  · rw [list_landed_s0]; iexact H0
  isplitl [Hs]; · iexact Hs
  iexact HO

/-- The first copies: the task's 10000 column words into its list buffer, and the wait. -/
theorem loadlist_C (d : Dev nD) (L : grid0.Coords) (f0 : Buf (Elt F) ((s1).view.loc (thrV d L)))
    (O : CellTallies nD τ sig (HIx 1)) (W : Waits sig (HIx 1))
    {hw1 : (wsl cW L).view.WordExact} {hw2 : (s1).view.WordExact} {hw3 : (DmaTarget.here s1 : DmaTarget nD τ sig (thrV d L).2 Space.vmem S10000 EltTy.i32).Typed Space.hbm (SemLoc.dma cc0_scoped1.sem)}
    {hw4 : (wsl cW L).view.WordExact} {hw5 : (s1).view.WordExact}
    {α : Type} (k : PUnit → Prog (TpuEff nD τ sig (Elt F) Λ₀ (thrV d L).2) α) (Q : α → sProp 𝕄) :
    iprop((cLoc d ↦[seg (baseOf L) 10000]{fullShare} (A d).ci) ∗ ((s1).view.loc (thrV d L) ↦{fullShare} f0)
        ∗ sem0 d L cc0_scoped1 ∗ owes (thrV d L) O W ∗ Transfers.MayWaits (thrV d L) (none : HIx 1) O)
      ⊢ iprop((iprop((cLoc d ↦[seg (baseOf L) 10000]{fullShare} (A d).ci) ∗ ((s1).view.loc (thrV d L) ↦{fullShare} lrC A d L)
              ∗ sem0 d L cc0_scoped1 ∗ owes (thrV d L) O (insert (SemLoc.dma cc0_scoped1.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma (wsl cW L) (.here s1) (.dma cc0_scoped1.sem) hw1 hw2 hw3) fun _ =>
               Prog.op (TpuEff.waitDma2 cc0_scoped1.sem (wsl cW L) s1 hw4 hw5) k) Q) := by
  iintro ⟨Hr, H0, Hs, HO, #Hmw⟩ Hk
  ihave Hr' := (Entails.of_eq (show (cLoc d ↦[seg (baseOf L) 10000]{fullShare} (A d).ci : sProp 𝕄)
      = ((wsl cW L).view.loc (thrV d L) ↦[(wsl cW L).view.set]{fullShare} (A d).ci) from by rw [set_wsl_c])) $$ Hr
  iapply (Transfers.wp_dmaLocal (EC (F := F)) 𝒱₀ (thrV d L) none (none : HIx 1) (s1).view.dmaCredit rfl (by decide) (Finset.subset_univ _)) $$ [Hr' H0 Hs]
  · isplitl [Hr']; · iexact Hr'
    isplitl [H0]; · iexact H0
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped1.sem)); iexact Hmw
  iintro ⟨⟨H0, Hr'⟩, Hs, HO⟩
  iapply Hk
  isplitl [Hr']
  · iapply (Entails.of_eq (show ((wsl cW L).view.loc (thrV d L) ↦[(wsl cW L).view.set]{fullShare} (A d).ci : sProp 𝕄)
        = (cLoc d ↦[seg (baseOf L) 10000]{fullShare} (A d).ci) from by rw [set_wsl_c])) $$ Hr'
  isplitl [H0]
  · rw [list_landed_s1]; iexact H0
  isplitl [Hs]; · iexact Hs
  iexact HO

end Cert.Proof.KB
end
-- ==== Proof.KBPlumb.lean ====
/-
  Plumbing between the states of one vector subcore's task: from the task's resources once its two word lists are
  loaded to the four slots at rest (the share of the node table split into eight read tokens, each list buffer into
  four, nothing of the result written), and from the four slots at rest with the whole result written back to the
  task's resources as it hands them over.
-/
import proofs.«209252_g55662776156339_cont_9to1_m_525_47_alg».proof.Proof.KBState
import Idealize.ShloMosaic.Lib.Transfers

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Transfers (shareTokN shareDrop)

variable {F : FTy → Type}
local notation "𝕄" => MT nD τ sig (HIx 1) (Elt F) ℕ UU ℕ

/-! ## A share as its first read tokens and the remainder -/

theorem range4 : Finset.range 4 = {0, 1, 2, 3} := by decide
theorem range8 : Finset.range 8 = {0, 1, 2, 3, 4, 5, 6, 7} := by decide

theorem toks4 {ℓ : Loc nD τ sig} {I : Finset (Idx ℓ)} {f : Buf (Elt F) ℓ} (q : PosShare TreeShare) :
    (ℓ ↦[I]{q} f : sProp 𝕄) ⊣⊢ iprop((ℓ ↦[I]{shareDrop q 4} f) ∗ (ℓ ↦[I]{shareTokN q 0} f) ∗ (ℓ ↦[I]{shareTokN q 1} f)
      ∗ (ℓ ↦[I]{shareTokN q 2} f) ∗ (ℓ ↦[I]{shareTokN q 3} f)) := by
  have h := Transfers.pointsTo_toks_range (Lvl := ℕ) (ℓ := ℓ) (S := I) (f := f) (Ix := HIx 1) (Name := ℕ) (U := UU) q 4
  rw [range4, SparseCore.bigSep_insert' (by decide), SparseCore.bigSep_insert' (by decide), SparseCore.bigSep_insert' (by decide), bigSep_singleton] at h
  exact h

theorem toks8 {ℓ : Loc nD τ sig} {I : Finset (Idx ℓ)} {f : Buf (Elt F) ℓ} (q : PosShare TreeShare) :
    (ℓ ↦[I]{q} f : sProp 𝕄) ⊣⊢ iprop((ℓ ↦[I]{shareDrop q 8} f) ∗ (ℓ ↦[I]{shareTokN q 0} f) ∗ (ℓ ↦[I]{shareTokN q 1} f)
      ∗ (ℓ ↦[I]{shareTokN q 2} f) ∗ (ℓ ↦[I]{shareTokN q 3} f) ∗ (ℓ ↦[I]{shareTokN q 4} f) ∗ (ℓ ↦[I]{shareTokN q 5} f)
      ∗ (ℓ ↦[I]{shareTokN q 6} f) ∗ (ℓ ↦[I]{shareTokN q 7} f)) := by
  have h := Transfers.pointsTo_toks_range (Lvl := ℕ) (ℓ := ℓ) (S := I) (f := f) (Ix := HIx 1) (Name := ℕ) (U := UU) q 8
  rw [range8, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton] at h
  exact h

/-! ## The node table as the body's gathers address it; the empty segment; the task's base -/

variable [FloatOps F]
variable (m : (ℓ : Loc nD τ sig) → Buf (Elt F) ℓ) (A : (d : Dev nD) → Arrays (F := F) d) (d : Dev nD) (L : grid0.Coords)

omit [FloatOps F] in
theorem z_eq (q : PosShare TreeShare) (f : Buf (Elt F) (zLoc d)) :
    (zLoc d ↦{q} f : sProp 𝕄) = ((zSl).view.loc (thrV d L) ↦[(zSl).view.set]{q} f) := by
  rw [set_zSl]

theorem seg_zero (o : ℕ) : seg o 0 = ∅ := by
  ext j; simp only [mem_seg, Finset.notMem_empty, iff_false]; omega

theorem base_eq : 10000 * wid (cL L) (iL L) = baseOf L := by
  show 10000 * (2 * (L 1).val + (L 0).val) = 20000 * (L 1).val + 10000 * (L 0).val
  omega

/-- Nothing written: the task's whole segment of the result as launched. -/
theorem outSt_zero : outSt m A d L 0 = (oLoc d ↦[seg (baseOf L) 10000]{fullShare} m (oLoc d) : sProp 𝕄) := by
  unfold outSt
  rw [show 80 * 0 = 0 from rfl, Nat.add_zero, Nat.sub_zero, seg_zero, pointsTo_empty]
  exact equiv_iff.mp emp_sep

/-- All 125 chunks written: the task's whole segment at the claimed function. -/
theorem outSt_full : outSt m A d L 125 = (oLoc d ↦[seg (baseOf L) 10000]{fullShare} outOf m A d : sProp 𝕄) := by
  unfold outSt
  rw [show 80 * 125 = 10000 from rfl, Nat.sub_self, seg_zero, pointsTo_empty]
  exact equiv_iff.mp sep_emp

/-! ## From the loaded lists to the four slots at rest -/

theorem mid_of_loaded :
    iprop((zLoc d ↦{qz L} m (zLoc d)) ∗ (rLoc d ↦[seg (baseOf L) 10000]{fullShare} (A d).ri) ∗ (cLoc d ↦[seg (baseOf L) 10000]{fullShare} (A d).ci)
        ∗ (oLoc d ↦[seg (baseOf L) 10000]{fullShare} m (oLoc d)) ∗ ((s0).view.loc (thrV d L) ↦{fullShare} lrR A d L)
        ∗ ((s1).view.loc (thrV d L) ↦{fullShare} lrC A d L) ∗ anyBuf d L s2 ∗ anyBuf d L s3 ∗ anyBuf d L s4 ∗ anyBuf d L s5 ∗ anyBuf d L s6
        ∗ anyBuf d L s7 ∗ anyBuf d L s8 ∗ anyBuf d L s9 ∗ anyBuf d L s10 ∗ sems d L)
      ⊢ iprop(slotIdle0 m A d L ∗ slotIdle1 m A d L ∗ slotIdle2 m A d L ∗ slotIdle3 m A d L ∗ restSt m A d L ∗ outSt m A d L 0) := by
  rw [outSt_zero, z_eq d L]
  unfold slotIdle0 slotIdle1 slotIdle2 slotIdle3 restSt sems
  iintro ⟨Hz, Hr, Hc, Ho, Hs0, Hs1, B2, B3, B4, B5, B6, B7, B8, B9, B10, S11, S12, S13, S14, S15, S16, S17, S18, C0, C1, C2, C3, C4, C5, C6⟩
  ihave Hz' := (toks8 (qz L)).1 $$ Hz
  icases Hz' with ⟨Zd, Z0, Z1, Z2, Z3, Z4, Z5, Z6, Z7⟩
  ihave Hs0' := (toks4 fullShare).1 $$ Hs0
  icases Hs0' with ⟨Rd, R0, R1, R2, R3⟩
  ihave Hs1' := (toks4 fullShare).1 $$ Hs1
  icases Hs1' with ⟨Kd, K0, K1, K2, K3⟩
  iframe

/-! ## From the four slots at rest, the whole result written, to what the task hands over -/

theorem close_of_done :
    iprop(slotIdle0 m A d L ∗ slotIdle1 m A d L ∗ slotIdle2 m A d L ∗ slotIdle3 m A d L ∗ restSt m A d L ∗ outSt m A d L 125)
      ⊢ iprop(taskRes m A d (cL L) (iL L) (outOf m A d) ∗ bufs d L ∗ sems d L) := by
  rw [outSt_full]
  unfold slotIdle0 slotIdle1 slotIdle2 slotIdle3 restSt taskRes bufs sems
  rw [base_eq, z_eq d L]
  iintro ⟨⟨B2, B6, Z0, Z4, R0, K0, S11, S15⟩, ⟨B3, B7, Z1, Z5, R1, K1, S12, S16⟩, ⟨B4, B8, Z2, Z6, R2, K2, S13, S17⟩,
    ⟨B5, B9, Z3, Z7, R3, K3, S14, S18⟩, ⟨Zd, Rd, Kd, Hr, Hc, B10, C0, C1, C2, C3, C4, C5, C6⟩, Ho⟩
  ihave Hz := (toks8 (qz L)).2 $$ [Zd Z0 Z1 Z2 Z3 Z4 Z5 Z6 Z7]
  · iframe
  ihave Hs0 := (toks4 fullShare).2 $$ [Rd R0 R1 R2 R3]
  · iframe
  ihave Hs1 := (toks4 fullShare).2 $$ [Kd K0 K1 K2 K3]
  · iframe
  isplitl [Hz Hr Hc Ho]
  · iframe
  isplitl [Hs0 Hs1 B2 B3 B4 B5 B6 B7 B8 B9 B10]
  · isplitl [Hs0]; · iexists _; iexact Hs0
    isplitl [Hs1]; · iexists _; iexact Hs1
    iframe
  iframe

end Cert.Proof.KB

end
-- ==== Proof.KBBody.lean ====
/-
  One vector subcore's task, whole: the first copies fill the two word lists; the four slots launch chunks 0 to 3; each of
  the 31 trips of the main loop computes the chunks 4k … 4k+3 on the slots 0 … 3 and launches, on each slot, the chunk
  four further while there is one; the last chunk, 124, is computed on slot 0 after the loop. The invariant of the loop:
  before trip k the first 4k chunks of the result are written and slot b holds chunk 4k+b in flight (or, past the last
  chunk, is at rest).
-/
import proofs.«209252_g55662776156339_cont_9to1_m_525_47_alg».proof.Proof.KBSlots
import proofs.«209252_g55662776156339_cont_9to1_m_525_47_alg».proof.Proof.KBPlumb

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]
variable (m : (ℓ : Loc nD τ sig) → Buf (Elt F) ℓ) (A : (d : Dev nD) → Arrays (F := F) d)

theorem k0_t1_trips : k0_t1_loop.trips = 31 := by decide

theorem slot0_fl (d : Dev nD) (L : grid0.Coords) (n : ℕ) (hn : n < 125) : slot0 m A d L n = slotFl0 m A d L n hn := dif_pos hn
theorem slot1_fl (d : Dev nD) (L : grid0.Coords) (n : ℕ) (hn : n < 125) : slot1 m A d L n = slotFl1 m A d L n hn := dif_pos hn
theorem slot2_fl (d : Dev nD) (L : grid0.Coords) (n : ℕ) (hn : n < 125) : slot2 m A d L n = slotFl2 m A d L n hn := dif_pos hn
theorem slot3_fl (d : Dev nD) (L : grid0.Coords) (n : ℕ) (hn : n < 125) : slot3 m A d L n = slotFl3 m A d L n hn := dif_pos hn

theorem slot0_idle (d : Dev nD) (L : grid0.Coords) (n : ℕ) (hn : ¬ n < 125) : slot0 m A d L n = slotIdle0 m A d L := dif_neg hn
theorem slot1_idle (d : Dev nD) (L : grid0.Coords) (n : ℕ) (hn : ¬ n < 125) : slot1 m A d L n = slotIdle1 m A d L := dif_neg hn
theorem slot2_idle (d : Dev nD) (L : grid0.Coords) (n : ℕ) (hn : ¬ n < 125) : slot2 m A d L n = slotIdle2 m A d L := dif_neg hn
theorem slot3_idle (d : Dev nD) (L : grid0.Coords) (n : ℕ) (hn : ¬ n < 125) : slot3 m A d L n = slotIdle3 m A d L := dif_neg hn

/-- The state before trip `k` of the main loop. -/
def loopInv (d : Dev nD) (L : grid0.Coords) (O : CellTallies nD τ sig (HIx 1)) (W : Waits sig (HIx 1)) (k : ℕ) : sProp 𝕄 :=
  iprop(slot0 m A d L (4 * k) ∗ slot1 m A d L (4 * k + 1) ∗ slot2 m A d L (4 * k + 2) ∗ slot3 m A d L (4 * k + 3)
    ∗ restSt m A d L ∗ outSt m A d L (4 * k) ∗ owesSt d L O W)

set_option maxHeartbeats 8000000 in
/-- One trip of the main loop, not the last: every slot launches the chunk four further. -/
theorem trip_more (hR : InRange A) (d : Dev nD) (L : grid0.Coords) (O : CellTallies nD τ sig (HIx 1)) (W : Waits sig (HIx 1))
    (v2 : BitVec 32) (k : Fin k0_t1_loop.trips) (u : Unit) (hk30 : k.val < 30) :
    iprop(Transfers.MayWaits (thrV d L) (none : HIx 1) O ∗ loopInv m A d L O W k.val)
      ⊢ wp frame (wpE (defs₀ (F := F)) 𝒱₀ (thrV d L) none) Set.univ
          (k0_t1_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k u)
          (fun _ => iprop(Transfers.MayWaits (thrV d L) (none : HIx 1) O ∗ loopInv m A d L O W (k.val + 1))) := by
  have h1 : k0_cond1 k = 1#1 := cond1_true k
  have h2 : k0_cond2 k = 1#1 := by rw [cond2_iff k]; omega
  have h3 : k0_cond3 k = 1#1 := by rw [cond3_iff k]; omega
  have h4 : k0_cond4 k = 1#1 := by rw [cond4_iff k]; omega
  unfold loopInv
  iintro ⟨#Hmw, F0, F1, F2, F3, Hrest, Hout, HO⟩
  unfold k0_t1_body
  rw [k0_part1_eq_skeleton, k0_part2_eq_skeleton]; unfold k0_part1_skel k0_part2_skel
  simp only [dif_pos h1, dif_pos h2, dif_pos h3, dif_pos h4]
  simp only [SparseCore.waitIndirectGather, Prog.lift, Prog.bind_op, Prog.bind_ret, Prog.pure_eq_ret, bind_assoc]
  unfold restSt
  icases Hrest with ⟨Zd, L0d, L1d, Hr, Hc, Hv, X0, X1, X2, X3, X4, X5, X6⟩
  -- chunk 4k on slot 0
  ihave F0' := (Entails.of_eq (slot0_fl m A d L (4 * k.val) (by omega))) $$ F0
  iapply (compute_a m A d L _ _ _ k (4 * k.val) (by omega) (k0_off3 L k 0#32) (k0_off3_inb L k 0) (off3_eq L k 0) O W _ _) $$ [F0' Hv Hout X2 HO]
  · isplitl [F0']; · iexact F0'
    isplitl [Hv]; · iexact Hv
    isplitl [Hout]; · iexact Hout
    isplitl [X2]; · iexact X2
    isplitl [HO]; · iexact HO
    iexact Hmw
  iintro ⟨I0, Hv, Hout, X2, HO⟩
  iapply (launch0 m A d L hR (4 * k.val + 4) (by omega) (k0_off4 k) (k0_off4_inb k h1) (off4_eq k) _ _) $$ I0
  iintro F0
  -- chunk 4k+1 on slot 1
  ihave F1' := (Entails.of_eq (slot1_fl m A d L (4 * k.val + 1) (by omega))) $$ F1
  iapply (compute_b m A d L _ k _ _ _ (4 * k.val + 1) (by omega) (k0_off3 L k 1#32) (k0_off3_inb L k 1) (off3_eq L k 1) O W _ _) $$ [F1' Hv Hout X3 HO]
  · isplitl [F1']; · iexact F1'
    isplitl [Hv]; · iexact Hv
    isplitl [Hout]; · iexact Hout
    isplitl [X3]; · iexact X3
    isplitl [HO]; · iexact HO
    iexact Hmw
  iintro ⟨I1, Hv, Hout, X3, HO⟩
  iapply (launch1 m A d L hR (4 * k.val + 5) (by omega) (k0_off6 k) (k0_off6_inb k h2) (off6_eq k) _ _) $$ I1
  iintro F1
  -- chunk 4k+2 on slot 2
  ihave F2' := (Entails.of_eq (slot2_fl m A d L (4 * k.val + 2) (by omega))) $$ F2
  iapply (compute_c m A d L _ k _ _ _ _ (4 * k.val + 2) (by omega) (k0_off3 L k 2#32) (k0_off3_inb L k 2) (off3_eq L k 2) O W _ _) $$ [F2' Hv Hout X4 HO]
  · isplitl [F2']; · iexact F2'
    isplitl [Hv]; · iexact Hv
    isplitl [Hout]; · iexact Hout
    isplitl [X4]; · iexact X4
    isplitl [HO]; · iexact HO
    iexact Hmw
  iintro ⟨I2, Hv, Hout, X4, HO⟩
  iapply (launch2 m A d L hR (4 * k.val + 6) (by omega) (k0_off8 k) (k0_off8_inb k h3) (off8_eq k) _ _) $$ I2
  iintro F2
  -- chunk 4k+3 on slot 3
  ihave F3' := (Entails.of_eq (slot3_fl m A d L (4 * k.val + 3) (by omega))) $$ F3
  iapply (compute_d m A d L (4 * k.val + 3) (by omega) (k0_off3 L k 3#32) (k0_off3_inb L k 3) (off3_eq L k 3) O W _ _) $$ [F3' Hv Hout X5 HO]
  · isplitl [F3']; · iexact F3'
    isplitl [Hv]; · iexact Hv
    isplitl [Hout]; · iexact Hout
    isplitl [X5]; · iexact X5
    isplitl [HO]; · iexact HO
    iexact Hmw
  iintro ⟨I3, Hv, Hout, X5, HO⟩
  iapply (launch3 m A d L hR (4 * k.val + 7) (by omega) (k0_off10 k) (k0_off10_inb k h4) (off10_eq k) _ _) $$ I3
  iintro F3
  rw [wp_ret]; imodintro
  isplitr; · iexact Hmw
  isplitl [F0]; · rw [slot0_fl m A d L (4 * (k.val + 1)) (by omega)]; iexact F0
  isplitl [F1]; · rw [slot1_fl m A d L (4 * (k.val + 1) + 1) (by omega)]; iexact F1
  isplitl [F2]; · rw [slot2_fl m A d L (4 * (k.val + 1) + 2) (by omega)]; iexact F2
  isplitl [F3]; · rw [slot3_fl m A d L (4 * (k.val + 1) + 3) (by omega)]; iexact F3
  isplitl [Zd L0d L1d Hr Hc Hv X0 X1 X2 X3 X4 X5 X6]
  · iframe
  isplitl [Hout]; · iexact Hout
  iexact HO

set_option maxHeartbeats 8000000 in
/-- One trip of the main loop, the last: only slot 0 has a further chunk to launch. -/
theorem trip_last (hR : InRange A) (d : Dev nD) (L : grid0.Coords) (O : CellTallies nD τ sig (HIx 1)) (W : Waits sig (HIx 1))
    (v2 : BitVec 32) (k : Fin k0_t1_loop.trips) (u : Unit) (hk30 : k.val = 30) :
    iprop(Transfers.MayWaits (thrV d L) (none : HIx 1) O ∗ loopInv m A d L O W k.val)
      ⊢ wp frame (wpE (defs₀ (F := F)) 𝒱₀ (thrV d L) none) Set.univ
          (k0_t1_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k u)
          (fun _ => iprop(Transfers.MayWaits (thrV d L) (none : HIx 1) O ∗ loopInv m A d L O W (k.val + 1))) := by
  have h1 : k0_cond1 k = 1#1 := cond1_true k
  have h2 : ¬ k0_cond2 k = 1#1 := by rw [cond2_iff k]; omega
  have h3 : ¬ k0_cond3 k = 1#1 := by rw [cond3_iff k]; omega
  have h4 : ¬ k0_cond4 k = 1#1 := by rw [cond4_iff k]; omega
  unfold loopInv
  iintro ⟨#Hmw, F0, F1, F2, F3, Hrest, Hout, HO⟩
  unfold k0_t1_body
  rw [k0_part1_eq_skeleton, k0_part2_eq_skeleton]; unfold k0_part1_skel k0_part2_skel
  simp only [dif_pos h1, dif_neg h2, dif_neg h3, dif_neg h4]
  simp only [SparseCore.waitIndirectGather, Prog.lift, Prog.bind_op, Prog.bind_ret, Prog.pure_eq_ret, bind_assoc]
  unfold restSt
  icases Hrest with ⟨Zd, L0d, L1d, Hr, Hc, Hv, X0, X1, X2, X3, X4, X5, X6⟩
  -- chunk 4k on slot 0
  ihave F0' := (Entails.of_eq (slot0_fl m A d L (4 * k.val) (by omega))) $$ F0
  iapply (compute_a m A d L _ _ _ k (4 * k.val) (by omega) (k0_off3 L k 0#32) (k0_off3_inb L k 0) (off3_eq L k 0) O W _ _) $$ [F0' Hv Hout X2 HO]
  · isplitl [F0']; · iexact F0'
    isplitl [Hv]; · iexact Hv
    isplitl [Hout]; · iexact Hout
    isplitl [X2]; · iexact X2
    isplitl [HO]; · iexact HO
    iexact Hmw
  iintro ⟨I0, Hv, Hout, X2, HO⟩
  iapply (launch0 m A d L hR (4 * k.val + 4) (by omega) (k0_off4 k) (k0_off4_inb k h1) (off4_eq k) _ _) $$ I0
  iintro F0
  -- chunk 4k+1 on slot 1
  ihave F1' := (Entails.of_eq (slot1_fl m A d L (4 * k.val + 1) (by omega))) $$ F1
  iapply (compute_b m A d L _ k _ _ _ (4 * k.val + 1) (by omega) (k0_off3 L k 1#32) (k0_off3_inb L k 1) (off3_eq L k 1) O W _ _) $$ [F1' Hv Hout X3 HO]
  · isplitl [F1']; · iexact F1'
    isplitl [Hv]; · iexact Hv
    isplitl [Hout]; · iexact Hout
    isplitl [X3]; · iexact X3
    isplitl [HO]; · iexact HO
    iexact Hmw
  iintro ⟨I1, Hv, Hout, X3, HO⟩
  -- chunk 4k+2 on slot 2
  ihave F2' := (Entails.of_eq (slot2_fl m A d L (4 * k.val + 2) (by omega))) $$ F2
  iapply (compute_c m A d L _ k _ _ _ _ (4 * k.val + 2) (by omega) (k0_off3 L k 2#32) (k0_off3_inb L k 2) (off3_eq L k 2) O W _ _) $$ [F2' Hv Hout X4 HO]
  · isplitl [F2']; · iexact F2'
    isplitl [Hv]; · iexact Hv
    isplitl [Hout]; · iexact Hout
    isplitl [X4]; · iexact X4
    isplitl [HO]; · iexact HO
    iexact Hmw
  iintro ⟨I2, Hv, Hout, X4, HO⟩
  -- chunk 4k+3 on slot 3
  ihave F3' := (Entails.of_eq (slot3_fl m A d L (4 * k.val + 3) (by omega))) $$ F3
  iapply (compute_d m A d L (4 * k.val + 3) (by omega) (k0_off3 L k 3#32) (k0_off3_inb L k 3) (off3_eq L k 3) O W _ _) $$ [F3' Hv Hout X5 HO]
  · isplitl [F3']; · iexact F3'
    isplitl [Hv]; · iexact Hv
    isplitl [Hout]; · iexact Hout
    isplitl [X5]; · iexact X5
    isplitl [HO]; · iexact HO
    iexact Hmw
  iintro ⟨I3, Hv, Hout, X5, HO⟩
  rw [wp_ret]; imodintro
  isplitr; · iexact Hmw
  isplitl [F0]; · rw [slot0_fl m A d L (4 * (k.val + 1)) (by omega)]; iexact F0
  isplitl [I1]; · rw [slot1_idle m A d L _ (by omega)]; iexact I1
  isplitl [I2]; · rw [slot2_idle m A d L _ (by omega)]; iexact I2
  isplitl [I3]; · rw [slot3_idle m A d L _ (by omega)]; iexact I3
  isplitl [Zd L0d L1d Hr Hc Hv X0 X1 X2 X3 X4 X5 X6]
  · iframe
  isplitl [Hout]; · iexact Hout
  iexact HO

/-- One trip of the main loop. -/
theorem trip (hR : InRange A) (d : Dev nD) (L : grid0.Coords) (O : CellTallies nD τ sig (HIx 1)) (W : Waits sig (HIx 1))
    (v2 : BitVec 32) (k : Fin k0_t1_loop.trips) (u : Unit) :
    iprop(Transfers.MayWaits (thrV d L) (none : HIx 1) O ∗ loopInv m A d L O W k.val)
      ⊢ wp frame (wpE (defs₀ (F := F)) 𝒱₀ (thrV d L) none) Set.univ
          (k0_t1_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k u)
          (fun _ => iprop(Transfers.MayWaits (thrV d L) (none : HIx 1) O ∗ loopInv m A d L O W (k.val + 1))) := by
  have hk : k.val < 31 := Nat.lt_of_lt_of_eq k.isLt k0_t1_trips
  by_cases h : k.val < 30
  · exact trip_more m A hR d L O W v2 k u h
  · exact trip_last m A hR d L O W v2 k u (by omega)

set_option maxHeartbeats 8000000 in
/-- The task. -/
theorem tile_core (hR : InRange A) : TileCore m A := by
  intro d L O W
  iintro ⟨#Hmw, Htask, Hbufs, Hsems, HO⟩
  unfold bodyAt
  rw [cc0_body_eq_skeleton]; unfold cc0_body_skel
  rw [k0_part3_eq_skeleton]; unfold k0_part3_skel
  simp only [SparseCore.waitIndirectGather, Prog.lift, Prog.bind_op, Prog.bind_ret, Prog.pure_eq_ret, bind_assoc]
  unfold taskRes bufs
  icases Htask with ⟨Hz, Hr, Hc, Ho⟩
  icases Hbufs with ⟨⟨%f0, H0⟩, ⟨%f1, H1⟩, Hb2, Hb3, Hb4, Hb5, Hb6, Hb7, Hb8, Hb9, Hb10⟩
  unfold sems
  icases Hsems with ⟨S11, S12, S13, S14, S15, S16, S17, S18, X0, X1, X2, X3, X4, X5, X6⟩
  rw [base_eq L]
  iapply (loadlist_R A d L f0 O W _ _) $$ [Hr H0 X0 HO]
  · isplitl [Hr]; · iexact Hr
    isplitl [H0]; · iexact H0
    isplitl [X0]; · iexact X0
    isplitl [HO]; · iexact HO
    iexact Hmw
  iintro ⟨Hr, H0, X0, HO⟩
  iapply (loadlist_C A d L f1 O _ _ _) $$ [Hc H1 X1 HO]
  · isplitl [Hc]; · iexact Hc
    isplitl [H1]; · iexact H1
    isplitl [X1]; · iexact X1
    isplitl [HO]; · iexact HO
    iexact Hmw
  iintro ⟨Hc, H1, X1, HO⟩
  ihave Hmid := (mid_of_loaded m A d L) $$ [Hz Hr Hc Ho H0 H1 Hb2 Hb3 Hb4 Hb5 Hb6 Hb7 Hb8 Hb9 Hb10 S11 S12 S13 S14 S15 S16 S17 S18 X0 X1 X2 X3 X4 X5 X6]
  · unfold sems; iframe
  icases Hmid with ⟨I0, I1, I2, I3, Hrest, Hout⟩
  iapply (launch0 m A d L hR 0 (by decide) ![0] inb_S10000_S80_0 rfl _ _) $$ I0; iintro F0
  iapply (launch1 m A d L hR 1 (by decide) ![80] inb_S10000_S80_80 rfl _ _) $$ I1; iintro F1
  iapply (launch2 m A d L hR 2 (by decide) ![160] inb_S10000_S80_160 rfl _ _) $$ I2; iintro F2
  iapply (launch3 m A d L hR 3 (by decide) ![240] inb_S10000_S80_240 rfl _ _) $$ I3; iintro F3
  iapply (Scf.wp_for_bind frame (wpE (defs₀ (F := F)) 𝒱₀ (thrV d L) none) Set.univ _ _ _ k0_t1_ok ⟨⟩ _
      (fun k _ => iprop(Transfers.MayWaits (thrV d L) (none : HIx 1) O ∗ loopInv m A d L O W k)) ?step) $$ [F0 F1 F2 F3 Hrest Hout HO] []
  case step => exact fun k u => trip m A hR d L O W _ k u
  · isplitr; · iexact Hmw
    unfold loopInv
    isplitl [F0]; · rw [slot0_fl m A d L (4 * 0) (by decide)]; iexact F0
    isplitl [F1]; · rw [slot1_fl m A d L (4 * 0 + 1) (by decide)]; iexact F1
    isplitl [F2]; · rw [slot2_fl m A d L (4 * 0 + 2) (by decide)]; iexact F2
    isplitl [F3]; · rw [slot3_fl m A d L (4 * 0 + 3) (by decide)]; iexact F3
    isplitl [Hrest]; · iexact Hrest
    isplitl [Hout]; · iexact Hout
    unfold owesSt
    iexists (insert (SemLoc.dma cc0_scoped1.sem, (none : HIx 1)) (insert (SemLoc.dma cc0_scoped0.sem, (none : HIx 1)) W)); isplitr
    · ipureintro; intro p hp
      rcases Finset.mem_insert.mp hp with rfl | hp
      · exact .inr rfl
      rcases Finset.mem_insert.mp hp with rfl | hp
      · exact .inr rfl
      · exact .inl hp
    iexact HO
  iintro %u ⟨-, Hinv⟩
  rw [show Scf.trips k0_t1_loop.lb k0_t1_loop.ub k0_t1_loop.st = 31 from k0_t1_trips]
  unfold loopInv
  icases Hinv with ⟨F0, F1, F2, F3, Hrest, Hout, HO⟩
  unfold restSt
  icases Hrest with ⟨Zd, L0d, L1d, Hr, Hc, Hv, X0, X1, X2, X3, X4, X5, X6⟩
  ihave F0' := (Entails.of_eq (slot0_fl m A d L (4 * 31) (by decide))) $$ F0
  iapply (compute_e m A d L 124 (by decide) (k0_off12 L) (k0_off12_inb L) (off12_eq L) O W _ _) $$ [F0' Hv Hout X6 HO]
  · isplitl [F0']; · iexact F0'
    isplitl [Hv]; · iexact Hv
    isplitl [Hout]; · iexact Hout
    isplitl [X6]; · iexact X6
    isplitl [HO]; · iexact HO
    iexact Hmw
  iintro ⟨I0, Hv, Hout, X6, HO⟩
  rw [wp_ret]; imodintro
  unfold owesSt
  icases HO with ⟨%W', %hW', HO⟩
  ihave F1 := (Entails.of_eq (slot1_idle m A d L (4 * 31 + 1) (by decide))) $$ F1
  ihave F2 := (Entails.of_eq (slot2_idle m A d L (4 * 31 + 2) (by decide))) $$ F2
  ihave F3 := (Entails.of_eq (slot3_idle m A d L (4 * 31 + 3) (by decide))) $$ F3
  have hclose := close_of_done m A d L
  unfold taskRes bufs sems at hclose
  rw [base_eq L] at hclose
  ihave Hfin := (hclose) $$ [I0 F1 F2 F3 Zd L0d L1d Hr Hc Hv X0 X1 X2 X3 X4 X5 X6 Hout]
  · isplitl [I0]; · iexact I0
    isplitl [F1]; · iexact F1
    isplitl [F2]; · iexact F2
    isplitl [F3]; · iexact F3
    isplitl [Zd L0d L1d Hr Hc Hv X0 X1 X2 X3 X4 X5 X6]; · unfold restSt; iframe
    iexact Hout
  icases Hfin with ⟨Ht, Hb, Hs⟩
  isplitl [Ht]; · iexact Ht
  isplitl [Hb]; · iexact Hb
  isplitl [Hs]; · iexact Hs
  iexists W'; isplitr
  · ipureintro; exact hW'
  iexact HO

end Cert.Proof.KB
end
-- ==== Proof.PreRange.lean ====
/-
  The input-domain precondition, read back on its integer conjunct.

  The predicate is the conjunction of two whole-array tests, each an and-reduction over every axis of an array of one-bit
  words: "every entry of z is finite" and "every entry e of edge_index has 0 ≤ e ≤ 9999 (signed)". When the predicate is
  1, the second reduction is 1, so each of its operand's bits is 1, so each entry passes both signed comparisons; a
  32-bit word that is signed-nonnegative and signed-at-most 9999 has unsigned value below 10000. Nothing here depends on
  how floats are read: the statement holds at every float instance.
-/
import proofs.«209252_g55662776156339_cont_9to1_m_525_47_alg».proof.Pre_input_domain
import Idealize.ShloMosaic.Lib.ReduceAll
import Idealize.ShloMosaic.Lib.ValueIdx

noncomputable section

namespace Cert.RefSide

open Idealize.ShloMosaic Idealize.ShloMosaic.ValueIdx

/-- The scalar shape has one index. -/
instance subsingleton_scalar_idx : Subsingleton Cert.Pre_input_domain.S_.Idx := ⟨fun a b => funext fun d => d.elim0⟩

/-- A 32-bit word between 0 and 9999, both read signed, is below 10000 read unsigned. -/
theorem toNat_lt_of_signed_range (w : BitVec 32) (h0 : (0#32 : BitVec 32).toInt ≤ w.toInt)
    (h1 : w.toInt ≤ (9999#32 : BitVec 32).toInt) : w.toNat < 10000 := by
  have e0 : (0#32 : BitVec 32).toInt = 0 := by decide
  have e1 : (9999#32 : BitVec 32).toInt = 9999 := by decide
  rw [e0] at h0
  rw [e1] at h1
  have hw := w.isLt
  rw [BitVec.toInt_eq_toNat_cond] at h0 h1
  split at h0 <;> omega

/-- Under the input-domain precondition every entry of the index array, read unsigned, is a row number of the
    10000-row table. -/
theorem range_of_pre {F : FTy → Type} [FloatOps F] [Cert.Pre_input_domain.Facts]
    (z : FVec F Cert.Pre_input_domain.S10000x128 .f32) (ei : IVec Cert.Pre_input_domain.S2x320000 32)
    (h : Cert.Pre_input_domain.fn (F := F) z ei = fun _ => 1#1) :
    ∀ (a : Fin 2) (e : Fin 320000), (ei (ix2 a e)).toNat < 10000 := by
  intro a e
  have e0 := congrFun h ix0
  dsimp only [Cert.Pre_input_domain.fn] at e0
  -- the predicate is the `and` of the two reductions; keep the second
  obtain ⟨-, h9⟩ := IntOp.andi_eq_one.1 e0
  -- an and-reduction over every axis that is 1 had a 1 at every index
  have h8 := Host.reduce_andi_all _ _ _ _ _ h9 (ix2 a e)
  -- that bit is the `and` of the two signed comparisons at the index
  obtain ⟨h5, h7⟩ := IntOp.andi_eq_one.1 h8
  exact toNat_lt_of_signed_range _ (IntOp.cmpi_sge.1 h5) (IntOp.cmpi_sle.1 h7)

end Cert.RefSide

end
-- ==== Proof.KBClaims.lean ====
/-
  The kernel's run under the input-domain precondition, and its frame claim: the precondition puts every row word
  and column word in range, the task's proof then holds of every vector subcore, and the launch gives the run.
-/
import proofs.«209252_g55662776156339_cont_9to1_m_525_47_alg».proof.Proof.KBTile
import proofs.«209252_g55662776156339_cont_9to1_m_525_47_alg».proof.Proof.KBBody
import proofs.«209252_g55662776156339_cont_9to1_m_525_47_alg».proof.Proof.PreRange
import proofs.«209252_g55662776156339_cont_9to1_m_525_47_alg».proof.Proof.Gen.Pre_input_domain

noncomputable section

namespace Cert.Proof.KB

open Cert.Kernel Cert.Kernel.Gen

open Idealize.ShloMosaic
open Idealize.SL.Sem
open Idealize.ShloMosaic.ValueIdx (ix1 ix2 eq_ix1)

variable {F : FTy → Type} [FloatOps F]
variable (m : (ℓ : Loc nD τ sig) → Buf (Elt F) ℓ) (ρ : Dev nD → PrngReg)

/-- Under the input-domain precondition every row word and every column word names a row of the node table: they
    are entries of the edge list, which the precondition bounds. -/
theorem inRange_A₀ (hpre : ∀ c : Dev nD, Cert.Pre_input_domain.fn (F := F) (m (zLoc c)) (m (eLoc c)) = fun _ => 1#1) :
    InRange (A₀ m) := by
  intro d j
  obtain ⟨e, rfl⟩ : ∃ e : Fin 320000, j = ix1 e := ⟨j 0, eq_ix1 j⟩
  rw [A₀_ri, A₀_ci]
  exact ⟨Cert.RefSide.range_of_pre _ _ (hpre d) 0 e, Cert.RefSide.range_of_pre _ _ (hpre d) 1 e⟩

/-- The kernel's run: every weakly fair execution of the device's threads terminates, the result array at the
    claimed function of the arguments, the arguments unchanged. -/
theorem run_kernel [∀ e, Nonempty (Elt F e)]
    (hpre : ∀ c : Dev nD, Cert.Pre_input_domain.fn (F := F) (m (zLoc c)) (m (eLoc c)) = fun _ => 1#1) :
    θ_run (Cert.Kernel.defs (F := F)) (Cert.Kernel.threads (F := F)) ⟨m, fun _ => 0, ρ⟩
      (fun r => ∀ c : Dev nD, r.2.mem (oLoc c) = outOf m (A₀ m) c ∧ r.2.mem (zLoc c) = m (zLoc c) ∧ r.2.mem (eLoc c) = m (eLoc c)) :=
  run_main m ρ (tileObl_of_core m (A₀ m) facts (tile_core m (A₀ m) (inRange_A₀ m hpre)))

/-- `Cert.frame_Kernel` (Defs.lean): the run, the result's value dropped. -/
theorem frame_claim : Cert.frame_Kernel := fun m ρ hpre =>
  (θ_run Cert.Kernel.defs _ _).mono (fun _ h c => (h c).2) (run_kernel m ρ hpre)

end Cert.Proof.KB

end
-- ==== Proof.KIIface.lean ====
/-
  The setting shared by the modules that prove the kernel's run: the program as the launch theorem sees it, the
  ghost state (the launch handshakes' rounds beside the transfers' counters), the arrays, what a vector subcore's task
  is handed and hands back, and the function of the arguments the kernel's result array is claimed to hold.

  The kernel scores 320000 edges. Vector subcore `s` of SparseCore `c` is worker `w = 2 s + c` and owns edges
  `[10000 w, 10000 w + 10000)`: it copies its 10000 row words and 10000 column words into its own memory, and for
  each chunk of 80 edges gathers the 80 rows `z[row e]` and the 80 rows `z[col e]`, and for each group of 16 edges
  (lane `l` = edge number mod 16) accumulates, over `t = 0 … 127`, the product of the two rows' entries at column
  `(l + t) mod 128`, from the zero word, left to right; the score is `1 / (1 + exp (0 - acc))`.
-/
import proofs.«209252_g55662776156339_cont_9to1_m_525_47_alg».proof.Defs
import proofs.«209252_g55662776156339_cont_9to1_m_525_47_alg».proof.Proof.Gen.KernelIdeal
import proofs.«209252_g55662776156339_cont_9to1_m_525_47_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The node table `z`, the edge list (two rows of 320000 words), the row words and the column words as @main's
    host operations cut them out of the edge list, and the result. -/
abbrev zLoc (d : Dev nD) : Loc nD τ sig := (SparseCore.T d).loc main_arg0
abbrev eLoc (d : Dev nD) : Loc nD τ sig := (SparseCore.T d).loc main_arg1
abbrev rLoc (d : Dev nD) : Loc nD τ sig := (SparseCore.T d).loc main_v1
abbrev cLoc (d : Dev nD) : Loc nD τ sig := (SparseCore.T d).loc main_v3
abbrev oLoc (d : Dev nD) : Loc nD τ sig := (SparseCore.T d).loc main_v4

/-- The words `[o, o + n)` of a rank-one array of 320000 words. -/
def seg (o n : ℕ) : Finset S320000.Idx := Finset.univ.filter fun j => o ≤ (j 0).val ∧ (j 0).val < o + n

theorem mem_seg {o n : ℕ} {j : S320000.Idx} : j ∈ seg o n ↔ o ≤ (j 0).val ∧ (j 0).val < o + n := by
  simp [seg]

/-- Worker number of vector subcore `i` of SparseCore `c`. -/
def wid (c : Fin 2) (i : Fin 16) : ℕ := 2 * i.val + c.val

/-! ## The claimed result, as a function of the arguments -/

section Spec
variable [FloatOps F]

/-- The row of `z` a word names (the words are in range under the precondition; reduced so that the term is total). -/
def rowOfWord (w : BitVec 32) : Fin 10000 := ⟨w.toNat % 10000, Nat.mod_lt _ (by decide)⟩
/-- Lane `l`'s column at step `t`: the lanes walk the 128 columns in rotated order. -/
def colAt (l t : ℕ) : Fin 128 := ⟨(l + t) % 128, Nat.mod_lt _ (by decide)⟩

/-- A lane's accumulator after `t` steps, for the two row words `w₁`, `w₂` of its edge and its lane number `l`: from
    the zero word, each step adds the product of the two named rows' entries at the lane's column of that step. -/
def accL (z : FVec F S10000x128 .f32) (w₁ w₂ : BitVec 32) (l : ℕ) : ℕ → F .f32
  | 0 => Scalar.ofBits .f32 0x00000000#32
  | t + 1 => FloatOps.addf (accL z w₁ w₂ l t)
      (FloatOps.mulf (z (ix2 (rowOfWord w₁) (colAt l t))) (z (ix2 (rowOfWord w₂) (colAt l t))))

/-- The score of an accumulated dot product: `1 / (1 + exp (0 - a))`, the constants the words the kernel writes. -/
def score (a : F .f32) : F .f32 :=
  FloatOps.divf (Scalar.ofBits .f32 0x3F800000#32)
    (FloatOps.addf (Scalar.ofBits .f32 0x3F800000#32) (FloatOps.exp (FloatOps.subf (Scalar.ofBits .f32 0x00000000#32) a)))

/-- What the kernel leaves in its result array, from `z`, the row words and the column words: edge `e` is lane
    `e mod 16` of its group. -/
def outSpec (z : FVec F S10000x128 .f32) (ri ci : IVec S320000 32) : FVec F S320000 .f32 :=
  fun j => score (accL z (ri j) (ci j) ((j 0).val % 16) 128)

end Spec

/-- The row words and the column words held at the kernel's start, and the result the run ends with, per device. -/
structure Arrays (d : Dev nD) where
  ri : Buf (Elt F) (rLoc d)
  ci : Buf (Elt F) (cLoc d)

variable (A : (d : Dev nD) → Arrays (F := F) d)

/-- What the proof asks of the row and column words: every one names a row of `z`. -/
def InRange : Prop := ∀ (d : Dev nD) (j : S320000.Idx), ((A d).ri j).toNat < 10000 ∧ ((A d).ci j).toNat < 10000

variable [FloatOps F]

/-- Device `d`'s claimed result. -/
def outOf (d : Dev nD) : Buf (Elt F) (oLoc d) := outSpec (m (zLoc d)) (A d).ri (A d).ci

/-! ## What a task is handed, and what it hands back -/

/-- Task `(c, i)`: a read share of `z` (one of 32 tokens of the whole), its 10000 row words and column words, and
    its 10000 words of the result, at the launch contents `f`. -/
def taskRes (d : Dev nD) (c : Fin 2) (i : Fin 16) (f : Buf (Elt F) (oLoc d)) : sProp 𝕄 :=
  iprop((zLoc d ↦{Transfers.shareTokN fullShare (wid c i)} m (zLoc d))
    ∗ (rLoc d ↦[seg (10000 * wid c i) 10000]{fullShare} (A d).ri)
    ∗ (cLoc d ↦[seg (10000 * wid c i) 10000]{fullShare} (A d).ci)
    ∗ (oLoc d ↦[seg (10000 * wid c i) 10000]{fullShare} f))

/-- The one call: a SparseCore is handed its sixteen tasks' resources and hands them back, the result words at the
    claimed function. -/
def P : (K (F := F)).Pay (nD := nD) (Val := Elt F) (Name := ℕ) (U := UU) where
  st := fun q d c => match q with
    | 0 => bigSep Finset.univ fun i : Fin 16 => taskRes m A d (Fin.cast nCore_zero c) i (m (oLoc d))
  dn := fun q d c => match q with
    | 0 => bigSep Finset.univ fun i : Fin 16 => taskRes m A d (Fin.cast nCore_zero c) i (outOf m A d)
  go := fun q d c i => match q with
    | 0 => taskRes m A d (Fin.cast nCore_zero c) (Fin.cast nSub_zero i) (m (oLoc d))
  td := fun q d c i => match q with
    | 0 => taskRes m A d (Fin.cast nCore_zero c) (Fin.cast nSub_zero i) (outOf m A d)
  x := fun _ _ => iprop(emp)

end Cert.Proof.KI

end
-- ==== Proof.KIRes.lean ====
/-
  The resources of one vector subcore's task, named: the thread, the arrays and scratch buffers as the kernel's body
  is handed them, the scratch buffers and DMA semaphores the task owns, and the statement of the task's proof over them.
-/
import proofs.«209252_g55662776156339_cont_9to1_m_525_47_alg».proof.Proof.KIIface

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

/-! ## The thread and its memrefs -/

abbrev cV (L : grid0.Coords) : Fin τ.nSC := (L 0).castLE hcore0
abbrev jV (L : grid0.Coords) : Fin τ.nSub := (L 1).castLE hsub0
/-- The vector subcore at grid coordinates `L` of device `d`. -/
abbrev thrV (d : Dev nD) (L : grid0.Coords) : Thread nD τ := V d (cV L) (jV L)
abbrev EC : UEmb Counters (MT nD τ sig (HIx 1) (Elt F) ℕ UU ℕ) := countersEmb

theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

abbrev zW : Memref sig .scVector .hbm S10000x128 .f32 := Memref.whole main_arg0_scv
abbrev rW : Memref sig .scVector .hbm S320000 .i32 := Memref.whole main_v1_scv
abbrev cW : Memref sig .scVector .hbm S320000 .i32 := Memref.whole main_v3_scv
abbrev oW : Memref sig .scVector .hbm S320000 .f32 := Memref.whole main_v4_scv
abbrev s0 : Memref sig .scVector .vmem S10000 .i32 := Memref.whole cc0_scratch0
abbrev s1 : Memref sig .scVector .vmem S10000 .i32 := Memref.whole cc0_scratch1
abbrev s2 : Memref sig .scVector .vmem S80x128 .f32 := Memref.whole cc0_scratch2
abbrev s3 : Memref sig .scVector .vmem S80x128 .f32 := Memref.whole cc0_scratch3
abbrev s4 : Memref sig .scVector .vmem S80x128 .f32 := Memref.whole cc0_scratch4
abbrev s5 : Memref sig .scVector .vmem S80x128 .f32 := Memref.whole cc0_scratch5
abbrev s6 : Memref sig .scVector .vmem S80x128 .f32 := Memref.whole cc0_scratch6
abbrev s7 : Memref sig .scVector .vmem S80x128 .f32 := Memref.whole cc0_scratch7
abbrev s8 : Memref sig .scVector .vmem S80x128 .f32 := Memref.whole cc0_scratch8
abbrev s9 : Memref sig .scVector .vmem S80x128 .f32 := Memref.whole cc0_scratch9
abbrev s10 : Memref sig .scVector .vmem S80 .f32 := Memref.whole cc0_scratch10

/-- The kernel's body on the subcore at `L`, as the body table calls it. -/
abbrev bodyAt [FloatOps F] (L : grid0.Coords) :=
  cc0_body (F := F) L zW (Memref.isWhole_whole _) rW (Memref.isWhole_whole _) cW (Memref.isWhole_whole _) oW (Memref.isWhole_whole _)
    s0 (Memref.isWhole_whole _) s1 (Memref.isWhole_whole _) s2 (Memref.isWhole_whole _) s3 (Memref.isWhole_whole _) s4 (Memref.isWhole_whole _)
    s5 (Memref.isWhole_whole _) s6 (Memref.isWhole_whole _) s7 (Memref.isWhole_whole _) s8 (Memref.isWhole_whole _) s9 (Memref.isWhole_whole _)
    s10 (Memref.isWhole_whole _) cc0_scratch11 cc0_scratch12 cc0_scratch13 cc0_scratch14 cc0_scratch15 cc0_scratch16 cc0_scratch17 cc0_scratch18
    cc0_scoped0 cc0_scoped1 cc0_scoped2 cc0_scoped3 cc0_scoped4 cc0_scoped5 cc0_scoped6

/-! ## What the task owns -/

/-- A scratch buffer of the subcore, whole, at some contents. -/
abbrev anyBuf {s : Shape} {e : EltTy} (d : Dev nD) (L : grid0.Coords) (B : Memref sig .scVector .vmem s e) : sProp 𝕄 :=
  iprop(∃ f, B.view.loc (thrV d L) ↦{fullShare} f)

/-- The eleven scratch buffers. -/
def bufs (d : Dev nD) (L : grid0.Coords) : sProp 𝕄 :=
  iprop(anyBuf d L s0 ∗ anyBuf d L s1 ∗ anyBuf d L s2 ∗ anyBuf d L s3 ∗ anyBuf d L s4 ∗ anyBuf d L s5 ∗ anyBuf d L s6 ∗ anyBuf d L s7
    ∗ anyBuf d L s8 ∗ anyBuf d L s9 ∗ anyBuf d L s10)

/-- A DMA semaphore of the subcore at zero. -/
abbrev sem0 (d : Dev nD) (L : grid0.Coords) (a : DmaSems sig S_) : sProp 𝕄 := semVal (thrV d L, SemLoc.dma a.sem) 0

/-- The fifteen DMA semaphores, at zero. -/
def sems (d : Dev nD) (L : grid0.Coords) : sProp 𝕄 :=
  iprop(sem0 d L cc0_scratch11 ∗ sem0 d L cc0_scratch12 ∗ sem0 d L cc0_scratch13 ∗ sem0 d L cc0_scratch14 ∗ sem0 d L cc0_scratch15 ∗ sem0 d L cc0_scratch16 ∗ sem0 d L cc0_scratch17 ∗ sem0 d L cc0_scratch18 ∗ sem0 d L cc0_scoped0 ∗ sem0 d L cc0_scoped1 ∗ sem0 d L cc0_scoped2 ∗ sem0 d L cc0_scoped3 ∗ sem0 d L cc0_scoped4 ∗ sem0 d L cc0_scoped5 ∗ sem0 d L cc0_scoped6)

/-! ## The task's proof, stated over them -/

variable (m : (ℓ : Loc nD τ sig) → Buf (Elt F) ℓ) (A : (d : Dev nD) → Arrays (F := F) d)

/-- One task: from its share of the arrays at the launch contents, its scratch and its semaphores at zero, the body
    runs to the end and hands the same back, the result words at the claimed function. -/
def TileCore [FloatOps F] : Prop :=
  ∀ (d : Dev nD) (L : grid0.Coords) (O : CellTallies nD τ sig (HIx 1)) (W : Waits sig (HIx 1)),
    iprop(Transfers.MayWaits (thrV d L) (none : HIx 1) O ∗ taskRes m A d (cL L) (iL L) (m (oLoc d)) ∗ bufs d L ∗ sems d L ∗ owes (thrV d L) O W)
      ⊢ wp frame (wpE (defs₀ (F := F)) 𝒱₀ (thrV d L) none) Set.univ (bodyAt (F := F) L)
          fun _ => iprop(taskRes m A d (cL L) (iL L) (outOf m A d) ∗ bufs d L ∗ sems d L
            ∗ ∃ W', ⌜∀ p ∈ W', p ∈ W ∨ p.2 = none⌝ ∗ owes (thrV d L) O W')

end Cert.Proof.KI

end
-- ==== Proof.KILaunch.lean ====
/-
  The launch of the kernel's SparseCore program: from the proof of one vector subcore's task (a hypothesis here) to
  the run of the whole program. The TensorCore cuts the row words and the column words out of the edge list by four
  host operations, hands each of the 32 vector subcores a read token of the node table and its 10000-word segments
  of the row words, the column words and the result, and gets them back with the result segments at the claimed
  function; the pieces join into the whole arrays again.
-/
import proofs.«209252_g55662776156339_cont_9to1_m_525_47_alg».proof.Proof.KIIface
import Idealize.ShloMosaic.Lib.Pipeline.Value
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix1 ix2)
open Idealize.ShloMosaic.Transfers (shareTokN shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

/-! ## The row words and the column words, as @main's host operations compute them -/

/-- Row `r` of the edge list (a slice of one row, then the cast that drops the unit axis). -/
def edgeRow (r : Fin 2) (hs : S2x320000.Slices ![r.val, 0] S1x320000) (e : (⟨S2x320000, .i32⟩ : BufTy).Contents (Elt F)) :
    (⟨S320000, .i32⟩ : BufTy).Contents (Elt F) :=
  fun i => shapeCast S320000 (extractStridedSlice S1x320000 ![r.val, 0] e hs) shapeCasts_S1x320000_S320000 i

/-- The row words are row 0 of the edge list, the column words row 1. -/
def A₀ : (d : Dev nD) → Arrays (F := F) d := fun d =>
  { ri := edgeRow 0 slices_S2x320000_S1x320000_0_0 (m (eLoc d))
    ci := edgeRow 1 slices_S2x320000_S1x320000_1_0 (m (eLoc d)) }

theorem edgeRow_apply (r : Fin 2) (hs : S2x320000.Slices ![r.val, 0] S1x320000) (x : (⟨S2x320000, .i32⟩ : BufTy).Contents (Elt F))
    (e : Fin 320000) : edgeRow r hs x (ix1 e) = x (ix2 r e) := by
  unfold edgeRow
  refine (shapeCast_apply _ shapeCasts_S1x320000_S320000 (ix1 e) (ix2 (0 : Fin 1) e) ?_).trans ?_
  · rw [Shape.rowMajor_val_two, Shape.rowMajor_val_one]; simp
  · refine extractStridedSlice_apply _ x hs _ (ix2 r e) fun a => ?_
    match a with
    | ⟨0, _⟩ => simp
    | ⟨1, _⟩ => simp

theorem A₀_ri (d : Dev nD) (e : Fin 320000) : (A₀ m d).ri (ix1 e) = m (eLoc d) (ix2 0 e) := edgeRow_apply 0 slices_S2x320000_S1x320000_0_0 _ e
theorem A₀_ci (d : Dev nD) (e : Fin 320000) : (A₀ m d).ci (ix1 e) = m (eLoc d) (ix2 1 e) := edgeRow_apply 1 slices_S2x320000_S1x320000_1_0 _ e

/-! ## The configuration's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The workers: vector subcore `i` of SparseCore `c` is worker `2 i + c`, one of 32 -/

/-- The 32 workers, as pairs (SparseCore, vector subcore). -/
def widEquiv : Fin 2 × Fin 16 ≃ Fin 32 where
  toFun p := ⟨wid p.1 p.2, by unfold wid; have := p.1.isLt; have := p.2.isLt; omega⟩
  invFun w := (⟨w.val % 2, Nat.mod_lt _ (by decide)⟩, ⟨w.val / 2, by have := w.isLt; omega⟩)
  left_inv p := by
    rcases p with ⟨c, i⟩
    have := c.isLt; have := i.isLt
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

theorem wid_inj {c c' : Fin 2} {i i' : Fin 16} (h : wid c i = wid c' i') : c = c' ∧ i = i' := by
  unfold wid at h
  have := c.isLt; have := c'.isLt
  exact ⟨Fin.ext (by omega), Fin.ext (by omega)⟩

/-- A family over the 32 workers is the family over the SparseCores of the families over their vector subcores. -/
theorem bigSep_workers (Φ : ℕ → sProp 𝕄) :
    (bigSep Finset.univ fun w : Fin 32 => Φ w.val) = bigSep Finset.univ fun c : Fin 2 => bigSep Finset.univ fun i : Fin 16 => Φ (wid c i) := by
  rw [bigSep_univ_equiv widEquiv (fun w : Fin 32 => Φ w.val), bigSep_univ_prod]
  rfl

/-- Worker `(c, i)`'s segment of a 320000-word array. -/
abbrev wseg (p : Fin 2 × Fin 16) : Finset S320000.Idx := seg (10000 * wid p.1 p.2) 10000

theorem wseg_disjoint : ∀ p ∈ (Finset.univ : Finset (Fin 2 × Fin 16)), ∀ p' ∈ (Finset.univ : Finset (Fin 2 × Fin 16)), p ≠ p' → Disjoint (wseg p) (wseg p') := by
  intro p _ p' _ hne
  rw [Finset.disjoint_left]
  intro j hj hj'
  rw [mem_seg] at hj hj'
  refine hne ?_
  have h : wid p.1 p.2 = wid p'.1 p'.2 := by omega
  exact Prod.ext (wid_inj h).1 (wid_inj h).2

theorem wseg_cover : (Finset.univ : Finset (Fin 2 × Fin 16)).biUnion wseg = Finset.univ := by
  ext j
  simp only [Finset.mem_biUnion, Finset.mem_univ, true_and, iff_true]
  have hj : (j 0).val < 320000 := (j 0).isLt
  refine ⟨(⟨(j 0).val / 10000 % 2, Nat.mod_lt _ (by decide)⟩, ⟨(j 0).val / 10000 / 2, by omega⟩), ?_⟩
  rw [mem_seg]
  show 10000 * (2 * ((j 0).val / 10000 / 2) + (j 0).val / 10000 % 2) ≤ (j 0).val ∧ (j 0).val < 10000 * (2 * ((j 0).val / 10000 / 2) + (j 0).val / 10000 % 2) + 10000
  omega

/-- A whole 320000-word array is its 32 segments. -/
theorem rPts_segs (d : Dev nD) (f : Buf (Elt F) (rLoc d)) :
    (rLoc d ↦{fullShare} f : sProp 𝕄) = bigSep Finset.univ fun p : Fin 2 × Fin 16 => rLoc d ↦[wseg p]{fullShare} f := by
  rw [← pointsTo_biUnion Finset.univ (ℓ := rLoc d) wseg wseg_disjoint, wseg_cover]; try rfl
theorem cPts_segs (d : Dev nD) (f : Buf (Elt F) (cLoc d)) :
    (cLoc d ↦{fullShare} f : sProp 𝕄) = bigSep Finset.univ fun p : Fin 2 × Fin 16 => cLoc d ↦[wseg p]{fullShare} f := by
  rw [← pointsTo_biUnion Finset.univ (ℓ := cLoc d) wseg wseg_disjoint, wseg_cover]; try rfl
theorem oPts_segs (d : Dev nD) (f : Buf (Elt F) (oLoc d)) :
    (oLoc d ↦{fullShare} f : sProp 𝕄) = bigSep Finset.univ fun p : Fin 2 × Fin 16 => oLoc d ↦[wseg p]{fullShare} f := by
  rw [← pointsTo_biUnion Finset.univ (ℓ := oLoc d) wseg wseg_disjoint, wseg_cover]; try rfl

/-- The node table whole is what remains after 32 read tokens, and the tokens, one per worker. -/
theorem zPts_toks (d : Dev nD) (f : Buf (Elt F) (zLoc d)) :
    (zLoc d ↦{fullShare} f : sProp 𝕄)
      ⊣⊢ iprop((zLoc d ↦{shareDrop fullShare 32} f) ∗ bigSep Finset.univ fun p : Fin 2 × Fin 16 => zLoc d ↦{shareTokN fullShare (wid p.1 p.2)} f) := by
  rw [bigSep_univ_prod (fun p : Fin 2 × Fin 16 => (zLoc d ↦{shareTokN fullShare (wid p.1 p.2)} f : sProp 𝕄)),
    ← bigSep_workers (fun w => (zLoc d ↦{shareTokN fullShare w} f : sProp 𝕄))]
  exact Transfers.pointsTo_toks fullShare 32

/-! ## The 32 tasks' resources and the arrays whole -/

variable (A : (d : Dev nD) → Arrays (F := F) d)
variable [FloatOps F]

/-- The 32 tasks' resources are the read tokens and the three 320000-word arrays whole. -/
theorem tasks_eq (d : Dev nD) (f : Buf (Elt F) (oLoc d)) :
    (bigSep Finset.univ fun c : Fin 2 => bigSep Finset.univ fun i : Fin 16 => taskRes m A d c i f)
      = iprop((bigSep Finset.univ fun p : Fin 2 × Fin 16 => zLoc d ↦{shareTokN fullShare (wid p.1 p.2)} m (zLoc d))
          ∗ (rLoc d ↦{fullShare} (A d).ri) ∗ (cLoc d ↦{fullShare} (A d).ci) ∗ (oLoc d ↦{fullShare} f)) := by
  rw [← bigSep_univ_prod (fun p : Fin 2 × Fin 16 => taskRes m A d p.1 p.2 f)]
  unfold taskRes
  rw [bigSep_sep', bigSep_sep', bigSep_sep', rPts_segs, cPts_segs, oPts_segs]

/-- Split: the node table and the three arrays whole give the 32 tasks' resources, a remainder of the table kept. -/
theorem tasks_split (d : Dev nD) (f : Buf (Elt F) (oLoc d)) :
    iprop((zLoc d ↦{fullShare} m (zLoc d)) ∗ (rLoc d ↦{fullShare} (A d).ri) ∗ (cLoc d ↦{fullShare} (A d).ci) ∗ (oLoc d ↦{fullShare} f))
      ⊢ iprop((zLoc d ↦{shareDrop fullShare 32} m (zLoc d))
          ∗ bigSep Finset.univ fun c : Fin 2 => bigSep Finset.univ fun i : Fin 16 => taskRes m A d c i f) := by
  rw [tasks_eq]
  iintro ⟨Hz, Hr, Hc, Ho⟩
  ihave Hz' := (zPts_toks d (m (zLoc d))).1 $$ Hz
  icases Hz' with ⟨Hd, Ht⟩
  isplitl [Hd]; · iexact Hd
  isplitl [Ht]; · iexact Ht
  isplitl [Hr]; · iexact Hr
  isplitl [Hc]; · iexact Hc
  iexact Ho

/-- and back. -/
theorem tasks_join (d : Dev nD) (f : Buf (Elt F) (oLoc d)) :
    iprop((zLoc d ↦{shareDrop fullShare 32} m (zLoc d))
          ∗ bigSep Finset.univ fun c : Fin 2 => bigSep Finset.univ fun i : Fin 16 => taskRes m A d c i f)
      ⊢ iprop((zLoc d ↦{fullShare} m (zLoc d)) ∗ (rLoc d ↦{fullShare} (A d).ri) ∗ (cLoc d ↦{fullShare} (A d).ci) ∗ (oLoc d ↦{fullShare} f)) := by
  rw [tasks_eq]
  iintro ⟨Hd, Ht, Hr, Hc, Ho⟩
  isplitl [Hd Ht]
  · iapply (zPts_toks d (m (zLoc d))).2
    isplitl [Hd]; · iexact Hd
    iexact Ht
  isplitl [Hr]; · iexact Hr
  isplitl [Hc]; · iexact Hc
  iexact Ho

/-! ## What the handshakes carry, as equations -/

theorem P_st (d : Dev nD) (c : Fin ((K (F := F)).nCore 0)) :
    (P m A).st 0 d c = bigSep Finset.univ fun i : Fin 16 => taskRes m A d (Fin.cast nCore_zero c) i (m (oLoc d)) := by unfold P; rfl
theorem P_dn (d : Dev nD) (c : Fin ((K (F := F)).nCore 0)) :
    (P m A).dn 0 d c = bigSep Finset.univ fun i : Fin 16 => taskRes m A d (Fin.cast nCore_zero c) i (outOf m A d) := by unfold P; rfl
theorem P_go (d : Dev nD) (c : Fin ((K (F := F)).nCore 0)) (i : Fin ((K (F := F)).nSub 0)) :
    (P m A).go 0 d c i = taskRes m A d (Fin.cast nCore_zero c) (Fin.cast nSub_zero i) (m (oLoc d)) := by unfold P; rfl
theorem P_td (d : Dev nD) (c : Fin ((K (F := F)).nCore 0)) (i : Fin ((K (F := F)).nSub 0)) :
    (P m A).td 0 d c i = taskRes m A d (Fin.cast nCore_zero c) (Fin.cast nSub_zero i) (outOf m A d) := by unfold P; rfl

instance taskRes_storable (d : Dev nD) (c : Fin 2) (i : Fin 16) (f : Buf (Elt F) (oLoc d)) :
    BI.Storable (upEmb : UEmb _ 𝕄) (taskRes m A d c i f) := by unfold taskRes; infer_instance

instance P_storable : (P (F := F) m A).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands ARE its sixteen tasks' resources, and its results theirs. -/
theorem vecSplit : (K (F := F)).VecSplit' (P m A) 0 := by
  intro d c
  rw [P_st, P_dn]
  simp only [P_go, P_td]
  rw [bigSep_tasks (F := F) (fun i => taskRes m A d (Fin.cast nCore_zero c) i (m (oLoc d))),
    bigSep_tasks (F := F) (fun i => taskRes m A d (Fin.cast nCore_zero c) i (outOf m A d))]
  iintro H; imodintro
  isplitl [H]; · iexact H
  iintro H; iexact H

theorem st0_eq (d : Dev nD) :
    (bigSep Finset.univ fun c : Fin ((K (F := F)).nCore 0) => (P m A).st 0 d c)
      = bigSep Finset.univ fun c : Fin 2 => bigSep Finset.univ fun i : Fin 16 => taskRes m A d c i (m (oLoc d)) := by
  simp only [P_st]
  exact bigSep_cores (F := F) (fun c => bigSep Finset.univ fun i : Fin 16 => taskRes m A d c i (m (oLoc d)))
theorem dn0_eq (d : Dev nD) :
    (bigSep Finset.univ fun c : Fin ((K (F := F)).nCore 0) => (P m A).dn 0 d c)
      = bigSep Finset.univ fun c : Fin 2 => bigSep Finset.univ fun i : Fin 16 => taskRes m A d c i (outOf m A d) := by
  simp only [P_dn]
  exact bigSep_cores (F := F) (fun c => bigSep Finset.univ fun i : Fin 16 => taskRes m A d c i (outOf m A d))

/-! ## The launch element: the handshakes' rounds; the counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m A).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m A).x q thr) = (iprop(emp) : sProp 𝕄) from by
    rw [show (fun thr : Thread nD τ => bigSep Finset.univ fun q : Fin 1 => (P m A).x q thr) = fun _ => (iprop(emp) : sProp 𝕄) from
      funext fun thr => (bigSep_univ_of_subsingleton (0 : Fin 1)).trans (by unfold P; rfl), bigSep_emp']]
  iempintro

/-! ## @main on the TensorCore -/

abbrev z' : DevRef τ sig := Proc.devRef .tc (main_arg0 : Ref sig .tc)
abbrev e' : DevRef τ sig := Proc.devRef .tc (main_arg1 : Ref sig .tc)
abbrev a' : DevRef τ sig := Proc.devRef .tc (main_v0 : Ref sig .tc)
abbrev r' : DevRef τ sig := Proc.devRef .tc (main_v1 : Ref sig .tc)
abbrev b' : DevRef τ sig := Proc.devRef .tc (main_v2 : Ref sig .tc)
abbrev c' : DevRef τ sig := Proc.devRef .tc (main_v3 : Ref sig .tc)
abbrev o' : DevRef τ sig := Proc.devRef .tc (main_v4 : Ref sig .tc)

/-- The four host operations: row 0 of the edge list, its cast to rank one, row 1, its cast. -/
abbrev op0 : HloOp τ sig (Elt F) :=
  StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
abbrev op1 : HloOp τ sig (Elt F) := StableHlo.reshape main_v0 main_v1 rfl shapeCasts_S1x320000_S320000
abbrev op2 : HloOp τ sig (Elt F) :=
  StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F))
abbrev op3 : HloOp τ sig (Elt F) := StableHlo.reshape main_v2 main_v3 rfl shapeCasts_S1x320000_S320000

/-- The TensorCore's arrays, all unscoped. -/
abbrev S7 : Finset (DevRef τ sig) := {z', e', a', r', b', c', o'}

omit [FloatOps F] in
theorem held_S7 (d : Dev nD) (W : Valuation τ sig (Elt F)) :
    (held (T d) S7 W : sProp 𝕄) = iprop((zLoc d ↦{fullShare} W z') ∗ (eLoc d ↦{fullShare} W e') ∗ ((SparseCore.T d).loc main_v0 ↦{fullShare} W a')
      ∗ (rLoc d ↦{fullShare} W r') ∗ ((SparseCore.T d).loc main_v2 ↦{fullShare} W b') ∗ (cLoc d ↦{fullShare} W c') ∗ (oLoc d ↦{fullShare} W o')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((zLoc d ↦{fullShare} W main_arg0) ∗ (eLoc d ↦{fullShare} W main_arg1) ∗ ((SparseCore.T d).loc main_v0 ↦{fullShare} W main_v0)
      ∗ (rLoc d ↦{fullShare} W main_v1) ∗ ((SparseCore.T d).loc main_v2 ↦{fullShare} W main_v2) ∗ (cLoc d ↦{fullShare} W main_v3) ∗ (oLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuations after each host operation. -/
def V0 (d : Dev nD) : Valuation τ sig (Elt F) := fun b => m (d, b)
abbrev V1 (d : Dev nD) : Valuation τ sig (Elt F) := (op0 (F := F)).result (V0 m d)
abbrev V2 (d : Dev nD) : Valuation τ sig (Elt F) := (op1 (F := F)).result (V1 m d)
abbrev V3 (d : Dev nD) : Valuation τ sig (Elt F) := (op2 (F := F)).result (V2 m d)
abbrev V4 (d : Dev nD) : Valuation τ sig (Elt F) := (op3 (F := F)).result (V3 m d)

omit [FloatOps F] in
theorem unscoped_held (d : Dev nD) : (unscopedBufs d (fun b => m ((SparseCore.T d).loc b)) : sProp 𝕄) = held (T d) S7 (V0 m d) := by
  rw [unscopedBufs_eq, held_S7]; rfl

omit [FloatOps F] in
theorem V4_z (d : Dev nD) : V4 m d z' = m (zLoc d) := by
  unfold V4 V3 V2 V1
  rw [StableHlo.reshape_result_ne (h := by decide), StableHlo.unary_result_ne (h := by decide),
    StableHlo.reshape_result_ne (h := by decide), StableHlo.unary_result_ne (h := by decide)]; rfl
omit [FloatOps F] in
theorem V4_e (d : Dev nD) : V4 m d e' = m (eLoc d) := by
  unfold V4 V3 V2 V1
  rw [StableHlo.reshape_result_ne (h := by decide), StableHlo.unary_result_ne (h := by decide),
    StableHlo.reshape_result_ne (h := by decide), StableHlo.unary_result_ne (h := by decide)]; rfl
omit [FloatOps F] in
theorem V4_o (d : Dev nD) : V4 m d o' = m (oLoc d) := by
  unfold V4 V3 V2 V1
  rw [StableHlo.reshape_result_ne (h := by decide), StableHlo.unary_result_ne (h := by decide),
    StableHlo.reshape_result_ne (h := by decide), StableHlo.unary_result_ne (h := by decide)]; rfl
omit [FloatOps F] in
theorem V4_r (d : Dev nD) : V4 m d r' = (A₀ m d).ri := by
  unfold V4 V3 V2 V1
  rw [StableHlo.reshape_result_ne (h := by decide), StableHlo.unary_result_ne (h := by decide),
    StableHlo.reshape_result, StableHlo.unary_result]; rfl
omit [FloatOps F] in
theorem V4_c (d : Dev nD) : V4 m d c' = (A₀ m d).ci := by
  unfold V4 V3 V2 V1
  rw [StableHlo.reshape_result, StableHlo.unary_result, StableHlo.reshape_result_ne (h := by decide), StableHlo.unary_result_ne (h := by decide)]; rfl

theorem hop0 : (op0 (F := F)).bufs ⊆ S7 := show ({e', a'} : Finset (DevRef τ sig)) ⊆ S7 by decide
theorem hop1 : (op1 (F := F)).bufs ⊆ S7 := show ({a', r'} : Finset (DevRef τ sig)) ⊆ S7 by decide
theorem hop2 : (op2 (F := F)).bufs ⊆ S7 := show ({e', b'} : Finset (DevRef τ sig)) ⊆ S7 by decide
theorem hop3 : (op3 (F := F)).bufs ⊆ S7 := show ({b', c'} : Finset (DevRef τ sig)) ⊆ S7 by decide

/-- What @main leaves the claim: the arguments at their launch contents, the result at the claimed function. -/
abbrev FIN (d : Dev nD) : sProp 𝕄 :=
  iprop((zLoc d ↦{fullShare} m (zLoc d)) ∗ (eLoc d ↦{fullShare} m (eLoc d)) ∗ (oLoc d ↦{fullShare} outOf m (A₀ m) d))

/-- @main on device `d`'s TensorCore: the four host operations, the 32-way split, the call, the join. -/
theorem hmain (κ : GSem nD τ sig → ℕ) (d : Dev nD) :
    iprop((K (F := F)).ctx EH (P m (A₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the four host operations
  iapply (wp_hlo_within 𝒱 (SparseCore.T d) none Set.univ (op := op0) (S := S7) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S7) hop1 (V := V1 m d)) $$ [Hb Hheld]
  · isplitl [Hb] <;> iassumption
  iintro ⟨Hb, Hheld⟩
  rw [wp_ret]; imodintro
  iapply (wp_hlo_within 𝒱 (SparseCore.T d) none Set.univ (op := op2) (S := S7) hop2 (V := V2 m d)) $$ [Hb Hheld]
  · isplitl [Hb] <;> iassumption
  iintro ⟨Hb, Hheld⟩
  rw [wp_ret]; imodintro
  iapply (wp_hlo_within 𝒱 (SparseCore.T d) none Set.univ (op := op3) (S := S7) hop3 (V := V3 m d)) $$ [Hb Hheld]
  · isplitl [Hb] <;> iassumption
  iintro ⟨Hb, Hheld⟩
  rw [wp_ret]; imodintro
  ihave Hh := (Entails.of_eq ((held_S7 (F := F) d (V4 m d)))) $$ Hheld
  rw [V4_z, V4_e, V4_r, V4_c, V4_o]
  icases Hh with ⟨Hz, He, -, Hr, -, Hc, Ho⟩
  -- the 32-way split
  ihave Hs := (tasks_split m (A₀ m) d (m (oLoc d))) $$ [Hz Hr Hc Ho]
  · isplitl [Hz]; · iexact Hz
    isplitl [Hr]; · iexact Hr
    isplitl [Hc]; · iexact Hc
    iexact Ho
  icases Hs with ⟨Hd, Hts⟩
  -- the call
  iapply ((K (F := F)).wp_run (D (F := F)) 𝒱 (EH := EH) (P := P m (A₀ m)) κ d 0) $$ [Hst Hts He Hd]
  isplitr; · iexact Hctx
  isplitl [Hst]; · iexact Hst
  isplitl [Hts]
  · rw [st0_eq]; iexact Hts
  iintro ⟨Hst, Hdn⟩
  ihave Hdn' := (Entails.of_eq (dn0_eq m (A₀ m) d)) $$ Hdn
  -- the join
  ihave Hj := (tasks_join m (A₀ m) d (outOf m (A₀ m) d)) $$ [Hd Hdn']
  · isplitl [Hd]; · iexact Hd
    iexact Hdn'
  icases Hj with ⟨Hz, -, -, Ho⟩
  imodintro
  isplitl [Hst]; · iexact Hst
  isplitl [Hz]; · iexact Hz
  isplitl [He]; · iexact He
  iexact Ho

/-! ## The final memory reads the claim -/

def fq (d : Dev nD) (s' : Phys nD τ sig (Elt F)) : Prop :=
  s'.mem.mem (oLoc d) = outOf m (A₀ m) d ∧ s'.mem.mem (zLoc d) = m (zLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Hz, He, Ho⟩, HSI⟩
  ihave H := (persistent_entails_right (SI_pointsTo_agree (st := s') (ℓ := zLoc d) (I := Finset.univ) (q := fullShare) (f := m (zLoc d)))) $$ [HSI Hz]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := oLoc d) (I := Finset.univ) (q := fullShare) (f := outOf m (A₀ m) d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From the proof of one vector subcore's task: every weakly fair execution of the device's threads terminates,
    the result array at the claimed function of the arguments, the arguments unchanged. -/
theorem run_main [∀ e, Nonempty (Elt F e)] (htile : (K (F := F)).TileObl (D (F := F)) 𝒱 (P m (A₀ m)) v₀ 0) :
    θ_run (Cert.KernelIdeal.defs (F := F)) (Cert.KernelIdeal.threads (F := F)) ⟨m, fun _ => 0, ρ⟩
      (fun r => ∀ c : Dev nD, r.2.mem (oLoc c) = outOf m (A₀ m) c ∧ r.2.mem (zLoc c) = m (zLoc c) ∧ r.2.mem (eLoc c) = m (eLoc c)) :=
  SparseCore.Cfg.θ_run_sc (K := K (F := F)) (D := D (F := F)) (𝒱 := 𝒱) (EH := EH) (P := P m (A₀ m)) facts v₀
    (fun q hq => match q with | 0 => nomatch hq)
    (fun q _ => match q with | 0 => htile)
    (fun q _ => match q with | 0 => SparseCore.Cfg.VecSplit.of_plain (vecSplit m (A₀ m)))
    m ρ main (fun _ => iprop(emp)) (FIN m) (u₀ (F := F)) (sep_elim_left.trans (hu₀ m (A₀ m))) (hmain m ρ) (fq m) (hfin m)
    (fun r => ∀ c : Dev nD, r.2.mem (oLoc c) = outOf m (A₀ m) c ∧ r.2.mem (zLoc c) = m (zLoc c) ∧ r.2.mem (eLoc c) = m (eLoc c)) (fun _ h => h)

end Cert.Proof.KI

end
-- ==== Proof.KITile.lean ====
/-
  One vector subcore's task as the launch theorem asks for it: the wrapper around the task's proof proper. The
  launch theorem hands a vector subcore its scoped storage as two families (every buffer it owns, whole at some
  contents; every semaphore it owns, at zero); the task's proof is stated over the eleven scratch buffers and the
  fifteen DMA semaphores the kernel's body names. Here the named ones are taken out of the families, the rest kept
  aside around the task's proof and put back after it.
-/
import proofs.«209252_g55662776156339_cont_9to1_m_525_47_alg».proof.Proof.KIRes
import proofs.«209252_g55662776156339_cont_9to1_m_525_47_alg».proof.Proof.KILaunch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}

local notation "𝕄" => MT nD τ sig (HIx 1) (Elt F) ℕ UU ℕ

/-! ## The body table at a vector subcore -/

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 () = SparseCore.onTile hcore0 hsub0 (fun c s => bodyAt (F := F) (coordsV c s)) ⟨⟩ c s := rfl

/-! ## The named scratch buffers among the subcore's own -/

/-- The eleven scratch buffers the body names. -/
abbrev scrRefs : Finset (Ref sig .scVector) :=
  {cc0_scratch0, cc0_scratch1, cc0_scratch2, cc0_scratch3, cc0_scratch4, cc0_scratch5, cc0_scratch6, cc0_scratch7, cc0_scratch8, cc0_scratch9, cc0_scratch10}

/-- A vector subcore's references as buffers of its device. -/
def devEmb (c : Fin τ.nSC) (i : Fin τ.nSub) : Ref sig .scVector ↪ DevRef τ sig :=
  ⟨(Proc.scVector c i).devRef, Proc.devRef_injective _⟩

theorem scr_sub (c : Fin τ.nSC) (i : Fin τ.nSub) : scrRefs.map (devEmb c i) ⊆ ownRefs (τ := τ) (.scVector c i) := by
  intro b hb
  obtain ⟨r, hr, rfl⟩ := Finset.mem_map.mp hb
  simp only [scrRefs, Finset.mem_insert, Finset.mem_singleton] at hr
  rcases hr with rfl | rfl | rfl | rfl | rfl | rfl | rfl | rfl | rfl | rfl | rfl <;>
    exact SparseCore.Cfg.mem_ownRefs_of_owner (p := Proc.scVector c i) rfl

/-- The subcore's other buffers, whole at some contents. -/
def bufsRest (d : Dev nD) (L : grid0.Coords) : sProp 𝕄 :=
  bigSep (ownRefs (τ := τ) (.scVector (cV L) (jV L)) \ scrRefs.map (devEmb (cV L) (jV L))) fun b => iprop(∃ f, ((d, b) : Loc nD τ sig) ↦{fullShare} f)

/-- The subcore's own buffers: the eleven named ones, and the rest. -/
theorem ownBufs_V (d : Dev nD) (L : grid0.Coords) : (ownBufs (thrV d L) : sProp 𝕄) = iprop(bufs d L ∗ bufsRest d L) := by
  unfold SparseCore.Cfg.ownBufs bufsRest
  rw [SparseCore.bigSep_sdiff_split' (scr_sub (cV L) (jV L)), bigSep_map]
  unfold scrRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  unfold bufs
  rfl

/-! ## The named DMA semaphores among the subcore's own -/

/-- The fifteen DMA semaphores the body names. -/
abbrev dmaSet : Finset (DmaSem sig) :=
  {cc0_scratch11.sem, cc0_scratch12.sem, cc0_scratch13.sem, cc0_scratch14.sem, cc0_scratch15.sem, cc0_scratch16.sem, cc0_scratch17.sem, cc0_scratch18.sem,
    cc0_scoped0.sem, cc0_scoped1.sem, cc0_scoped2.sem, cc0_scoped3.sem, cc0_scoped4.sem, cc0_scoped5.sem, cc0_scoped6.sem}

/-- A thread's DMA semaphores as cells. -/
def cellEmb (thr : Thread nD τ) : DmaSem sig ↪ GSem nD τ sig :=
  ⟨fun s => (thr, SemLoc.dma s), fun _ _ e => SemLoc.dma.inj (Prod.mk.inj e).2⟩

theorem dma_sub (d : Dev nD) (L : grid0.Coords) : dmaSet.map (cellEmb (thrV d L)) ⊆ ownCells (thrV d L) := by
  intro g hg
  obtain ⟨s, hs, rfl⟩ := Finset.mem_map.mp hg
  refine mem_ownCells.mpr ⟨rfl, ?_⟩
  have key : ∀ s : DmaSem sig, (SemLoc.dma s : SemLoc sig).isScoped .scVector = true := by decide
  exact key s

/-- The subcore's other semaphores, at zero. -/
def semsRest (d : Dev nD) (L : grid0.Coords) : sProp 𝕄 :=
  bigSep (ownCells (thrV d L) \ dmaSet.map (cellEmb (thrV d L))) fun g => semVal g 0

/-- The subcore's own semaphores at zero: the fifteen named ones, and the rest. -/
theorem ownSems0_V (d : Dev nD) (L : grid0.Coords) : (ownSems0 (thrV d L) : sProp 𝕄) = iprop(sems d L ∗ semsRest d L) := by
  unfold SparseCore.Cfg.ownSems0 semsRest
  rw [SparseCore.bigSep_sdiff_split' (dma_sub d L), bigSep_map]
  unfold dmaSet
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  unfold sems
  rfl

/-! ## The task, from the launch theorem's hypotheses to its conclusion -/

variable (m : (ℓ : Loc nD τ sig) → Buf (Elt F) ℓ) (A : (d : Dev nD) → Arrays (F := F) d)
variable [FloatOps F]

/-- The task on the vector subcore at `L`, its scoped storage as the launch theorem hands it over and takes it back. -/
theorem tile_body (hF : (K (F := F)).Facts) (h : TileCore m A) (d : Dev nD) (L : grid0.Coords)
    (O : CellTallies nD τ sig (HIx 1)) (W : Waits sig (HIx 1)) (hO : ∀ g, O g none = 0) :
    iprop(levAts (K (F := F)).L (K (F := F)).lev ∗ emp ∗ taskRes m A d (cL L) (iL L) (m (oLoc d))
        ∗ scopedBufs (thrV d L) ∗ scopedSems0 (thrV d L) ∗ owes (thrV d L) O W)
      ⊢ wp frame (wpE (defs₀ (F := F)) 𝒱₀ (thrV d L) none) Set.univ (bodyAt (F := F) L)
          fun _ => iprop(taskRes m A d (cL L) (iL L) (outOf m A d) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), ownBufs_V, ownSems0_V]
  iintro ⟨#Hlv, -, Htask, ⟨Hb, Hbrest⟩, ⟨Hs, Hsrest⟩, HO⟩
  ihave Hmw := ((K (F := F)).mayWaits_none (thr := thrV d L) hO) $$ Hlv
  ihave Hwp := (h d L O W) $$ [Hmw Htask Hb Hs HO]
  · isplitl [Hmw]; · iexact Hmw
    isplitl [Htask]; · iexact Htask
    isplitl [Hb]; · iexact Hb
    isplitl [Hs]; · iexact Hs
    iexact HO
  ihave Hwp' := (wp_frame_r frame (wpE (defs₀ (F := F)) 𝒱₀ (thrV d L) none) Set.univ (R := iprop(bufsRest d L ∗ semsRest d L))) $$ [Hwp Hbrest Hsrest]
  · isplitl [Hwp]; · iexact Hwp
    isplitl [Hbrest]; · iexact Hbrest
    iexact Hsrest
  iapply (wp_mono frame (wpE (defs₀ (F := F)) 𝒱₀ (thrV d L) none) Set.univ ?_) $$ Hwp'
  intro _
  iintro ⟨⟨Htask, Hb, Hs, HW⟩, Hbrest, Hsrest⟩
  isplitl [Htask]; · iexact Htask
  isplitl [Hb Hbrest]
  · isplitl [Hb]; · iexact Hb
    iexact Hbrest
  isplitl [Hs Hsrest]
  · isplitl [Hs]; · iexact Hs
    iexact Hsrest
  iexact HW

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The vector-subcore kernel's obligation, from the task's proof. -/
theorem tileObl_of_core (hF : (K (F := F)).Facts) (h : TileCore m A) : (K (F := F)).TileObl (D (F := F)) 𝒱 (P m A) v₀ 0 := by
  intro d c i O W hO _ _
  -- this kernel owes nothing for a protocol of its own
  simp only [show (P m A).ox = fun _ _ => 0 from rfl, add_zero]
  rw [P_go, P_td, show (P m A).x 0 (V d ((K (F := F)).core 0 c) ((K (F := F)).sub 0 i)) = (iprop(emp) : sProp 𝕄) from by unfold P; rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m A hF h d (coordsV ⟨_, hc.1⟩ ⟨_, hc.2⟩) O W hO).trans (wp_mono frame _ _ fun _ => obl_post)

end Cert.Proof.KI

end
-- ==== Proof.KIDefs.lean ====
/-
  The views through which the kernel's body addresses its arrays, and the plain functions its transfers deliver.
-/
import proofs.«209252_g55662776156339_cont_9to1_m_525_47_alg».proof.Proof.KIRes

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

/-- `z` as the kernel addresses it for a gather: the whole array through a slice that covers it. -/
abbrev zSl : Memref sig .scVector .hbm S10000x128 .f32 := (zW).slice (Rect.unit (s := S10000x128) ![0, 0] S10000x128.size inb_S10000x128_S10000x128_0_0) (fun _ => rfl)
/-- Eighty consecutive words of a list buffer. -/
abbrev lsl (Bl : Memref sig .scVector .vmem S10000 .i32) (o : Fin 1 → Nat) (h : ∀ a, o a + S80.size a ≤ S10000.size a) : Memref sig .scVector .vmem S80 .i32 :=
  Bl.slice (Rect.unit (s := S10000) o S80.size h) (fun _ => rfl)
/-- The subcore's 10000 words of a 320000-word array, and 80 consecutive words of the result. -/
abbrev wsl (B : Memref sig .scVector .hbm S320000 .i32) (L : grid0.Coords) : Memref sig .scVector .hbm S10000 .i32 :=
  B.slice (Rect.unit (s := S320000) (k0_off1 L) S10000.size (k0_off1_inb L)) (fun _ => rfl)
abbrev osl (o : Fin 1 → Nat) (h : ∀ a, o a + S80.size a ≤ S320000.size a) : Memref sig .scVector .hbm S80 .f32 :=
  (oW).slice (Rect.unit (s := S320000) o S80.size h) (fun _ => rfl)

/-- The rows of `z` eighty words name, as an 80 × 128 block. -/
def gath (z : FVec F S10000x128 .f32) (w : Fin 80 → BitVec 32) : FVec F S80x128 .f32 := fun x => z (ix2 (rowOfWord (w (x 0))) (x 1))
/-- The eighty words of a 10000-word list from offset `o`. -/
def wordsAt (lr : IVec S10000 32) (o : ℕ) (j : Fin 80) : BitVec 32 := lr (ix1 ⟨(o + j.val) % 10000, Nat.mod_lt _ (by decide)⟩)
/-- The subcore's first word's position in the 320000-word arrays. -/
def baseOf (L : grid0.Coords) : ℕ := 20000 * (L 1).val + 10000 * (L 0).val
/-- The 10000 words of a 320000-word array from position `b`. -/
def listOf (ri : IVec S320000 32) (b : ℕ) : IVec S10000 32 := fun j => ri (ix1 ⟨(b + (j 0).val) % 320000, Nat.mod_lt _ (by decide)⟩)

/-- Units of credit of one gather of eighty rows of 128 words, and of a copy of eighty words. -/
abbrev NG : ℕ := 327680

end Cert.Proof.KI

end
-- ==== Proof.KIAcc.lean ====
/-
  The arithmetic of one group of sixteen edges: the lanes' accumulators over the 128 steps, as plain functions of the two
  gathered blocks, and the index vectors the body computes, read lane by lane.
-/
import proofs.«209252_g55662776156339_cont_9to1_m_525_47_alg».proof.Proof.KIDefs

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

/-- Row `r` (of the eighty) and lane `l`: the accumulator after `t` steps, from the zero word, each step adding the
    product of the two blocks' entries of row `r` at column `(l + t) mod 128`. -/
def accB (fA fB : FVec F S80x128 .f32) (r l : ℕ) : ℕ → F .f32
  | 0 => Scalar.ofBits .f32 0x00000000#32
  | t + 1 => FloatOps.addf (accB fA fB r l t)
      (FloatOps.mulf (fA (ix2 ⟨r % 80, Nat.mod_lt _ (by decide)⟩ (colAt l t))) (fB (ix2 ⟨r % 80, Nat.mod_lt _ (by decide)⟩ (colAt l t))))

/-- The sixteen lanes of group `g` after `t` steps: lane `x` works on row `16 g + x`. -/
def laneAcc (fA fB : FVec F S80x128 .f32) (g t : ℕ) : FVec F S16 .f32 := fun x => accB fA fB (16 * g + (x 0).val) (x 0).val t

/-- The eighty scores of a chunk, from its two gathered blocks: edge `j` of the chunk is lane `j mod 16` of its group. -/
def chunkScore (fA fB : FVec F S80x128 .f32) : FVec F S80 .f32 := fun j => score (accB fA fB (j 0).val ((j 0).val % 16) 128)

/-- The lane numbers, as the kernel's `iota`. -/
abbrev lanes : IVec S16 32 := iota .scVector S16 32 [0] iota_S16_d0_w32_scVector

/-- The row index vector of group `g`: lane `x` reads row `16 g + x`, -/
def rowVec (g : ℕ) : IVec S16 32 := addi (broadcast S16 (Scalar.muli (Scf.iv (0#32 : BitVec 32) 1#32 g) 16#32)) lanes
/-- and the column index vector of step `t`: lane `x` reads column `(x + t) mod 128`. -/
def colVec (t : ℕ) : IVec S16 32 := andi (addi lanes (broadcast S16 (Scf.iv (0#32 : BitVec 32) 1#32 t))) (broadcast S16 127#32)

omit [FloatOps F] in
theorem rowVec_val : ∀ (g : Fin 5) (x : Fin 16), (rowVec g.val (ix1 x)).toNat = (16 * g.val + x.val) % 80 := by decide +kernel
omit [FloatOps F] in
theorem colVec_val : ∀ (t : Fin 128) (x : Fin 16), (colVec t.val (ix1 x)).toNat = (x.val + t.val) % 128 := by decide +kernel
omit [FloatOps F] in
theorem rowVec_lt (g : Fin 5) (x : S16.Idx) : (rowVec g.val x).toNat < 80 := by
  obtain ⟨x0, rfl⟩ : ∃ x0 : Fin 16, x = ix1 x0 := ⟨x 0, ValueIdx.eq_ix1 x⟩
  rw [rowVec_val]; exact Nat.mod_lt _ (by decide)
omit [FloatOps F] in
theorem colVec_lt (t : Fin 128) (x : S16.Idx) : (colVec t.val x).toNat < 128 := by
  obtain ⟨x0, rfl⟩ : ∃ x0 : Fin 16, x = ix1 x0 := ⟨x 0, ValueIdx.eq_ix1 x⟩
  rw [colVec_val]; exact Nat.mod_lt _ (by decide)

/-- Reading a buffer through its whole rectangle is reading it. -/
theorem read_access_whole {κ : Kind} {sp : Space} {s : Shape} {e : EltTy} (m : Memref sig κ sp s e) (f : m.view.ty.Contents (Elt F)) :
    (m.access (Rect.whole s)).read (Elt F) f = m.view.read (Elt F) f := by
  funext y
  simp only [View.read_apply, View.emb_slice, Function.Embedding.trans_apply, Rect.emb_whole_apply]

/-- The indexed load of a block at a row vector and a column vector, lane by lane. -/
theorem loadIdx_block (f : FVec F S80x128 .f32) (v w : IVec S16 32) (h : ∀ a x, ((![v, w] : Fin 2 → IVec S16 32) a x).toNat < S80x128.size a)
    (x : S16.Idx) (hv : (v x).toNat < 80) (hw : (w x).toNat < 128) :
    loadIdx (F := F) (e := .f32) f ![v, w] h x = f (ix2 ⟨(v x).toNat, hv⟩ ⟨(w x).toNat, hw⟩) := by
  unfold loadIdx
  refine congrArg f ?_
  funext a
  match a with
  | ⟨0, _⟩ => rfl
  | ⟨1, _⟩ => rfl

/-- One step of the lanes: the body's update of the accumulators is `accB`'s. -/
theorem laneAcc_succ (fA fB : FVec F S80x128 .f32) (g : Fin 5) (t : Fin 128) (vA vB : FVec F S16 .f32)
    (hA : ∀ x : S16.Idx, vA x = fA (ix2 ⟨(rowVec g.val x).toNat, rowVec_lt g x⟩ ⟨(colVec t.val x).toNat, colVec_lt t x⟩))
    (hB : ∀ x : S16.Idx, vB x = fB (ix2 ⟨(rowVec g.val x).toNat, rowVec_lt g x⟩ ⟨(colVec t.val x).toNat, colVec_lt t x⟩)) :
    addf (laneAcc fA fB g.val t.val) (mulf vA vB) = laneAcc fA fB g.val (t.val + 1) := by
  funext x
  obtain ⟨x0, rfl⟩ : ∃ x0 : Fin 16, x = ix1 x0 := ⟨x 0, ValueIdx.eq_ix1 x⟩
  have e1 : (⟨(rowVec g.val (ix1 x0)).toNat, rowVec_lt g (ix1 x0)⟩ : Fin 80) = ⟨(16 * g.val + x0.val) % 80, Nat.mod_lt _ (by decide)⟩ :=
    Fin.ext (rowVec_val g x0)
  have e2 : (⟨(colVec t.val (ix1 x0)).toNat, colVec_lt t (ix1 x0)⟩ : Fin 128) = colAt x0.val t.val :=
    Fin.ext (colVec_val t x0)
  show FloatOps.addf (accB fA fB (16 * g.val + x0.val) x0.val t.val) (FloatOps.mulf (vA (ix1 x0)) (vB (ix1 x0)))
    = accB fA fB (16 * g.val + x0.val) x0.val (t.val + 1)
  rw [hA (ix1 x0), hB (ix1 x0), e1, e2]
  rfl

end Cert.Proof.KI

end
-- ==== Proof.KIViews.lean ====
/-
  The kernel body's views and transfers, read as plain functions and plain sets.

  Every view here is a unit-stride rectangle of a whole buffer, so an element of the view at `y` is the buffer's element
  at `offset + y` on each axis. Hence: a word of a list buffer read through an eighty-word slice at offset `o` is word
  `o + y` of the list; what a row gather through such a slice delivers is, at `(x₀, x₁)`, the table's entry at the row
  that word `o + x₀` names and column `x₁` (the table's own slice covers it whole, offsets zero); the prologue's copy of
  a subcore's 10000 words into a list buffer leaves there word `base + j` of the 320000 at `j`; the copy-out of eighty
  result words puts word `j − o` of the scratch at position `j` of its segment. The element sets of these views are
  the segments `[base, base + 10000)`, `[o, o + 80)` and the whole table; a segment splits at any interior point into
  two disjoint segments, and so does the ownership of the words in it.
-/
import proofs.«209252_g55662776156339_cont_9to1_m_525_47_alg».proof.Proof.KIDefs

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

/-! ## Grid coordinates and the subcore's base -/

theorem L0_lt (L : grid0.Coords) : (L 0).val < 2 := (cL L).isLt
theorem L1_lt (L : grid0.Coords) : (L 1).val < 16 := (iL L).isLt

/-- The subcore's slice of a 320000-word array starts at its base. -/
theorem k0_off1_zero (L : grid0.Coords) : k0_off1 L 0 = baseOf L := by
  rw [k0_off1_eq]; rfl

/-- Every subcore's 10000 words lie inside the 320000. -/
theorem baseOf_le (L : grid0.Coords) : baseOf L + 10000 ≤ 320000 := by
  have := L0_lt L; have := L1_lt L; unfold baseOf; omega

/-! ## (V1)–(V3) the list buffers: a word through the slice, the gather's rows, the prologue's copy -/

/-- A word of the list buffer read through the eighty-word slice at `y`: word `o + y` of the list. -/
theorem read_lsl_s0 (lr : IVec S10000 32) (o : Fin 1 → Nat) (h : ∀ a, o a + S80.size a ≤ S10000.size a) (y : S80.Idx) :
    (lsl s0 o h).view.read (Elt F) lr y = lr (ix1 ⟨(o 0 + (y 0).val) % 10000, Nat.mod_lt _ (by decide)⟩) := by
  rw [View.read_apply]
  simp only [cast_eq]
  refine congrArg lr (funext fun a => Fin.ext ?_)
  have h0 : o 0 + 80 ≤ 10000 := h 0
  have hy : (y 0).val < 80 := (y 0).isLt
  match a with
  | ⟨0, _⟩ =>
    show o 0 + 1 * (y 0).val = (o 0 + (y 0).val) % 10000
    rw [Nat.mod_eq_of_lt (by omega)]; omega

/-- (V2) the in-range fact the gather's rule asks, from every word of the list being below 10000. -/
theorem hin_of_range_s0 (lr : IVec S10000 32) (hr : ∀ j, (lr j).toNat < 10000) (o : Fin 1 → Nat) (h : ∀ a, o a + S80.size a ≤ S10000.size a) :
    ∀ x, ((lsl s0 o h).view.read (Elt F) lr x).toNat < S10000x128.size gathers_S10000x128_S80x128.axis := by
  intro x
  rw [read_lsl_s0]
  exact hr _

/-- (V1) what the gather delivers is `gath`. -/
theorem gather_payload_s0 (fz : FVec F S10000x128 .f32) (lr : IVec S10000 32) (o : Fin 1 → Nat)
    (h : ∀ a, o a + S80.size a ≤ S10000.size a)
    (hin : ∀ x, ((lsl s0 o h).view.read (Elt F) lr x).toNat < S10000x128.size gathers_S10000x128_S80x128.axis) :
    SparseCore.gatherPayload gathers_S10000x128_S80x128 ((zSl).view.read (Elt F) fz) (SparseCore.rows ((lsl s0 o h).view.read (Elt F) lr) rfl hin)
      = gath (F := F) fz (wordsAt lr (o 0)) := by
  funext x
  unfold SparseCore.gatherPayload gath
  rw [View.read_apply]
  simp only [cast_eq]
  refine congrArg fz (funext fun a => Fin.ext ?_)
  match a with
  | ⟨0, _⟩ =>
    have hw := hin (S80.rowMajor.symm ((x 0).cast rfl))
    rw [read_lsl_s0] at hw
    have hy : ((S80.rowMajor.symm ((x 0).cast rfl)) 0).val = (x 0).val := by
      have := Shape.rowMajor_val_one (S80.rowMajor.symm ((x 0).cast rfl))
      rw [Equiv.apply_symm_apply] at this
      exact this.symm
    show 0 + 1 * ((lsl s0 o h).view.read (Elt F) lr (S80.rowMajor.symm ((x 0).cast rfl))).toNat
        = (wordsAt lr (o 0) (x 0)).toNat % 10000
    rw [read_lsl_s0]
    unfold wordsAt
    rw [hy] at hw ⊢
    have hw' : (lr (ix1 ⟨(o 0 + (x 0).val) % 10000, Nat.mod_lt _ (by decide)⟩)).toNat < 10000 := hw
    rw [Nat.mod_eq_of_lt hw']; omega
  | ⟨1, _⟩ =>
    show 0 + 1 * (x 1).val = (x 1).val
    omega

/-- A word of the list buffer read through the eighty-word slice at `y`: word `o + y` of the list. -/
theorem read_lsl_s1 (lr : IVec S10000 32) (o : Fin 1 → Nat) (h : ∀ a, o a + S80.size a ≤ S10000.size a) (y : S80.Idx) :
    (lsl s1 o h).view.read (Elt F) lr y = lr (ix1 ⟨(o 0 + (y 0).val) % 10000, Nat.mod_lt _ (by decide)⟩) := by
  rw [View.read_apply]
  simp only [cast_eq]
  refine congrArg lr (funext fun a => Fin.ext ?_)
  have h0 : o 0 + 80 ≤ 10000 := h 0
  have hy : (y 0).val < 80 := (y 0).isLt
  match a with
  | ⟨0, _⟩ =>
    show o 0 + 1 * (y 0).val = (o 0 + (y 0).val) % 10000
    rw [Nat.mod_eq_of_lt (by omega)]; omega

/-- (V2) the in-range fact the gather's rule asks, from every word of the list being below 10000. -/
theorem hin_of_range_s1 (lr : IVec S10000 32) (hr : ∀ j, (lr j).toNat < 10000) (o : Fin 1 → Nat) (h : ∀ a, o a + S80.size a ≤ S10000.size a) :
    ∀ x, ((lsl s1 o h).view.read (Elt F) lr x).toNat < S10000x128.size gathers_S10000x128_S80x128.axis := by
  intro x
  rw [read_lsl_s1]
  exact hr _

/-- (V1) what the gather delivers is `gath`. -/
theorem gather_payload_s1 (fz : FVec F S10000x128 .f32) (lr : IVec S10000 32) (o : Fin 1 → Nat)
    (h : ∀ a, o a + S80.size a ≤ S10000.size a)
    (hin : ∀ x, ((lsl s1 o h).view.read (Elt F) lr x).toNat < S10000x128.size gathers_S10000x128_S80x128.axis) :
    SparseCore.gatherPayload gathers_S10000x128_S80x128 ((zSl).view.read (Elt F) fz) (SparseCore.rows ((lsl s1 o h).view.read (Elt F) lr) rfl hin)
      = gath (F := F) fz (wordsAt lr (o 0)) := by
  funext x
  unfold SparseCore.gatherPayload gath
  rw [View.read_apply]
  simp only [cast_eq]
  refine congrArg fz (funext fun a => Fin.ext ?_)
  match a with
  | ⟨0, _⟩ =>
    have hw := hin (S80.rowMajor.symm ((x 0).cast rfl))
    rw [read_lsl_s1] at hw
    have hy : ((S80.rowMajor.symm ((x 0).cast rfl)) 0).val = (x 0).val := by
      have := Shape.rowMajor_val_one (S80.rowMajor.symm ((x 0).cast rfl))
      rw [Equiv.apply_symm_apply] at this
      exact this.symm
    show 0 + 1 * ((lsl s1 o h).view.read (Elt F) lr (S80.rowMajor.symm ((x 0).cast rfl))).toNat
        = (wordsAt lr (o 0) (x 0)).toNat % 10000
    rw [read_lsl_s1]
    unfold wordsAt
    rw [hy] at hw ⊢
    have hw' : (lr (ix1 ⟨(o 0 + (x 0).val) % 10000, Nat.mod_lt _ (by decide)⟩)).toNat < 10000 := hw
    rw [Nat.mod_eq_of_lt hw']; omega
  | ⟨1, _⟩ =>
    show 0 + 1 * (x 1).val = (x 1).val
    omega

/-- (V3) the prologue's copy: the subcore's 10000 words land in the list buffer whole. -/
theorem list_landed_s0 (L : grid0.Coords) (f0 : IVec S10000 32) (ri : IVec S320000 32) :
    (s0).view.write (Elt F) f0 (ReadAs.same.apply ((wsl rW L).view.read (Elt F) ri)) Finset.univ = listOf ri (baseOf L) := by
  rw [View.write_whole_univ]
  funext j
  show (wsl rW L).view.read (Elt F) ri j = _
  rw [View.read_apply]
  simp only [cast_eq]
  unfold listOf
  refine congrArg ri (funext fun a => Fin.ext ?_)
  have hb := baseOf_le L
  have hj : (j 0).val < 10000 := (j 0).isLt
  match a with
  | ⟨0, _⟩ =>
    show k0_off1 L 0 + 1 * (j 0).val = (baseOf L + (j 0).val) % 320000
    rw [k0_off1_zero, Nat.mod_eq_of_lt (by omega)]; omega

/-- (V3) the prologue's copy: the subcore's 10000 words land in the list buffer whole. -/
theorem list_landed_s1 (L : grid0.Coords) (f0 : IVec S10000 32) (ri : IVec S320000 32) :
    (s1).view.write (Elt F) f0 (ReadAs.same.apply ((wsl cW L).view.read (Elt F) ri)) Finset.univ = listOf ri (baseOf L) := by
  rw [View.write_whole_univ]
  funext j
  show (wsl cW L).view.read (Elt F) ri j = _
  rw [View.read_apply]
  simp only [cast_eq]
  unfold listOf
  refine congrArg ri (funext fun a => Fin.ext ?_)
  have hb := baseOf_le L
  have hj : (j 0).val < 10000 := (j 0).isLt
  match a with
  | ⟨0, _⟩ =>
    show k0_off1 L 0 + 1 * (j 0).val = (baseOf L + (j 0).val) % 320000
    rw [k0_off1_zero, Nat.mod_eq_of_lt (by omega)]; omega

/-! ## (V5) the copy-out -/

/-- (V5) the copy-out: eighty words of the out scratch land on their segment of the result. -/
theorem out_landed (o : Fin 1 → Nat) (h : ∀ a, o a + S80.size a ≤ S320000.size a) (fo : FVec F S320000 .f32) (fv : FVec F S80 .f32)
    (j : S320000.Idx) (hj : j ∈ seg (o 0) 80) :
    (osl o h).view.write (Elt F) fo (ReadAs.same.apply ((s10).view.read (Elt F) fv)) Finset.univ j
      = fv (ix1 ⟨((j 0).val - o 0) % 80, Nat.mod_lt _ (by decide)⟩) := by
  rw [mem_seg] at hj
  have hlt : (j 0).val - o 0 < 80 := by omega
  have hje : j = (osl o h).view.emb (ix1 ⟨(j 0).val - o 0, hlt⟩) := by
    funext a
    obtain rfl : a = 0 := Subsingleton.elim _ _
    apply Fin.ext
    show (j 0).val = o 0 + 1 * ((j 0).val - o 0)
    omega
  conv_lhs => rw [hje]
  rw [View.write_emb_of_mem _ _ (Finset.mem_univ _)]
  simp only [cast_eq]
  show fv (ix1 ⟨(j 0).val - o 0, hlt⟩) = _
  refine congrArg fv (congrArg ix1 (Fin.ext ?_))
  show (j 0).val - o 0 = ((j 0).val - o 0) % 80
  rw [Nat.mod_eq_of_lt hlt]

/-! ## (V4) element sets as segments -/

theorem set_wsl (L : grid0.Coords) : (wsl rW L).view.set = seg (baseOf L) 10000 := by
  ext j
  rw [View.set_slice_whole, Rect.mem_set_unit, mem_seg]
  constructor
  · intro H
    have H0 := H (0 : Fin 1)
    rw [k0_off1_zero] at H0
    exact H0
  · intro H a
    match a with
    | ⟨0, _⟩ =>
      show k0_off1 L 0 ≤ (j 0).val ∧ (j 0).val < k0_off1 L 0 + 10000
      rw [k0_off1_zero]
      exact H

theorem set_wsl_c (L : grid0.Coords) : (wsl cW L).view.set = seg (baseOf L) 10000 := by
  ext j
  rw [View.set_slice_whole, Rect.mem_set_unit, mem_seg]
  constructor
  · intro H
    have H0 := H (0 : Fin 1)
    rw [k0_off1_zero] at H0
    exact H0
  · intro H a
    match a with
    | ⟨0, _⟩ =>
      show k0_off1 L 0 ≤ (j 0).val ∧ (j 0).val < k0_off1 L 0 + 10000
      rw [k0_off1_zero]
      exact H

theorem set_osl (o : Fin 1 → Nat) (h : ∀ a, o a + S80.size a ≤ S320000.size a) : (osl o h).view.set = seg (o 0) 80 := by
  ext j
  rw [View.set_slice_whole, Rect.mem_set_unit, mem_seg]
  constructor
  · intro H
    exact H (0 : Fin 1)
  · intro H a
    match a with
    | ⟨0, _⟩ => exact H

theorem set_zSl : (zSl).view.set = Finset.univ := by
  ext j
  rw [View.set_slice_whole, Rect.mem_set_unit]
  simp only [Finset.mem_univ, iff_true]
  intro a
  match a with
  | ⟨0, _⟩ =>
    have hj : (j 0).val < 10000 := (j 0).isLt
    exact ⟨Nat.zero_le _, show (j 0).val < 0 + 10000 by omega⟩
  | ⟨1, _⟩ =>
    have hj : (j 1).val < 128 := (j 1).isLt
    exact ⟨Nat.zero_le _, show (j 1).val < 0 + 128 by omega⟩

/-! ## (V6) a segment split in two -/

theorem seg_union (o a b : ℕ) : seg o (a + b) = seg o a ∪ seg (o + a) b := by
  ext j
  simp only [Finset.mem_union, mem_seg]
  omega

theorem seg_disjoint (o a b : ℕ) : Disjoint (seg o a) (seg (o + a) b) := by
  rw [Finset.disjoint_left]
  intro j h1 h2
  rw [mem_seg] at h1 h2
  omega

theorem seg_split (d : Dev nD) (o a b : ℕ) (q : PosShare TreeShare) (f : Buf (Elt F) (oLoc d)) :
    (oLoc d ↦[seg o (a + b)]{q} f : sProp 𝕄) ⊣⊢ iprop((oLoc d ↦[seg o a]{q} f) ∗ oLoc d ↦[seg (o + a) b]{q} f) := by
  rw [seg_union]
  exact pointsTo_union (seg_disjoint o a b)

/-! ## (V7) a store of sixteen words into the eighty-word result scratch -/

/-- A store of sixteen words at offset `16 gv` of the eighty-word scratch: the sixteen positions take the stored words,
    every other position keeps what it held. -/
theorem out_store (gv : ℕ) (off : Fin 1 → Nat) (hoff : off = ![16 * gv]) (inb : ∀ a, off a + S16.size a ≤ S80.size a)
    (fv : FVec F S80 .f32) (w : FVec F S16 .f32) (j : Fin 80) :
    ((s10).access (Rect.unit (s := S80) off S16.size inb)).write (Elt F) fv w Finset.univ (ix1 j)
      = if h : 16 * gv ≤ j.val ∧ j.val < 16 * gv + 16 then w (ix1 ⟨j.val - 16 * gv, by omega⟩) else fv (ix1 j) := by
  subst hoff
  by_cases h : 16 * gv ≤ j.val ∧ j.val < 16 * gv + 16
  · rw [dif_pos h]
    have hlt : j.val - 16 * gv < 16 := by omega
    have hje : (ix1 j : S80.Idx)
        = ((s10).access (Rect.unit (s := S80) ![16 * gv] S16.size inb)).emb (ix1 ⟨j.val - 16 * gv, hlt⟩) := by
      funext a
      match a with
      | ⟨0, _⟩ =>
        apply Fin.ext
        show j.val = 16 * gv + 1 * (j.val - 16 * gv)
        omega
    conv_lhs => rw [hje]
    rw [View.write_emb_of_mem _ _ (Finset.mem_univ _)]
    simp only [cast_eq]
  · rw [dif_neg h]
    refine View.write_of_not_mem _ _ _ fun hm => h ?_
    rw [View.setOn_univ, View.set_slice_whole, Rect.mem_set_unit] at hm
    exact hm (0 : Fin 1)

end Cert.Proof.KI

end
-- ==== Proof.KIState.lean ====
/-
  The state of one vector subcore's task between the steps of its body: which share of `z` and of the two word lists
  each of the four slots holds, what a slot holds while its two gathers are in flight, and how far the result is written.
-/
import proofs.«209252_g55662776156339_cont_9to1_m_525_47_alg».proof.Proof.KIAcc
import proofs.«209252_g55662776156339_cont_9to1_m_525_47_alg».proof.Proof.KIViews

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]
variable (m : (ℓ : Loc nD τ sig) → Buf (Elt F) ℓ) (A : (d : Dev nD) → Arrays (F := F) d) (d : Dev nD) (L : grid0.Coords)

/-- The task's share of `z` (worker `w`'s token of the whole), -/
abbrev qz (L : grid0.Coords) : PosShare TreeShare := Transfers.shareTokN fullShare (wid (cL L) (iL L))
/-- the row words and the column words of the task, as its list buffers hold them after the first two copies, -/
abbrev lrR : IVec S10000 32 := listOf (A d).ri (baseOf L)
abbrev lrC : IVec S10000 32 := listOf (A d).ci (baseOf L)
/-- and the two blocks chunk `n` gathers. -/
abbrev blkR (n : ℕ) : FVec F S80x128 .f32 := gath (m (zLoc d)) (wordsAt (lrR A d L) (80 * n))
abbrev blkC (n : ℕ) : FVec F S80x128 .f32 := gath (m (zLoc d)) (wordsAt (lrC A d L) (80 * n))

/-- The eighty words of chunk `n` in a list buffer. -/
theorem chunk_inb (n : ℕ) (hn : n < 125) : ∀ a, (![80 * n] : Fin 1 → Nat) a + S80.size a ≤ S10000.size a := by
  intro a; match a with | ⟨0, _⟩ => show 80 * n + 80 ≤ 10000; omega
abbrev lslN (Bl : Memref sig .scVector .vmem S10000 .i32) (n : ℕ) (hn : n < 125) : Memref sig .scVector .vmem S80 .i32 := lsl Bl ![80 * n] (chunk_inb n hn)

/-- Token `j` of the task's share of `z`, as a gather's source; token `b` of a list buffer. -/
abbrev zTok (j : ℕ) : sProp 𝕄 := (zSl).view.loc (thrV d L) ↦[(zSl).view.set]{Transfers.shareTokN (qz L) j} m (zLoc d)
abbrev lTokR (b : ℕ) : sProp 𝕄 := (s0).view.loc (thrV d L) ↦{Transfers.shareTokN fullShare b} lrR A d L
abbrev lTokC (b : ℕ) : sProp 𝕄 := (s1).view.loc (thrV d L) ↦{Transfers.shareTokN fullShare b} lrC A d L

/-- Chunk `n`'s gather into `s2` in flight on its semaphore, over the words of `s0` (contents `lr`, token `ql`), reading `z`
    under token `q`: the flight, which delivers the block at the named rows and both tokens' parts, and the rest of the list's token. -/
def gfl_s2 (q ql : PosShare TreeShare) (lr : IVec S10000 32) (n : ℕ) (hn : n < 125) : sProp 𝕄 :=
  iprop(Transfers.Flight (EC (F := F)) (thrV d L) (.dma cc0_scratch11.sem) (none : HIx 1) NG
      iprop(((s2).view.loc (thrV d L) ↦{fullShare} gath (m (zLoc d)) (wordsAt lr (80 * n)))
        ∗ ((zSl).view.loc (thrV d L) ↦[(zSl).view.set]{q} m (zLoc d))
        ∗ ((lslN s0 n hn).view.loc (thrV d L) ↦[(lslN s0 n hn).view.set]{ql} lr))
    ∗ ((s0).view.loc (thrV d L) ↦[Finset.univ \ (lslN s0 n hn).view.set]{ql} lr))

/-- Chunk `n`'s gather into `s6` in flight on its semaphore, over the words of `s1` (contents `lr`, token `ql`), reading `z`
    under token `q`: the flight, which delivers the block at the named rows and both tokens' parts, and the rest of the list's token. -/
def gfl_s6 (q ql : PosShare TreeShare) (lr : IVec S10000 32) (n : ℕ) (hn : n < 125) : sProp 𝕄 :=
  iprop(Transfers.Flight (EC (F := F)) (thrV d L) (.dma cc0_scratch15.sem) (none : HIx 1) NG
      iprop(((s6).view.loc (thrV d L) ↦{fullShare} gath (m (zLoc d)) (wordsAt lr (80 * n)))
        ∗ ((zSl).view.loc (thrV d L) ↦[(zSl).view.set]{q} m (zLoc d))
        ∗ ((lslN s1 n hn).view.loc (thrV d L) ↦[(lslN s1 n hn).view.set]{ql} lr))
    ∗ ((s1).view.loc (thrV d L) ↦[Finset.univ \ (lslN s1 n hn).view.set]{ql} lr))

/-- Chunk `n`'s gather into `s3` in flight on its semaphore, over the words of `s0` (contents `lr`, token `ql`), reading `z`
    under token `q`: the flight, which delivers the block at the named rows and both tokens' parts, and the rest of the list's token. -/
def gfl_s3 (q ql : PosShare TreeShare) (lr : IVec S10000 32) (n : ℕ) (hn : n < 125) : sProp 𝕄 :=
  iprop(Transfers.Flight (EC (F := F)) (thrV d L) (.dma cc0_scratch12.sem) (none : HIx 1) NG
      iprop(((s3).view.loc (thrV d L) ↦{fullShare} gath (m (zLoc d)) (wordsAt lr (80 * n)))
        ∗ ((zSl).view.loc (thrV d L) ↦[(zSl).view.set]{q} m (zLoc d))
        ∗ ((lslN s0 n hn).view.loc (thrV d L) ↦[(lslN s0 n hn).view.set]{ql} lr))
    ∗ ((s0).view.loc (thrV d L) ↦[Finset.univ \ (lslN s0 n hn).view.set]{ql} lr))

/-- Chunk `n`'s gather into `s7` in flight on its semaphore, over the words of `s1` (contents `lr`, token `ql`), reading `z`
    under token `q`: the flight, which delivers the block at the named rows and both tokens' parts, and the rest of the list's token. -/
def gfl_s7 (q ql : PosShare TreeShare) (lr : IVec S10000 32) (n : ℕ) (hn : n < 125) : sProp 𝕄 :=
  iprop(Transfers.Flight (EC (F := F)) (thrV d L) (.dma cc0_scratch16.sem) (none : HIx 1) NG
      iprop(((s7).view.loc (thrV d L) ↦{fullShare} gath (m (zLoc d)) (wordsAt lr (80 * n)))
        ∗ ((zSl).view.loc (thrV d L) ↦[(zSl).view.set]{q} m (zLoc d))
        ∗ ((lslN s1 n hn).view.loc (thrV d L) ↦[(lslN s1 n hn).view.set]{ql} lr))
    ∗ ((s1).view.loc (thrV d L) ↦[Finset.univ \ (lslN s1 n hn).view.set]{ql} lr))

/-- Chunk `n`'s gather into `s4` in flight on its semaphore, over the words of `s0` (contents `lr`, token `ql`), reading `z`
    under token `q`: the flight, which delivers the block at the named rows and both tokens' parts, and the rest of the list's token. -/
def gfl_s4 (q ql : PosShare TreeShare) (lr : IVec S10000 32) (n : ℕ) (hn : n < 125) : sProp 𝕄 :=
  iprop(Transfers.Flight (EC (F := F)) (thrV d L) (.dma cc0_scratch13.sem) (none : HIx 1) NG
      iprop(((s4).view.loc (thrV d L) ↦{fullShare} gath (m (zLoc d)) (wordsAt lr (80 * n)))
        ∗ ((zSl).view.loc (thrV d L) ↦[(zSl).view.set]{q} m (zLoc d))
        ∗ ((lslN s0 n hn).view.loc (thrV d L) ↦[(lslN s0 n hn).view.set]{ql} lr))
    ∗ ((s0).view.loc (thrV d L) ↦[Finset.univ \ (lslN s0 n hn).view.set]{ql} lr))

/-- Chunk `n`'s gather into `s8` in flight on its semaphore, over the words of `s1` (contents `lr`, token `ql`), reading `z`
    under token `q`: the flight, which delivers the block at the named rows and both tokens' parts, and the rest of the list's token. -/
def gfl_s8 (q ql : PosShare TreeShare) (lr : IVec S10000 32) (n : ℕ) (hn : n < 125) : sProp 𝕄 :=
  iprop(Transfers.Flight (EC (F := F)) (thrV d L) (.dma cc0_scratch17.sem) (none : HIx 1) NG
      iprop(((s8).view.loc (thrV d L) ↦{fullShare} gath (m (zLoc d)) (wordsAt lr (80 * n)))
        ∗ ((zSl).view.loc (thrV d L) ↦[(zSl).view.set]{q} m (zLoc d))
        ∗ ((lslN s1 n hn).view.loc (thrV d L) ↦[(lslN s1 n hn).view.set]{ql} lr))
    ∗ ((s1).view.loc (thrV d L) ↦[Finset.univ \ (lslN s1 n hn).view.set]{ql} lr))

/-- Chunk `n`'s gather into `s5` in flight on its semaphore, over the words of `s0` (contents `lr`, token `ql`), reading `z`
    under token `q`: the flight, which delivers the block at the named rows and both tokens' parts, and the rest of the list's token. -/
def gfl_s5 (q ql : PosShare TreeShare) (lr : IVec S10000 32) (n : ℕ) (hn : n < 125) : sProp 𝕄 :=
  iprop(Transfers.Flight (EC (F := F)) (thrV d L) (.dma cc0_scratch14.sem) (none : HIx 1) NG
      iprop(((s5).view.loc (thrV d L) ↦{fullShare} gath (m (zLoc d)) (wordsAt lr (80 * n)))
        ∗ ((zSl).view.loc (thrV d L) ↦[(zSl).view.set]{q} m (zLoc d))
        ∗ ((lslN s0 n hn).view.loc (thrV d L) ↦[(lslN s0 n hn).view.set]{ql} lr))
    ∗ ((s0).view.loc (thrV d L) ↦[Finset.univ \ (lslN s0 n hn).view.set]{ql} lr))

/-- Chunk `n`'s gather into `s9` in flight on its semaphore, over the words of `s1` (contents `lr`, token `ql`), reading `z`
    under token `q`: the flight, which delivers the block at the named rows and both tokens' parts, and the rest of the list's token. -/
def gfl_s9 (q ql : PosShare TreeShare) (lr : IVec S10000 32) (n : ℕ) (hn : n < 125) : sProp 𝕄 :=
  iprop(Transfers.Flight (EC (F := F)) (thrV d L) (.dma cc0_scratch18.sem) (none : HIx 1) NG
      iprop(((s9).view.loc (thrV d L) ↦{fullShare} gath (m (zLoc d)) (wordsAt lr (80 * n)))
        ∗ ((zSl).view.loc (thrV d L) ↦[(zSl).view.set]{q} m (zLoc d))
        ∗ ((lslN s1 n hn).view.loc (thrV d L) ↦[(lslN s1 n hn).view.set]{ql} lr))
    ∗ ((s1).view.loc (thrV d L) ↦[Finset.univ \ (lslN s1 n hn).view.set]{ql} lr))

/-- Slot 0 at rest: its two blocks at some contents, its tokens, its two semaphores at zero. -/
def slotIdle0 : sProp 𝕄 :=
  iprop(anyBuf d L s2 ∗ anyBuf d L s6 ∗ zTok m d L 0 ∗ zTok m d L 4 ∗ lTokR A d L 0 ∗ lTokC A d L 0 ∗ sem0 d L cc0_scratch11 ∗ sem0 d L cc0_scratch15)
/-- Slot 0 with chunk `n`'s two gathers in flight. -/
def slotFl0 (n : ℕ) (hn : n < 125) : sProp 𝕄 :=
  iprop(gfl_s2 m d L (Transfers.shareTokN (qz L) 0) (Transfers.shareTokN fullShare 0) (lrR A d L) n hn
    ∗ gfl_s6 m d L (Transfers.shareTokN (qz L) 4) (Transfers.shareTokN fullShare 0) (lrC A d L) n hn)
/-- Slot 0 before chunk `n` is computed: in flight if there is such a chunk, at rest otherwise. -/
def slot0 (n : ℕ) : sProp 𝕄 := if hn : n < 125 then slotFl0 m A d L n hn else slotIdle0 m A d L

/-- Slot 1 at rest: its two blocks at some contents, its tokens, its two semaphores at zero. -/
def slotIdle1 : sProp 𝕄 :=
  iprop(anyBuf d L s3 ∗ anyBuf d L s7 ∗ zTok m d L 1 ∗ zTok m d L 5 ∗ lTokR A d L 1 ∗ lTokC A d L 1 ∗ sem0 d L cc0_scratch12 ∗ sem0 d L cc0_scratch16)
/-- Slot 1 with chunk `n`'s two gathers in flight. -/
def slotFl1 (n : ℕ) (hn : n < 125) : sProp 𝕄 :=
  iprop(gfl_s3 m d L (Transfers.shareTokN (qz L) 1) (Transfers.shareTokN fullShare 1) (lrR A d L) n hn
    ∗ gfl_s7 m d L (Transfers.shareTokN (qz L) 5) (Transfers.shareTokN fullShare 1) (lrC A d L) n hn)
/-- Slot 1 before chunk `n` is computed: in flight if there is such a chunk, at rest otherwise. -/
def slot1 (n : ℕ) : sProp 𝕄 := if hn : n < 125 then slotFl1 m A d L n hn else slotIdle1 m A d L

/-- Slot 2 at rest: its two blocks at some contents, its tokens, its two semaphores at zero. -/
def slotIdle2 : sProp 𝕄 :=
  iprop(anyBuf d L s4 ∗ anyBuf d L s8 ∗ zTok m d L 2 ∗ zTok m d L 6 ∗ lTokR A d L 2 ∗ lTokC A d L 2 ∗ sem0 d L cc0_scratch13 ∗ sem0 d L cc0_scratch17)
/-- Slot 2 with chunk `n`'s two gathers in flight. -/
def slotFl2 (n : ℕ) (hn : n < 125) : sProp 𝕄 :=
  iprop(gfl_s4 m d L (Transfers.shareTokN (qz L) 2) (Transfers.shareTokN fullShare 2) (lrR A d L) n hn
    ∗ gfl_s8 m d L (Transfers.shareTokN (qz L) 6) (Transfers.shareTokN fullShare 2) (lrC A d L) n hn)
/-- Slot 2 before chunk `n` is computed: in flight if there is such a chunk, at rest otherwise. -/
def slot2 (n : ℕ) : sProp 𝕄 := if hn : n < 125 then slotFl2 m A d L n hn else slotIdle2 m A d L

/-- Slot 3 at rest: its two blocks at some contents, its tokens, its two semaphores at zero. -/
def slotIdle3 : sProp 𝕄 :=
  iprop(anyBuf d L s5 ∗ anyBuf d L s9 ∗ zTok m d L 3 ∗ zTok m d L 7 ∗ lTokR A d L 3 ∗ lTokC A d L 3 ∗ sem0 d L cc0_scratch14 ∗ sem0 d L cc0_scratch18)
/-- Slot 3 with chunk `n`'s two gathers in flight. -/
def slotFl3 (n : ℕ) (hn : n < 125) : sProp 𝕄 :=
  iprop(gfl_s5 m d L (Transfers.shareTokN (qz L) 3) (Transfers.shareTokN fullShare 3) (lrR A d L) n hn
    ∗ gfl_s9 m d L (Transfers.shareTokN (qz L) 7) (Transfers.shareTokN fullShare 3) (lrC A d L) n hn)
/-- Slot 3 before chunk `n` is computed: in flight if there is such a chunk, at rest otherwise. -/
def slot3 (n : ℕ) : sProp 𝕄 := if hn : n < 125 then slotFl3 m A d L n hn else slotIdle3 m A d L

/-- The result with the first `n` chunks of the task written: those words at the claimed function, the rest as launched. -/
def outSt (n : ℕ) : sProp 𝕄 :=
  iprop((oLoc d ↦[seg (baseOf L) (80 * n)]{fullShare} outOf m A d)
    ∗ (oLoc d ↦[seg (baseOf L + 80 * n) (10000 - 80 * n)]{fullShare} m (oLoc d)))

/-- What the task holds besides the four slots and the result: the remainders of the split shares, the row and column
    words of the launch arrays, the out scratch, the copy semaphores. -/
def restSt : sProp 𝕄 :=
  iprop(((zSl).view.loc (thrV d L) ↦[(zSl).view.set]{Transfers.shareDrop (qz L) 8} m (zLoc d))
    ∗ ((s0).view.loc (thrV d L) ↦{Transfers.shareDrop fullShare 4} lrR A d L)
    ∗ ((s1).view.loc (thrV d L) ↦{Transfers.shareDrop fullShare 4} lrC A d L)
    ∗ (rLoc d ↦[seg (baseOf L) 10000]{fullShare} (A d).ri)
    ∗ (cLoc d ↦[seg (baseOf L) 10000]{fullShare} (A d).ci)
    ∗ anyBuf d L s10
    ∗ sem0 d L cc0_scoped0 ∗ sem0 d L cc0_scoped1 ∗ sem0 d L cc0_scoped2 ∗ sem0 d L cc0_scoped3 ∗ sem0 d L cc0_scoped4 ∗ sem0 d L cc0_scoped5 ∗ sem0 d L cc0_scoped6)

end Cert.Proof.KI

end
-- ==== Proof.KIOps.lean ====
/-
  The transfers of the body, one rule each: the issue of a chunk's gather and its wait, per block; the copy of a chunk's
  scores out to the result and its wait, per copy semaphore.
-/
import proofs.«209252_g55662776156339_cont_9to1_m_525_47_alg».proof.Proof.KIState

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ
theorem credit_s2 : ∑ j, ((s2).slice (S80x128.rowRect gathers_S10000x128_S80x128.axis' j) (S80x128.stride_rowRect gathers_S10000x128_S80x128.axis' j)).view.dmaCredit = NG := by decide +kernel
theorem wcredit_s2 : (s2).view.dmaCredit = NG := by decide +kernel
theorem credit_s6 : ∑ j, ((s6).slice (S80x128.rowRect gathers_S10000x128_S80x128.axis' j) (S80x128.stride_rowRect gathers_S10000x128_S80x128.axis' j)).view.dmaCredit = NG := by decide +kernel
theorem wcredit_s6 : (s6).view.dmaCredit = NG := by decide +kernel
theorem credit_s3 : ∑ j, ((s3).slice (S80x128.rowRect gathers_S10000x128_S80x128.axis' j) (S80x128.stride_rowRect gathers_S10000x128_S80x128.axis' j)).view.dmaCredit = NG := by decide +kernel
theorem wcredit_s3 : (s3).view.dmaCredit = NG := by decide +kernel
theorem credit_s7 : ∑ j, ((s7).slice (S80x128.rowRect gathers_S10000x128_S80x128.axis' j) (S80x128.stride_rowRect gathers_S10000x128_S80x128.axis' j)).view.dmaCredit = NG := by decide +kernel
theorem wcredit_s7 : (s7).view.dmaCredit = NG := by decide +kernel
theorem credit_s4 : ∑ j, ((s4).slice (S80x128.rowRect gathers_S10000x128_S80x128.axis' j) (S80x128.stride_rowRect gathers_S10000x128_S80x128.axis' j)).view.dmaCredit = NG := by decide +kernel
theorem wcredit_s4 : (s4).view.dmaCredit = NG := by decide +kernel
theorem credit_s8 : ∑ j, ((s8).slice (S80x128.rowRect gathers_S10000x128_S80x128.axis' j) (S80x128.stride_rowRect gathers_S10000x128_S80x128.axis' j)).view.dmaCredit = NG := by decide +kernel
theorem wcredit_s8 : (s8).view.dmaCredit = NG := by decide +kernel
theorem credit_s5 : ∑ j, ((s5).slice (S80x128.rowRect gathers_S10000x128_S80x128.axis' j) (S80x128.stride_rowRect gathers_S10000x128_S80x128.axis' j)).view.dmaCredit = NG := by decide +kernel
theorem wcredit_s5 : (s5).view.dmaCredit = NG := by decide +kernel
theorem credit_s9 : ∑ j, ((s9).slice (S80x128.rowRect gathers_S10000x128_S80x128.axis' j) (S80x128.stride_rowRect gathers_S10000x128_S80x128.axis' j)).view.dmaCredit = NG := by decide +kernel
theorem wcredit_s9 : (s9).view.dmaCredit = NG := by decide +kernel

variable [FloatOps F]
variable (m : (ℓ : Loc nD τ sig) → Buf (Elt F) ℓ)

/-- Issue of chunk `n`'s gather into `s2`: from the block, a token of `z`, a token of the list and the semaphore at zero
    to the gather in flight. -/
theorem issue_s2 (d : Dev nD) (L : grid0.Coords) (q ql : PosShare TreeShare)
    (fd : Buf (Elt F) ((s2).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s2).view.loc (thrV d L) ↦{fullShare} fd)
        ∗ ((s0).view.loc (thrV d L) ↦{ql} lr) ∗ sem0 d L cc0_scratch11)
      ⊢ iprop((gfl_s2 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s2 gathers_S10000x128_S80x128 (lsl s0 o h) rfl cc0_scratch11.sem (View.wordExact_bits rfl) rfl (Or.inl rfl) >>= k) Q) := by
  subst ho
  iintro ⟨Hz, Hd, Hl, Hs⟩ Hk
  have hin := hin_of_range_s0 (F := F) lr hr ![80 * n] h
  ihave Hl' := (pointsTo_split_subset (Finset.subset_univ (lsl s0 ![80 * n] h).view.set)).1 $$ Hl
  icases Hl' with ⟨Hl1, Hl2⟩
  iapply (SparseCore.wp_indirectGatherLocal (EC (F := F)) 𝒱₀ (thrV d L) none (none : HIx 1) NG credit_s2 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s2
  isplitl [Hfl]
  · iapply (Transfers.Flight_mono (EC (F := F)) (thrV d L) ?_) $$ Hfl
    rw [View.set_whole, View.write_whole_univ, gather_payload_s0]
    exact .rfl
  · iexact Hl2

/-- The wait for it: the block at the named rows, the two tokens whole, the semaphore at zero. -/
theorem waitg_s2 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s2).view.WordExact}
    {α : Type} (k : PUnit → Prog (TpuEff nD τ sig (Elt F) Λ₀ (thrV d L).2) α) (Q : α → sProp 𝕄) :
    iprop(gfl_s2 m d L q ql lr n hn ∗ owes (thrV d L) O W ∗ Transfers.MayWaits (thrV d L) (none : HIx 1) O)
      ⊢ iprop((iprop(((s2).view.loc (thrV d L) ↦{fullShare} gath (m (zLoc d)) (wordsAt lr (80 * n)))
              ∗ ((zSl).view.loc (thrV d L) ↦[(zSl).view.set]{q} m (zLoc d))
              ∗ ((s0).view.loc (thrV d L) ↦{ql} lr) ∗ sem0 d L cc0_scratch11
              ∗ owes (thrV d L) O (insert (SemLoc.dma cc0_scratch11.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch11.sem zSl s2 hsrc hdst) k) Q) := by
  unfold gfl_s2
  iintro ⟨⟨Hfl, Hl2⟩, HO, #Hmw⟩ Hk
  iapply (Transfers.wp_waitLocalO (EC (F := F)) 𝒱₀ (thrV d L) none (none : HIx 1) wcredit_s2) $$ [Hfl HO]
  · isplitl [Hfl]; · iexact Hfl
    isplitl [HO]; · iexact HO
    iapply (Transfers.MayWaits.elim (SemLoc.dma cc0_scratch11.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s0 n hn).view.set)).2
    isplitl [Hl1]; · iexact Hl1
    iexact Hl2
  isplitl [Hs]; · iexact Hs
  iexact HO

/-- Issue of chunk `n`'s gather into `s6`: from the block, a token of `z`, a token of the list and the semaphore at zero
    to the gather in flight. -/
theorem issue_s6 (d : Dev nD) (L : grid0.Coords) (q ql : PosShare TreeShare)
    (fd : Buf (Elt F) ((s6).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s6).view.loc (thrV d L) ↦{fullShare} fd)
        ∗ ((s1).view.loc (thrV d L) ↦{ql} lr) ∗ sem0 d L cc0_scratch15)
      ⊢ iprop((gfl_s6 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s6 gathers_S10000x128_S80x128 (lsl s1 o h) rfl cc0_scratch15.sem (View.wordExact_bits rfl) rfl (Or.inl rfl) >>= k) Q) := by
  subst ho
  iintro ⟨Hz, Hd, Hl, Hs⟩ Hk
  have hin := hin_of_range_s1 (F := F) lr hr ![80 * n] h
  ihave Hl' := (pointsTo_split_subset (Finset.subset_univ (lsl s1 ![80 * n] h).view.set)).1 $$ Hl
  icases Hl' with ⟨Hl1, Hl2⟩
  iapply (SparseCore.wp_indirectGatherLocal (EC (F := F)) 𝒱₀ (thrV d L) none (none : HIx 1) NG credit_s6 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s6
  isplitl [Hfl]
  · iapply (Transfers.Flight_mono (EC (F := F)) (thrV d L) ?_) $$ Hfl
    rw [View.set_whole, View.write_whole_univ, gather_payload_s1]
    exact .rfl
  · iexact Hl2

/-- The wait for it: the block at the named rows, the two tokens whole, the semaphore at zero. -/
theorem waitg_s6 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s6).view.WordExact}
    {α : Type} (k : PUnit → Prog (TpuEff nD τ sig (Elt F) Λ₀ (thrV d L).2) α) (Q : α → sProp 𝕄) :
    iprop(gfl_s6 m d L q ql lr n hn ∗ owes (thrV d L) O W ∗ Transfers.MayWaits (thrV d L) (none : HIx 1) O)
      ⊢ iprop((iprop(((s6).view.loc (thrV d L) ↦{fullShare} gath (m (zLoc d)) (wordsAt lr (80 * n)))
              ∗ ((zSl).view.loc (thrV d L) ↦[(zSl).view.set]{q} m (zLoc d))
              ∗ ((s1).view.loc (thrV d L) ↦{ql} lr) ∗ sem0 d L cc0_scratch15
              ∗ owes (thrV d L) O (insert (SemLoc.dma cc0_scratch15.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch15.sem zSl s6 hsrc hdst) k) Q) := by
  unfold gfl_s6
  iintro ⟨⟨Hfl, Hl2⟩, HO, #Hmw⟩ Hk
  iapply (Transfers.wp_waitLocalO (EC (F := F)) 𝒱₀ (thrV d L) none (none : HIx 1) wcredit_s6) $$ [Hfl HO]
  · isplitl [Hfl]; · iexact Hfl
    isplitl [HO]; · iexact HO
    iapply (Transfers.MayWaits.elim (SemLoc.dma cc0_scratch15.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s1 n hn).view.set)).2
    isplitl [Hl1]; · iexact Hl1
    iexact Hl2
  isplitl [Hs]; · iexact Hs
  iexact HO

/-- Issue of chunk `n`'s gather into `s3`: from the block, a token of `z`, a token of the list and the semaphore at zero
    to the gather in flight. -/
theorem issue_s3 (d : Dev nD) (L : grid0.Coords) (q ql : PosShare TreeShare)
    (fd : Buf (Elt F) ((s3).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s3).view.loc (thrV d L) ↦{fullShare} fd)
        ∗ ((s0).view.loc (thrV d L) ↦{ql} lr) ∗ sem0 d L cc0_scratch12)
      ⊢ iprop((gfl_s3 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s3 gathers_S10000x128_S80x128 (lsl s0 o h) rfl cc0_scratch12.sem (View.wordExact_bits rfl) rfl (Or.inl rfl) >>= k) Q) := by
  subst ho
  iintro ⟨Hz, Hd, Hl, Hs⟩ Hk
  have hin := hin_of_range_s0 (F := F) lr hr ![80 * n] h
  ihave Hl' := (pointsTo_split_subset (Finset.subset_univ (lsl s0 ![80 * n] h).view.set)).1 $$ Hl
  icases Hl' with ⟨Hl1, Hl2⟩
  iapply (SparseCore.wp_indirectGatherLocal (EC (F := F)) 𝒱₀ (thrV d L) none (none : HIx 1) NG credit_s3 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s3
  isplitl [Hfl]
  · iapply (Transfers.Flight_mono (EC (F := F)) (thrV d L) ?_) $$ Hfl
    rw [View.set_whole, View.write_whole_univ, gather_payload_s0]
    exact .rfl
  · iexact Hl2

/-- The wait for it: the block at the named rows, the two tokens whole, the semaphore at zero. -/
theorem waitg_s3 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s3).view.WordExact}
    {α : Type} (k : PUnit → Prog (TpuEff nD τ sig (Elt F) Λ₀ (thrV d L).2) α) (Q : α → sProp 𝕄) :
    iprop(gfl_s3 m d L q ql lr n hn ∗ owes (thrV d L) O W ∗ Transfers.MayWaits (thrV d L) (none : HIx 1) O)
      ⊢ iprop((iprop(((s3).view.loc (thrV d L) ↦{fullShare} gath (m (zLoc d)) (wordsAt lr (80 * n)))
              ∗ ((zSl).view.loc (thrV d L) ↦[(zSl).view.set]{q} m (zLoc d))
              ∗ ((s0).view.loc (thrV d L) ↦{ql} lr) ∗ sem0 d L cc0_scratch12
              ∗ owes (thrV d L) O (insert (SemLoc.dma cc0_scratch12.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch12.sem zSl s3 hsrc hdst) k) Q) := by
  unfold gfl_s3
  iintro ⟨⟨Hfl, Hl2⟩, HO, #Hmw⟩ Hk
  iapply (Transfers.wp_waitLocalO (EC (F := F)) 𝒱₀ (thrV d L) none (none : HIx 1) wcredit_s3) $$ [Hfl HO]
  · isplitl [Hfl]; · iexact Hfl
    isplitl [HO]; · iexact HO
    iapply (Transfers.MayWaits.elim (SemLoc.dma cc0_scratch12.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s0 n hn).view.set)).2
    isplitl [Hl1]; · iexact Hl1
    iexact Hl2
  isplitl [Hs]; · iexact Hs
  iexact HO

/-- Issue of chunk `n`'s gather into `s7`: from the block, a token of `z`, a token of the list and the semaphore at zero
    to the gather in flight. -/
theorem issue_s7 (d : Dev nD) (L : grid0.Coords) (q ql : PosShare TreeShare)
    (fd : Buf (Elt F) ((s7).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s7).view.loc (thrV d L) ↦{fullShare} fd)
        ∗ ((s1).view.loc (thrV d L) ↦{ql} lr) ∗ sem0 d L cc0_scratch16)
      ⊢ iprop((gfl_s7 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s7 gathers_S10000x128_S80x128 (lsl s1 o h) rfl cc0_scratch16.sem (View.wordExact_bits rfl) rfl (Or.inl rfl) >>= k) Q) := by
  subst ho
  iintro ⟨Hz, Hd, Hl, Hs⟩ Hk
  have hin := hin_of_range_s1 (F := F) lr hr ![80 * n] h
  ihave Hl' := (pointsTo_split_subset (Finset.subset_univ (lsl s1 ![80 * n] h).view.set)).1 $$ Hl
  icases Hl' with ⟨Hl1, Hl2⟩
  iapply (SparseCore.wp_indirectGatherLocal (EC (F := F)) 𝒱₀ (thrV d L) none (none : HIx 1) NG credit_s7 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s7
  isplitl [Hfl]
  · iapply (Transfers.Flight_mono (EC (F := F)) (thrV d L) ?_) $$ Hfl
    rw [View.set_whole, View.write_whole_univ, gather_payload_s1]
    exact .rfl
  · iexact Hl2

/-- The wait for it: the block at the named rows, the two tokens whole, the semaphore at zero. -/
theorem waitg_s7 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s7).view.WordExact}
    {α : Type} (k : PUnit → Prog (TpuEff nD τ sig (Elt F) Λ₀ (thrV d L).2) α) (Q : α → sProp 𝕄) :
    iprop(gfl_s7 m d L q ql lr n hn ∗ owes (thrV d L) O W ∗ Transfers.MayWaits (thrV d L) (none : HIx 1) O)
      ⊢ iprop((iprop(((s7).view.loc (thrV d L) ↦{fullShare} gath (m (zLoc d)) (wordsAt lr (80 * n)))
              ∗ ((zSl).view.loc (thrV d L) ↦[(zSl).view.set]{q} m (zLoc d))
              ∗ ((s1).view.loc (thrV d L) ↦{ql} lr) ∗ sem0 d L cc0_scratch16
              ∗ owes (thrV d L) O (insert (SemLoc.dma cc0_scratch16.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch16.sem zSl s7 hsrc hdst) k) Q) := by
  unfold gfl_s7
  iintro ⟨⟨Hfl, Hl2⟩, HO, #Hmw⟩ Hk
  iapply (Transfers.wp_waitLocalO (EC (F := F)) 𝒱₀ (thrV d L) none (none : HIx 1) wcredit_s7) $$ [Hfl HO]
  · isplitl [Hfl]; · iexact Hfl
    isplitl [HO]; · iexact HO
    iapply (Transfers.MayWaits.elim (SemLoc.dma cc0_scratch16.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s1 n hn).view.set)).2
    isplitl [Hl1]; · iexact Hl1
    iexact Hl2
  isplitl [Hs]; · iexact Hs
  iexact HO

/-- Issue of chunk `n`'s gather into `s4`: from the block, a token of `z`, a token of the list and the semaphore at zero
    to the gather in flight. -/
theorem issue_s4 (d : Dev nD) (L : grid0.Coords) (q ql : PosShare TreeShare)
    (fd : Buf (Elt F) ((s4).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s4).view.loc (thrV d L) ↦{fullShare} fd)
        ∗ ((s0).view.loc (thrV d L) ↦{ql} lr) ∗ sem0 d L cc0_scratch13)
      ⊢ iprop((gfl_s4 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s4 gathers_S10000x128_S80x128 (lsl s0 o h) rfl cc0_scratch13.sem (View.wordExact_bits rfl) rfl (Or.inl rfl) >>= k) Q) := by
  subst ho
  iintro ⟨Hz, Hd, Hl, Hs⟩ Hk
  have hin := hin_of_range_s0 (F := F) lr hr ![80 * n] h
  ihave Hl' := (pointsTo_split_subset (Finset.subset_univ (lsl s0 ![80 * n] h).view.set)).1 $$ Hl
  icases Hl' with ⟨Hl1, Hl2⟩
  iapply (SparseCore.wp_indirectGatherLocal (EC (F := F)) 𝒱₀ (thrV d L) none (none : HIx 1) NG credit_s4 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s4
  isplitl [Hfl]
  · iapply (Transfers.Flight_mono (EC (F := F)) (thrV d L) ?_) $$ Hfl
    rw [View.set_whole, View.write_whole_univ, gather_payload_s0]
    exact .rfl
  · iexact Hl2

/-- The wait for it: the block at the named rows, the two tokens whole, the semaphore at zero. -/
theorem waitg_s4 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s4).view.WordExact}
    {α : Type} (k : PUnit → Prog (TpuEff nD τ sig (Elt F) Λ₀ (thrV d L).2) α) (Q : α → sProp 𝕄) :
    iprop(gfl_s4 m d L q ql lr n hn ∗ owes (thrV d L) O W ∗ Transfers.MayWaits (thrV d L) (none : HIx 1) O)
      ⊢ iprop((iprop(((s4).view.loc (thrV d L) ↦{fullShare} gath (m (zLoc d)) (wordsAt lr (80 * n)))
              ∗ ((zSl).view.loc (thrV d L) ↦[(zSl).view.set]{q} m (zLoc d))
              ∗ ((s0).view.loc (thrV d L) ↦{ql} lr) ∗ sem0 d L cc0_scratch13
              ∗ owes (thrV d L) O (insert (SemLoc.dma cc0_scratch13.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch13.sem zSl s4 hsrc hdst) k) Q) := by
  unfold gfl_s4
  iintro ⟨⟨Hfl, Hl2⟩, HO, #Hmw⟩ Hk
  iapply (Transfers.wp_waitLocalO (EC (F := F)) 𝒱₀ (thrV d L) none (none : HIx 1) wcredit_s4) $$ [Hfl HO]
  · isplitl [Hfl]; · iexact Hfl
    isplitl [HO]; · iexact HO
    iapply (Transfers.MayWaits.elim (SemLoc.dma cc0_scratch13.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s0 n hn).view.set)).2
    isplitl [Hl1]; · iexact Hl1
    iexact Hl2
  isplitl [Hs]; · iexact Hs
  iexact HO

/-- Issue of chunk `n`'s gather into `s8`: from the block, a token of `z`, a token of the list and the semaphore at zero
    to the gather in flight. -/
theorem issue_s8 (d : Dev nD) (L : grid0.Coords) (q ql : PosShare TreeShare)
    (fd : Buf (Elt F) ((s8).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s8).view.loc (thrV d L) ↦{fullShare} fd)
        ∗ ((s1).view.loc (thrV d L) ↦{ql} lr) ∗ sem0 d L cc0_scratch17)
      ⊢ iprop((gfl_s8 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s8 gathers_S10000x128_S80x128 (lsl s1 o h) rfl cc0_scratch17.sem (View.wordExact_bits rfl) rfl (Or.inl rfl) >>= k) Q) := by
  subst ho
  iintro ⟨Hz, Hd, Hl, Hs⟩ Hk
  have hin := hin_of_range_s1 (F := F) lr hr ![80 * n] h
  ihave Hl' := (pointsTo_split_subset (Finset.subset_univ (lsl s1 ![80 * n] h).view.set)).1 $$ Hl
  icases Hl' with ⟨Hl1, Hl2⟩
  iapply (SparseCore.wp_indirectGatherLocal (EC (F := F)) 𝒱₀ (thrV d L) none (none : HIx 1) NG credit_s8 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s8
  isplitl [Hfl]
  · iapply (Transfers.Flight_mono (EC (F := F)) (thrV d L) ?_) $$ Hfl
    rw [View.set_whole, View.write_whole_univ, gather_payload_s1]
    exact .rfl
  · iexact Hl2

/-- The wait for it: the block at the named rows, the two tokens whole, the semaphore at zero. -/
theorem waitg_s8 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s8).view.WordExact}
    {α : Type} (k : PUnit → Prog (TpuEff nD τ sig (Elt F) Λ₀ (thrV d L).2) α) (Q : α → sProp 𝕄) :
    iprop(gfl_s8 m d L q ql lr n hn ∗ owes (thrV d L) O W ∗ Transfers.MayWaits (thrV d L) (none : HIx 1) O)
      ⊢ iprop((iprop(((s8).view.loc (thrV d L) ↦{fullShare} gath (m (zLoc d)) (wordsAt lr (80 * n)))
              ∗ ((zSl).view.loc (thrV d L) ↦[(zSl).view.set]{q} m (zLoc d))
              ∗ ((s1).view.loc (thrV d L) ↦{ql} lr) ∗ sem0 d L cc0_scratch17
              ∗ owes (thrV d L) O (insert (SemLoc.dma cc0_scratch17.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch17.sem zSl s8 hsrc hdst) k) Q) := by
  unfold gfl_s8
  iintro ⟨⟨Hfl, Hl2⟩, HO, #Hmw⟩ Hk
  iapply (Transfers.wp_waitLocalO (EC (F := F)) 𝒱₀ (thrV d L) none (none : HIx 1) wcredit_s8) $$ [Hfl HO]
  · isplitl [Hfl]; · iexact Hfl
    isplitl [HO]; · iexact HO
    iapply (Transfers.MayWaits.elim (SemLoc.dma cc0_scratch17.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s1 n hn).view.set)).2
    isplitl [Hl1]; · iexact Hl1
    iexact Hl2
  isplitl [Hs]; · iexact Hs
  iexact HO

/-- Issue of chunk `n`'s gather into `s5`: from the block, a token of `z`, a token of the list and the semaphore at zero
    to the gather in flight. -/
theorem issue_s5 (d : Dev nD) (L : grid0.Coords) (q ql : PosShare TreeShare)
    (fd : Buf (Elt F) ((s5).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s5).view.loc (thrV d L) ↦{fullShare} fd)
        ∗ ((s0).view.loc (thrV d L) ↦{ql} lr) ∗ sem0 d L cc0_scratch14)
      ⊢ iprop((gfl_s5 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s5 gathers_S10000x128_S80x128 (lsl s0 o h) rfl cc0_scratch14.sem (View.wordExact_bits rfl) rfl (Or.inl rfl) >>= k) Q) := by
  subst ho
  iintro ⟨Hz, Hd, Hl, Hs⟩ Hk
  have hin := hin_of_range_s0 (F := F) lr hr ![80 * n] h
  ihave Hl' := (pointsTo_split_subset (Finset.subset_univ (lsl s0 ![80 * n] h).view.set)).1 $$ Hl
  icases Hl' with ⟨Hl1, Hl2⟩
  iapply (SparseCore.wp_indirectGatherLocal (EC (F := F)) 𝒱₀ (thrV d L) none (none : HIx 1) NG credit_s5 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s5
  isplitl [Hfl]
  · iapply (Transfers.Flight_mono (EC (F := F)) (thrV d L) ?_) $$ Hfl
    rw [View.set_whole, View.write_whole_univ, gather_payload_s0]
    exact .rfl
  · iexact Hl2

/-- The wait for it: the block at the named rows, the two tokens whole, the semaphore at zero. -/
theorem waitg_s5 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s5).view.WordExact}
    {α : Type} (k : PUnit → Prog (TpuEff nD τ sig (Elt F) Λ₀ (thrV d L).2) α) (Q : α → sProp 𝕄) :
    iprop(gfl_s5 m d L q ql lr n hn ∗ owes (thrV d L) O W ∗ Transfers.MayWaits (thrV d L) (none : HIx 1) O)
      ⊢ iprop((iprop(((s5).view.loc (thrV d L) ↦{fullShare} gath (m (zLoc d)) (wordsAt lr (80 * n)))
              ∗ ((zSl).view.loc (thrV d L) ↦[(zSl).view.set]{q} m (zLoc d))
              ∗ ((s0).view.loc (thrV d L) ↦{ql} lr) ∗ sem0 d L cc0_scratch14
              ∗ owes (thrV d L) O (insert (SemLoc.dma cc0_scratch14.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch14.sem zSl s5 hsrc hdst) k) Q) := by
  unfold gfl_s5
  iintro ⟨⟨Hfl, Hl2⟩, HO, #Hmw⟩ Hk
  iapply (Transfers.wp_waitLocalO (EC (F := F)) 𝒱₀ (thrV d L) none (none : HIx 1) wcredit_s5) $$ [Hfl HO]
  · isplitl [Hfl]; · iexact Hfl
    isplitl [HO]; · iexact HO
    iapply (Transfers.MayWaits.elim (SemLoc.dma cc0_scratch14.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s0 n hn).view.set)).2
    isplitl [Hl1]; · iexact Hl1
    iexact Hl2
  isplitl [Hs]; · iexact Hs
  iexact HO

/-- Issue of chunk `n`'s gather into `s9`: from the block, a token of `z`, a token of the list and the semaphore at zero
    to the gather in flight. -/
theorem issue_s9 (d : Dev nD) (L : grid0.Coords) (q ql : PosShare TreeShare)
    (fd : Buf (Elt F) ((s9).view.loc (thrV d L))) (lr : IVec S10000 32) (hr : ∀ j, (lr j).toNat < 10000)
    (n : ℕ) (hn : n < 125) (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    iprop(((zSl).view.loc (thrV d L) ↦[(zSl).view.set]{q} m (zLoc d)) ∗ ((s9).view.loc (thrV d L) ↦{fullShare} fd)
        ∗ ((s1).view.loc (thrV d L) ↦{ql} lr) ∗ sem0 d L cc0_scratch18)
      ⊢ iprop((gfl_s9 m d L q ql lr n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s9 gathers_S10000x128_S80x128 (lsl s1 o h) rfl cc0_scratch18.sem (View.wordExact_bits rfl) rfl (Or.inl rfl) >>= k) Q) := by
  subst ho
  iintro ⟨Hz, Hd, Hl, Hs⟩ Hk
  have hin := hin_of_range_s1 (F := F) lr hr ![80 * n] h
  ihave Hl' := (pointsTo_split_subset (Finset.subset_univ (lsl s1 ![80 * n] h).view.set)).1 $$ Hl
  icases Hl' with ⟨Hl1, Hl2⟩
  iapply (SparseCore.wp_indirectGatherLocal (EC (F := F)) 𝒱₀ (thrV d L) none (none : HIx 1) NG credit_s9 (by decide) hin) $$ [Hz Hd Hl1 Hs]
  · isplitl [Hz]; · iexact Hz
    isplitl [Hd]; · rw [View.set_whole]; iexact Hd
    isplitl [Hl1]; · iexact Hl1
    iexact Hs
  iintro Hfl
  iapply Hk
  unfold gfl_s9
  isplitl [Hfl]
  · iapply (Transfers.Flight_mono (EC (F := F)) (thrV d L) ?_) $$ Hfl
    rw [View.set_whole, View.write_whole_univ, gather_payload_s1]
    exact .rfl
  · iexact Hl2

/-- The wait for it: the block at the named rows, the two tokens whole, the semaphore at zero. -/
theorem waitg_s9 (d : Dev nD) (L : grid0.Coords) (q ql : PosShare TreeShare) (lr : IVec S10000 32) (n : ℕ) (hn : n < 125)
    (O : CellTallies nD τ sig (HIx 1)) (W : Waits sig (HIx 1))
    {hsrc : (zSl).view.WordExact} {hdst : (s9).view.WordExact}
    {α : Type} (k : PUnit → Prog (TpuEff nD τ sig (Elt F) Λ₀ (thrV d L).2) α) (Q : α → sProp 𝕄) :
    iprop(gfl_s9 m d L q ql lr n hn ∗ owes (thrV d L) O W ∗ Transfers.MayWaits (thrV d L) (none : HIx 1) O)
      ⊢ iprop((iprop(((s9).view.loc (thrV d L) ↦{fullShare} gath (m (zLoc d)) (wordsAt lr (80 * n)))
              ∗ ((zSl).view.loc (thrV d L) ↦[(zSl).view.set]{q} m (zLoc d))
              ∗ ((s1).view.loc (thrV d L) ↦{ql} lr) ∗ sem0 d L cc0_scratch18
              ∗ owes (thrV d L) O (insert (SemLoc.dma cc0_scratch18.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch18.sem zSl s9 hsrc hdst) k) Q) := by
  unfold gfl_s9
  iintro ⟨⟨Hfl, Hl2⟩, HO, #Hmw⟩ Hk
  iapply (Transfers.wp_waitLocalO (EC (F := F)) 𝒱₀ (thrV d L) none (none : HIx 1) wcredit_s9) $$ [Hfl HO]
  · isplitl [Hfl]; · iexact Hfl
    isplitl [HO]; · iexact HO
    iapply (Transfers.MayWaits.elim (SemLoc.dma cc0_scratch18.sem)); iexact Hmw
  iintro ⟨⟨HA, Hz, Hl1⟩, Hs, HO⟩
  iapply Hk
  isplitl [HA]; · iexact HA
  isplitl [Hz]; · iexact Hz
  isplitl [Hl1 Hl2]
  · iapply (pointsTo_split_subset (Finset.subset_univ (lslN s1 n hn).view.set)).2
    isplitl [Hl1]; · iexact Hl1
    iexact Hl2
  isplitl [Hs]; · iexact Hs
  iexact HO

/-- The copy of the eighty scores out of the out scratch onto eighty words of the result, on a semaphore of its own,
    and its wait: the words hold what the scratch held. -/
theorem copyout_2 (d : Dev nD) (L : grid0.Coords) (o : Fin 1 → Nat) (h : ∀ a, o a + S80.size a ≤ S320000.size a)
    (fv : Buf (Elt F) ((s10).view.loc (thrV d L))) (fo : Buf (Elt F) ((osl o h).view.loc (thrV d L)))
    (O : CellTallies nD τ sig (HIx 1)) (W : Waits sig (HIx 1))
    {α : Type} (k : PUnit → Prog (TpuEff nD τ sig (Elt F) Λ₀ (thrV d L).2) α) (Q : α → sProp 𝕄) :
    iprop(((s10).view.loc (thrV d L) ↦{fullShare} fv) ∗ ((osl o h).view.loc (thrV d L) ↦[(osl o h).view.set]{fullShare} fo)
        ∗ sem0 d L cc0_scoped2 ∗ owes (thrV d L) O W ∗ Transfers.MayWaits (thrV d L) (none : HIx 1) O)
      ⊢ iprop((iprop(((s10).view.loc (thrV d L) ↦{fullShare} fv)
              ∗ ((osl o h).view.loc (thrV d L) ↦[(osl o h).view.set]{fullShare}
                  (osl o h).view.write (Elt F) fo (ReadAs.same.apply ((s10).view.read (Elt F) fv)) Finset.univ)
              ∗ sem0 d L cc0_scoped2 ∗ owes (thrV d L) O (insert (SemLoc.dma cc0_scoped2.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma s10 (.here (osl o h)) (.dma cc0_scoped2.sem) (Memref.isWhole_whole _).wordExact (View.wordExact_bits rfl) ⟨Or.inl rfl, trivial⟩) fun _ =>
               Prog.op (.waitDma2 cc0_scoped2.sem s10 (osl o h) (Memref.isWhole_whole _).wordExact (View.wordExact_bits rfl)) k) Q) := by
  iintro ⟨Hv, Ho, Hs, HO, #Hmw⟩ Hk
  iapply (Transfers.wp_dmaLocal (EC (F := F)) 𝒱₀ (thrV d L) none (none : HIx 1) ((osl o h).view.amount (.dma cc0_scoped2.sem)) rfl
      (View.amount_pos _ _ (by decide)) (Finset.Subset.refl _)) $$ [Hv Ho Hs]
  · isplitl [Hv]; · rw [View.set_whole]; iexact Hv
    isplitl [Ho]; · iexact Ho
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped2.sem)); iexact Hmw
  iintro ⟨⟨Ho, Hv⟩, Hs, HO⟩
  iapply Hk
  isplitl [Hv]; · rw [View.set_whole]; iexact Hv
  isplitl [Ho]; · iexact Ho
  isplitl [Hs]; · iexact Hs
  iexact HO

/-- The copy of the eighty scores out of the out scratch onto eighty words of the result, on a semaphore of its own,
    and its wait: the words hold what the scratch held. -/
theorem copyout_3 (d : Dev nD) (L : grid0.Coords) (o : Fin 1 → Nat) (h : ∀ a, o a + S80.size a ≤ S320000.size a)
    (fv : Buf (Elt F) ((s10).view.loc (thrV d L))) (fo : Buf (Elt F) ((osl o h).view.loc (thrV d L)))
    (O : CellTallies nD τ sig (HIx 1)) (W : Waits sig (HIx 1))
    {α : Type} (k : PUnit → Prog (TpuEff nD τ sig (Elt F) Λ₀ (thrV d L).2) α) (Q : α → sProp 𝕄) :
    iprop(((s10).view.loc (thrV d L) ↦{fullShare} fv) ∗ ((osl o h).view.loc (thrV d L) ↦[(osl o h).view.set]{fullShare} fo)
        ∗ sem0 d L cc0_scoped3 ∗ owes (thrV d L) O W ∗ Transfers.MayWaits (thrV d L) (none : HIx 1) O)
      ⊢ iprop((iprop(((s10).view.loc (thrV d L) ↦{fullShare} fv)
              ∗ ((osl o h).view.loc (thrV d L) ↦[(osl o h).view.set]{fullShare}
                  (osl o h).view.write (Elt F) fo (ReadAs.same.apply ((s10).view.read (Elt F) fv)) Finset.univ)
              ∗ sem0 d L cc0_scoped3 ∗ owes (thrV d L) O (insert (SemLoc.dma cc0_scoped3.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma s10 (.here (osl o h)) (.dma cc0_scoped3.sem) (Memref.isWhole_whole _).wordExact (View.wordExact_bits rfl) ⟨Or.inl rfl, trivial⟩) fun _ =>
               Prog.op (.waitDma2 cc0_scoped3.sem s10 (osl o h) (Memref.isWhole_whole _).wordExact (View.wordExact_bits rfl)) k) Q) := by
  iintro ⟨Hv, Ho, Hs, HO, #Hmw⟩ Hk
  iapply (Transfers.wp_dmaLocal (EC (F := F)) 𝒱₀ (thrV d L) none (none : HIx 1) ((osl o h).view.amount (.dma cc0_scoped3.sem)) rfl
      (View.amount_pos _ _ (by decide)) (Finset.Subset.refl _)) $$ [Hv Ho Hs]
  · isplitl [Hv]; · rw [View.set_whole]; iexact Hv
    isplitl [Ho]; · iexact Ho
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped3.sem)); iexact Hmw
  iintro ⟨⟨Ho, Hv⟩, Hs, HO⟩
  iapply Hk
  isplitl [Hv]; · rw [View.set_whole]; iexact Hv
  isplitl [Ho]; · iexact Ho
  isplitl [Hs]; · iexact Hs
  iexact HO

/-- The copy of the eighty scores out of the out scratch onto eighty words of the result, on a semaphore of its own,
    and its wait: the words hold what the scratch held. -/
theorem copyout_4 (d : Dev nD) (L : grid0.Coords) (o : Fin 1 → Nat) (h : ∀ a, o a + S80.size a ≤ S320000.size a)
    (fv : Buf (Elt F) ((s10).view.loc (thrV d L))) (fo : Buf (Elt F) ((osl o h).view.loc (thrV d L)))
    (O : CellTallies nD τ sig (HIx 1)) (W : Waits sig (HIx 1))
    {α : Type} (k : PUnit → Prog (TpuEff nD τ sig (Elt F) Λ₀ (thrV d L).2) α) (Q : α → sProp 𝕄) :
    iprop(((s10).view.loc (thrV d L) ↦{fullShare} fv) ∗ ((osl o h).view.loc (thrV d L) ↦[(osl o h).view.set]{fullShare} fo)
        ∗ sem0 d L cc0_scoped4 ∗ owes (thrV d L) O W ∗ Transfers.MayWaits (thrV d L) (none : HIx 1) O)
      ⊢ iprop((iprop(((s10).view.loc (thrV d L) ↦{fullShare} fv)
              ∗ ((osl o h).view.loc (thrV d L) ↦[(osl o h).view.set]{fullShare}
                  (osl o h).view.write (Elt F) fo (ReadAs.same.apply ((s10).view.read (Elt F) fv)) Finset.univ)
              ∗ sem0 d L cc0_scoped4 ∗ owes (thrV d L) O (insert (SemLoc.dma cc0_scoped4.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma s10 (.here (osl o h)) (.dma cc0_scoped4.sem) (Memref.isWhole_whole _).wordExact (View.wordExact_bits rfl) ⟨Or.inl rfl, trivial⟩) fun _ =>
               Prog.op (.waitDma2 cc0_scoped4.sem s10 (osl o h) (Memref.isWhole_whole _).wordExact (View.wordExact_bits rfl)) k) Q) := by
  iintro ⟨Hv, Ho, Hs, HO, #Hmw⟩ Hk
  iapply (Transfers.wp_dmaLocal (EC (F := F)) 𝒱₀ (thrV d L) none (none : HIx 1) ((osl o h).view.amount (.dma cc0_scoped4.sem)) rfl
      (View.amount_pos _ _ (by decide)) (Finset.Subset.refl _)) $$ [Hv Ho Hs]
  · isplitl [Hv]; · rw [View.set_whole]; iexact Hv
    isplitl [Ho]; · iexact Ho
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped4.sem)); iexact Hmw
  iintro ⟨⟨Ho, Hv⟩, Hs, HO⟩
  iapply Hk
  isplitl [Hv]; · rw [View.set_whole]; iexact Hv
  isplitl [Ho]; · iexact Ho
  isplitl [Hs]; · iexact Hs
  iexact HO

/-- The copy of the eighty scores out of the out scratch onto eighty words of the result, on a semaphore of its own,
    and its wait: the words hold what the scratch held. -/
theorem copyout_5 (d : Dev nD) (L : grid0.Coords) (o : Fin 1 → Nat) (h : ∀ a, o a + S80.size a ≤ S320000.size a)
    (fv : Buf (Elt F) ((s10).view.loc (thrV d L))) (fo : Buf (Elt F) ((osl o h).view.loc (thrV d L)))
    (O : CellTallies nD τ sig (HIx 1)) (W : Waits sig (HIx 1))
    {α : Type} (k : PUnit → Prog (TpuEff nD τ sig (Elt F) Λ₀ (thrV d L).2) α) (Q : α → sProp 𝕄) :
    iprop(((s10).view.loc (thrV d L) ↦{fullShare} fv) ∗ ((osl o h).view.loc (thrV d L) ↦[(osl o h).view.set]{fullShare} fo)
        ∗ sem0 d L cc0_scoped5 ∗ owes (thrV d L) O W ∗ Transfers.MayWaits (thrV d L) (none : HIx 1) O)
      ⊢ iprop((iprop(((s10).view.loc (thrV d L) ↦{fullShare} fv)
              ∗ ((osl o h).view.loc (thrV d L) ↦[(osl o h).view.set]{fullShare}
                  (osl o h).view.write (Elt F) fo (ReadAs.same.apply ((s10).view.read (Elt F) fv)) Finset.univ)
              ∗ sem0 d L cc0_scoped5 ∗ owes (thrV d L) O (insert (SemLoc.dma cc0_scoped5.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma s10 (.here (osl o h)) (.dma cc0_scoped5.sem) (Memref.isWhole_whole _).wordExact (View.wordExact_bits rfl) ⟨Or.inl rfl, trivial⟩) fun _ =>
               Prog.op (.waitDma2 cc0_scoped5.sem s10 (osl o h) (Memref.isWhole_whole _).wordExact (View.wordExact_bits rfl)) k) Q) := by
  iintro ⟨Hv, Ho, Hs, HO, #Hmw⟩ Hk
  iapply (Transfers.wp_dmaLocal (EC (F := F)) 𝒱₀ (thrV d L) none (none : HIx 1) ((osl o h).view.amount (.dma cc0_scoped5.sem)) rfl
      (View.amount_pos _ _ (by decide)) (Finset.Subset.refl _)) $$ [Hv Ho Hs]
  · isplitl [Hv]; · rw [View.set_whole]; iexact Hv
    isplitl [Ho]; · iexact Ho
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped5.sem)); iexact Hmw
  iintro ⟨⟨Ho, Hv⟩, Hs, HO⟩
  iapply Hk
  isplitl [Hv]; · rw [View.set_whole]; iexact Hv
  isplitl [Ho]; · iexact Ho
  isplitl [Hs]; · iexact Hs
  iexact HO

/-- The copy of the eighty scores out of the out scratch onto eighty words of the result, on a semaphore of its own,
    and its wait: the words hold what the scratch held. -/
theorem copyout_6 (d : Dev nD) (L : grid0.Coords) (o : Fin 1 → Nat) (h : ∀ a, o a + S80.size a ≤ S320000.size a)
    (fv : Buf (Elt F) ((s10).view.loc (thrV d L))) (fo : Buf (Elt F) ((osl o h).view.loc (thrV d L)))
    (O : CellTallies nD τ sig (HIx 1)) (W : Waits sig (HIx 1))
    {α : Type} (k : PUnit → Prog (TpuEff nD τ sig (Elt F) Λ₀ (thrV d L).2) α) (Q : α → sProp 𝕄) :
    iprop(((s10).view.loc (thrV d L) ↦{fullShare} fv) ∗ ((osl o h).view.loc (thrV d L) ↦[(osl o h).view.set]{fullShare} fo)
        ∗ sem0 d L cc0_scoped6 ∗ owes (thrV d L) O W ∗ Transfers.MayWaits (thrV d L) (none : HIx 1) O)
      ⊢ iprop((iprop(((s10).view.loc (thrV d L) ↦{fullShare} fv)
              ∗ ((osl o h).view.loc (thrV d L) ↦[(osl o h).view.set]{fullShare}
                  (osl o h).view.write (Elt F) fo (ReadAs.same.apply ((s10).view.read (Elt F) fv)) Finset.univ)
              ∗ sem0 d L cc0_scoped6 ∗ owes (thrV d L) O (insert (SemLoc.dma cc0_scoped6.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma s10 (.here (osl o h)) (.dma cc0_scoped6.sem) (Memref.isWhole_whole _).wordExact (View.wordExact_bits rfl) ⟨Or.inl rfl, trivial⟩) fun _ =>
               Prog.op (.waitDma2 cc0_scoped6.sem s10 (osl o h) (Memref.isWhole_whole _).wordExact (View.wordExact_bits rfl)) k) Q) := by
  iintro ⟨Hv, Ho, Hs, HO, #Hmw⟩ Hk
  iapply (Transfers.wp_dmaLocal (EC (F := F)) 𝒱₀ (thrV d L) none (none : HIx 1) ((osl o h).view.amount (.dma cc0_scoped6.sem)) rfl
      (View.amount_pos _ _ (by decide)) (Finset.Subset.refl _)) $$ [Hv Ho Hs]
  · isplitl [Hv]; · rw [View.set_whole]; iexact Hv
    isplitl [Ho]; · iexact Ho
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped6.sem)); iexact Hmw
  iintro ⟨⟨Ho, Hv⟩, Hs, HO⟩
  iapply Hk
  isplitl [Hv]; · rw [View.set_whole]; iexact Hv
  isplitl [Ho]; · iexact Ho
  isplitl [Hs]; · iexact Hs
  iexact HO

end Cert.Proof.KI
end
-- ==== Proof.KILoops.lean ====
/-
  The two counted loops of one chunk, per copy of the body's text: the 128 steps of a group, whose lanes end at their
  accumulated products, and the five groups, after which the out scratch holds the chunk's eighty scores.
-/
import proofs.«209252_g55662776156339_cont_9to1_m_525_47_alg».proof.Proof.KIAcc
import proofs.«209252_g55662776156339_cont_9to1_m_525_47_alg».proof.Proof.KIViews

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

theorem k0_t3_trips : k0_t3_loop.trips = 128 := by decide
theorem k0_t2_trips : k0_t2_loop.trips = 5 := by decide

/-- The 128 steps of one group on the blocks `s2`, `s6`: the lanes end at their accumulated products. -/
theorem inner_a (d : Dev nD) (L : grid0.Coords) (v2 c0 c1 : BitVec 32) (k1 : Fin k0_t1_loop.trips) (g : Fin k0_t2_loop.trips)
    (fA : Buf (Elt F) ((s2).view.loc (thrV d L))) (fB : Buf (Elt F) ((s6).view.loc (thrV d L)))
    {α : Type} (k : FVec F S16 .f32 → Prog (TpuEff nD τ sig (Elt F) Λ₀ (thrV d L).2) α) (Q : α → sProp 𝕄) :
    iprop(((s2).view.loc (thrV d L) ↦{fullShare} fA) ∗ ((s6).view.loc (thrV d L) ↦{fullShare} fB))
      ⊢ iprop((iprop(((s2).view.loc (thrV d L) ↦{fullShare} fA) ∗ ((s6).view.loc (thrV d L) ↦{fullShare} fB))
            -∗ wp frame (wpE (defs₀ (F := F)) 𝒱₀ (thrV d L) none) Set.univ (k (laneAcc fA fB g.val 128)) Q)
          -∗ wp frame (wpE (defs₀ (F := F)) 𝒱₀ (thrV d L) none) Set.univ
              (Scf.Loop.for k0_t3_loop k0_t3_ok (k0_pay12 (F := F)) (k0_t3_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes c0 c1 k1 (k0_pay11 lanes g)) >>= k) Q) := by
  have hg : g.val < 5 := Nat.lt_of_lt_of_eq g.isLt k0_t2_trips
  iintro ⟨HA, HB⟩ Hk
  iapply (Scf.wp_for_bind frame (wpE (defs₀ (F := F)) 𝒱₀ (thrV d L) none) Set.univ _ _ _ k0_t3_ok (k0_pay12 (F := F)) _
      (fun t acc => iprop(⌜acc = laneAcc fA fB g.val t⌝ ∗ ((s2).view.loc (thrV d L) ↦{fullShare} fA) ∗ ((s6).view.loc (thrV d L) ↦{fullShare} fB))) ?step) $$ [HA HB] [Hk]
  case step =>
    intro t acc
    have ht : t.val < 128 := Nat.lt_of_lt_of_eq t.isLt k0_t3_trips
    iintro ⟨%hacc, HA, HB⟩
    subst hacc
    unfold k0_t3_body
    simp only [Prog.lift, Prog.bind_op, Prog.bind_ret, Prog.pure_eq_ret]
    have hchk : k0_chk1 (k0_pay11 lanes g) (k0_pay13 lanes t) := by
      refine ⟨fun a x => ?_, fun a x => ?_⟩ <;>
      · match a with
        | ⟨0, _⟩ => exact rowVec_lt ⟨g.val, hg⟩ x
        | ⟨1, _⟩ => exact colVec_lt ⟨t.val, ht⟩ x
    rw [wp_assume_of _ _ _ _ hchk]
    ihave HA' := (Entails.of_eq (show ((s2).view.loc (thrV d L) ↦{fullShare} fA : sProp 𝕄) = (((s2).access (.whole S80x128)).loc (thrV d L) ↦{fullShare} fA) from rfl)) $$ HA
    iapply (SparseCore.wp_vectorLoadIdx 𝒱₀ (thrV d L) none Set.univ (base := s2) (S := Finset.univ) (q := fullShare) (Finset.subset_univ _)) $$ HA'; iintro HA'
    ihave HB' := (Entails.of_eq (show ((s6).view.loc (thrV d L) ↦{fullShare} fB : sProp 𝕄) = (((s6).access (.whole S80x128)).loc (thrV d L) ↦{fullShare} fB) from rfl)) $$ HB
    iapply (SparseCore.wp_vectorLoadIdx 𝒱₀ (thrV d L) none Set.univ (base := s6) (S := Finset.univ) (q := fullShare) (Finset.subset_univ _)) $$ HB'; iintro HB'
    rw [wp_ret]; imodintro
    isplitr
    · ipureintro
      show addf (laneAcc fA fB g.val t.val) (mulf _ _) = _
      refine laneAcc_succ fA fB ⟨g.val, hg⟩ ⟨t.val, ht⟩ _ _ (fun x => ?_) (fun x => ?_)
      · rw [read_access_whole]; exact loadIdx_block fA _ _ _ x _ _
      · rw [read_access_whole]; exact loadIdx_block fB _ _ _ x _ _
    isplitl [HA']; · iexact HA'
    iexact HB'
  · isplitr; · ipureintro; rfl
    isplitl [HA]; · iexact HA
    iexact HB
  · iintro %acc ⟨%hacc, HA, HB⟩
    subst hacc
    rw [show Scf.trips k0_t3_loop.lb k0_t3_loop.ub k0_t3_loop.st = 128 from k0_t3_trips]
    iapply Hk
    isplitl [HA]; · iexact HA
    iexact HB

/-- The five groups of a chunk on the blocks `s2`, `s6`: the out scratch ends at the chunk's eighty scores. -/
theorem group_a (d : Dev nD) (L : grid0.Coords) (v2 c0 c1 : BitVec 32) (k1 : Fin k0_t1_loop.trips)
    (fA : Buf (Elt F) ((s2).view.loc (thrV d L))) (fB : Buf (Elt F) ((s6).view.loc (thrV d L))) (fv0 : Buf (Elt F) ((s10).view.loc (thrV d L)))
    {α : Type} (k : Unit → Prog (TpuEff nD τ sig (Elt F) Λ₀ (thrV d L).2) α) (Q : α → sProp 𝕄) :
    iprop(((s2).view.loc (thrV d L) ↦{fullShare} fA) ∗ ((s6).view.loc (thrV d L) ↦{fullShare} fB) ∗ ((s10).view.loc (thrV d L) ↦{fullShare} fv0))
      ⊢ iprop((iprop(((s2).view.loc (thrV d L) ↦{fullShare} fA) ∗ ((s6).view.loc (thrV d L) ↦{fullShare} fB)
              ∗ ((s10).view.loc (thrV d L) ↦{fullShare} chunkScore fA fB))
            -∗ wp frame (wpE (defs₀ (F := F)) 𝒱₀ (thrV d L) none) Set.univ (k ()) Q)
          -∗ wp frame (wpE (defs₀ (F := F)) 𝒱₀ (thrV d L) none) Set.univ
              (Scf.Loop.for k0_t2_loop k0_t2_ok ⟨⟩ (k0_t2_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes c0 c1 k1) >>= k) Q) := by
  iintro ⟨HA, HB, Hv⟩ Hk
  iapply (Scf.wp_for_bind frame (wpE (defs₀ (F := F)) 𝒱₀ (thrV d L) none) Set.univ _ _ _ k0_t2_ok ⟨⟩ _
      (fun g _ => iprop(((s2).view.loc (thrV d L) ↦{fullShare} fA) ∗ ((s6).view.loc (thrV d L) ↦{fullShare} fB)
        ∗ ∃ fv : Buf (Elt F) ((s10).view.loc (thrV d L)), ((s10).view.loc (thrV d L) ↦{fullShare} fv)
            ∗ ⌜∀ j : Fin 80, j.val < 16 * g → fv (ix1 j) = chunkScore fA fB (ix1 j)⌝)) ?step) $$ [HA HB Hv] [Hk]
  case step =>
    intro g u
    have hg : g.val < 5 := Nat.lt_of_lt_of_eq g.isLt k0_t2_trips
    iintro ⟨HA, HB, %fv, Hv, %hfv⟩
    unfold k0_t2_body
    simp only [Prog.lift, Prog.bind_op, Prog.bind_ret, Prog.pure_eq_ret]
    iapply (inner_a d L v2 c0 c1 k1 g fA fB _ _) $$ [HA HB]
    · isplitl [HA]; · iexact HA
      iexact HB
    iintro ⟨HA, HB⟩
    iapply (wp_load 𝒱₀ (thrV d L) none Set.univ (m := s10) (S := Finset.univ) (Finset.subset_univ _)) $$ Hv; iintro Hv
    ihave Hv' := (Entails.of_eq (show ((s10).view.loc (thrV d L) ↦{fullShare} fv : sProp 𝕄)
        = (((s10).access (Rect.unit (s := S80) (k0_off2 g) S16.size (k0_off2_inb g))).loc (thrV d L) ↦{fullShare} fv) from rfl)) $$ Hv
    iapply (wp_store 𝒱₀ (thrV d L) none Set.univ (m := s10) (r := Rect.unit (s := S80) (k0_off2 g) S16.size (k0_off2_inb g)) (Mk := Finset.univ) (S := Finset.univ) (Finset.subset_univ _)) $$ Hv'; iintro Hv'
    rw [wp_ret]; imodintro
    isplitl [HA]; · iexact HA
    isplitl [HB]; · iexact HB
    iexists _
    isplitl [Hv']; · iexact Hv'
    ipureintro
    intro j hj
    rw [out_store g.val (k0_off2 g) (k0_off2_eq g) (k0_off2_inb g)]
    split
    · rename_i hin
      show score (laneAcc fA fB g.val 128 (ix1 ⟨j.val - 16 * g.val, by omega⟩)) = score (accB fA fB j.val (j.val % 16) 128)
      show score (accB fA fB (16 * g.val + (j.val - 16 * g.val)) (j.val - 16 * g.val) 128) = _
      rw [show 16 * g.val + (j.val - 16 * g.val) = j.val by omega, show j.val - 16 * g.val = j.val % 16 by omega]
    · rename_i hin
      exact hfv j (by omega)
  · isplitl [HA]; · iexact HA
    isplitl [HB]; · iexact HB
    iexists fv0
    isplitl [Hv]; · iexact Hv
    ipureintro; intro j hj; omega
  · iintro %u ⟨HA, HB, %fv, Hv, %hfv⟩
    iapply Hk
    isplitl [HA]; · iexact HA
    isplitl [HB]; · iexact HB
    have hall : ∀ i ∈ (Finset.univ : Finset (S80.Idx)), fv i = chunkScore fA fB i := by
      intro i _
      obtain ⟨j, rfl⟩ : ∃ j : Fin 80, i = ix1 j := ⟨i 0, ValueIdx.eq_ix1 i⟩
      exact hfv j (by have := j.isLt; rw [show Scf.trips k0_t2_loop.lb k0_t2_loop.ub k0_t2_loop.st = 5 from k0_t2_trips]; omega)
    rw [← pointsTo_congr (f := fv) (g := chunkScore fA fB) hall]
    iexact Hv

theorem k0_t5_trips : k0_t5_loop.trips = 128 := by decide
theorem k0_t4_trips : k0_t4_loop.trips = 5 := by decide

/-- The 128 steps of one group on the blocks `s3`, `s7`: the lanes end at their accumulated products. -/
theorem inner_b (d : Dev nD) (L : grid0.Coords) (v2 : BitVec 32) (k1 : Fin k0_t1_loop.trips) (a25 v41 c5 : BitVec 32) (g : Fin k0_t4_loop.trips)
    (fA : Buf (Elt F) ((s3).view.loc (thrV d L))) (fB : Buf (Elt F) ((s7).view.loc (thrV d L)))
    {α : Type} (k : FVec F S16 .f32 → Prog (TpuEff nD τ sig (Elt F) Λ₀ (thrV d L).2) α) (Q : α → sProp 𝕄) :
    iprop(((s3).view.loc (thrV d L) ↦{fullShare} fA) ∗ ((s7).view.loc (thrV d L) ↦{fullShare} fB))
      ⊢ iprop((iprop(((s3).view.loc (thrV d L) ↦{fullShare} fA) ∗ ((s7).view.loc (thrV d L) ↦{fullShare} fB))
            -∗ wp frame (wpE (defs₀ (F := F)) 𝒱₀ (thrV d L) none) Set.univ (k (laneAcc fA fB g.val 128)) Q)
          -∗ wp frame (wpE (defs₀ (F := F)) 𝒱₀ (thrV d L) none) Set.univ
              (Scf.Loop.for k0_t5_loop k0_t5_ok (k0_pay17 (F := F)) (k0_t5_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 0#32 c5 (k0_pay16 lanes 0#32 g)) >>= k) Q) := by
  have hg : g.val < 5 := Nat.lt_of_lt_of_eq g.isLt k0_t4_trips
  iintro ⟨HA, HB⟩ Hk
  iapply (Scf.wp_for_bind frame (wpE (defs₀ (F := F)) 𝒱₀ (thrV d L) none) Set.univ _ _ _ k0_t5_ok (k0_pay17 (F := F)) _
      (fun t acc => iprop(⌜acc = laneAcc fA fB g.val t⌝ ∗ ((s3).view.loc (thrV d L) ↦{fullShare} fA) ∗ ((s7).view.loc (thrV d L) ↦{fullShare} fB))) ?step) $$ [HA HB] [Hk]
  case step =>
    intro t acc
    have ht : t.val < 128 := Nat.lt_of_lt_of_eq t.isLt k0_t5_trips
    iintro ⟨%hacc, HA, HB⟩
    subst hacc
    unfold k0_t5_body
    simp only [Prog.lift, Prog.bind_op, Prog.bind_ret, Prog.pure_eq_ret]
    have hchk : k0_chk2 (k0_pay16 lanes 0#32 g) (k0_pay18 lanes t) := by
      refine ⟨fun a x => ?_, fun a x => ?_⟩ <;>
      · match a with
        | ⟨0, _⟩ => exact rowVec_lt ⟨g.val, hg⟩ x
        | ⟨1, _⟩ => exact colVec_lt ⟨t.val, ht⟩ x
    rw [wp_assume_of _ _ _ _ hchk]
    ihave HA' := (Entails.of_eq (show ((s3).view.loc (thrV d L) ↦{fullShare} fA : sProp 𝕄) = (((s3).access (.whole S80x128)).loc (thrV d L) ↦{fullShare} fA) from rfl)) $$ HA
    iapply (SparseCore.wp_vectorLoadIdx 𝒱₀ (thrV d L) none Set.univ (base := s3) (S := Finset.univ) (q := fullShare) (Finset.subset_univ _)) $$ HA'; iintro HA'
    ihave HB' := (Entails.of_eq (show ((s7).view.loc (thrV d L) ↦{fullShare} fB : sProp 𝕄) = (((s7).access (.whole S80x128)).loc (thrV d L) ↦{fullShare} fB) from rfl)) $$ HB
    iapply (SparseCore.wp_vectorLoadIdx 𝒱₀ (thrV d L) none Set.univ (base := s7) (S := Finset.univ) (q := fullShare) (Finset.subset_univ _)) $$ HB'; iintro HB'
    rw [wp_ret]; imodintro
    isplitr
    · ipureintro
      show addf (laneAcc fA fB g.val t.val) (mulf _ _) = _
      refine laneAcc_succ fA fB ⟨g.val, hg⟩ ⟨t.val, ht⟩ _ _ (fun x => ?_) (fun x => ?_)
      · rw [read_access_whole]; exact loadIdx_block fA _ _ _ x _ _
      · rw [read_access_whole]; exact loadIdx_block fB _ _ _ x _ _
    isplitl [HA']; · iexact HA'
    iexact HB'
  · isplitr; · ipureintro; rfl
    isplitl [HA]; · iexact HA
    iexact HB
  · iintro %acc ⟨%hacc, HA, HB⟩
    subst hacc
    rw [show Scf.trips k0_t5_loop.lb k0_t5_loop.ub k0_t5_loop.st = 128 from k0_t5_trips]
    iapply Hk
    isplitl [HA]; · iexact HA
    iexact HB

/-- The five groups of a chunk on the blocks `s3`, `s7`: the out scratch ends at the chunk's eighty scores. -/
theorem group_b (d : Dev nD) (L : grid0.Coords) (v2 : BitVec 32) (k1 : Fin k0_t1_loop.trips) (a25 v41 c5 : BitVec 32)
    (fA : Buf (Elt F) ((s3).view.loc (thrV d L))) (fB : Buf (Elt F) ((s7).view.loc (thrV d L))) (fv0 : Buf (Elt F) ((s10).view.loc (thrV d L)))
    {α : Type} (k : Unit → Prog (TpuEff nD τ sig (Elt F) Λ₀ (thrV d L).2) α) (Q : α → sProp 𝕄) :
    iprop(((s3).view.loc (thrV d L) ↦{fullShare} fA) ∗ ((s7).view.loc (thrV d L) ↦{fullShare} fB) ∗ ((s10).view.loc (thrV d L) ↦{fullShare} fv0))
      ⊢ iprop((iprop(((s3).view.loc (thrV d L) ↦{fullShare} fA) ∗ ((s7).view.loc (thrV d L) ↦{fullShare} fB)
              ∗ ((s10).view.loc (thrV d L) ↦{fullShare} chunkScore fA fB))
            -∗ wp frame (wpE (defs₀ (F := F)) 𝒱₀ (thrV d L) none) Set.univ (k ()) Q)
          -∗ wp frame (wpE (defs₀ (F := F)) 𝒱₀ (thrV d L) none) Set.univ
              (Scf.Loop.for k0_t4_loop k0_t4_ok ⟨⟩ (k0_t4_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 0#32 c5) >>= k) Q) := by
  iintro ⟨HA, HB, Hv⟩ Hk
  iapply (Scf.wp_for_bind frame (wpE (defs₀ (F := F)) 𝒱₀ (thrV d L) none) Set.univ _ _ _ k0_t4_ok ⟨⟩ _
      (fun g _ => iprop(((s3).view.loc (thrV d L) ↦{fullShare} fA) ∗ ((s7).view.loc (thrV d L) ↦{fullShare} fB)
        ∗ ∃ fv : Buf (Elt F) ((s10).view.loc (thrV d L)), ((s10).view.loc (thrV d L) ↦{fullShare} fv)
            ∗ ⌜∀ j : Fin 80, j.val < 16 * g → fv (ix1 j) = chunkScore fA fB (ix1 j)⌝)) ?step) $$ [HA HB Hv] [Hk]
  case step =>
    intro g u
    have hg : g.val < 5 := Nat.lt_of_lt_of_eq g.isLt k0_t4_trips
    iintro ⟨HA, HB, %fv, Hv, %hfv⟩
    unfold k0_t4_body
    simp only [Prog.lift, Prog.bind_op, Prog.bind_ret, Prog.pure_eq_ret]
    iapply (inner_b d L v2 k1 a25 v41 c5 g fA fB _ _) $$ [HA HB]
    · isplitl [HA]; · iexact HA
      iexact HB
    iintro ⟨HA, HB⟩
    iapply (wp_load 𝒱₀ (thrV d L) none Set.univ (m := s10) (S := Finset.univ) (Finset.subset_univ _)) $$ Hv; iintro Hv
    ihave Hv' := (Entails.of_eq (show ((s10).view.loc (thrV d L) ↦{fullShare} fv : sProp 𝕄)
        = (((s10).access (Rect.unit (s := S80) (k0_off5 g) S16.size (k0_off5_inb g))).loc (thrV d L) ↦{fullShare} fv) from rfl)) $$ Hv
    iapply (wp_store 𝒱₀ (thrV d L) none Set.univ (m := s10) (r := Rect.unit (s := S80) (k0_off5 g) S16.size (k0_off5_inb g)) (Mk := Finset.univ) (S := Finset.univ) (Finset.subset_univ _)) $$ Hv'; iintro Hv'
    rw [wp_ret]; imodintro
    isplitl [HA]; · iexact HA
    isplitl [HB]; · iexact HB
    iexists _
    isplitl [Hv']; · iexact Hv'
    ipureintro
    intro j hj
    rw [out_store g.val (k0_off5 g) (k0_off5_eq g) (k0_off5_inb g)]
    split
    · rename_i hin
      show score (laneAcc fA fB g.val 128 (ix1 ⟨j.val - 16 * g.val, by omega⟩)) = score (accB fA fB j.val (j.val % 16) 128)
      show score (accB fA fB (16 * g.val + (j.val - 16 * g.val)) (j.val - 16 * g.val) 128) = _
      rw [show 16 * g.val + (j.val - 16 * g.val) = j.val by omega, show j.val - 16 * g.val = j.val % 16 by omega]
    · rename_i hin
      exact hfv j (by omega)
  · isplitl [HA]; · iexact HA
    isplitl [HB]; · iexact HB
    iexists fv0
    isplitl [Hv]; · iexact Hv
    ipureintro; intro j hj; omega
  · iintro %u ⟨HA, HB, %fv, Hv, %hfv⟩
    iapply Hk
    isplitl [HA]; · iexact HA
    isplitl [HB]; · iexact HB
    have hall : ∀ i ∈ (Finset.univ : Finset (S80.Idx)), fv i = chunkScore fA fB i := by
      intro i _
      obtain ⟨j, rfl⟩ : ∃ j : Fin 80, i = ix1 j := ⟨i 0, ValueIdx.eq_ix1 i⟩
      exact hfv j (by have := j.isLt; rw [show Scf.trips k0_t4_loop.lb k0_t4_loop.ub k0_t4_loop.st = 5 from k0_t4_trips]; omega)
    rw [← pointsTo_congr (f := fv) (g := chunkScore fA fB) hall]
    iexact Hv

theorem k0_t7_trips : k0_t7_loop.trips = 128 := by decide
theorem k0_t6_trips : k0_t6_loop.trips = 5 := by decide

/-- The 128 steps of one group on the blocks `s4`, `s8`: the lanes end at their accumulated products. -/
theorem inner_c (d : Dev nD) (L : grid0.Coords) (v2 : BitVec 32) (k1 : Fin k0_t1_loop.trips) (a25 v41 c057 c5 : BitVec 32) (g : Fin k0_t6_loop.trips)
    (fA : Buf (Elt F) ((s4).view.loc (thrV d L))) (fB : Buf (Elt F) ((s8).view.loc (thrV d L)))
    {α : Type} (k : FVec F S16 .f32 → Prog (TpuEff nD τ sig (Elt F) Λ₀ (thrV d L).2) α) (Q : α → sProp 𝕄) :
    iprop(((s4).view.loc (thrV d L) ↦{fullShare} fA) ∗ ((s8).view.loc (thrV d L) ↦{fullShare} fB))
      ⊢ iprop((iprop(((s4).view.loc (thrV d L) ↦{fullShare} fA) ∗ ((s8).view.loc (thrV d L) ↦{fullShare} fB))
            -∗ wp frame (wpE (defs₀ (F := F)) 𝒱₀ (thrV d L) none) Set.univ (k (laneAcc fA fB g.val 128)) Q)
          -∗ wp frame (wpE (defs₀ (F := F)) 𝒱₀ (thrV d L) none) Set.univ
              (Scf.Loop.for k0_t7_loop k0_t7_ok (k0_pay22 (F := F)) (k0_t7_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 c057 c5 (k0_pay21 lanes g)) >>= k) Q) := by
  have hg : g.val < 5 := Nat.lt_of_lt_of_eq g.isLt k0_t6_trips
  iintro ⟨HA, HB⟩ Hk
  iapply (Scf.wp_for_bind frame (wpE (defs₀ (F := F)) 𝒱₀ (thrV d L) none) Set.univ _ _ _ k0_t7_ok (k0_pay22 (F := F)) _
      (fun t acc => iprop(⌜acc = laneAcc fA fB g.val t⌝ ∗ ((s4).view.loc (thrV d L) ↦{fullShare} fA) ∗ ((s8).view.loc (thrV d L) ↦{fullShare} fB))) ?step) $$ [HA HB] [Hk]
  case step =>
    intro t acc
    have ht : t.val < 128 := Nat.lt_of_lt_of_eq t.isLt k0_t7_trips
    iintro ⟨%hacc, HA, HB⟩
    subst hacc
    unfold k0_t7_body
    simp only [Prog.lift, Prog.bind_op, Prog.bind_ret, Prog.pure_eq_ret]
    have hchk : k0_chk3 (k0_pay21 lanes g) (k0_pay23 lanes t) := by
      refine ⟨fun a x => ?_, fun a x => ?_⟩ <;>
      · match a with
        | ⟨0, _⟩ => exact rowVec_lt ⟨g.val, hg⟩ x
        | ⟨1, _⟩ => exact colVec_lt ⟨t.val, ht⟩ x
    rw [wp_assume_of _ _ _ _ hchk]
    ihave HA' := (Entails.of_eq (show ((s4).view.loc (thrV d L) ↦{fullShare} fA : sProp 𝕄) = (((s4).access (.whole S80x128)).loc (thrV d L) ↦{fullShare} fA) from rfl)) $$ HA
    iapply (SparseCore.wp_vectorLoadIdx 𝒱₀ (thrV d L) none Set.univ (base := s4) (S := Finset.univ) (q := fullShare) (Finset.subset_univ _)) $$ HA'; iintro HA'
    ihave HB' := (Entails.of_eq (show ((s8).view.loc (thrV d L) ↦{fullShare} fB : sProp 𝕄) = (((s8).access (.whole S80x128)).loc (thrV d L) ↦{fullShare} fB) from rfl)) $$ HB
    iapply (SparseCore.wp_vectorLoadIdx 𝒱₀ (thrV d L) none Set.univ (base := s8) (S := Finset.univ) (q := fullShare) (Finset.subset_univ _)) $$ HB'; iintro HB'
    rw [wp_ret]; imodintro
    isplitr
    · ipureintro
      show addf (laneAcc fA fB g.val t.val) (mulf _ _) = _
      refine laneAcc_succ fA fB ⟨g.val, hg⟩ ⟨t.val, ht⟩ _ _ (fun x => ?_) (fun x => ?_)
      · rw [read_access_whole]; exact loadIdx_block fA _ _ _ x _ _
      · rw [read_access_whole]; exact loadIdx_block fB _ _ _ x _ _
    isplitl [HA']; · iexact HA'
    iexact HB'
  · isplitr; · ipureintro; rfl
    isplitl [HA]; · iexact HA
    iexact HB
  · iintro %acc ⟨%hacc, HA, HB⟩
    subst hacc
    rw [show Scf.trips k0_t7_loop.lb k0_t7_loop.ub k0_t7_loop.st = 128 from k0_t7_trips]
    iapply Hk
    isplitl [HA]; · iexact HA
    iexact HB

/-- The five groups of a chunk on the blocks `s4`, `s8`: the out scratch ends at the chunk's eighty scores. -/
theorem group_c (d : Dev nD) (L : grid0.Coords) (v2 : BitVec 32) (k1 : Fin k0_t1_loop.trips) (a25 v41 c057 c5 : BitVec 32)
    (fA : Buf (Elt F) ((s4).view.loc (thrV d L))) (fB : Buf (Elt F) ((s8).view.loc (thrV d L))) (fv0 : Buf (Elt F) ((s10).view.loc (thrV d L)))
    {α : Type} (k : Unit → Prog (TpuEff nD τ sig (Elt F) Λ₀ (thrV d L).2) α) (Q : α → sProp 𝕄) :
    iprop(((s4).view.loc (thrV d L) ↦{fullShare} fA) ∗ ((s8).view.loc (thrV d L) ↦{fullShare} fB) ∗ ((s10).view.loc (thrV d L) ↦{fullShare} fv0))
      ⊢ iprop((iprop(((s4).view.loc (thrV d L) ↦{fullShare} fA) ∗ ((s8).view.loc (thrV d L) ↦{fullShare} fB)
              ∗ ((s10).view.loc (thrV d L) ↦{fullShare} chunkScore fA fB))
            -∗ wp frame (wpE (defs₀ (F := F)) 𝒱₀ (thrV d L) none) Set.univ (k ()) Q)
          -∗ wp frame (wpE (defs₀ (F := F)) 𝒱₀ (thrV d L) none) Set.univ
              (Scf.Loop.for k0_t6_loop k0_t6_ok ⟨⟩ (k0_t6_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 c057 c5) >>= k) Q) := by
  iintro ⟨HA, HB, Hv⟩ Hk
  iapply (Scf.wp_for_bind frame (wpE (defs₀ (F := F)) 𝒱₀ (thrV d L) none) Set.univ _ _ _ k0_t6_ok ⟨⟩ _
      (fun g _ => iprop(((s4).view.loc (thrV d L) ↦{fullShare} fA) ∗ ((s8).view.loc (thrV d L) ↦{fullShare} fB)
        ∗ ∃ fv : Buf (Elt F) ((s10).view.loc (thrV d L)), ((s10).view.loc (thrV d L) ↦{fullShare} fv)
            ∗ ⌜∀ j : Fin 80, j.val < 16 * g → fv (ix1 j) = chunkScore fA fB (ix1 j)⌝)) ?step) $$ [HA HB Hv] [Hk]
  case step =>
    intro g u
    have hg : g.val < 5 := Nat.lt_of_lt_of_eq g.isLt k0_t6_trips
    iintro ⟨HA, HB, %fv, Hv, %hfv⟩
    unfold k0_t6_body
    simp only [Prog.lift, Prog.bind_op, Prog.bind_ret, Prog.pure_eq_ret]
    iapply (inner_c d L v2 k1 a25 v41 c057 c5 g fA fB _ _) $$ [HA HB]
    · isplitl [HA]; · iexact HA
      iexact HB
    iintro ⟨HA, HB⟩
    iapply (wp_load 𝒱₀ (thrV d L) none Set.univ (m := s10) (S := Finset.univ) (Finset.subset_univ _)) $$ Hv; iintro Hv
    ihave Hv' := (Entails.of_eq (show ((s10).view.loc (thrV d L) ↦{fullShare} fv : sProp 𝕄)
        = (((s10).access (Rect.unit (s := S80) (k0_off7 g) S16.size (k0_off7_inb g))).loc (thrV d L) ↦{fullShare} fv) from rfl)) $$ Hv
    iapply (wp_store 𝒱₀ (thrV d L) none Set.univ (m := s10) (r := Rect.unit (s := S80) (k0_off7 g) S16.size (k0_off7_inb g)) (Mk := Finset.univ) (S := Finset.univ) (Finset.subset_univ _)) $$ Hv'; iintro Hv'
    rw [wp_ret]; imodintro
    isplitl [HA]; · iexact HA
    isplitl [HB]; · iexact HB
    iexists _
    isplitl [Hv']; · iexact Hv'
    ipureintro
    intro j hj
    rw [out_store g.val (k0_off7 g) (k0_off7_eq g) (k0_off7_inb g)]
    split
    · rename_i hin
      show score (laneAcc fA fB g.val 128 (ix1 ⟨j.val - 16 * g.val, by omega⟩)) = score (accB fA fB j.val (j.val % 16) 128)
      show score (accB fA fB (16 * g.val + (j.val - 16 * g.val)) (j.val - 16 * g.val) 128) = _
      rw [show 16 * g.val + (j.val - 16 * g.val) = j.val by omega, show j.val - 16 * g.val = j.val % 16 by omega]
    · rename_i hin
      exact hfv j (by omega)
  · isplitl [HA]; · iexact HA
    isplitl [HB]; · iexact HB
    iexists fv0
    isplitl [Hv]; · iexact Hv
    ipureintro; intro j hj; omega
  · iintro %u ⟨HA, HB, %fv, Hv, %hfv⟩
    iapply Hk
    isplitl [HA]; · iexact HA
    isplitl [HB]; · iexact HB
    have hall : ∀ i ∈ (Finset.univ : Finset (S80.Idx)), fv i = chunkScore fA fB i := by
      intro i _
      obtain ⟨j, rfl⟩ : ∃ j : Fin 80, i = ix1 j := ⟨i 0, ValueIdx.eq_ix1 i⟩
      exact hfv j (by have := j.isLt; rw [show Scf.trips k0_t6_loop.lb k0_t6_loop.ub k0_t6_loop.st = 5 from k0_t6_trips]; omega)
    rw [← pointsTo_congr (f := fv) (g := chunkScore fA fB) hall]
    iexact Hv

theorem k0_t9_trips : k0_t9_loop.trips = 128 := by decide
theorem k0_t8_trips : k0_t8_loop.trips = 5 := by decide

/-- The 128 steps of one group on the blocks `s5`, `s9`: the lanes end at their accumulated products. -/
theorem inner_d (d : Dev nD) (L : grid0.Coords)  (g : Fin k0_t8_loop.trips)
    (fA : Buf (Elt F) ((s5).view.loc (thrV d L))) (fB : Buf (Elt F) ((s9).view.loc (thrV d L)))
    {α : Type} (k : FVec F S16 .f32 → Prog (TpuEff nD τ sig (Elt F) Λ₀ (thrV d L).2) α) (Q : α → sProp 𝕄) :
    iprop(((s5).view.loc (thrV d L) ↦{fullShare} fA) ∗ ((s9).view.loc (thrV d L) ↦{fullShare} fB))
      ⊢ iprop((iprop(((s5).view.loc (thrV d L) ↦{fullShare} fA) ∗ ((s9).view.loc (thrV d L) ↦{fullShare} fB))
            -∗ wp frame (wpE (defs₀ (F := F)) 𝒱₀ (thrV d L) none) Set.univ (k (laneAcc fA fB g.val 128)) Q)
          -∗ wp frame (wpE (defs₀ (F := F)) 𝒱₀ (thrV d L) none) Set.univ
              (Scf.Loop.for k0_t9_loop k0_t9_ok (k0_pay2 (F := F)) (k0_t9_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 (k0_pay1 g)) >>= k) Q) := by
  have hg : g.val < 5 := Nat.lt_of_lt_of_eq g.isLt k0_t8_trips
  iintro ⟨HA, HB⟩ Hk
  iapply (Scf.wp_for_bind frame (wpE (defs₀ (F := F)) 𝒱₀ (thrV d L) none) Set.univ _ _ _ k0_t9_ok (k0_pay2 (F := F)) _
      (fun t acc => iprop(⌜acc = laneAcc fA fB g.val t⌝ ∗ ((s5).view.loc (thrV d L) ↦{fullShare} fA) ∗ ((s9).view.loc (thrV d L) ↦{fullShare} fB))) ?step) $$ [HA HB] [Hk]
  case step =>
    intro t acc
    have ht : t.val < 128 := Nat.lt_of_lt_of_eq t.isLt k0_t9_trips
    iintro ⟨%hacc, HA, HB⟩
    subst hacc
    unfold k0_t9_body
    simp only [Prog.lift, Prog.bind_op, Prog.bind_ret, Prog.pure_eq_ret]
    have hchk : k0_chk4 (k0_pay1 g) (k0_pay3 t) := by
      refine ⟨fun a x => ?_, fun a x => ?_⟩ <;>
      · match a with
        | ⟨0, _⟩ => exact rowVec_lt ⟨g.val, hg⟩ x
        | ⟨1, _⟩ => exact colVec_lt ⟨t.val, ht⟩ x
    rw [wp_assume_of _ _ _ _ hchk]
    ihave HA' := (Entails.of_eq (show ((s5).view.loc (thrV d L) ↦{fullShare} fA : sProp 𝕄) = (((s5).access (.whole S80x128)).loc (thrV d L) ↦{fullShare} fA) from rfl)) $$ HA
    iapply (SparseCore.wp_vectorLoadIdx 𝒱₀ (thrV d L) none Set.univ (base := s5) (S := Finset.univ) (q := fullShare) (Finset.subset_univ _)) $$ HA'; iintro HA'
    ihave HB' := (Entails.of_eq (show ((s9).view.loc (thrV d L) ↦{fullShare} fB : sProp 𝕄) = (((s9).access (.whole S80x128)).loc (thrV d L) ↦{fullShare} fB) from rfl)) $$ HB
    iapply (SparseCore.wp_vectorLoadIdx 𝒱₀ (thrV d L) none Set.univ (base := s9) (S := Finset.univ) (q := fullShare) (Finset.subset_univ _)) $$ HB'; iintro HB'
    rw [wp_ret]; imodintro
    isplitr
    · ipureintro
      show addf (laneAcc fA fB g.val t.val) (mulf _ _) = _
      refine laneAcc_succ fA fB ⟨g.val, hg⟩ ⟨t.val, ht⟩ _ _ (fun x => ?_) (fun x => ?_)
      · rw [read_access_whole]; exact loadIdx_block fA _ _ _ x _ _
      · rw [read_access_whole]; exact loadIdx_block fB _ _ _ x _ _
    isplitl [HA']; · iexact HA'
    iexact HB'
  · isplitr; · ipureintro; rfl
    isplitl [HA]; · iexact HA
    iexact HB
  · iintro %acc ⟨%hacc, HA, HB⟩
    subst hacc
    rw [show Scf.trips k0_t9_loop.lb k0_t9_loop.ub k0_t9_loop.st = 128 from k0_t9_trips]
    iapply Hk
    isplitl [HA]; · iexact HA
    iexact HB

/-- The five groups of a chunk on the blocks `s5`, `s9`: the out scratch ends at the chunk's eighty scores. -/
theorem group_d (d : Dev nD) (L : grid0.Coords)
    (fA : Buf (Elt F) ((s5).view.loc (thrV d L))) (fB : Buf (Elt F) ((s9).view.loc (thrV d L))) (fv0 : Buf (Elt F) ((s10).view.loc (thrV d L)))
    {α : Type} (k : Unit → Prog (TpuEff nD τ sig (Elt F) Λ₀ (thrV d L).2) α) (Q : α → sProp 𝕄) :
    iprop(((s5).view.loc (thrV d L) ↦{fullShare} fA) ∗ ((s9).view.loc (thrV d L) ↦{fullShare} fB) ∗ ((s10).view.loc (thrV d L) ↦{fullShare} fv0))
      ⊢ iprop((iprop(((s5).view.loc (thrV d L) ↦{fullShare} fA) ∗ ((s9).view.loc (thrV d L) ↦{fullShare} fB)
              ∗ ((s10).view.loc (thrV d L) ↦{fullShare} chunkScore fA fB))
            -∗ wp frame (wpE (defs₀ (F := F)) 𝒱₀ (thrV d L) none) Set.univ (k ()) Q)
          -∗ wp frame (wpE (defs₀ (F := F)) 𝒱₀ (thrV d L) none) Set.univ
              (Scf.Loop.for k0_t8_loop k0_t8_ok ⟨⟩ (k0_t8_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 ) >>= k) Q) := by
  iintro ⟨HA, HB, Hv⟩ Hk
  iapply (Scf.wp_for_bind frame (wpE (defs₀ (F := F)) 𝒱₀ (thrV d L) none) Set.univ _ _ _ k0_t8_ok ⟨⟩ _
      (fun g _ => iprop(((s5).view.loc (thrV d L) ↦{fullShare} fA) ∗ ((s9).view.loc (thrV d L) ↦{fullShare} fB)
        ∗ ∃ fv : Buf (Elt F) ((s10).view.loc (thrV d L)), ((s10).view.loc (thrV d L) ↦{fullShare} fv)
            ∗ ⌜∀ j : Fin 80, j.val < 16 * g → fv (ix1 j) = chunkScore fA fB (ix1 j)⌝)) ?step) $$ [HA HB Hv] [Hk]
  case step =>
    intro g u
    have hg : g.val < 5 := Nat.lt_of_lt_of_eq g.isLt k0_t8_trips
    iintro ⟨HA, HB, %fv, Hv, %hfv⟩
    unfold k0_t8_body
    simp only [Prog.lift, Prog.bind_op, Prog.bind_ret, Prog.pure_eq_ret]
    iapply (inner_d d L  g fA fB _ _) $$ [HA HB]
    · isplitl [HA]; · iexact HA
      iexact HB
    iintro ⟨HA, HB⟩
    iapply (wp_load 𝒱₀ (thrV d L) none Set.univ (m := s10) (S := Finset.univ) (Finset.subset_univ _)) $$ Hv; iintro Hv
    ihave Hv' := (Entails.of_eq (show ((s10).view.loc (thrV d L) ↦{fullShare} fv : sProp 𝕄)
        = (((s10).access (Rect.unit (s := S80) (k0_off9 g) S16.size (k0_off9_inb g))).loc (thrV d L) ↦{fullShare} fv) from rfl)) $$ Hv
    iapply (wp_store 𝒱₀ (thrV d L) none Set.univ (m := s10) (r := Rect.unit (s := S80) (k0_off9 g) S16.size (k0_off9_inb g)) (Mk := Finset.univ) (S := Finset.univ) (Finset.subset_univ _)) $$ Hv'; iintro Hv'
    rw [wp_ret]; imodintro
    isplitl [HA]; · iexact HA
    isplitl [HB]; · iexact HB
    iexists _
    isplitl [Hv']; · iexact Hv'
    ipureintro
    intro j hj
    rw [out_store g.val (k0_off9 g) (k0_off9_eq g) (k0_off9_inb g)]
    split
    · rename_i hin
      show score (laneAcc fA fB g.val 128 (ix1 ⟨j.val - 16 * g.val, by omega⟩)) = score (accB fA fB j.val (j.val % 16) 128)
      show score (accB fA fB (16 * g.val + (j.val - 16 * g.val)) (j.val - 16 * g.val) 128) = _
      rw [show 16 * g.val + (j.val - 16 * g.val) = j.val by omega, show j.val - 16 * g.val = j.val % 16 by omega]
    · rename_i hin
      exact hfv j (by omega)
  · isplitl [HA]; · iexact HA
    isplitl [HB]; · iexact HB
    iexists fv0
    isplitl [Hv]; · iexact Hv
    ipureintro; intro j hj; omega
  · iintro %u ⟨HA, HB, %fv, Hv, %hfv⟩
    iapply Hk
    isplitl [HA]; · iexact HA
    isplitl [HB]; · iexact HB
    have hall : ∀ i ∈ (Finset.univ : Finset (S80.Idx)), fv i = chunkScore fA fB i := by
      intro i _
      obtain ⟨j, rfl⟩ : ∃ j : Fin 80, i = ix1 j := ⟨i 0, ValueIdx.eq_ix1 i⟩
      exact hfv j (by have := j.isLt; rw [show Scf.trips k0_t8_loop.lb k0_t8_loop.ub k0_t8_loop.st = 5 from k0_t8_trips]; omega)
    rw [← pointsTo_congr (f := fv) (g := chunkScore fA fB) hall]
    iexact Hv

theorem k0_t11_trips : k0_t11_loop.trips = 128 := by decide
theorem k0_t10_trips : k0_t10_loop.trips = 5 := by decide

/-- The 128 steps of one group on the blocks `s2`, `s6`: the lanes end at their accumulated products. -/
theorem inner_e (d : Dev nD) (L : grid0.Coords)  (g : Fin k0_t10_loop.trips)
    (fA : Buf (Elt F) ((s2).view.loc (thrV d L))) (fB : Buf (Elt F) ((s6).view.loc (thrV d L)))
    {α : Type} (k : FVec F S16 .f32 → Prog (TpuEff nD τ sig (Elt F) Λ₀ (thrV d L).2) α) (Q : α → sProp 𝕄) :
    iprop(((s2).view.loc (thrV d L) ↦{fullShare} fA) ∗ ((s6).view.loc (thrV d L) ↦{fullShare} fB))
      ⊢ iprop((iprop(((s2).view.loc (thrV d L) ↦{fullShare} fA) ∗ ((s6).view.loc (thrV d L) ↦{fullShare} fB))
            -∗ wp frame (wpE (defs₀ (F := F)) 𝒱₀ (thrV d L) none) Set.univ (k (laneAcc fA fB g.val 128)) Q)
          -∗ wp frame (wpE (defs₀ (F := F)) 𝒱₀ (thrV d L) none) Set.univ
              (Scf.Loop.for k0_t11_loop k0_t11_ok (k0_pay7 (F := F)) (k0_t11_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 (k0_pay6 g)) >>= k) Q) := by
  have hg : g.val < 5 := Nat.lt_of_lt_of_eq g.isLt k0_t10_trips
  iintro ⟨HA, HB⟩ Hk
  iapply (Scf.wp_for_bind frame (wpE (defs₀ (F := F)) 𝒱₀ (thrV d L) none) Set.univ _ _ _ k0_t11_ok (k0_pay7 (F := F)) _
      (fun t acc => iprop(⌜acc = laneAcc fA fB g.val t⌝ ∗ ((s2).view.loc (thrV d L) ↦{fullShare} fA) ∗ ((s6).view.loc (thrV d L) ↦{fullShare} fB))) ?step) $$ [HA HB] [Hk]
  case step =>
    intro t acc
    have ht : t.val < 128 := Nat.lt_of_lt_of_eq t.isLt k0_t11_trips
    iintro ⟨%hacc, HA, HB⟩
    subst hacc
    unfold k0_t11_body
    simp only [Prog.lift, Prog.bind_op, Prog.bind_ret, Prog.pure_eq_ret]
    have hchk : k0_chk5 (k0_pay6 g) (k0_pay8 t) := by
      refine ⟨fun a x => ?_, fun a x => ?_⟩ <;>
      · match a with
        | ⟨0, _⟩ => exact rowVec_lt ⟨g.val, hg⟩ x
        | ⟨1, _⟩ => exact colVec_lt ⟨t.val, ht⟩ x
    rw [wp_assume_of _ _ _ _ hchk]
    ihave HA' := (Entails.of_eq (show ((s2).view.loc (thrV d L) ↦{fullShare} fA : sProp 𝕄) = (((s2).access (.whole S80x128)).loc (thrV d L) ↦{fullShare} fA) from rfl)) $$ HA
    iapply (SparseCore.wp_vectorLoadIdx 𝒱₀ (thrV d L) none Set.univ (base := s2) (S := Finset.univ) (q := fullShare) (Finset.subset_univ _)) $$ HA'; iintro HA'
    ihave HB' := (Entails.of_eq (show ((s6).view.loc (thrV d L) ↦{fullShare} fB : sProp 𝕄) = (((s6).access (.whole S80x128)).loc (thrV d L) ↦{fullShare} fB) from rfl)) $$ HB
    iapply (SparseCore.wp_vectorLoadIdx 𝒱₀ (thrV d L) none Set.univ (base := s6) (S := Finset.univ) (q := fullShare) (Finset.subset_univ _)) $$ HB'; iintro HB'
    rw [wp_ret]; imodintro
    isplitr
    · ipureintro
      show addf (laneAcc fA fB g.val t.val) (mulf _ _) = _
      refine laneAcc_succ fA fB ⟨g.val, hg⟩ ⟨t.val, ht⟩ _ _ (fun x => ?_) (fun x => ?_)
      · rw [read_access_whole]; exact loadIdx_block fA _ _ _ x _ _
      · rw [read_access_whole]; exact loadIdx_block fB _ _ _ x _ _
    isplitl [HA']; · iexact HA'
    iexact HB'
  · isplitr; · ipureintro; rfl
    isplitl [HA]; · iexact HA
    iexact HB
  · iintro %acc ⟨%hacc, HA, HB⟩
    subst hacc
    rw [show Scf.trips k0_t11_loop.lb k0_t11_loop.ub k0_t11_loop.st = 128 from k0_t11_trips]
    iapply Hk
    isplitl [HA]; · iexact HA
    iexact HB

/-- The five groups of a chunk on the blocks `s2`, `s6`: the out scratch ends at the chunk's eighty scores. -/
theorem group_e (d : Dev nD) (L : grid0.Coords)
    (fA : Buf (Elt F) ((s2).view.loc (thrV d L))) (fB : Buf (Elt F) ((s6).view.loc (thrV d L))) (fv0 : Buf (Elt F) ((s10).view.loc (thrV d L)))
    {α : Type} (k : Unit → Prog (TpuEff nD τ sig (Elt F) Λ₀ (thrV d L).2) α) (Q : α → sProp 𝕄) :
    iprop(((s2).view.loc (thrV d L) ↦{fullShare} fA) ∗ ((s6).view.loc (thrV d L) ↦{fullShare} fB) ∗ ((s10).view.loc (thrV d L) ↦{fullShare} fv0))
      ⊢ iprop((iprop(((s2).view.loc (thrV d L) ↦{fullShare} fA) ∗ ((s6).view.loc (thrV d L) ↦{fullShare} fB)
              ∗ ((s10).view.loc (thrV d L) ↦{fullShare} chunkScore fA fB))
            -∗ wp frame (wpE (defs₀ (F := F)) 𝒱₀ (thrV d L) none) Set.univ (k ()) Q)
          -∗ wp frame (wpE (defs₀ (F := F)) 𝒱₀ (thrV d L) none) Set.univ
              (Scf.Loop.for k0_t10_loop k0_t10_ok ⟨⟩ (k0_t10_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 ) >>= k) Q) := by
  iintro ⟨HA, HB, Hv⟩ Hk
  iapply (Scf.wp_for_bind frame (wpE (defs₀ (F := F)) 𝒱₀ (thrV d L) none) Set.univ _ _ _ k0_t10_ok ⟨⟩ _
      (fun g _ => iprop(((s2).view.loc (thrV d L) ↦{fullShare} fA) ∗ ((s6).view.loc (thrV d L) ↦{fullShare} fB)
        ∗ ∃ fv : Buf (Elt F) ((s10).view.loc (thrV d L)), ((s10).view.loc (thrV d L) ↦{fullShare} fv)
            ∗ ⌜∀ j : Fin 80, j.val < 16 * g → fv (ix1 j) = chunkScore fA fB (ix1 j)⌝)) ?step) $$ [HA HB Hv] [Hk]
  case step =>
    intro g u
    have hg : g.val < 5 := Nat.lt_of_lt_of_eq g.isLt k0_t10_trips
    iintro ⟨HA, HB, %fv, Hv, %hfv⟩
    unfold k0_t10_body
    simp only [Prog.lift, Prog.bind_op, Prog.bind_ret, Prog.pure_eq_ret]
    iapply (inner_e d L  g fA fB _ _) $$ [HA HB]
    · isplitl [HA]; · iexact HA
      iexact HB
    iintro ⟨HA, HB⟩
    iapply (wp_load 𝒱₀ (thrV d L) none Set.univ (m := s10) (S := Finset.univ) (Finset.subset_univ _)) $$ Hv; iintro Hv
    ihave Hv' := (Entails.of_eq (show ((s10).view.loc (thrV d L) ↦{fullShare} fv : sProp 𝕄)
        = (((s10).access (Rect.unit (s := S80) (k0_off11 g) S16.size (k0_off11_inb g))).loc (thrV d L) ↦{fullShare} fv) from rfl)) $$ Hv
    iapply (wp_store 𝒱₀ (thrV d L) none Set.univ (m := s10) (r := Rect.unit (s := S80) (k0_off11 g) S16.size (k0_off11_inb g)) (Mk := Finset.univ) (S := Finset.univ) (Finset.subset_univ _)) $$ Hv'; iintro Hv'
    rw [wp_ret]; imodintro
    isplitl [HA]; · iexact HA
    isplitl [HB]; · iexact HB
    iexists _
    isplitl [Hv']; · iexact Hv'
    ipureintro
    intro j hj
    rw [out_store g.val (k0_off11 g) (k0_off11_eq g) (k0_off11_inb g)]
    split
    · rename_i hin
      show score (laneAcc fA fB g.val 128 (ix1 ⟨j.val - 16 * g.val, by omega⟩)) = score (accB fA fB j.val (j.val % 16) 128)
      show score (accB fA fB (16 * g.val + (j.val - 16 * g.val)) (j.val - 16 * g.val) 128) = _
      rw [show 16 * g.val + (j.val - 16 * g.val) = j.val by omega, show j.val - 16 * g.val = j.val % 16 by omega]
    · rename_i hin
      exact hfv j (by omega)
  · isplitl [HA]; · iexact HA
    isplitl [HB]; · iexact HB
    iexists fv0
    isplitl [Hv]; · iexact Hv
    ipureintro; intro j hj; omega
  · iintro %u ⟨HA, HB, %fv, Hv, %hfv⟩
    iapply Hk
    isplitl [HA]; · iexact HA
    isplitl [HB]; · iexact HB
    have hall : ∀ i ∈ (Finset.univ : Finset (S80.Idx)), fv i = chunkScore fA fB i := by
      intro i _
      obtain ⟨j, rfl⟩ : ∃ j : Fin 80, i = ix1 j := ⟨i 0, ValueIdx.eq_ix1 i⟩
      exact hfv j (by have := j.isLt; rw [show Scf.trips k0_t10_loop.lb k0_t10_loop.ub k0_t10_loop.st = 5 from k0_t10_trips]; omega)
    rw [← pointsTo_congr (f := fv) (g := chunkScore fA fB) hall]
    iexact Hv

end Cert.Proof.KI
end
-- ==== Proof.KIChunk.lean ====
/-
  The value of one chunk of eighty edges.

  A chunk's two gathered blocks hold, in row `q`, the table's rows named by word `b + 80 n + q` of the row words and of
  the column words (the list's offset `80 n + q` stays below 10000 and the subcore's base plus 10000 stays inside the
  320000, so the two reductions in the lists' definitions do nothing). A lane's accumulator over the blocks is therefore,
  step by step, the accumulator over the table at those two words; and because the subcore's base and `80 n` are
  multiples of sixteen, edge `b + 80 n + q` is lane `q mod 16` of its group, the lane the specification gives it. So
  the chunk's eighty scores, copied out, are the claimed result on the chunk's segment.
-/
import proofs.«209252_g55662776156339_cont_9to1_m_525_47_alg».proof.Proof.KIViews
import proofs.«209252_g55662776156339_cont_9to1_m_525_47_alg».proof.Proof.KIAcc

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

/-- A lane's accumulator over a gathered pair of blocks is the accumulator over the table itself, when the lane's row
    of each block is the table's row a word names. -/
theorem accB_eq_accL (z : FVec F S10000x128 .f32) (fA fB : FVec F S80x128 .f32) (w₁ w₂ : BitVec 32) (r l : ℕ)
    (hA : ∀ c : Fin 128, fA (ix2 ⟨r % 80, Nat.mod_lt _ (by decide)⟩ c) = z (ix2 (rowOfWord w₁) c))
    (hB : ∀ c : Fin 128, fB (ix2 ⟨r % 80, Nat.mod_lt _ (by decide)⟩ c) = z (ix2 (rowOfWord w₂) c)) :
    ∀ t : ℕ, accB fA fB r l t = accL z w₁ w₂ l t
  | 0 => rfl
  | t + 1 => by
    rw [accB, accL, accB_eq_accL z fA fB w₁ w₂ r l hA hB t, hA, hB]

/-- Row `q` of the block gathered at the eighty words from offset `80 n` of the subcore's list is the table's row named by
    word `b + 80 n + q` of the 320000. -/
theorem gath_row (z : FVec F S10000x128 .f32) (ri : IVec S320000 32) (b n : ℕ) (hb : b + 10000 ≤ 320000) (hn : n < 125)
    (q : ℕ) (hq : q < 80) (j : S320000.Idx) (hj : (j 0).val = b + 80 * n + q) (c : Fin 128) :
    gath z (wordsAt (listOf ri b) (80 * n)) (ix2 ⟨q % 80, Nat.mod_lt _ (by decide)⟩ c) = z (ix2 (rowOfWord (ri j)) c) := by
  show z (ix2 (rowOfWord (wordsAt (listOf ri b) (80 * n) ⟨q % 80, Nat.mod_lt _ (by decide)⟩)) c) = z (ix2 (rowOfWord (ri j)) c)
  refine congrArg (fun w => z (ix2 (rowOfWord w) c)) ?_
  unfold wordsAt listOf
  refine congrArg ri (funext fun a => ?_)
  match a with
  | ⟨0, _⟩ =>
    apply Fin.ext
    show (b + (80 * n + q % 80) % 10000) % 320000 = (j 0).val
    omega

/-- THE VALUE OF ONE CHUNK, at plain arrays: score `q` of the chunk at offset `80 n` of the list starting at word `b`
    (a multiple of 16) is the claimed result at word `b + 80 n + q`. -/
theorem chunk_value (z : FVec F S10000x128 .f32) (ri ci : IVec S320000 32) (b n : ℕ) (hb : b + 10000 ≤ 320000)
    (h16 : b % 16 = 0) (hn : n < 125) (q : ℕ) (hq : q < 80) (j : S320000.Idx) (hj : (j 0).val = b + 80 * n + q) :
    chunkScore (gath z (wordsAt (listOf ri b) (80 * n))) (gath z (wordsAt (listOf ci b) (80 * n)))
        (ix1 ⟨q % 80, Nat.mod_lt _ (by decide)⟩)
      = outSpec z ri ci j := by
  have hl : q % 80 % 16 = (j 0).val % 16 := by omega
  show score (accB _ _ (q % 80) (q % 80 % 16) 128) = score (accL z (ri j) (ci j) ((j 0).val % 16) 128)
  rw [hl]
  refine congrArg score (accB_eq_accL z _ _ (ri j) (ci j) (q % 80) _ (fun c => ?_) (fun c => ?_) 128)
  · have := gath_row z ri b n hb hn (q % 80) (Nat.mod_lt _ (by decide)) j (by omega) c
    exact this
  · have := gath_row z ci b n hb hn (q % 80) (Nat.mod_lt _ (by decide)) j (by omega) c
    exact this

/-- Every subcore's base is a multiple of sixteen. -/
theorem baseOf_mod16 (L : grid0.Coords) : baseOf L % 16 = 0 := by
  unfold baseOf; omega

/-- THE VALUE OF ONE CHUNK: the copy-out of chunk `n`'s eighty scores leaves, on its segment of the result, the claimed
    result. -/
theorem chunk_landed (m : (ℓ : Loc nD τ sig) → Buf (Elt F) ℓ) (A : (d : Dev nD) → Arrays (F := F) d) (d : Dev nD)
    (L : grid0.Coords) (n : ℕ) (hn : n < 125) (o : Fin 1 → Nat) (ho : o 0 = baseOf L + 80 * n)
    (h : ∀ a, o a + S80.size a ≤ S320000.size a) (fo : Buf (Elt F) (oLoc d)) :
    ∀ j ∈ seg (o 0) 80,
      (osl o h).view.write (Elt F) fo (ReadAs.same.apply ((s10).view.read (Elt F)
          (chunkScore (gath (m (zLoc d)) (wordsAt (listOf (A d).ri (baseOf L)) (80 * n)))
            (gath (m (zLoc d)) (wordsAt (listOf (A d).ci (baseOf L)) (80 * n)))))) Finset.univ j
        = outOf m A d j := by
  intro j hj
  rw [out_landed o h fo _ j hj]
  rw [mem_seg] at hj
  exact chunk_value (m (zLoc d)) (A d).ri (A d).ci (baseOf L) n (baseOf_le L) (baseOf_mod16 L) hn ((j 0).val - o 0)
    (by omega) j (by omega)

end Cert.Proof.KI

end
-- ==== Proof.KIOut.lean ====
/-
  The result array between chunks, and the main loop's conditions and offsets in closed form.

  With the first `n` chunks written, the subcore's 10000 result words are the `80 n` written ones followed by the
  `10000 − 80 n` still as launched. Taking chunk `n` splits the latter at 80 into the chunk's words and the rest;
  putting it back, once the chunk's eighty words hold the claimed result, joins them to the written ones: `80 n + 80 =
  80 (n + 1)`, and the rest is what remains after `n + 1` chunks. Ownership of a segment splits and joins as the
  segment does. The loop's trip `k` (of 31) works on chunks `4 k … 4 k + 3` and prefetches chunks `4 k + 4 … 4 k + 7`
  when they exist: the first always does (`4 k + 4 < 125` for every `k < 31`), the other three exactly when `k < 30`.
-/
import proofs.«209252_g55662776156339_cont_9to1_m_525_47_alg».proof.Proof.KIState
import proofs.«209252_g55662776156339_cont_9to1_m_525_47_alg».proof.Proof.KIChunk

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]

variable (m : (ℓ : Loc nD τ sig) → Buf (Elt F) ℓ) (A : (d : Dev nD) → Arrays (F := F) d) (d : Dev nD) (L : grid0.Coords)

/-! ## The result between chunks -/

/-- (O1) Before chunk `n`: the words already written, the chunk's eighty words, and the words after them. -/
theorem out_take (n : ℕ) (hn : n < 125) :
    outSt m A d L n ⊢ iprop((oLoc d ↦[seg (baseOf L) (80 * n)]{fullShare} outOf m A d)
      ∗ (oLoc d ↦[seg (baseOf L + 80 * n) 80]{fullShare} m (oLoc d))
      ∗ (oLoc d ↦[seg (baseOf L + 80 * n + 80) (10000 - 80 * n - 80)]{fullShare} m (oLoc d))) := by
  unfold outSt
  have e : 10000 - 80 * n = 80 + (10000 - 80 * n - 80) := by omega
  conv_lhs => rw [e]
  exact sep_mono_right (seg_split d (baseOf L + 80 * n) 80 (10000 - 80 * n - 80) fullShare (m (oLoc d))).mp

/-- (O2) After chunk `n`: its eighty words, now at the claimed result, join the words already written. -/
theorem out_put (n : ℕ) (hn : n < 125) (f : Buf (Elt F) (oLoc d))
    (hf : ∀ j ∈ seg (baseOf L + 80 * n) 80, f j = outOf m A d j) :
    iprop((oLoc d ↦[seg (baseOf L) (80 * n)]{fullShare} outOf m A d)
      ∗ (oLoc d ↦[seg (baseOf L + 80 * n) 80]{fullShare} f)
      ∗ (oLoc d ↦[seg (baseOf L + 80 * n + 80) (10000 - 80 * n - 80)]{fullShare} m (oLoc d)))
      ⊢ outSt m A d L (n + 1) := by
  unfold outSt
  have e1 : 80 * (n + 1) = 80 * n + 80 := by omega
  have e2 : baseOf L + (80 * n + 80) = baseOf L + 80 * n + 80 := by omega
  have e3 : 10000 - (80 * n + 80) = 10000 - 80 * n - 80 := by omega
  have hB : (oLoc d ↦[seg (baseOf L + 80 * n) 80]{fullShare} f : sProp 𝕄)
      = (oLoc d ↦[seg (baseOf L + 80 * n) 80]{fullShare} outOf m A d) := pointsTo_congr hf
  rw [e1, e2, e3, hB]
  exact sep_assoc.mpr.trans
    (sep_mono_left (seg_split d (baseOf L) (80 * n) 80 fullShare (outOf m A d)).mpr)

/-! ## (O3) the generated conditions and offsets of the main loop, in the forms the body's proof uses -/

theorem cond1_true : ∀ k : Fin k0_t1_loop.trips, k0_cond1 k = 1#1 := by decide +kernel
theorem cond2_iff : ∀ k : Fin k0_t1_loop.trips, k0_cond2 k = 1#1 ↔ k.val < 30 := by decide +kernel
theorem cond3_iff : ∀ k : Fin k0_t1_loop.trips, k0_cond3 k = 1#1 ↔ k.val < 30 := by decide +kernel
theorem cond4_iff : ∀ k : Fin k0_t1_loop.trips, k0_cond4 k = 1#1 ↔ k.val < 30 := by decide +kernel

theorem off4_eq (k : Fin k0_t1_loop.trips) : k0_off4 k = ![80 * (4 * k.val + 4)] :=
  (k0_off4_eq k).trans (congrArg (fun x : ℕ => (![x] : Fin 1 → ℕ)) (by omega))
theorem off6_eq (k : Fin k0_t1_loop.trips) : k0_off6 k = ![80 * (4 * k.val + 5)] :=
  (k0_off6_eq k).trans (congrArg (fun x : ℕ => (![x] : Fin 1 → ℕ)) (by omega))
theorem off8_eq (k : Fin k0_t1_loop.trips) : k0_off8 k = ![80 * (4 * k.val + 6)] :=
  (k0_off8_eq k).trans (congrArg (fun x : ℕ => (![x] : Fin 1 → ℕ)) (by omega))
theorem off10_eq (k : Fin k0_t1_loop.trips) : k0_off10 k = ![80 * (4 * k.val + 7)] :=
  (k0_off10_eq k).trans (congrArg (fun x : ℕ => (![x] : Fin 1 → ℕ)) (by omega))

theorem off3_eq (L : grid0.Coords) (k : Fin k0_t1_loop.trips) (r : Fin 4) :
    k0_off3 L k (BitVec.ofNat 32 r.val) 0 = baseOf L + 80 * (4 * k.val + r.val) := by
  rw [k0_off3_eq]
  show 20000 * (L 1).val + 10000 * (L 0).val + 320 * k.val + 80 * r.val = baseOf L + 80 * (4 * k.val + r.val)
  unfold baseOf
  omega

theorem off12_eq (L : grid0.Coords) : k0_off12 L 0 = baseOf L + 80 * 124 := by
  rw [k0_off12_eq]
  show 20000 * (L 1).val + 10000 * (L 0).val + 9920 = baseOf L + 80 * 124
  unfold baseOf
  omega

end Cert.Proof.KI

end
-- ==== Proof.KISlots.lean ====
/-
  The body's larger steps: the first copies of the word lists, a slot launching a chunk (its two gathers), and a whole
  chunk computed on a slot (two waits, the groups, the copy out), each from and to the task's state.
-/
import proofs.«209252_g55662776156339_cont_9to1_m_525_47_alg».proof.Proof.KIOps
import proofs.«209252_g55662776156339_cont_9to1_m_525_47_alg».proof.Proof.KILoops
import proofs.«209252_g55662776156339_cont_9to1_m_525_47_alg».proof.Proof.KIOut

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]
variable (m : (ℓ : Loc nD τ sig) → Buf (Elt F) ℓ) (A : (d : Dev nD) → Arrays (F := F) d)

omit [FloatOps F] in
theorem lrR_range (d : Dev nD) (L : grid0.Coords) (hR : InRange A) : ∀ j, (lrR A d L j).toNat < 10000 := fun _ => (hR d _).1
omit [FloatOps F] in
theorem lrC_range (d : Dev nD) (L : grid0.Coords) (hR : InRange A) : ∀ j, (lrC A d L j).toNat < 10000 := fun _ => (hR d _).2

/-- What the task owes, with its waits so far beyond `W` all at the kernel's own index. -/
def owesSt (d : Dev nD) (L : grid0.Coords) (O : CellTallies nD τ sig (HIx 1)) (W : Waits sig (HIx 1)) : sProp 𝕄 :=
  iprop(∃ W', ⌜∀ p ∈ W', p ∈ W ∨ p.2 = none⌝ ∗ owes (thrV d L) O W')

/-- Slot 0 launches chunk `n`: its two gathers, one after the other, each on its own semaphore. -/
theorem launch0 (d : Dev nD) (L : grid0.Coords) (hR : InRange A) (n : ℕ) (hn : n < 125)
    (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    slotIdle0 m A d L
      ⊢ iprop((slotFl0 m A d L n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s2 gathers_S10000x128_S80x128 (lsl s0 o h) rfl cc0_scratch11.sem (View.wordExact_bits rfl) rfl (Or.inl rfl) >>= fun _ =>
               SparseCore.enqueueIndirectGather rfl zSl s6 gathers_S10000x128_S80x128 (lsl s1 o h) rfl cc0_scratch15.sem (View.wordExact_bits rfl) rfl (Or.inl rfl) >>= k) Q) := by
  unfold slotIdle0 slotFl0
  iintro ⟨⟨%fa, HA⟩, ⟨%fb, HB⟩, HzR, HzC, HlR, HlC, HsR, HsC⟩ Hk
  iapply (issue_s2 m d L _ _ fa (lrR A d L) (lrR_range A d L hR) n hn o h ho _ _) $$ [HzR HA HlR HsR]
  · isplitl [HzR]; · iexact HzR
    isplitl [HA]; · iexact HA
    isplitl [HlR]; · iexact HlR
    iexact HsR
  iintro HflR
  iapply (issue_s6 m d L _ _ fb (lrC A d L) (lrC_range A d L hR) n hn o h ho _ _) $$ [HzC HB HlC HsC]
  · isplitl [HzC]; · iexact HzC
    isplitl [HB]; · iexact HB
    isplitl [HlC]; · iexact HlC
    iexact HsC
  iintro HflC
  iapply Hk
  isplitl [HflR]; · iexact HflR
  iexact HflC

/-- Slot 0 after a chunk: launch chunk `n` if there is one (the printed condition `c`), else stay at rest. -/
theorem relaunch0 (d : Dev nD) (L : grid0.Coords) (hR : InRange A) (n : ℕ) (c : BitVec 1) (hc : c = 1#1 ↔ n < 125)
    (o : Fin 1 → Nat) (hb : c = 1#1 → ∀ a, o a + S80.size a ≤ S10000.size a) (ho : o = ![80 * n])
    {α : Type} (k : PUnit → Prog (TpuEff nD τ sig (Elt F) Λ₀ (thrV d L).2) α) (Q : α → sProp 𝕄) :
    slotIdle0 m A d L
      ⊢ iprop((slot0 m A d L n -∗ wp frame (wpE (defs₀ (F := F)) 𝒱₀ (thrV d L) none) Set.univ (k ⟨⟩) Q)
          -∗ wp frame (wpE (defs₀ (F := F)) 𝒱₀ (thrV d L) none) Set.univ
              ((if h : c = 1#1 then
                  (SparseCore.enqueueIndirectGather rfl zSl s2 gathers_S10000x128_S80x128 (lsl s0 o (hb h)) rfl cc0_scratch11.sem (View.wordExact_bits rfl) rfl (Or.inl rfl) >>= fun _ =>
                   SparseCore.enqueueIndirectGather rfl zSl s6 gathers_S10000x128_S80x128 (lsl s1 o (hb h)) rfl cc0_scratch15.sem (View.wordExact_bits rfl) rfl (Or.inl rfl) >>= fun _ =>
                   Prog.ret ⟨⟩)
                else Prog.ret ⟨⟩) >>= k) Q) := by
  by_cases h : c = 1#1
  · have hn : n < 125 := hc.1 h
    rw [dif_pos h]
    simp only [bind_assoc, Prog.bind_ret]
    iintro HI Hk
    iapply (launch0 m A d L hR n hn o (hb h) ho _ _) $$ HI
    iintro HF
    iapply Hk
    unfold slot0; rw [dif_pos hn]
    iexact HF
  · have hn : ¬ n < 125 := fun hn => h (hc.2 hn)
    rw [dif_neg h]
    simp only [Prog.bind_ret]
    iintro HI Hk
    iapply Hk
    unfold slot0; rw [dif_neg hn]
    iexact HI

/-- Slot 1 launches chunk `n`: its two gathers, one after the other, each on its own semaphore. -/
theorem launch1 (d : Dev nD) (L : grid0.Coords) (hR : InRange A) (n : ℕ) (hn : n < 125)
    (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    slotIdle1 m A d L
      ⊢ iprop((slotFl1 m A d L n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s3 gathers_S10000x128_S80x128 (lsl s0 o h) rfl cc0_scratch12.sem (View.wordExact_bits rfl) rfl (Or.inl rfl) >>= fun _ =>
               SparseCore.enqueueIndirectGather rfl zSl s7 gathers_S10000x128_S80x128 (lsl s1 o h) rfl cc0_scratch16.sem (View.wordExact_bits rfl) rfl (Or.inl rfl) >>= k) Q) := by
  unfold slotIdle1 slotFl1
  iintro ⟨⟨%fa, HA⟩, ⟨%fb, HB⟩, HzR, HzC, HlR, HlC, HsR, HsC⟩ Hk
  iapply (issue_s3 m d L _ _ fa (lrR A d L) (lrR_range A d L hR) n hn o h ho _ _) $$ [HzR HA HlR HsR]
  · isplitl [HzR]; · iexact HzR
    isplitl [HA]; · iexact HA
    isplitl [HlR]; · iexact HlR
    iexact HsR
  iintro HflR
  iapply (issue_s7 m d L _ _ fb (lrC A d L) (lrC_range A d L hR) n hn o h ho _ _) $$ [HzC HB HlC HsC]
  · isplitl [HzC]; · iexact HzC
    isplitl [HB]; · iexact HB
    isplitl [HlC]; · iexact HlC
    iexact HsC
  iintro HflC
  iapply Hk
  isplitl [HflR]; · iexact HflR
  iexact HflC

/-- Slot 1 after a chunk: launch chunk `n` if there is one (the printed condition `c`), else stay at rest. -/
theorem relaunch1 (d : Dev nD) (L : grid0.Coords) (hR : InRange A) (n : ℕ) (c : BitVec 1) (hc : c = 1#1 ↔ n < 125)
    (o : Fin 1 → Nat) (hb : c = 1#1 → ∀ a, o a + S80.size a ≤ S10000.size a) (ho : o = ![80 * n])
    {α : Type} (k : PUnit → Prog (TpuEff nD τ sig (Elt F) Λ₀ (thrV d L).2) α) (Q : α → sProp 𝕄) :
    slotIdle1 m A d L
      ⊢ iprop((slot1 m A d L n -∗ wp frame (wpE (defs₀ (F := F)) 𝒱₀ (thrV d L) none) Set.univ (k ⟨⟩) Q)
          -∗ wp frame (wpE (defs₀ (F := F)) 𝒱₀ (thrV d L) none) Set.univ
              ((if h : c = 1#1 then
                  (SparseCore.enqueueIndirectGather rfl zSl s3 gathers_S10000x128_S80x128 (lsl s0 o (hb h)) rfl cc0_scratch12.sem (View.wordExact_bits rfl) rfl (Or.inl rfl) >>= fun _ =>
                   SparseCore.enqueueIndirectGather rfl zSl s7 gathers_S10000x128_S80x128 (lsl s1 o (hb h)) rfl cc0_scratch16.sem (View.wordExact_bits rfl) rfl (Or.inl rfl) >>= fun _ =>
                   Prog.ret ⟨⟩)
                else Prog.ret ⟨⟩) >>= k) Q) := by
  by_cases h : c = 1#1
  · have hn : n < 125 := hc.1 h
    rw [dif_pos h]
    simp only [bind_assoc, Prog.bind_ret]
    iintro HI Hk
    iapply (launch1 m A d L hR n hn o (hb h) ho _ _) $$ HI
    iintro HF
    iapply Hk
    unfold slot1; rw [dif_pos hn]
    iexact HF
  · have hn : ¬ n < 125 := fun hn => h (hc.2 hn)
    rw [dif_neg h]
    simp only [Prog.bind_ret]
    iintro HI Hk
    iapply Hk
    unfold slot1; rw [dif_neg hn]
    iexact HI

/-- Slot 2 launches chunk `n`: its two gathers, one after the other, each on its own semaphore. -/
theorem launch2 (d : Dev nD) (L : grid0.Coords) (hR : InRange A) (n : ℕ) (hn : n < 125)
    (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    slotIdle2 m A d L
      ⊢ iprop((slotFl2 m A d L n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s4 gathers_S10000x128_S80x128 (lsl s0 o h) rfl cc0_scratch13.sem (View.wordExact_bits rfl) rfl (Or.inl rfl) >>= fun _ =>
               SparseCore.enqueueIndirectGather rfl zSl s8 gathers_S10000x128_S80x128 (lsl s1 o h) rfl cc0_scratch17.sem (View.wordExact_bits rfl) rfl (Or.inl rfl) >>= k) Q) := by
  unfold slotIdle2 slotFl2
  iintro ⟨⟨%fa, HA⟩, ⟨%fb, HB⟩, HzR, HzC, HlR, HlC, HsR, HsC⟩ Hk
  iapply (issue_s4 m d L _ _ fa (lrR A d L) (lrR_range A d L hR) n hn o h ho _ _) $$ [HzR HA HlR HsR]
  · isplitl [HzR]; · iexact HzR
    isplitl [HA]; · iexact HA
    isplitl [HlR]; · iexact HlR
    iexact HsR
  iintro HflR
  iapply (issue_s8 m d L _ _ fb (lrC A d L) (lrC_range A d L hR) n hn o h ho _ _) $$ [HzC HB HlC HsC]
  · isplitl [HzC]; · iexact HzC
    isplitl [HB]; · iexact HB
    isplitl [HlC]; · iexact HlC
    iexact HsC
  iintro HflC
  iapply Hk
  isplitl [HflR]; · iexact HflR
  iexact HflC

/-- Slot 2 after a chunk: launch chunk `n` if there is one (the printed condition `c`), else stay at rest. -/
theorem relaunch2 (d : Dev nD) (L : grid0.Coords) (hR : InRange A) (n : ℕ) (c : BitVec 1) (hc : c = 1#1 ↔ n < 125)
    (o : Fin 1 → Nat) (hb : c = 1#1 → ∀ a, o a + S80.size a ≤ S10000.size a) (ho : o = ![80 * n])
    {α : Type} (k : PUnit → Prog (TpuEff nD τ sig (Elt F) Λ₀ (thrV d L).2) α) (Q : α → sProp 𝕄) :
    slotIdle2 m A d L
      ⊢ iprop((slot2 m A d L n -∗ wp frame (wpE (defs₀ (F := F)) 𝒱₀ (thrV d L) none) Set.univ (k ⟨⟩) Q)
          -∗ wp frame (wpE (defs₀ (F := F)) 𝒱₀ (thrV d L) none) Set.univ
              ((if h : c = 1#1 then
                  (SparseCore.enqueueIndirectGather rfl zSl s4 gathers_S10000x128_S80x128 (lsl s0 o (hb h)) rfl cc0_scratch13.sem (View.wordExact_bits rfl) rfl (Or.inl rfl) >>= fun _ =>
                   SparseCore.enqueueIndirectGather rfl zSl s8 gathers_S10000x128_S80x128 (lsl s1 o (hb h)) rfl cc0_scratch17.sem (View.wordExact_bits rfl) rfl (Or.inl rfl) >>= fun _ =>
                   Prog.ret ⟨⟩)
                else Prog.ret ⟨⟩) >>= k) Q) := by
  by_cases h : c = 1#1
  · have hn : n < 125 := hc.1 h
    rw [dif_pos h]
    simp only [bind_assoc, Prog.bind_ret]
    iintro HI Hk
    iapply (launch2 m A d L hR n hn o (hb h) ho _ _) $$ HI
    iintro HF
    iapply Hk
    unfold slot2; rw [dif_pos hn]
    iexact HF
  · have hn : ¬ n < 125 := fun hn => h (hc.2 hn)
    rw [dif_neg h]
    simp only [Prog.bind_ret]
    iintro HI Hk
    iapply Hk
    unfold slot2; rw [dif_neg hn]
    iexact HI

/-- Slot 3 launches chunk `n`: its two gathers, one after the other, each on its own semaphore. -/
theorem launch3 (d : Dev nD) (L : grid0.Coords) (hR : InRange A) (n : ℕ) (hn : n < 125)
    (o : Fin 1 → Nat) (h : ∀ a, o a + S80.size a ≤ S10000.size a) (ho : o = ![80 * n])
    {α : Type} (k : PUnit → Prog (TpuEff nD τ sig (Elt F) Λ₀ (thrV d L).2) α) (Q : α → sProp 𝕄) :
    slotIdle3 m A d L
      ⊢ iprop((slotFl3 m A d L n hn -∗ wp frame (wpE (defs₀ (F := F)) 𝒱₀ (thrV d L) none) Set.univ (k ⟨⟩) Q)
          -∗ wp frame (wpE (defs₀ (F := F)) 𝒱₀ (thrV d L) none) Set.univ
              (SparseCore.enqueueIndirectGather rfl zSl s5 gathers_S10000x128_S80x128 (lsl s0 o h) rfl cc0_scratch14.sem (View.wordExact_bits rfl) rfl (Or.inl rfl) >>= fun _ =>
               SparseCore.enqueueIndirectGather rfl zSl s9 gathers_S10000x128_S80x128 (lsl s1 o h) rfl cc0_scratch18.sem (View.wordExact_bits rfl) rfl (Or.inl rfl) >>= k) Q) := by
  unfold slotIdle3 slotFl3
  iintro ⟨⟨%fa, HA⟩, ⟨%fb, HB⟩, HzR, HzC, HlR, HlC, HsR, HsC⟩ Hk
  iapply (issue_s5 m d L _ _ fa (lrR A d L) (lrR_range A d L hR) n hn o h ho _ _) $$ [HzR HA HlR HsR]
  · isplitl [HzR]; · iexact HzR
    isplitl [HA]; · iexact HA
    isplitl [HlR]; · iexact HlR
    iexact HsR
  iintro HflR
  iapply (issue_s9 m d L _ _ fb (lrC A d L) (lrC_range A d L hR) n hn o h ho _ _) $$ [HzC HB HlC HsC]
  · isplitl [HzC]; · iexact HzC
    isplitl [HB]; · iexact HB
    isplitl [HlC]; · iexact HlC
    iexact HsC
  iintro HflC
  iapply Hk
  isplitl [HflR]; · iexact HflR
  iexact HflC

/-- Slot 3 after a chunk: launch chunk `n` if there is one (the printed condition `c`), else stay at rest. -/
theorem relaunch3 (d : Dev nD) (L : grid0.Coords) (hR : InRange A) (n : ℕ) (c : BitVec 1) (hc : c = 1#1 ↔ n < 125)
    (o : Fin 1 → Nat) (hb : c = 1#1 → ∀ a, o a + S80.size a ≤ S10000.size a) (ho : o = ![80 * n])
    {α : Type} (k : PUnit → Prog (TpuEff nD τ sig (Elt F) Λ₀ (thrV d L).2) α) (Q : α → sProp 𝕄) :
    slotIdle3 m A d L
      ⊢ iprop((slot3 m A d L n -∗ wp frame (wpE (defs₀ (F := F)) 𝒱₀ (thrV d L) none) Set.univ (k ⟨⟩) Q)
          -∗ wp frame (wpE (defs₀ (F := F)) 𝒱₀ (thrV d L) none) Set.univ
              ((if h : c = 1#1 then
                  (SparseCore.enqueueIndirectGather rfl zSl s5 gathers_S10000x128_S80x128 (lsl s0 o (hb h)) rfl cc0_scratch14.sem (View.wordExact_bits rfl) rfl (Or.inl rfl) >>= fun _ =>
                   SparseCore.enqueueIndirectGather rfl zSl s9 gathers_S10000x128_S80x128 (lsl s1 o (hb h)) rfl cc0_scratch18.sem (View.wordExact_bits rfl) rfl (Or.inl rfl) >>= fun _ =>
                   Prog.ret ⟨⟩)
                else Prog.ret ⟨⟩) >>= k) Q) := by
  by_cases h : c = 1#1
  · have hn : n < 125 := hc.1 h
    rw [dif_pos h]
    simp only [bind_assoc, Prog.bind_ret]
    iintro HI Hk
    iapply (launch3 m A d L hR n hn o (hb h) ho _ _) $$ HI
    iintro HF
    iapply Hk
    unfold slot3; rw [dif_pos hn]
    iexact HF
  · have hn : ¬ n < 125 := fun hn => h (hc.2 hn)
    rw [dif_neg h]
    simp only [Prog.bind_ret]
    iintro HI Hk
    iapply Hk
    unfold slot3; rw [dif_neg hn]
    iexact HI

/-- One chunk on slot 0 (loops `k0_t2`, `k0_t3`): the two waits, the five groups, the copy of the scores out to the
    chunk's eighty words of the result and its wait. The slot comes back at rest, the result one chunk further. -/
theorem compute_a (d : Dev nD) (L : grid0.Coords) (v2 c0 c1 : BitVec 32) (k1 : Fin k0_t1_loop.trips) (n : ℕ) (hn : n < 125)
    (o : Fin 1 → Nat) (h : ∀ a, o a + S80.size a ≤ S320000.size a) (ho : o 0 = baseOf L + 80 * n)
    (O : CellTallies nD τ sig (HIx 1)) (W : Waits sig (HIx 1))
    {hs1 : (zSl).view.WordExact} {hd1 : (s2).view.WordExact} {hs2 : (zSl).view.WordExact} {hd2 : (s6).view.WordExact}
    {hw1 : (s10).view.WordExact} {hw2 : (osl o h).view.WordExact} {hw3 : (DmaTarget.here (osl o h) : DmaTarget nD τ sig (thrV d L).2 Space.hbm S80 EltTy.f32).Typed Space.vmem (SemLoc.dma cc0_scoped2.sem)}
    {hw4 : (s10).view.WordExact} {hw5 : (osl o h).view.WordExact}
    {α : Type} (k : PUnit → Prog (TpuEff nD τ sig (Elt F) Λ₀ (thrV d L).2) α) (Q : α → sProp 𝕄) :
    iprop(slotFl0 m A d L n hn ∗ anyBuf d L s10 ∗ outSt m A d L n ∗ sem0 d L cc0_scoped2 ∗ owesSt d L O W
        ∗ Transfers.MayWaits (thrV d L) (none : HIx 1) O)
      ⊢ iprop((iprop(slotIdle0 m A d L ∗ anyBuf d L s10 ∗ outSt m A d L (n + 1) ∗ sem0 d L cc0_scoped2 ∗ owesSt d L O W)
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch11.sem zSl s2 hs1 hd1) fun _ =>
               Prog.op (TpuEff.waitDma2 cc0_scratch15.sem zSl s6 hs2 hd2) fun _ =>
               (Scf.Loop.for k0_t2_loop k0_t2_ok ⟨⟩ (k0_t2_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes c0 c1 k1) >>= fun _ =>
                Prog.op (TpuEff.enqueueDma s10 (.here (osl o h)) (.dma cc0_scoped2.sem) hw1 hw2 hw3) fun _ =>
                Prog.op (TpuEff.waitDma2 cc0_scoped2.sem s10 (osl o h) hw4 hw5) k)) Q) := by
  unfold slotFl0 owesSt
  iintro ⟨⟨HflR, HflC⟩, ⟨%fv, Hv⟩, Hout, HsX, ⟨%W', %hW', HO⟩, #Hmw⟩ Hk
  iapply (waitg_s2 m d L _ _ _ n hn O W' _ _) $$ [HflR HO]
  · isplitl [HflR]; · iexact HflR
    isplitl [HO]; · iexact HO
    iexact Hmw
  iintro ⟨HA, HzR, HlR, HsR, HO⟩
  iapply (waitg_s6 m d L _ _ _ n hn O _ _ _) $$ [HflC HO]
  · isplitl [HflC]; · iexact HflC
    isplitl [HO]; · iexact HO
    iexact Hmw
  iintro ⟨HB, HzC, HlC, HsC, HO⟩
  iapply (group_a d L v2 c0 c1 k1 (blkR m A d L n) (blkC m A d L n) fv _ _) $$ [HA HB Hv]
  · isplitl [HA]; · iexact HA
    isplitl [HB]; · iexact HB
    iexact Hv
  iintro ⟨HA, HB, Hv⟩
  ihave Ho := (out_take m A d L n hn) $$ Hout
  icases Ho with ⟨Hdone, Hcur, Hrest⟩
  ihave Hcur' := (Entails.of_eq (show (oLoc d ↦[seg (baseOf L + 80 * n) 80]{fullShare} m (oLoc d) : sProp 𝕄)
      = ((osl o h).view.loc (thrV d L) ↦[(osl o h).view.set]{fullShare} m (oLoc d)) from by rw [set_osl, ho])) $$ Hcur
  iapply (copyout_2 d L o h _ _ O _ _ _) $$ [Hv Hcur' HsX HO]
  · isplitl [Hv]; · iexact Hv
    isplitl [Hcur']; · iexact Hcur'
    isplitl [HsX]; · iexact HsX
    isplitl [HO]; · iexact HO
    iexact Hmw
  iintro ⟨Hv, Hcur', HsX, HO⟩
  iapply Hk
  isplitl [HA HB HzR HzC HlR HlC HsR HsC]
  · unfold slotIdle0
    isplitl [HA]; · iexists _; iexact HA
    isplitl [HB]; · iexists _; iexact HB
    isplitl [HzR]; · iexact HzR
    isplitl [HzC]; · iexact HzC
    isplitl [HlR]; · iexact HlR
    isplitl [HlC]; · iexact HlC
    isplitl [HsR]; · iexact HsR
    iexact HsC
  isplitl [Hv]; · iexists _; iexact Hv
  isplitl [Hdone Hcur' Hrest]
  · iapply (out_put m A d L n hn _ ?hf)
    case hf =>
      have := chunk_landed m A d L n hn o ho h (m (oLoc d))
      rw [ho] at this
      exact this
    isplitl [Hdone]; · iexact Hdone
    isplitl [Hcur']
    · iapply (Entails.of_eq (show ((osl o h).view.loc (thrV d L) ↦[(osl o h).view.set]{fullShare} _ : sProp 𝕄)
          = (oLoc d ↦[seg (baseOf L + 80 * n) 80]{fullShare} _) from by rw [set_osl, ho])) $$ Hcur'
    iexact Hrest
  isplitl [HsX]; · iexact HsX
  iexists (insert (SemLoc.dma cc0_scoped2.sem, (none : HIx 1)) (insert (SemLoc.dma cc0_scratch15.sem, (none : HIx 1)) (insert (SemLoc.dma cc0_scratch11.sem, (none : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- One chunk on slot 1 (loops `k0_t4`, `k0_t5`): the two waits, the five groups, the copy of the scores out to the
    chunk's eighty words of the result and its wait. The slot comes back at rest, the result one chunk further. -/
theorem compute_b (d : Dev nD) (L : grid0.Coords) (v2 : BitVec 32) (k1 : Fin k0_t1_loop.trips) (a25 v41 c5 : BitVec 32) (n : ℕ) (hn : n < 125)
    (o : Fin 1 → Nat) (h : ∀ a, o a + S80.size a ≤ S320000.size a) (ho : o 0 = baseOf L + 80 * n)
    (O : CellTallies nD τ sig (HIx 1)) (W : Waits sig (HIx 1))
    {hs1 : (zSl).view.WordExact} {hd1 : (s3).view.WordExact} {hs2 : (zSl).view.WordExact} {hd2 : (s7).view.WordExact}
    {hw1 : (s10).view.WordExact} {hw2 : (osl o h).view.WordExact} {hw3 : (DmaTarget.here (osl o h) : DmaTarget nD τ sig (thrV d L).2 Space.hbm S80 EltTy.f32).Typed Space.vmem (SemLoc.dma cc0_scoped3.sem)}
    {hw4 : (s10).view.WordExact} {hw5 : (osl o h).view.WordExact}
    {α : Type} (k : PUnit → Prog (TpuEff nD τ sig (Elt F) Λ₀ (thrV d L).2) α) (Q : α → sProp 𝕄) :
    iprop(slotFl1 m A d L n hn ∗ anyBuf d L s10 ∗ outSt m A d L n ∗ sem0 d L cc0_scoped3 ∗ owesSt d L O W
        ∗ Transfers.MayWaits (thrV d L) (none : HIx 1) O)
      ⊢ iprop((iprop(slotIdle1 m A d L ∗ anyBuf d L s10 ∗ outSt m A d L (n + 1) ∗ sem0 d L cc0_scoped3 ∗ owesSt d L O W)
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch12.sem zSl s3 hs1 hd1) fun _ =>
               Prog.op (TpuEff.waitDma2 cc0_scratch16.sem zSl s7 hs2 hd2) fun _ =>
               (Scf.Loop.for k0_t4_loop k0_t4_ok ⟨⟩ (k0_t4_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 0#32 c5) >>= fun _ =>
                Prog.op (TpuEff.enqueueDma s10 (.here (osl o h)) (.dma cc0_scoped3.sem) hw1 hw2 hw3) fun _ =>
                Prog.op (TpuEff.waitDma2 cc0_scoped3.sem s10 (osl o h) hw4 hw5) k)) Q) := by
  unfold slotFl1 owesSt
  iintro ⟨⟨HflR, HflC⟩, ⟨%fv, Hv⟩, Hout, HsX, ⟨%W', %hW', HO⟩, #Hmw⟩ Hk
  iapply (waitg_s3 m d L _ _ _ n hn O W' _ _) $$ [HflR HO]
  · isplitl [HflR]; · iexact HflR
    isplitl [HO]; · iexact HO
    iexact Hmw
  iintro ⟨HA, HzR, HlR, HsR, HO⟩
  iapply (waitg_s7 m d L _ _ _ n hn O _ _ _) $$ [HflC HO]
  · isplitl [HflC]; · iexact HflC
    isplitl [HO]; · iexact HO
    iexact Hmw
  iintro ⟨HB, HzC, HlC, HsC, HO⟩
  iapply (group_b d L v2 k1 a25 v41 c5 (blkR m A d L n) (blkC m A d L n) fv _ _) $$ [HA HB Hv]
  · isplitl [HA]; · iexact HA
    isplitl [HB]; · iexact HB
    iexact Hv
  iintro ⟨HA, HB, Hv⟩
  ihave Ho := (out_take m A d L n hn) $$ Hout
  icases Ho with ⟨Hdone, Hcur, Hrest⟩
  ihave Hcur' := (Entails.of_eq (show (oLoc d ↦[seg (baseOf L + 80 * n) 80]{fullShare} m (oLoc d) : sProp 𝕄)
      = ((osl o h).view.loc (thrV d L) ↦[(osl o h).view.set]{fullShare} m (oLoc d)) from by rw [set_osl, ho])) $$ Hcur
  iapply (copyout_3 d L o h _ _ O _ _ _) $$ [Hv Hcur' HsX HO]
  · isplitl [Hv]; · iexact Hv
    isplitl [Hcur']; · iexact Hcur'
    isplitl [HsX]; · iexact HsX
    isplitl [HO]; · iexact HO
    iexact Hmw
  iintro ⟨Hv, Hcur', HsX, HO⟩
  iapply Hk
  isplitl [HA HB HzR HzC HlR HlC HsR HsC]
  · unfold slotIdle1
    isplitl [HA]; · iexists _; iexact HA
    isplitl [HB]; · iexists _; iexact HB
    isplitl [HzR]; · iexact HzR
    isplitl [HzC]; · iexact HzC
    isplitl [HlR]; · iexact HlR
    isplitl [HlC]; · iexact HlC
    isplitl [HsR]; · iexact HsR
    iexact HsC
  isplitl [Hv]; · iexists _; iexact Hv
  isplitl [Hdone Hcur' Hrest]
  · iapply (out_put m A d L n hn _ ?hf)
    case hf =>
      have := chunk_landed m A d L n hn o ho h (m (oLoc d))
      rw [ho] at this
      exact this
    isplitl [Hdone]; · iexact Hdone
    isplitl [Hcur']
    · iapply (Entails.of_eq (show ((osl o h).view.loc (thrV d L) ↦[(osl o h).view.set]{fullShare} _ : sProp 𝕄)
          = (oLoc d ↦[seg (baseOf L + 80 * n) 80]{fullShare} _) from by rw [set_osl, ho])) $$ Hcur'
    iexact Hrest
  isplitl [HsX]; · iexact HsX
  iexists (insert (SemLoc.dma cc0_scoped3.sem, (none : HIx 1)) (insert (SemLoc.dma cc0_scratch16.sem, (none : HIx 1)) (insert (SemLoc.dma cc0_scratch12.sem, (none : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- One chunk on slot 2 (loops `k0_t6`, `k0_t7`): the two waits, the five groups, the copy of the scores out to the
    chunk's eighty words of the result and its wait. The slot comes back at rest, the result one chunk further. -/
theorem compute_c (d : Dev nD) (L : grid0.Coords) (v2 : BitVec 32) (k1 : Fin k0_t1_loop.trips) (a25 v41 c057 c5 : BitVec 32) (n : ℕ) (hn : n < 125)
    (o : Fin 1 → Nat) (h : ∀ a, o a + S80.size a ≤ S320000.size a) (ho : o 0 = baseOf L + 80 * n)
    (O : CellTallies nD τ sig (HIx 1)) (W : Waits sig (HIx 1))
    {hs1 : (zSl).view.WordExact} {hd1 : (s4).view.WordExact} {hs2 : (zSl).view.WordExact} {hd2 : (s8).view.WordExact}
    {hw1 : (s10).view.WordExact} {hw2 : (osl o h).view.WordExact} {hw3 : (DmaTarget.here (osl o h) : DmaTarget nD τ sig (thrV d L).2 Space.hbm S80 EltTy.f32).Typed Space.vmem (SemLoc.dma cc0_scoped4.sem)}
    {hw4 : (s10).view.WordExact} {hw5 : (osl o h).view.WordExact}
    {α : Type} (k : PUnit → Prog (TpuEff nD τ sig (Elt F) Λ₀ (thrV d L).2) α) (Q : α → sProp 𝕄) :
    iprop(slotFl2 m A d L n hn ∗ anyBuf d L s10 ∗ outSt m A d L n ∗ sem0 d L cc0_scoped4 ∗ owesSt d L O W
        ∗ Transfers.MayWaits (thrV d L) (none : HIx 1) O)
      ⊢ iprop((iprop(slotIdle2 m A d L ∗ anyBuf d L s10 ∗ outSt m A d L (n + 1) ∗ sem0 d L cc0_scoped4 ∗ owesSt d L O W)
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch13.sem zSl s4 hs1 hd1) fun _ =>
               Prog.op (TpuEff.waitDma2 cc0_scratch17.sem zSl s8 hs2 hd2) fun _ =>
               (Scf.Loop.for k0_t6_loop k0_t6_ok ⟨⟩ (k0_t6_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k1 a25 v41 c057 c5) >>= fun _ =>
                Prog.op (TpuEff.enqueueDma s10 (.here (osl o h)) (.dma cc0_scoped4.sem) hw1 hw2 hw3) fun _ =>
                Prog.op (TpuEff.waitDma2 cc0_scoped4.sem s10 (osl o h) hw4 hw5) k)) Q) := by
  unfold slotFl2 owesSt
  iintro ⟨⟨HflR, HflC⟩, ⟨%fv, Hv⟩, Hout, HsX, ⟨%W', %hW', HO⟩, #Hmw⟩ Hk
  iapply (waitg_s4 m d L _ _ _ n hn O W' _ _) $$ [HflR HO]
  · isplitl [HflR]; · iexact HflR
    isplitl [HO]; · iexact HO
    iexact Hmw
  iintro ⟨HA, HzR, HlR, HsR, HO⟩
  iapply (waitg_s8 m d L _ _ _ n hn O _ _ _) $$ [HflC HO]
  · isplitl [HflC]; · iexact HflC
    isplitl [HO]; · iexact HO
    iexact Hmw
  iintro ⟨HB, HzC, HlC, HsC, HO⟩
  iapply (group_c d L v2 k1 a25 v41 c057 c5 (blkR m A d L n) (blkC m A d L n) fv _ _) $$ [HA HB Hv]
  · isplitl [HA]; · iexact HA
    isplitl [HB]; · iexact HB
    iexact Hv
  iintro ⟨HA, HB, Hv⟩
  ihave Ho := (out_take m A d L n hn) $$ Hout
  icases Ho with ⟨Hdone, Hcur, Hrest⟩
  ihave Hcur' := (Entails.of_eq (show (oLoc d ↦[seg (baseOf L + 80 * n) 80]{fullShare} m (oLoc d) : sProp 𝕄)
      = ((osl o h).view.loc (thrV d L) ↦[(osl o h).view.set]{fullShare} m (oLoc d)) from by rw [set_osl, ho])) $$ Hcur
  iapply (copyout_4 d L o h _ _ O _ _ _) $$ [Hv Hcur' HsX HO]
  · isplitl [Hv]; · iexact Hv
    isplitl [Hcur']; · iexact Hcur'
    isplitl [HsX]; · iexact HsX
    isplitl [HO]; · iexact HO
    iexact Hmw
  iintro ⟨Hv, Hcur', HsX, HO⟩
  iapply Hk
  isplitl [HA HB HzR HzC HlR HlC HsR HsC]
  · unfold slotIdle2
    isplitl [HA]; · iexists _; iexact HA
    isplitl [HB]; · iexists _; iexact HB
    isplitl [HzR]; · iexact HzR
    isplitl [HzC]; · iexact HzC
    isplitl [HlR]; · iexact HlR
    isplitl [HlC]; · iexact HlC
    isplitl [HsR]; · iexact HsR
    iexact HsC
  isplitl [Hv]; · iexists _; iexact Hv
  isplitl [Hdone Hcur' Hrest]
  · iapply (out_put m A d L n hn _ ?hf)
    case hf =>
      have := chunk_landed m A d L n hn o ho h (m (oLoc d))
      rw [ho] at this
      exact this
    isplitl [Hdone]; · iexact Hdone
    isplitl [Hcur']
    · iapply (Entails.of_eq (show ((osl o h).view.loc (thrV d L) ↦[(osl o h).view.set]{fullShare} _ : sProp 𝕄)
          = (oLoc d ↦[seg (baseOf L + 80 * n) 80]{fullShare} _) from by rw [set_osl, ho])) $$ Hcur'
    iexact Hrest
  isplitl [HsX]; · iexact HsX
  iexists (insert (SemLoc.dma cc0_scoped4.sem, (none : HIx 1)) (insert (SemLoc.dma cc0_scratch17.sem, (none : HIx 1)) (insert (SemLoc.dma cc0_scratch13.sem, (none : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- One chunk on slot 3 (loops `k0_t8`, `k0_t9`): the two waits, the five groups, the copy of the scores out to the
    chunk's eighty words of the result and its wait. The slot comes back at rest, the result one chunk further. -/
theorem compute_d (d : Dev nD) (L : grid0.Coords)  (n : ℕ) (hn : n < 125)
    (o : Fin 1 → Nat) (h : ∀ a, o a + S80.size a ≤ S320000.size a) (ho : o 0 = baseOf L + 80 * n)
    (O : CellTallies nD τ sig (HIx 1)) (W : Waits sig (HIx 1))
    {hs1 : (zSl).view.WordExact} {hd1 : (s5).view.WordExact} {hs2 : (zSl).view.WordExact} {hd2 : (s9).view.WordExact}
    {hw1 : (s10).view.WordExact} {hw2 : (osl o h).view.WordExact} {hw3 : (DmaTarget.here (osl o h) : DmaTarget nD τ sig (thrV d L).2 Space.hbm S80 EltTy.f32).Typed Space.vmem (SemLoc.dma cc0_scoped5.sem)}
    {hw4 : (s10).view.WordExact} {hw5 : (osl o h).view.WordExact}
    {α : Type} (k : PUnit → Prog (TpuEff nD τ sig (Elt F) Λ₀ (thrV d L).2) α) (Q : α → sProp 𝕄) :
    iprop(slotFl3 m A d L n hn ∗ anyBuf d L s10 ∗ outSt m A d L n ∗ sem0 d L cc0_scoped5 ∗ owesSt d L O W
        ∗ Transfers.MayWaits (thrV d L) (none : HIx 1) O)
      ⊢ iprop((iprop(slotIdle3 m A d L ∗ anyBuf d L s10 ∗ outSt m A d L (n + 1) ∗ sem0 d L cc0_scoped5 ∗ owesSt d L O W)
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch14.sem zSl s5 hs1 hd1) fun _ =>
               Prog.op (TpuEff.waitDma2 cc0_scratch18.sem zSl s9 hs2 hd2) fun _ =>
               (Scf.Loop.for k0_t8_loop k0_t8_ok ⟨⟩ (k0_t8_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 ) >>= fun _ =>
                Prog.op (TpuEff.enqueueDma s10 (.here (osl o h)) (.dma cc0_scoped5.sem) hw1 hw2 hw3) fun _ =>
                Prog.op (TpuEff.waitDma2 cc0_scoped5.sem s10 (osl o h) hw4 hw5) k)) Q) := by
  unfold slotFl3 owesSt
  iintro ⟨⟨HflR, HflC⟩, ⟨%fv, Hv⟩, Hout, HsX, ⟨%W', %hW', HO⟩, #Hmw⟩ Hk
  iapply (waitg_s5 m d L _ _ _ n hn O W' _ _) $$ [HflR HO]
  · isplitl [HflR]; · iexact HflR
    isplitl [HO]; · iexact HO
    iexact Hmw
  iintro ⟨HA, HzR, HlR, HsR, HO⟩
  iapply (waitg_s9 m d L _ _ _ n hn O _ _ _) $$ [HflC HO]
  · isplitl [HflC]; · iexact HflC
    isplitl [HO]; · iexact HO
    iexact Hmw
  iintro ⟨HB, HzC, HlC, HsC, HO⟩
  iapply (group_d d L  (blkR m A d L n) (blkC m A d L n) fv _ _) $$ [HA HB Hv]
  · isplitl [HA]; · iexact HA
    isplitl [HB]; · iexact HB
    iexact Hv
  iintro ⟨HA, HB, Hv⟩
  ihave Ho := (out_take m A d L n hn) $$ Hout
  icases Ho with ⟨Hdone, Hcur, Hrest⟩
  ihave Hcur' := (Entails.of_eq (show (oLoc d ↦[seg (baseOf L + 80 * n) 80]{fullShare} m (oLoc d) : sProp 𝕄)
      = ((osl o h).view.loc (thrV d L) ↦[(osl o h).view.set]{fullShare} m (oLoc d)) from by rw [set_osl, ho])) $$ Hcur
  iapply (copyout_5 d L o h _ _ O _ _ _) $$ [Hv Hcur' HsX HO]
  · isplitl [Hv]; · iexact Hv
    isplitl [Hcur']; · iexact Hcur'
    isplitl [HsX]; · iexact HsX
    isplitl [HO]; · iexact HO
    iexact Hmw
  iintro ⟨Hv, Hcur', HsX, HO⟩
  iapply Hk
  isplitl [HA HB HzR HzC HlR HlC HsR HsC]
  · unfold slotIdle3
    isplitl [HA]; · iexists _; iexact HA
    isplitl [HB]; · iexists _; iexact HB
    isplitl [HzR]; · iexact HzR
    isplitl [HzC]; · iexact HzC
    isplitl [HlR]; · iexact HlR
    isplitl [HlC]; · iexact HlC
    isplitl [HsR]; · iexact HsR
    iexact HsC
  isplitl [Hv]; · iexists _; iexact Hv
  isplitl [Hdone Hcur' Hrest]
  · iapply (out_put m A d L n hn _ ?hf)
    case hf =>
      have := chunk_landed m A d L n hn o ho h (m (oLoc d))
      rw [ho] at this
      exact this
    isplitl [Hdone]; · iexact Hdone
    isplitl [Hcur']
    · iapply (Entails.of_eq (show ((osl o h).view.loc (thrV d L) ↦[(osl o h).view.set]{fullShare} _ : sProp 𝕄)
          = (oLoc d ↦[seg (baseOf L + 80 * n) 80]{fullShare} _) from by rw [set_osl, ho])) $$ Hcur'
    iexact Hrest
  isplitl [HsX]; · iexact HsX
  iexists (insert (SemLoc.dma cc0_scoped5.sem, (none : HIx 1)) (insert (SemLoc.dma cc0_scratch18.sem, (none : HIx 1)) (insert (SemLoc.dma cc0_scratch14.sem, (none : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- One chunk on slot 0 (loops `k0_t10`, `k0_t11`): the two waits, the five groups, the copy of the scores out to the
    chunk's eighty words of the result and its wait. The slot comes back at rest, the result one chunk further. -/
theorem compute_e (d : Dev nD) (L : grid0.Coords)  (n : ℕ) (hn : n < 125)
    (o : Fin 1 → Nat) (h : ∀ a, o a + S80.size a ≤ S320000.size a) (ho : o 0 = baseOf L + 80 * n)
    (O : CellTallies nD τ sig (HIx 1)) (W : Waits sig (HIx 1))
    {hs1 : (zSl).view.WordExact} {hd1 : (s2).view.WordExact} {hs2 : (zSl).view.WordExact} {hd2 : (s6).view.WordExact}
    {hw1 : (s10).view.WordExact} {hw2 : (osl o h).view.WordExact} {hw3 : (DmaTarget.here (osl o h) : DmaTarget nD τ sig (thrV d L).2 Space.hbm S80 EltTy.f32).Typed Space.vmem (SemLoc.dma cc0_scoped6.sem)}
    {hw4 : (s10).view.WordExact} {hw5 : (osl o h).view.WordExact}
    {α : Type} (k : PUnit → Prog (TpuEff nD τ sig (Elt F) Λ₀ (thrV d L).2) α) (Q : α → sProp 𝕄) :
    iprop(slotFl0 m A d L n hn ∗ anyBuf d L s10 ∗ outSt m A d L n ∗ sem0 d L cc0_scoped6 ∗ owesSt d L O W
        ∗ Transfers.MayWaits (thrV d L) (none : HIx 1) O)
      ⊢ iprop((iprop(slotIdle0 m A d L ∗ anyBuf d L s10 ∗ outSt m A d L (n + 1) ∗ sem0 d L cc0_scoped6 ∗ owesSt d L O W)
            -∗ wp frame (wpE (defs₀ (F := F)) 𝒱₀ (thrV d L) none) Set.univ (k ⟨⟩) Q)
          -∗ wp frame (wpE (defs₀ (F := F)) 𝒱₀ (thrV d L) none) Set.univ
              (Prog.op (TpuEff.waitDma2 cc0_scratch11.sem zSl s2 hs1 hd1) fun _ =>
               Prog.op (TpuEff.waitDma2 cc0_scratch15.sem zSl s6 hs2 hd2) fun _ =>
               (Scf.Loop.for k0_t10_loop k0_t10_ok ⟨⟩ (k0_t10_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 ) >>= fun _ =>
                Prog.op (TpuEff.enqueueDma s10 (.here (osl o h)) (.dma cc0_scoped6.sem) hw1 hw2 hw3) fun _ =>
                Prog.op (TpuEff.waitDma2 cc0_scoped6.sem s10 (osl o h) hw4 hw5) k)) Q) := by
  unfold slotFl0 owesSt
  iintro ⟨⟨HflR, HflC⟩, ⟨%fv, Hv⟩, Hout, HsX, ⟨%W', %hW', HO⟩, #Hmw⟩ Hk
  iapply (waitg_s2 m d L _ _ _ n hn O W' _ _) $$ [HflR HO]
  · isplitl [HflR]; · iexact HflR
    isplitl [HO]; · iexact HO
    iexact Hmw
  iintro ⟨HA, HzR, HlR, HsR, HO⟩
  iapply (waitg_s6 m d L _ _ _ n hn O _ _ _) $$ [HflC HO]
  · isplitl [HflC]; · iexact HflC
    isplitl [HO]; · iexact HO
    iexact Hmw
  iintro ⟨HB, HzC, HlC, HsC, HO⟩
  iapply (group_e d L  (blkR m A d L n) (blkC m A d L n) fv _ _) $$ [HA HB Hv]
  · isplitl [HA]; · iexact HA
    isplitl [HB]; · iexact HB
    iexact Hv
  iintro ⟨HA, HB, Hv⟩
  ihave Ho := (out_take m A d L n hn) $$ Hout
  icases Ho with ⟨Hdone, Hcur, Hrest⟩
  ihave Hcur' := (Entails.of_eq (show (oLoc d ↦[seg (baseOf L + 80 * n) 80]{fullShare} m (oLoc d) : sProp 𝕄)
      = ((osl o h).view.loc (thrV d L) ↦[(osl o h).view.set]{fullShare} m (oLoc d)) from by rw [set_osl, ho])) $$ Hcur
  iapply (copyout_6 d L o h _ _ O _ _ _) $$ [Hv Hcur' HsX HO]
  · isplitl [Hv]; · iexact Hv
    isplitl [Hcur']; · iexact Hcur'
    isplitl [HsX]; · iexact HsX
    isplitl [HO]; · iexact HO
    iexact Hmw
  iintro ⟨Hv, Hcur', HsX, HO⟩
  iapply Hk
  isplitl [HA HB HzR HzC HlR HlC HsR HsC]
  · unfold slotIdle0
    isplitl [HA]; · iexists _; iexact HA
    isplitl [HB]; · iexists _; iexact HB
    isplitl [HzR]; · iexact HzR
    isplitl [HzC]; · iexact HzC
    isplitl [HlR]; · iexact HlR
    isplitl [HlC]; · iexact HlC
    isplitl [HsR]; · iexact HsR
    iexact HsC
  isplitl [Hv]; · iexists _; iexact Hv
  isplitl [Hdone Hcur' Hrest]
  · iapply (out_put m A d L n hn _ ?hf)
    case hf =>
      have := chunk_landed m A d L n hn o ho h (m (oLoc d))
      rw [ho] at this
      exact this
    isplitl [Hdone]; · iexact Hdone
    isplitl [Hcur']
    · iapply (Entails.of_eq (show ((osl o h).view.loc (thrV d L) ↦[(osl o h).view.set]{fullShare} _ : sProp 𝕄)
          = (oLoc d ↦[seg (baseOf L + 80 * n) 80]{fullShare} _) from by rw [set_osl, ho])) $$ Hcur'
    iexact Hrest
  isplitl [HsX]; · iexact HsX
  iexists (insert (SemLoc.dma cc0_scoped6.sem, (none : HIx 1)) (insert (SemLoc.dma cc0_scratch15.sem, (none : HIx 1)) (insert (SemLoc.dma cc0_scratch11.sem, (none : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- The first copies: the task's 10000 row words into its list buffer, and the wait. -/
theorem loadlist_R (d : Dev nD) (L : grid0.Coords) (f0 : Buf (Elt F) ((s0).view.loc (thrV d L)))
    (O : CellTallies nD τ sig (HIx 1)) (W : Waits sig (HIx 1))
    {hw1 : (wsl rW L).view.WordExact} {hw2 : (s0).view.WordExact} {hw3 : (DmaTarget.here s0 : DmaTarget nD τ sig (thrV d L).2 Space.vmem S10000 EltTy.i32).Typed Space.hbm (SemLoc.dma cc0_scoped0.sem)}
    {hw4 : (wsl rW L).view.WordExact} {hw5 : (s0).view.WordExact}
    {α : Type} (k : PUnit → Prog (TpuEff nD τ sig (Elt F) Λ₀ (thrV d L).2) α) (Q : α → sProp 𝕄) :
    iprop((rLoc d ↦[seg (baseOf L) 10000]{fullShare} (A d).ri) ∗ ((s0).view.loc (thrV d L) ↦{fullShare} f0)
        ∗ sem0 d L cc0_scoped0 ∗ owes (thrV d L) O W ∗ Transfers.MayWaits (thrV d L) (none : HIx 1) O)
      ⊢ iprop((iprop((rLoc d ↦[seg (baseOf L) 10000]{fullShare} (A d).ri) ∗ ((s0).view.loc (thrV d L) ↦{fullShare} lrR A d L)
              ∗ sem0 d L cc0_scoped0 ∗ owes (thrV d L) O (insert (SemLoc.dma cc0_scoped0.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma (wsl rW L) (.here s0) (.dma cc0_scoped0.sem) hw1 hw2 hw3) fun _ =>
               Prog.op (TpuEff.waitDma2 cc0_scoped0.sem (wsl rW L) s0 hw4 hw5) k) Q) := by
  iintro ⟨Hr, H0, Hs, HO, #Hmw⟩ Hk
  ihave Hr' := (Entails.of_eq (show (rLoc d ↦[seg (baseOf L) 10000]{fullShare} (A d).ri : sProp 𝕄)
      = ((wsl rW L).view.loc (thrV d L) ↦[(wsl rW L).view.set]{fullShare} (A d).ri) from by rw [set_wsl])) $$ Hr
  iapply (Transfers.wp_dmaLocal (EC (F := F)) 𝒱₀ (thrV d L) none (none : HIx 1) (s0).view.dmaCredit rfl (by decide) (Finset.subset_univ _)) $$ [Hr' H0 Hs]
  · isplitl [Hr']; · iexact Hr'
    isplitl [H0]; · iexact H0
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped0.sem)); iexact Hmw
  iintro ⟨⟨H0, Hr'⟩, Hs, HO⟩
  iapply Hk
  isplitl [Hr']
  · iapply (Entails.of_eq (show ((wsl rW L).view.loc (thrV d L) ↦[(wsl rW L).view.set]{fullShare} (A d).ri : sProp 𝕄)
        = (rLoc d ↦[seg (baseOf L) 10000]{fullShare} (A d).ri) from by rw [set_wsl])) $$ Hr'
  isplitl [H0]
  · rw [list_landed_s0]; iexact H0
  isplitl [Hs]; · iexact Hs
  iexact HO

/-- The first copies: the task's 10000 column words into its list buffer, and the wait. -/
theorem loadlist_C (d : Dev nD) (L : grid0.Coords) (f0 : Buf (Elt F) ((s1).view.loc (thrV d L)))
    (O : CellTallies nD τ sig (HIx 1)) (W : Waits sig (HIx 1))
    {hw1 : (wsl cW L).view.WordExact} {hw2 : (s1).view.WordExact} {hw3 : (DmaTarget.here s1 : DmaTarget nD τ sig (thrV d L).2 Space.vmem S10000 EltTy.i32).Typed Space.hbm (SemLoc.dma cc0_scoped1.sem)}
    {hw4 : (wsl cW L).view.WordExact} {hw5 : (s1).view.WordExact}
    {α : Type} (k : PUnit → Prog (TpuEff nD τ sig (Elt F) Λ₀ (thrV d L).2) α) (Q : α → sProp 𝕄) :
    iprop((cLoc d ↦[seg (baseOf L) 10000]{fullShare} (A d).ci) ∗ ((s1).view.loc (thrV d L) ↦{fullShare} f0)
        ∗ sem0 d L cc0_scoped1 ∗ owes (thrV d L) O W ∗ Transfers.MayWaits (thrV d L) (none : HIx 1) O)
      ⊢ iprop((iprop((cLoc d ↦[seg (baseOf L) 10000]{fullShare} (A d).ci) ∗ ((s1).view.loc (thrV d L) ↦{fullShare} lrC A d L)
              ∗ sem0 d L cc0_scoped1 ∗ owes (thrV d L) O (insert (SemLoc.dma cc0_scoped1.sem, (none : HIx 1)) W))
            -∗ wp frame (wpE (defs₀ (F := F)) 𝒱₀ (thrV d L) none) Set.univ (k ⟨⟩) Q)
          -∗ wp frame (wpE (defs₀ (F := F)) 𝒱₀ (thrV d L) none) Set.univ
              (Prog.op (TpuEff.enqueueDma (wsl cW L) (.here s1) (.dma cc0_scoped1.sem) hw1 hw2 hw3) fun _ =>
               Prog.op (TpuEff.waitDma2 cc0_scoped1.sem (wsl cW L) s1 hw4 hw5) k) Q) := by
  iintro ⟨Hr, H0, Hs, HO, #Hmw⟩ Hk
  ihave Hr' := (Entails.of_eq (show (cLoc d ↦[seg (baseOf L) 10000]{fullShare} (A d).ci : sProp 𝕄)
      = ((wsl cW L).view.loc (thrV d L) ↦[(wsl cW L).view.set]{fullShare} (A d).ci) from by rw [set_wsl_c])) $$ Hr
  iapply (Transfers.wp_dmaLocal (EC (F := F)) 𝒱₀ (thrV d L) none (none : HIx 1) (s1).view.dmaCredit rfl (by decide) (Finset.subset_univ _)) $$ [Hr' H0 Hs]
  · isplitl [Hr']; · iexact Hr'
    isplitl [H0]; · iexact H0
    iexact Hs
  iintro Hfl
  iapply (Transfers.wp_waitLocalO (EC (F := F)) 𝒱₀ (thrV d L) none (none : HIx 1) rfl) $$ [Hfl HO]
  · isplitl [Hfl]; · iexact Hfl
    isplitl [HO]; · iexact HO
    iapply (Transfers.MayWaits.elim (SemLoc.dma cc0_scoped1.sem)); iexact Hmw
  iintro ⟨⟨H0, Hr'⟩, Hs, HO⟩
  iapply Hk
  isplitl [Hr']
  · iapply (Entails.of_eq (show ((wsl cW L).view.loc (thrV d L) ↦[(wsl cW L).view.set]{fullShare} (A d).ci : sProp 𝕄)
        = (cLoc d ↦[seg (baseOf L) 10000]{fullShare} (A d).ci) from by rw [set_wsl_c])) $$ Hr'
  isplitl [H0]
  · rw [list_landed_s1]; iexact H0
  isplitl [Hs]; · iexact Hs
  iexact HO

end Cert.Proof.KI
end
-- ==== Proof.KIPlumb.lean ====
/-
  Plumbing between the states of one vector subcore's task: from the task's resources once its two word lists are
  loaded to the four slots at rest (the share of the node table split into eight read tokens, each list buffer into
  four, nothing of the result written), and from the four slots at rest with the whole result written back to the
  task's resources as it hands them over.
-/
import proofs.«209252_g55662776156339_cont_9to1_m_525_47_alg».proof.Proof.KIState
import Idealize.ShloMosaic.Lib.Transfers

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Transfers (shareTokN shareDrop)

variable {F : FTy → Type}
local notation "𝕄" => MT nD τ sig (HIx 1) (Elt F) ℕ UU ℕ

/-! ## A share as its first read tokens and the remainder -/

theorem range4 : Finset.range 4 = {0, 1, 2, 3} := by decide
theorem range8 : Finset.range 8 = {0, 1, 2, 3, 4, 5, 6, 7} := by decide

theorem toks4 {ℓ : Loc nD τ sig} {I : Finset (Idx ℓ)} {f : Buf (Elt F) ℓ} (q : PosShare TreeShare) :
    (ℓ ↦[I]{q} f : sProp 𝕄) ⊣⊢ iprop((ℓ ↦[I]{shareDrop q 4} f) ∗ (ℓ ↦[I]{shareTokN q 0} f) ∗ (ℓ ↦[I]{shareTokN q 1} f)
      ∗ (ℓ ↦[I]{shareTokN q 2} f) ∗ (ℓ ↦[I]{shareTokN q 3} f)) := by
  have h := Transfers.pointsTo_toks_range (Lvl := ℕ) (ℓ := ℓ) (S := I) (f := f) (Ix := HIx 1) (Name := ℕ) (U := UU) q 4
  rw [range4, SparseCore.bigSep_insert' (by decide), SparseCore.bigSep_insert' (by decide), SparseCore.bigSep_insert' (by decide), bigSep_singleton] at h
  exact h

theorem toks8 {ℓ : Loc nD τ sig} {I : Finset (Idx ℓ)} {f : Buf (Elt F) ℓ} (q : PosShare TreeShare) :
    (ℓ ↦[I]{q} f : sProp 𝕄) ⊣⊢ iprop((ℓ ↦[I]{shareDrop q 8} f) ∗ (ℓ ↦[I]{shareTokN q 0} f) ∗ (ℓ ↦[I]{shareTokN q 1} f)
      ∗ (ℓ ↦[I]{shareTokN q 2} f) ∗ (ℓ ↦[I]{shareTokN q 3} f) ∗ (ℓ ↦[I]{shareTokN q 4} f) ∗ (ℓ ↦[I]{shareTokN q 5} f)
      ∗ (ℓ ↦[I]{shareTokN q 6} f) ∗ (ℓ ↦[I]{shareTokN q 7} f)) := by
  have h := Transfers.pointsTo_toks_range (Lvl := ℕ) (ℓ := ℓ) (S := I) (f := f) (Ix := HIx 1) (Name := ℕ) (U := UU) q 8
  rw [range8, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton] at h
  exact h

/-! ## The node table as the body's gathers address it; the empty segment; the task's base -/

variable [FloatOps F]
variable (m : (ℓ : Loc nD τ sig) → Buf (Elt F) ℓ) (A : (d : Dev nD) → Arrays (F := F) d) (d : Dev nD) (L : grid0.Coords)

omit [FloatOps F] in
theorem z_eq (q : PosShare TreeShare) (f : Buf (Elt F) (zLoc d)) :
    (zLoc d ↦{q} f : sProp 𝕄) = ((zSl).view.loc (thrV d L) ↦[(zSl).view.set]{q} f) := by
  rw [set_zSl]

theorem seg_zero (o : ℕ) : seg o 0 = ∅ := by
  ext j; simp only [mem_seg, Finset.notMem_empty, iff_false]; omega

theorem base_eq : 10000 * wid (cL L) (iL L) = baseOf L := by
  show 10000 * (2 * (L 1).val + (L 0).val) = 20000 * (L 1).val + 10000 * (L 0).val
  omega

/-- Nothing written: the task's whole segment of the result as launched. -/
theorem outSt_zero : outSt m A d L 0 = (oLoc d ↦[seg (baseOf L) 10000]{fullShare} m (oLoc d) : sProp 𝕄) := by
  unfold outSt
  rw [show 80 * 0 = 0 from rfl, Nat.add_zero, Nat.sub_zero, seg_zero, pointsTo_empty]
  exact equiv_iff.mp emp_sep

/-- All 125 chunks written: the task's whole segment at the claimed function. -/
theorem outSt_full : outSt m A d L 125 = (oLoc d ↦[seg (baseOf L) 10000]{fullShare} outOf m A d : sProp 𝕄) := by
  unfold outSt
  rw [show 80 * 125 = 10000 from rfl, Nat.sub_self, seg_zero, pointsTo_empty]
  exact equiv_iff.mp sep_emp

/-! ## From the loaded lists to the four slots at rest -/

theorem mid_of_loaded :
    iprop((zLoc d ↦{qz L} m (zLoc d)) ∗ (rLoc d ↦[seg (baseOf L) 10000]{fullShare} (A d).ri) ∗ (cLoc d ↦[seg (baseOf L) 10000]{fullShare} (A d).ci)
        ∗ (oLoc d ↦[seg (baseOf L) 10000]{fullShare} m (oLoc d)) ∗ ((s0).view.loc (thrV d L) ↦{fullShare} lrR A d L)
        ∗ ((s1).view.loc (thrV d L) ↦{fullShare} lrC A d L) ∗ anyBuf d L s2 ∗ anyBuf d L s3 ∗ anyBuf d L s4 ∗ anyBuf d L s5 ∗ anyBuf d L s6
        ∗ anyBuf d L s7 ∗ anyBuf d L s8 ∗ anyBuf d L s9 ∗ anyBuf d L s10 ∗ sems d L)
      ⊢ iprop(slotIdle0 m A d L ∗ slotIdle1 m A d L ∗ slotIdle2 m A d L ∗ slotIdle3 m A d L ∗ restSt m A d L ∗ outSt m A d L 0) := by
  rw [outSt_zero, z_eq d L]
  unfold slotIdle0 slotIdle1 slotIdle2 slotIdle3 restSt sems
  iintro ⟨Hz, Hr, Hc, Ho, Hs0, Hs1, B2, B3, B4, B5, B6, B7, B8, B9, B10, S11, S12, S13, S14, S15, S16, S17, S18, C0, C1, C2, C3, C4, C5, C6⟩
  ihave Hz' := (toks8 (qz L)).1 $$ Hz
  icases Hz' with ⟨Zd, Z0, Z1, Z2, Z3, Z4, Z5, Z6, Z7⟩
  ihave Hs0' := (toks4 fullShare).1 $$ Hs0
  icases Hs0' with ⟨Rd, R0, R1, R2, R3⟩
  ihave Hs1' := (toks4 fullShare).1 $$ Hs1
  icases Hs1' with ⟨Kd, K0, K1, K2, K3⟩
  iframe

/-! ## From the four slots at rest, the whole result written, to what the task hands over -/

theorem close_of_done :
    iprop(slotIdle0 m A d L ∗ slotIdle1 m A d L ∗ slotIdle2 m A d L ∗ slotIdle3 m A d L ∗ restSt m A d L ∗ outSt m A d L 125)
      ⊢ iprop(taskRes m A d (cL L) (iL L) (outOf m A d) ∗ bufs d L ∗ sems d L) := by
  rw [outSt_full]
  unfold slotIdle0 slotIdle1 slotIdle2 slotIdle3 restSt taskRes bufs sems
  rw [base_eq, z_eq d L]
  iintro ⟨⟨B2, B6, Z0, Z4, R0, K0, S11, S15⟩, ⟨B3, B7, Z1, Z5, R1, K1, S12, S16⟩, ⟨B4, B8, Z2, Z6, R2, K2, S13, S17⟩,
    ⟨B5, B9, Z3, Z7, R3, K3, S14, S18⟩, ⟨Zd, Rd, Kd, Hr, Hc, B10, C0, C1, C2, C3, C4, C5, C6⟩, Ho⟩
  ihave Hz := (toks8 (qz L)).2 $$ [Zd Z0 Z1 Z2 Z3 Z4 Z5 Z6 Z7]
  · iframe
  ihave Hs0 := (toks4 fullShare).2 $$ [Rd R0 R1 R2 R3]
  · iframe
  ihave Hs1 := (toks4 fullShare).2 $$ [Kd K0 K1 K2 K3]
  · iframe
  isplitl [Hz Hr Hc Ho]
  · iframe
  isplitl [Hs0 Hs1 B2 B3 B4 B5 B6 B7 B8 B9 B10]
  · isplitl [Hs0]; · iexists _; iexact Hs0
    isplitl [Hs1]; · iexists _; iexact Hs1
    iframe
  iframe

end Cert.Proof.KI

end
-- ==== Proof.KIBody.lean ====
/-
  One vector subcore's task, whole: the first copies fill the two word lists; the four slots launch chunks 0 to 3; each of
  the 31 trips of the main loop computes the chunks 4k … 4k+3 on the slots 0 … 3 and launches, on each slot, the chunk
  four further while there is one; the last chunk, 124, is computed on slot 0 after the loop. The invariant of the loop:
  before trip k the first 4k chunks of the result are written and slot b holds chunk 4k+b in flight (or, past the last
  chunk, is at rest).
-/
import proofs.«209252_g55662776156339_cont_9to1_m_525_47_alg».proof.Proof.KISlots
import proofs.«209252_g55662776156339_cont_9to1_m_525_47_alg».proof.Proof.KIPlumb

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}
local notation "𝕄" => MT nD τ sig (HIx 1) (Elt F) ℕ UU ℕ

variable [FloatOps F]
variable (m : (ℓ : Loc nD τ sig) → Buf (Elt F) ℓ) (A : (d : Dev nD) → Arrays (F := F) d)

theorem k0_t1_trips : k0_t1_loop.trips = 31 := by decide

theorem slot0_fl (d : Dev nD) (L : grid0.Coords) (n : ℕ) (hn : n < 125) : slot0 m A d L n = slotFl0 m A d L n hn := dif_pos hn
theorem slot1_fl (d : Dev nD) (L : grid0.Coords) (n : ℕ) (hn : n < 125) : slot1 m A d L n = slotFl1 m A d L n hn := dif_pos hn
theorem slot2_fl (d : Dev nD) (L : grid0.Coords) (n : ℕ) (hn : n < 125) : slot2 m A d L n = slotFl2 m A d L n hn := dif_pos hn
theorem slot3_fl (d : Dev nD) (L : grid0.Coords) (n : ℕ) (hn : n < 125) : slot3 m A d L n = slotFl3 m A d L n hn := dif_pos hn

theorem slot0_idle (d : Dev nD) (L : grid0.Coords) (n : ℕ) (hn : ¬ n < 125) : slot0 m A d L n = slotIdle0 m A d L := dif_neg hn
theorem slot1_idle (d : Dev nD) (L : grid0.Coords) (n : ℕ) (hn : ¬ n < 125) : slot1 m A d L n = slotIdle1 m A d L := dif_neg hn
theorem slot2_idle (d : Dev nD) (L : grid0.Coords) (n : ℕ) (hn : ¬ n < 125) : slot2 m A d L n = slotIdle2 m A d L := dif_neg hn
theorem slot3_idle (d : Dev nD) (L : grid0.Coords) (n : ℕ) (hn : ¬ n < 125) : slot3 m A d L n = slotIdle3 m A d L := dif_neg hn

/-- The state before trip `k` of the main loop. -/
def loopInv (d : Dev nD) (L : grid0.Coords) (O : CellTallies nD τ sig (HIx 1)) (W : Waits sig (HIx 1)) (k : ℕ) : sProp 𝕄 :=
  iprop(slot0 m A d L (4 * k) ∗ slot1 m A d L (4 * k + 1) ∗ slot2 m A d L (4 * k + 2) ∗ slot3 m A d L (4 * k + 3)
    ∗ restSt m A d L ∗ outSt m A d L (4 * k) ∗ owesSt d L O W)

set_option maxHeartbeats 8000000 in
/-- One trip of the main loop, not the last: every slot launches the chunk four further. -/
theorem trip_more (hR : InRange A) (d : Dev nD) (L : grid0.Coords) (O : CellTallies nD τ sig (HIx 1)) (W : Waits sig (HIx 1))
    (v2 : BitVec 32) (k : Fin k0_t1_loop.trips) (u : Unit) (hk30 : k.val < 30) :
    iprop(Transfers.MayWaits (thrV d L) (none : HIx 1) O ∗ loopInv m A d L O W k.val)
      ⊢ wp frame (wpE (defs₀ (F := F)) 𝒱₀ (thrV d L) none) Set.univ
          (k0_t1_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k u)
          (fun _ => iprop(Transfers.MayWaits (thrV d L) (none : HIx 1) O ∗ loopInv m A d L O W (k.val + 1))) := by
  have h1 : k0_cond1 k = 1#1 := cond1_true k
  have h2 : k0_cond2 k = 1#1 := by rw [cond2_iff k]; omega
  have h3 : k0_cond3 k = 1#1 := by rw [cond3_iff k]; omega
  have h4 : k0_cond4 k = 1#1 := by rw [cond4_iff k]; omega
  unfold loopInv
  iintro ⟨#Hmw, F0, F1, F2, F3, Hrest, Hout, HO⟩
  unfold k0_t1_body
  rw [k0_part1_eq_skeleton, k0_part2_eq_skeleton]; unfold k0_part1_skel k0_part2_skel
  simp only [dif_pos h1, dif_pos h2, dif_pos h3, dif_pos h4]
  simp only [SparseCore.waitIndirectGather, Prog.lift, Prog.bind_op, Prog.bind_ret, Prog.pure_eq_ret, bind_assoc]
  unfold restSt
  icases Hrest with ⟨Zd, L0d, L1d, Hr, Hc, Hv, X0, X1, X2, X3, X4, X5, X6⟩
  -- chunk 4k on slot 0
  ihave F0' := (Entails.of_eq (slot0_fl m A d L (4 * k.val) (by omega))) $$ F0
  iapply (compute_a m A d L _ _ _ k (4 * k.val) (by omega) (k0_off3 L k 0#32) (k0_off3_inb L k 0) (off3_eq L k 0) O W _ _) $$ [F0' Hv Hout X2 HO]
  · isplitl [F0']; · iexact F0'
    isplitl [Hv]; · iexact Hv
    isplitl [Hout]; · iexact Hout
    isplitl [X2]; · iexact X2
    isplitl [HO]; · iexact HO
    iexact Hmw
  iintro ⟨I0, Hv, Hout, X2, HO⟩
  iapply (launch0 m A d L hR (4 * k.val + 4) (by omega) (k0_off4 k) (k0_off4_inb k h1) (off4_eq k) _ _) $$ I0
  iintro F0
  -- chunk 4k+1 on slot 1
  ihave F1' := (Entails.of_eq (slot1_fl m A d L (4 * k.val + 1) (by omega))) $$ F1
  iapply (compute_b m A d L _ k _ _ _ (4 * k.val + 1) (by omega) (k0_off3 L k 1#32) (k0_off3_inb L k 1) (off3_eq L k 1) O W _ _) $$ [F1' Hv Hout X3 HO]
  · isplitl [F1']; · iexact F1'
    isplitl [Hv]; · iexact Hv
    isplitl [Hout]; · iexact Hout
    isplitl [X3]; · iexact X3
    isplitl [HO]; · iexact HO
    iexact Hmw
  iintro ⟨I1, Hv, Hout, X3, HO⟩
  iapply (launch1 m A d L hR (4 * k.val + 5) (by omega) (k0_off6 k) (k0_off6_inb k h2) (off6_eq k) _ _) $$ I1
  iintro F1
  -- chunk 4k+2 on slot 2
  ihave F2' := (Entails.of_eq (slot2_fl m A d L (4 * k.val + 2) (by omega))) $$ F2
  iapply (compute_c m A d L _ k _ _ _ _ (4 * k.val + 2) (by omega) (k0_off3 L k 2#32) (k0_off3_inb L k 2) (off3_eq L k 2) O W _ _) $$ [F2' Hv Hout X4 HO]
  · isplitl [F2']; · iexact F2'
    isplitl [Hv]; · iexact Hv
    isplitl [Hout]; · iexact Hout
    isplitl [X4]; · iexact X4
    isplitl [HO]; · iexact HO
    iexact Hmw
  iintro ⟨I2, Hv, Hout, X4, HO⟩
  iapply (launch2 m A d L hR (4 * k.val + 6) (by omega) (k0_off8 k) (k0_off8_inb k h3) (off8_eq k) _ _) $$ I2
  iintro F2
  -- chunk 4k+3 on slot 3
  ihave F3' := (Entails.of_eq (slot3_fl m A d L (4 * k.val + 3) (by omega))) $$ F3
  iapply (compute_d m A d L (4 * k.val + 3) (by omega) (k0_off3 L k 3#32) (k0_off3_inb L k 3) (off3_eq L k 3) O W _ _) $$ [F3' Hv Hout X5 HO]
  · isplitl [F3']; · iexact F3'
    isplitl [Hv]; · iexact Hv
    isplitl [Hout]; · iexact Hout
    isplitl [X5]; · iexact X5
    isplitl [HO]; · iexact HO
    iexact Hmw
  iintro ⟨I3, Hv, Hout, X5, HO⟩
  iapply (launch3 m A d L hR (4 * k.val + 7) (by omega) (k0_off10 k) (k0_off10_inb k h4) (off10_eq k) _ _) $$ I3
  iintro F3
  rw [wp_ret]; imodintro
  isplitr; · iexact Hmw
  isplitl [F0]; · rw [slot0_fl m A d L (4 * (k.val + 1)) (by omega)]; iexact F0
  isplitl [F1]; · rw [slot1_fl m A d L (4 * (k.val + 1) + 1) (by omega)]; iexact F1
  isplitl [F2]; · rw [slot2_fl m A d L (4 * (k.val + 1) + 2) (by omega)]; iexact F2
  isplitl [F3]; · rw [slot3_fl m A d L (4 * (k.val + 1) + 3) (by omega)]; iexact F3
  isplitl [Zd L0d L1d Hr Hc Hv X0 X1 X2 X3 X4 X5 X6]
  · iframe
  isplitl [Hout]; · iexact Hout
  iexact HO

set_option maxHeartbeats 8000000 in
/-- One trip of the main loop, the last: only slot 0 has a further chunk to launch. -/
theorem trip_last (hR : InRange A) (d : Dev nD) (L : grid0.Coords) (O : CellTallies nD τ sig (HIx 1)) (W : Waits sig (HIx 1))
    (v2 : BitVec 32) (k : Fin k0_t1_loop.trips) (u : Unit) (hk30 : k.val = 30) :
    iprop(Transfers.MayWaits (thrV d L) (none : HIx 1) O ∗ loopInv m A d L O W k.val)
      ⊢ wp frame (wpE (defs₀ (F := F)) 𝒱₀ (thrV d L) none) Set.univ
          (k0_t1_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k u)
          (fun _ => iprop(Transfers.MayWaits (thrV d L) (none : HIx 1) O ∗ loopInv m A d L O W (k.val + 1))) := by
  have h1 : k0_cond1 k = 1#1 := cond1_true k
  have h2 : ¬ k0_cond2 k = 1#1 := by rw [cond2_iff k]; omega
  have h3 : ¬ k0_cond3 k = 1#1 := by rw [cond3_iff k]; omega
  have h4 : ¬ k0_cond4 k = 1#1 := by rw [cond4_iff k]; omega
  unfold loopInv
  iintro ⟨#Hmw, F0, F1, F2, F3, Hrest, Hout, HO⟩
  unfold k0_t1_body
  rw [k0_part1_eq_skeleton, k0_part2_eq_skeleton]; unfold k0_part1_skel k0_part2_skel
  simp only [dif_pos h1, dif_neg h2, dif_neg h3, dif_neg h4]
  simp only [SparseCore.waitIndirectGather, Prog.lift, Prog.bind_op, Prog.bind_ret, Prog.pure_eq_ret, bind_assoc]
  unfold restSt
  icases Hrest with ⟨Zd, L0d, L1d, Hr, Hc, Hv, X0, X1, X2, X3, X4, X5, X6⟩
  -- chunk 4k on slot 0
  ihave F0' := (Entails.of_eq (slot0_fl m A d L (4 * k.val) (by omega))) $$ F0
  iapply (compute_a m A d L _ _ _ k (4 * k.val) (by omega) (k0_off3 L k 0#32) (k0_off3_inb L k 0) (off3_eq L k 0) O W _ _) $$ [F0' Hv Hout X2 HO]
  · isplitl [F0']; · iexact F0'
    isplitl [Hv]; · iexact Hv
    isplitl [Hout]; · iexact Hout
    isplitl [X2]; · iexact X2
    isplitl [HO]; · iexact HO
    iexact Hmw
  iintro ⟨I0, Hv, Hout, X2, HO⟩
  iapply (launch0 m A d L hR (4 * k.val + 4) (by omega) (k0_off4 k) (k0_off4_inb k h1) (off4_eq k) _ _) $$ I0
  iintro F0
  -- chunk 4k+1 on slot 1
  ihave F1' := (Entails.of_eq (slot1_fl m A d L (4 * k.val + 1) (by omega))) $$ F1
  iapply (compute_b m A d L _ k _ _ _ (4 * k.val + 1) (by omega) (k0_off3 L k 1#32) (k0_off3_inb L k 1) (off3_eq L k 1) O W _ _) $$ [F1' Hv Hout X3 HO]
  · isplitl [F1']; · iexact F1'
    isplitl [Hv]; · iexact Hv
    isplitl [Hout]; · iexact Hout
    isplitl [X3]; · iexact X3
    isplitl [HO]; · iexact HO
    iexact Hmw
  iintro ⟨I1, Hv, Hout, X3, HO⟩
  -- chunk 4k+2 on slot 2
  ihave F2' := (Entails.of_eq (slot2_fl m A d L (4 * k.val + 2) (by omega))) $$ F2
  iapply (compute_c m A d L _ k _ _ _ _ (4 * k.val + 2) (by omega) (k0_off3 L k 2#32) (k0_off3_inb L k 2) (off3_eq L k 2) O W _ _) $$ [F2' Hv Hout X4 HO]
  · isplitl [F2']; · iexact F2'
    isplitl [Hv]; · iexact Hv
    isplitl [Hout]; · iexact Hout
    isplitl [X4]; · iexact X4
    isplitl [HO]; · iexact HO
    iexact Hmw
  iintro ⟨I2, Hv, Hout, X4, HO⟩
  -- chunk 4k+3 on slot 3
  ihave F3' := (Entails.of_eq (slot3_fl m A d L (4 * k.val + 3) (by omega))) $$ F3
  iapply (compute_d m A d L (4 * k.val + 3) (by omega) (k0_off3 L k 3#32) (k0_off3_inb L k 3) (off3_eq L k 3) O W _ _) $$ [F3' Hv Hout X5 HO]
  · isplitl [F3']; · iexact F3'
    isplitl [Hv]; · iexact Hv
    isplitl [Hout]; · iexact Hout
    isplitl [X5]; · iexact X5
    isplitl [HO]; · iexact HO
    iexact Hmw
  iintro ⟨I3, Hv, Hout, X5, HO⟩
  rw [wp_ret]; imodintro
  isplitr; · iexact Hmw
  isplitl [F0]; · rw [slot0_fl m A d L (4 * (k.val + 1)) (by omega)]; iexact F0
  isplitl [I1]; · rw [slot1_idle m A d L _ (by omega)]; iexact I1
  isplitl [I2]; · rw [slot2_idle m A d L _ (by omega)]; iexact I2
  isplitl [I3]; · rw [slot3_idle m A d L _ (by omega)]; iexact I3
  isplitl [Zd L0d L1d Hr Hc Hv X0 X1 X2 X3 X4 X5 X6]
  · iframe
  isplitl [Hout]; · iexact Hout
  iexact HO

/-- One trip of the main loop. -/
theorem trip (hR : InRange A) (d : Dev nD) (L : grid0.Coords) (O : CellTallies nD τ sig (HIx 1)) (W : Waits sig (HIx 1))
    (v2 : BitVec 32) (k : Fin k0_t1_loop.trips) (u : Unit) :
    iprop(Transfers.MayWaits (thrV d L) (none : HIx 1) O ∗ loopInv m A d L O W k.val)
      ⊢ wp frame (wpE (defs₀ (F := F)) 𝒱₀ (thrV d L) none) Set.univ
          (k0_t1_body L zW (Memref.isWhole_whole _) rW (Memref.isWhole_whole _) cW (Memref.isWhole_whole _) oW (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc0_scratch11 cc0_scratch12 cc0_scratch13 cc0_scratch14 cc0_scratch15 cc0_scratch16 cc0_scratch17 cc0_scratch18 cc0_scoped0 cc0_scoped1 cc0_scoped2 cc0_scoped3 cc0_scoped4 cc0_scoped5 cc0_scoped6 v2 lanes k u)
          (fun _ => iprop(Transfers.MayWaits (thrV d L) (none : HIx 1) O ∗ loopInv m A d L O W (k.val + 1))) := by
  have hk : k.val < 31 := Nat.lt_of_lt_of_eq k.isLt k0_t1_trips
  by_cases h : k.val < 30
  · exact trip_more m A hR d L O W v2 k u h
  · exact trip_last m A hR d L O W v2 k u (by omega)

set_option maxHeartbeats 8000000 in
/-- The task. -/
theorem tile_core (hR : InRange A) : TileCore m A := by
  intro d L O W
  iintro ⟨#Hmw, Htask, Hbufs, Hsems, HO⟩
  unfold bodyAt
  rw [cc0_body_eq_skeleton]; unfold cc0_body_skel
  rw [k0_part3_eq_skeleton]; unfold k0_part3_skel
  simp only [SparseCore.waitIndirectGather, Prog.lift, Prog.bind_op, Prog.bind_ret, Prog.pure_eq_ret, bind_assoc]
  unfold taskRes bufs
  icases Htask with ⟨Hz, Hr, Hc, Ho⟩
  icases Hbufs with ⟨⟨%f0, H0⟩, ⟨%f1, H1⟩, Hb2, Hb3, Hb4, Hb5, Hb6, Hb7, Hb8, Hb9, Hb10⟩
  unfold sems
  icases Hsems with ⟨S11, S12, S13, S14, S15, S16, S17, S18, X0, X1, X2, X3, X4, X5, X6⟩
  rw [base_eq L]
  iapply (loadlist_R A d L f0 O W _ _) $$ [Hr H0 X0 HO]
  · isplitl [Hr]; · iexact Hr
    isplitl [H0]; · iexact H0
    isplitl [X0]; · iexact X0
    isplitl [HO]; · iexact HO
    iexact Hmw
  iintro ⟨Hr, H0, X0, HO⟩
  iapply (loadlist_C A d L f1 O _ _ _) $$ [Hc H1 X1 HO]
  · isplitl [Hc]; · iexact Hc
    isplitl [H1]; · iexact H1
    isplitl [X1]; · iexact X1
    isplitl [HO]; · iexact HO
    iexact Hmw
  iintro ⟨Hc, H1, X1, HO⟩
  ihave Hmid := (mid_of_loaded m A d L) $$ [Hz Hr Hc Ho H0 H1 Hb2 Hb3 Hb4 Hb5 Hb6 Hb7 Hb8 Hb9 Hb10 S11 S12 S13 S14 S15 S16 S17 S18 X0 X1 X2 X3 X4 X5 X6]
  · unfold sems; iframe
  icases Hmid with ⟨I0, I1, I2, I3, Hrest, Hout⟩
  iapply (launch0 m A d L hR 0 (by decide) ![0] inb_S10000_S80_0 rfl _ _) $$ I0; iintro F0
  iapply (launch1 m A d L hR 1 (by decide) ![80] inb_S10000_S80_80 rfl _ _) $$ I1; iintro F1
  iapply (launch2 m A d L hR 2 (by decide) ![160] inb_S10000_S80_160 rfl _ _) $$ I2; iintro F2
  iapply (launch3 m A d L hR 3 (by decide) ![240] inb_S10000_S80_240 rfl _ _) $$ I3; iintro F3
  iapply (Scf.wp_for_bind frame (wpE (defs₀ (F := F)) 𝒱₀ (thrV d L) none) Set.univ _ _ _ k0_t1_ok ⟨⟩ _
      (fun k _ => iprop(Transfers.MayWaits (thrV d L) (none : HIx 1) O ∗ loopInv m A d L O W k)) ?step) $$ [F0 F1 F2 F3 Hrest Hout HO] []
  case step => exact fun k u => trip m A hR d L O W _ k u
  · isplitr; · iexact Hmw
    unfold loopInv
    isplitl [F0]; · rw [slot0_fl m A d L (4 * 0) (by decide)]; iexact F0
    isplitl [F1]; · rw [slot1_fl m A d L (4 * 0 + 1) (by decide)]; iexact F1
    isplitl [F2]; · rw [slot2_fl m A d L (4 * 0 + 2) (by decide)]; iexact F2
    isplitl [F3]; · rw [slot3_fl m A d L (4 * 0 + 3) (by decide)]; iexact F3
    isplitl [Hrest]; · iexact Hrest
    isplitl [Hout]; · iexact Hout
    unfold owesSt
    iexists (insert (SemLoc.dma cc0_scoped1.sem, (none : HIx 1)) (insert (SemLoc.dma cc0_scoped0.sem, (none : HIx 1)) W)); isplitr
    · ipureintro; intro p hp
      rcases Finset.mem_insert.mp hp with rfl | hp
      · exact .inr rfl
      rcases Finset.mem_insert.mp hp with rfl | hp
      · exact .inr rfl
      · exact .inl hp
    iexact HO
  iintro %u ⟨-, Hinv⟩
  rw [show Scf.trips k0_t1_loop.lb k0_t1_loop.ub k0_t1_loop.st = 31 from k0_t1_trips]
  unfold loopInv
  icases Hinv with ⟨F0, F1, F2, F3, Hrest, Hout, HO⟩
  unfold restSt
  icases Hrest with ⟨Zd, L0d, L1d, Hr, Hc, Hv, X0, X1, X2, X3, X4, X5, X6⟩
  ihave F0' := (Entails.of_eq (slot0_fl m A d L (4 * 31) (by decide))) $$ F0
  iapply (compute_e m A d L 124 (by decide) (k0_off12 L) (k0_off12_inb L) (off12_eq L) O W _ _) $$ [F0' Hv Hout X6 HO]
  · isplitl [F0']; · iexact F0'
    isplitl [Hv]; · iexact Hv
    isplitl [Hout]; · iexact Hout
    isplitl [X6]; · iexact X6
    isplitl [HO]; · iexact HO
    iexact Hmw
  iintro ⟨I0, Hv, Hout, X6, HO⟩
  rw [wp_ret]; imodintro
  unfold owesSt
  icases HO with ⟨%W', %hW', HO⟩
  ihave F1 := (Entails.of_eq (slot1_idle m A d L (4 * 31 + 1) (by decide))) $$ F1
  ihave F2 := (Entails.of_eq (slot2_idle m A d L (4 * 31 + 2) (by decide))) $$ F2
  ihave F3 := (Entails.of_eq (slot3_idle m A d L (4 * 31 + 3) (by decide))) $$ F3
  have hclose := close_of_done m A d L
  unfold taskRes bufs sems at hclose
  rw [base_eq L] at hclose
  ihave Hfin := (hclose) $$ [I0 F1 F2 F3 Zd L0d L1d Hr Hc Hv X0 X1 X2 X3 X4 X5 X6 Hout]
  · isplitl [I0]; · iexact I0
    isplitl [F1]; · iexact F1
    isplitl [F2]; · iexact F2
    isplitl [F3]; · iexact F3
    isplitl [Zd L0d L1d Hr Hc Hv X0 X1 X2 X3 X4 X5 X6]; · unfold restSt; iframe
    iexact Hout
  icases Hfin with ⟨Ht, Hb, Hs⟩
  isplitl [Ht]; · iexact Ht
  isplitl [Hb]; · iexact Hb
  isplitl [Hs]; · iexact Hs
  iexists W'; isplitr
  · ipureintro; exact hW'
  iexact HO

end Cert.Proof.KI
end
-- ==== Proof.KIClaims.lean ====
/-
  The kernel's run under the input-domain precondition, and its frame claim: the precondition puts every row word
  and column word in range, the task's proof then holds of every vector subcore, and the launch gives the run.
-/
import proofs.«209252_g55662776156339_cont_9to1_m_525_47_alg».proof.Proof.KITile
import proofs.«209252_g55662776156339_cont_9to1_m_525_47_alg».proof.Proof.KIBody
import proofs.«209252_g55662776156339_cont_9to1_m_525_47_alg».proof.Proof.PreRange
import proofs.«209252_g55662776156339_cont_9to1_m_525_47_alg».proof.Proof.Gen.Pre_input_domain

noncomputable section

namespace Cert.Proof.KI

open Cert.KernelIdeal Cert.KernelIdeal.Gen

open Idealize.ShloMosaic
open Idealize.SL.Sem
open Idealize.ShloMosaic.ValueIdx (ix1 ix2 eq_ix1)

variable {F : FTy → Type} [FloatOps F]
variable (m : (ℓ : Loc nD τ sig) → Buf (Elt F) ℓ) (ρ : Dev nD → PrngReg)

/-- Under the input-domain precondition every row word and every column word names a row of the node table: they
    are entries of the edge list, which the precondition bounds. -/
theorem inRange_A₀ (hpre : ∀ c : Dev nD, Cert.Pre_input_domain.fn (F := F) (m (zLoc c)) (m (eLoc c)) = fun _ => 1#1) :
    InRange (A₀ m) := by
  intro d j
  obtain ⟨e, rfl⟩ : ∃ e : Fin 320000, j = ix1 e := ⟨j 0, eq_ix1 j⟩
  rw [A₀_ri, A₀_ci]
  exact ⟨Cert.RefSide.range_of_pre _ _ (hpre d) 0 e, Cert.RefSide.range_of_pre _ _ (hpre d) 1 e⟩

/-- The kernel's run: every weakly fair execution of the device's threads terminates, the result array at the
    claimed function of the arguments, the arguments unchanged. -/
theorem run_kernel [∀ e, Nonempty (Elt F e)]
    (hpre : ∀ c : Dev nD, Cert.Pre_input_domain.fn (F := F) (m (zLoc c)) (m (eLoc c)) = fun _ => 1#1) :
    θ_run (Cert.KernelIdeal.defs (F := F)) (Cert.KernelIdeal.threads (F := F)) ⟨m, fun _ => 0, ρ⟩
      (fun r => ∀ c : Dev nD, r.2.mem (oLoc c) = outOf m (A₀ m) c ∧ r.2.mem (zLoc c) = m (zLoc c) ∧ r.2.mem (eLoc c) = m (eLoc c)) :=
  run_main m ρ (tileObl_of_core m (A₀ m) facts (tile_core m (A₀ m) (inRange_A₀ m hpre)))

/-- `Cert.frame_KernelIdeal` (Defs.lean): the run, the result's value dropped. -/
theorem frame_claim : Cert.frame_KernelIdeal := fun m ρ hpre =>
  (θ_run Cert.KernelIdeal.defs _ _).mono (fun _ h c => (h c).2) (run_kernel m ρ hpre)

end Cert.Proof.KI

end
-- ==== Proof.RefSpec.lean ====
/-
  The reference as ONE pure function of its two argument arrays.

  `takeRows z idx` is the row lookup `jnp.take(z, idx, axis=0)` in fill mode, composed operation by operation as the
  program's helper function computes it: a negative index is moved up by the row count 10000 (`wrapIndex`); the moved
  index, as a column [320000, 1], is the start-index array of a whole-row gather, which clamps it into [0, 9999]
  (`indexColumn`); the same column is tested against [0, 9999] and the test and-reduced over the unit axis
  (`inRange`); where the test fails the gathered row is replaced by the fill value (the word 0x7FC00000).

  `refOut z ei` is the whole program: rows 0 and 1 of the index array, each flattened to [320000]; the two row lookups;
  their elementwise product summed over the 128 columns from the zero word (`logits`); and 1 / (1 + exp (-sum)), the
  logistic function as the program spells it (`sigmoid`). Every definition is stated for any reading of the floats.
-/
import proofs.«209252_g55662776156339_cont_9to1_m_525_47_alg».proof.ReferenceIdeal
import proofs.«209252_g55662776156339_cont_9to1_m_525_47_alg».proof.Proof.Gen.ReferenceIdeal

noncomputable section

namespace Cert.RefSide

open Idealize.ShloMosaic Cert.ReferenceIdeal Cert.ReferenceIdeal.Facts₀

variable {F : FTy → Type} [FloatOps F]

/-- The index with negatives moved up by the row count: `where(idx < 0, idx + 10000, idx)`. -/
def wrapIndex (idx : IVec S320000 32) : IVec S320000 32 :=
  select (cmpi .slt idx (broadcastInDim S320000 ![] bcast_S_S320000 (constantI S_ 32 0#32)))
    (addi idx (broadcastInDim S320000 ![] bcast_S_S320000 (constantI S_ 32 10000#32))) idx

/-- The wrapped index as a column [320000, 1]: the gather's start indices. -/
def indexColumn (idx : IVec S320000 32) : IVec S320000x1 32 :=
  broadcastInDim S320000x1 ![0] bcast_S320000_S320000x1_0 (wrapIndex idx)

/-- Row by row: is the start index in [0, 9999]? The two signed comparisons, and-reduced over the unit axis. -/
def inRange (col : IVec S320000x1 32) : IVec S320000 1 :=
  Host.reduce IntOp.andi
    (andi (cmpi .sge col (broadcastInDim S320000x1 ![] bcast_S_S320000x1 (constantI S_ 32 0#32)))
      (cmpi .sle col (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- `jnp.take(z, idx, axis=0)`, fill mode, as the helper function composes it: the gathered rows where the start index
    is in range, the fill word elsewhere. -/
def takeRows (z : FVec F S10000x128 .f32) (idx : IVec S320000 32) : FVec F S320000x128 .f32 :=
  select (broadcastInDim S320000x128 ![0] bcast_S320000_S320000x128_0 (inRange (indexColumn idx)))
    (Host.gather gather_S10000x128_S320000x1_S320000x128_1_0_n_n_0_1_1128 z (indexColumn idx))
    (broadcastInDim S320000x128 ![] bcast_S_S320000x128 (constant S_ .f32 0x7FC00000#32))

/-- Row 0 of the [2, 320000] index array, flattened to [320000] (a slice, then a reshape). -/
def indexRow0 (ei : IVec S2x320000 32) : IVec S320000 32 :=
  shapeCast S320000 (extractStridedSlice S1x320000 ![0, 0] ei slices_S2x320000_S1x320000_0_0) shapeCasts_S1x320000_S320000

/-- Row 1 of the index array, flattened likewise. -/
def indexRow1 (ei : IVec S2x320000 32) : IVec S320000 32 :=
  shapeCast S320000 (extractStridedSlice S1x320000 ![1, 0] ei slices_S2x320000_S1x320000_1_0) shapeCasts_S1x320000_S320000

/-- The sum over the 128 columns of the product of the two looked-up rows, from the zero word. -/
def logits (z : FVec F S10000x128 .f32) (ei : IVec S2x320000 32) : FVec F S320000 .f32 :=
  Host.reduceAdd (mulf (takeRows z (indexRow0 ei)) (takeRows z (indexRow1 ei))) (constant S_ .f32 0x00000000#32)
    reducesTo_S320000x128_S320000_d1 h_S_

/-- The logistic function as the program spells it: 1 / (1 + exp (-s)), the ones broadcast from the word 0x3F800000. -/
def sigmoid (s : FVec F S320000 .f32) : FVec F S320000 .f32 :=
  Host.divf (broadcastInDim S320000 ![] bcast_S_S320000 (constant S_ .f32 0x3F800000#32))
    (addf (broadcastInDim S320000 ![] bcast_S_S320000 (constant S_ .f32 0x3F800000#32)) (Host.exp (Host.negf s)))

/-- The reference program's result as a function of its two arguments. -/
def refOut (z : FVec F S10000x128 .f32) (ei : IVec S2x320000 32) : FVec F S320000 .f32 :=
  sigmoid (logits z ei)

end Cert.RefSide

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibGatherRows.lean ====
/-
  A row gather, read at an index.

  `x[idx]` for an operand `x : [N, F]` and a column of start indices `idx : [E, 1]` copies whole rows: row `e` of
  the `[E, F]` result is the operand's row named by start index `e`, the index word read signed and clamped into
  `[0, N − 1]`; the column `f` passes through untouched. The host operation reads the operand at the operand index
  the dimension numbers compute from the result index; for the whole-row dimension numbers that operand index is
  `(clampRow idx e, f)`, so the operation at `(e, f)` is `x (clampRow idx e, f)`, for every element type.
-/
import Idealize.ShloMosaic.PureOps.Ideal
import Idealize.ShloMosaic.Lib.ValueIdx
import proofs.«209252_g55662776156339_cont_9to1_m_525_47_alg».proof.Proof.LibRowOps

noncomputable section

namespace Cert.Lib.RowOps

open Idealize.ShloMosaic Idealize.ShloMosaic.ValueIdx

/-- A host gather whose dimension numbers are the whole-row ones, read at `(e, f)`: the operand at row
    `clampRow idx e` (start index `e` read signed, clamped into `[0, N − 1]`) and the same column `f`. The
    dimension numbers are taken as any record `d` equal to `rowGather N E F wf`, so that a printed record is
    matched by `rfl`. -/
theorem hostGather_rows {N E F w : Nat} {α : Type} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F])
    (hd : d = rowGather N E F wf)
    (x : (⟨2, ![N, F]⟩ : Shape).Idx → α) (idx : IVec ⟨2, ![E, 1]⟩ w) (e : Fin E) (f : Fin F) :
    Host.gather d x idx (ix2 e f) = x (ix2 (clampRow hN idx e) f) := by
  subst hd
  -- the host operation is the operand read at the operand index of the result index
  show x ((rowGather N E F wf).operandIdx (ix2 e f) idx) = x (ix2 (clampRow hN idx e) f)
  rw [rowGather_operandIdx hN wf idx e f]

end Cert.Lib.RowOps

end
-- ==== Proof.RefValue.lean ====
/-
  The reference's result read at an index, when every index word is a row number.

  Under the range hypothesis (every word of the index array, read unsigned, is below 10000) the row lookup
  `takeRows z idx` does nothing but look up: an index that is not negative is not moved, so the start-index column holds
  the index words themselves; each passes both range tests, so the and-reduction over the unit axis is 1 on every row
  and the select keeps the gathered row; and the gather reads row `idx e` itself, the clamp into [0, 9999] being the
  identity on a word below 10000. Row `a` of the index array, sliced and flattened, is `ei (a, ·)`. The host's float sum
  over the column axis is, on the extended reals, the initial value (the zero word, 0) plus the sum over the 128 columns.
  So the result at `e` is 1 / (1 + exp (-∑ₖ z[ei[0,e], k] · z[ei[1,e], k])), with the quotient, the exponential and the
  one (the word 0x3F800000) as the extended reals read them.
-/
import proofs.«209252_g55662776156339_cont_9to1_m_525_47_alg».proof.Proof.RefSpec
import proofs.«209252_g55662776156339_cont_9to1_m_525_47_alg».proof.Proof.LibGatherRows
import Idealize.ShloMosaic.PureOps.Ideal.Laws
import Idealize.ShloMosaic.Lib.ValueIdx
import Idealize.ShloMosaic.Lib.ValueLayout

noncomputable section

open scoped BigOperators

namespace Cert.RefSide

open Idealize.ShloMosaic Idealize.ShloMosaic.ValueIdx Cert.ReferenceIdeal Cert.ReferenceIdeal.Facts₀ Cert.Lib.RowOps

/-! ## Words below 10000 -/

/-- A 32-bit word below 10000 reads the same signed and unsigned: it is not negative, it passes both range tests, and
    clamping its signed value into [0, 9999] changes nothing. -/
theorem word_facts (w : BitVec 32) (h : w.toNat < 10000) :
    IntOp.cmpi .slt w 0#32 = 0#1 ∧ IntOp.cmpi .sge w 0#32 = 1#1 ∧ IntOp.cmpi .sle w 9999#32 = 1#1
      ∧ min w.toInt.toNat (10000 - 1) = w.toNat := by
  have hi : w.toInt = (w.toNat : Int) := BitVec.toInt_eq_toNat_of_lt (by omega)
  have e0 : (0#32 : BitVec 32).toInt = 0 := by decide
  have e1 : (9999#32 : BitVec 32).toInt = 9999 := by decide
  refine ⟨eq_zero_of_ne_one fun h1 => ?_, IntOp.cmpi_sge.2 ?_, IntOp.cmpi_sle.2 ?_, ?_⟩
  · have := IntOp.cmpi_slt.1 h1
    rw [hi, e0] at this
    omega
  · rw [hi, e0]; omega
  · rw [hi, e1]; omega
  · rw [hi]; omega

/-! ## An and-reduction of ones -/

/-- A left fold by `and` from 1 over one-bit words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A `stablehlo.reduce` by `and` from the initial value 1 of an operand that is 1 everywhere is 1 everywhere. -/
theorem reduce_andi_ones {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_ones x _ fun n _ => hx n

/-! ## The row lookup on in-range indices -/

section Lookup

variable {F : FTy → Type} [FloatOps F]

/-- An index that is not negative is not moved. -/
theorem wrapIndex_apply (idx : IVec S320000 32) (i : S320000.Idx) (h : (idx i).toNat < 10000) :
    wrapIndex idx i = idx i := by
  show Scalar.select (IntOp.cmpi .slt (idx i) 0#32) (IntOp.addi (idx i) 10000#32) (idx i) = idx i
  rw [(word_facts _ h).1, select_zero]

/-- The start-index column at `(e, u)` is the wrapped index at `e`. -/
theorem indexColumn_apply (idx : IVec S320000 32) (e : Fin 320000) (u : Fin 1) :
    indexColumn idx (ix2 e u) = wrapIndex idx (ix1 e) := by
  unfold indexColumn broadcastInDim
  refine congrArg (wrapIndex idx) (funext fun a => ?_)
  obtain rfl : a = 0 := Subsingleton.elim _ _
  rw [dif_neg (by decide)]
  rfl

/-- With every index in range the start-index column holds the index words themselves. -/
theorem indexColumn_eq (idx : IVec S320000 32) (hidx : ∀ e : Fin 320000, (idx (ix1 e)).toNat < 10000)
    (e : Fin 320000) (u : Fin 1) : indexColumn idx (ix2 e u) = idx (ix1 e) := by
  rw [indexColumn_apply, wrapIndex_apply _ _ (hidx e)]

/-- A column of words below 10000 passes the range test on every row. -/
theorem inRange_eq_one (col : IVec S320000x1 32) (h : ∀ i, (col i).toNat < 10000) (j : S320000.Idx) :
    inRange col j = 1#1 := by
  unfold inRange
  refine reduce_andi_ones _ _ _ _ (fun _ => rfl) (fun i => ?_) j
  show IntOp.andi (IntOp.cmpi .sge (col i) 0#32) (IntOp.cmpi .sle (col i) 9999#32) = 1#1
  exact IntOp.andi_eq_one.2 ⟨(word_facts _ (h i)).2.1, (word_facts _ (h i)).2.2.1⟩

/-- THE ROW LOOKUP AT `(e, f)`: with every index in range, row `idx e` of the table at column `f` (`r` names that row). -/
theorem takeRows_apply (z : FVec F S10000x128 .f32) (idx : IVec S320000 32)
    (hidx : ∀ e : Fin 320000, (idx (ix1 e)).toNat < 10000) (e : Fin 320000) (f : Fin 128) (r : Fin 10000)
    (hr : (idx (ix1 e)).toNat = r.val) : takeRows z idx (ix2 e f) = z (ix2 r f) := by
  have hcol : ∀ i : S320000x1.Idx, (indexColumn idx i).toNat < 10000 := fun i => by
    obtain ⟨a, b, rfl⟩ : ∃ (a : Fin 320000) (b : Fin 1), i = ix2 a b := ⟨i 0, i 1, eq_ix2 i⟩
    rw [indexColumn_eq idx hidx]; exact hidx a
  unfold takeRows
  rw [select_apply]
  have hb : broadcastInDim S320000x128 ![0] bcast_S320000_S320000x128_0 (inRange (indexColumn idx)) (ix2 e f) = 1#1 :=
    inRange_eq_one _ hcol _
  rw [hb, select_one,
    hostGather_rows (by decide) gather_S10000x128_S320000x1_S320000x128_1_0_n_n_0_1_1128
      gather_S10000x128_S320000x1_S320000x128_1_0_n_n_0_1_1128_wf rfl]
  refine congrArg (fun q => z (ix2 q f)) (Fin.ext ?_)
  show min ((indexColumn idx (ix2 e 0)).toInt.toNat) (10000 - 1) = r.val
  rw [indexColumn_eq idx hidx, (word_facts _ (hidx e)).2.2.2, hr]

end Lookup

/-! ## The two index rows -/

/-- Row 0 of the index array, sliced and flattened, at `e`. -/
theorem indexRow0_apply (ei : IVec S2x320000 32) (e : Fin 320000) : indexRow0 ei (ix1 e) = ei (ix2 (0 : Fin 2) e) := by
  unfold indexRow0
  rw [shapeCast_1a_a_apply, slice2_axis0_apply 0 ei _ (0 : Fin 1) e (0 : Fin 2) rfl]

/-- Row 1 of the index array, sliced and flattened, at `e`. -/
theorem indexRow1_apply (ei : IVec S2x320000 32) (e : Fin 320000) : indexRow1 ei (ix1 e) = ei (ix2 (1 : Fin 2) e) := by
  unfold indexRow1
  rw [shapeCast_1a_a_apply, slice2_axis0_apply 1 ei _ (0 : Fin 1) e (1 : Fin 2) rfl]

/-! ## The sum and the result, on the extended reals -/

/-- The word 0x3F800000 is the extended real 1. -/
theorem ofBits_one_f32 : Ideal.ofBits .f32 0x3F800000#32 = 1 := by
  simp [Ideal.ofBits, Ideal.ieee]
  rw [← EReal.coe_mul]
  norm_num

/-- The logistic function at an index, as the extended reals read its operations. -/
theorem sigmoid_apply (s : FVec Ideal S320000 .f32) (i : S320000.Idx) :
    sigmoid s i
      = Ideal.div (Ideal.ofBits .f32 0x3F800000#32) (Ideal.ofBits .f32 0x3F800000#32 + Ideal.exp (-(s i))) := by
  unfold sigmoid
  simp only [Host.divf, Host.exp, Host.negf, addf, broadcastInDim, constant, Ideal.hostDivf_def,
    Ideal.hostUnary_exp_def, Ideal.hostNegf_def, Ideal.negf_def, Ideal.addf_def, Ideal.ofBits_def]

/-- THE SUM AT `e`: the products of the two looked-up rows summed over the 128 columns (the initial zero word is 0). -/
theorem logits_apply (z : FVec Ideal S10000x128 .f32) (ei : IVec S2x320000 32)
    (hR : ∀ (a : Fin 2) (e : Fin 320000), (ei (ix2 a e)).toNat < 10000) (e : Fin 320000) :
    logits z ei (ix1 e)
      = ∑ k : Fin 128, z (ix2 ⟨(ei (ix2 0 e)).toNat, hR 0 e⟩ k) * z (ix2 ⟨(ei (ix2 1 e)).toNat, hR 1 e⟩ k) := by
  have h0 : ∀ e : Fin 320000, (indexRow0 ei (ix1 e)).toNat < 10000 := fun e => by rw [indexRow0_apply]; exact hR 0 e
  have h1 : ∀ e : Fin 320000, (indexRow1 ei (ix1 e)).toNat < 10000 := fun e => by rw [indexRow1_apply]; exact hR 1 e
  have hred : S320000x128.Reduces [1] S320000 := by decide
  unfold logits Host.reduceAdd
  rw [Ideal.hostReduceAdd_def, Ideal.hostReduceAdd_single reducesTo_S320000x128_S320000_d1 hred]
  show Ideal.ofBits .f32 0x00000000#32 + ∑ k : Fin 128, _ = _
  rw [Ideal.ofBits_zero_f32, zero_add]
  refine Finset.sum_congr rfl fun k _ => ?_
  have hl : hred.lift (ix1 e) k = ix2 e k := by
    funext c
    match c with
    | ⟨0, _⟩ => rfl
    | ⟨1, _⟩ => rfl
  rw [hl, mulf_apply,
    takeRows_apply z _ h0 e k ⟨(ei (ix2 0 e)).toNat, hR 0 e⟩ (by rw [indexRow0_apply]),
    takeRows_apply z _ h1 e k ⟨(ei (ix2 1 e)).toNat, hR 1 e⟩ (by rw [indexRow1_apply])]

/-- THE RESULT AT `e`, coordinates explicit: 1 / (1 + exp (-s)) with `s` the sum over the 128 columns of
    `z[ei[0,e], k] · z[ei[1,e], k]`; the one is the word 0x3F800000 as the extended reals read it. -/
theorem refOut_apply_ix1 (z : FVec Ideal S10000x128 .f32) (ei : IVec S2x320000 32)
    (hR : ∀ (a : Fin 2) (e : Fin 320000), (ei (ix2 a e)).toNat < 10000) (e : Fin 320000) :
    refOut z ei (ix1 e)
      = Ideal.div (Ideal.ofBits .f32 0x3F800000#32)
          (Ideal.ofBits .f32 0x3F800000#32
            + Ideal.exp (-(∑ k : Fin 128, z (ix2 ⟨(ei (ix2 0 e)).toNat, hR 0 e⟩ k) * z (ix2 ⟨(ei (ix2 1 e)).toNat, hR 1 e⟩ k)))) := by
  unfold refOut
  rw [sigmoid_apply, logits_apply z ei hR e]

/-- THE RESULT AT AN INDEX `e` of the [320000] result (`e 0` its coordinate). -/
theorem refOut_apply (z : FVec Ideal S10000x128 .f32) (ei : IVec S2x320000 32)
    (hR : ∀ (a : Fin 2) (e : Fin 320000), (ei (ix2 a e)).toNat < 10000) (e : S320000.Idx) :
    refOut z ei e
      = Ideal.div (Ideal.ofBits .f32 0x3F800000#32)
          (Ideal.ofBits .f32 0x3F800000#32
            + Ideal.exp (-(∑ k : Fin 128, z (ix2 ⟨(ei (ix2 0 (e 0))).toNat, hR 0 (e 0)⟩ k)
                * z (ix2 ⟨(ei (ix2 1 (e 0))).toNat, hR 1 (e 0)⟩ k)))) := by
  obtain ⟨e0, rfl⟩ : ∃ e0 : Fin 320000, e = ix1 e0 := ⟨e 0, eq_ix1 e⟩
  exact refOut_apply_ix1 z ei hR e0

end Cert.RefSide

end
-- ==== Proof.KIAlgebra.lean ====
/-
  The kernel's claimed result is the reference's result.

  A lane's accumulator is a left fold from the zero word: after `n` steps it is, on the extended reals, the sum over
  `t < n` of the products of the two rows' entries at column `(l + t) mod 128` — addition of extended reals is
  associative and has 0 as its unit, and nothing else is used. After all 128 steps the columns visited are every
  column once: `t ↦ (l + t) mod 128` is a bijection of the 128 columns (its inverse is `k ↦ (k + 128 − l mod 128) mod
  128`), so re-indexing the sum along it gives the sum over the columns in their own order, which is the reference's
  sum. A row word below 10000 names the row it is (the reduction mod 10000 in the specification changes nothing). The
  score `1 / (1 + exp (0 − a))` is the reference's `1 / (1 + exp (−a))`, the zero word being 0. No finiteness of the
  entries is needed: no product is distributed over a sum.
-/
import proofs.«209252_g55662776156339_cont_9to1_m_525_47_alg».proof.Proof.KIIface
import proofs.«209252_g55662776156339_cont_9to1_m_525_47_alg».proof.Proof.RefValue

noncomputable section

open scoped BigOperators

namespace Cert.Proof.KI

open Cert.KernelIdeal Idealize.ShloMosaic Idealize.ShloMosaic.ValueIdx

/-- The order in which lane `l` walks the 128 columns: a bijection of the columns. -/
def rot (l : ℕ) : Fin 128 ≃ Fin 128 where
  toFun t := colAt l t.val
  invFun k := ⟨(k.val + 128 - l % 128) % 128, Nat.mod_lt _ (by decide)⟩
  left_inv t := by
    apply Fin.ext
    show ((l + t.val) % 128 + 128 - l % 128) % 128 = t.val
    have := t.isLt
    omega
  right_inv k := by
    apply Fin.ext
    show (l + (k.val + 128 - l % 128) % 128) % 128 = k.val
    have := k.isLt
    omega

theorem rot_apply (l : ℕ) (t : Fin 128) : rot l t = colAt l t.val := rfl

/-- A lane's accumulator after `n` steps is the sum of its first `n` products. -/
theorem accL_eq_sum (z : FVec Ideal S10000x128 .f32) (w₁ w₂ : BitVec 32) (l : ℕ) :
    ∀ n : ℕ, accL (F := Ideal) z w₁ w₂ l n
      = ∑ t ∈ Finset.range n, z (ix2 (rowOfWord w₁) (colAt l t)) * z (ix2 (rowOfWord w₂) (colAt l t))
  | 0 => by
    rw [accL, Finset.sum_range_zero]
    exact Ideal.ofBits_zero_f32
  | n + 1 => by
    rw [accL, Finset.sum_range_succ, ← accL_eq_sum z w₁ w₂ l n]
    rfl

/-- After all 128 steps: the sum over the columns in their own order. -/
theorem accL_full (z : FVec Ideal S10000x128 .f32) (w₁ w₂ : BitVec 32) (l : ℕ) :
    accL (F := Ideal) z w₁ w₂ l 128 = ∑ k : Fin 128, z (ix2 (rowOfWord w₁) k) * z (ix2 (rowOfWord w₂) k) := by
  rw [accL_eq_sum, ← Fin.sum_univ_eq_sum_range
    (fun t => z (ix2 (rowOfWord w₁) (colAt l t)) * z (ix2 (rowOfWord w₂) (colAt l t))) 128]
  exact Equiv.sum_comp (rot l) (fun k => z (ix2 (rowOfWord w₁) k) * z (ix2 (rowOfWord w₂) k))

/-- The score on the extended reals: `0 − a` is `−a`. -/
theorem score_eq (a : Ideal .f32) :
    score (F := Ideal) a
      = Ideal.div (Ideal.ofBits .f32 0x3F800000#32) (Ideal.ofBits .f32 0x3F800000#32 + Ideal.exp (-a)) := by
  unfold score
  simp only [Ideal.divf_def, Ideal.addf_def, Ideal.exp_def, Ideal.subf_def, Ideal.ofBits_def, Ideal.ofBits_zero_f32,
    zero_sub]

/-- A word below 10000 names the row it is. -/
theorem rowOfWord_eq (w : BitVec 32) (h : w.toNat < 10000) : rowOfWord w = ⟨w.toNat, h⟩ :=
  Fin.ext (Nat.mod_eq_of_lt h)

/-- THE BRIDGE: with the row words and the column words the two rows of the index array, each word a row number, the
    function the kernel's result is claimed to hold is the reference's result. -/
theorem outSpec_eq_refOut (z : FVec Ideal S10000x128 .f32) (ei : IVec S2x320000 32) (ri ci : IVec S320000 32)
    (hri : ∀ e : Fin 320000, ri (ix1 e) = ei (ix2 0 e)) (hci : ∀ e : Fin 320000, ci (ix1 e) = ei (ix2 1 e))
    (hR : ∀ (a : Fin 2) (e : Fin 320000), (ei (ix2 a e)).toNat < 10000) :
    outSpec (F := Ideal) z ri ci = Cert.RefSide.refOut z ei := by
  funext j
  obtain ⟨e, rfl⟩ : ∃ e : Fin 320000, j = ix1 e := ⟨j 0, eq_ix1 j⟩
  rw [Cert.RefSide.refOut_apply_ix1 z ei hR e]
  show score (F := Ideal) (accL (F := Ideal) z (ri (ix1 e)) (ci (ix1 e)) (e.val % 16) 128) = _
  rw [score_eq, accL_full, hri, hci, rowOfWord_eq _ (hR 0 e), rowOfWord_eq _ (hR 1 e)]

end Cert.Proof.KI

end
-- ==== Proof.RefRun.lean ====
/-
  The reference program's run, read back.

  The program is a straight line of host operations: its two calls of the row-lookup helper (and, inside each, the call
  of the select helper) are the callee's operations at the call's own buffers, so @main is the list `ops` of 61
  operations run in order (`main_eq`). Folding the list over any contents of the buffers, the result buffer holds
  `refOut` of what the two argument buffers held (`out_eq`), and no operation writes an argument buffer
  (`arg0_eq`, `arg1_eq`). Hence from any launch memory every fair execution terminates with the result `refOut` of the
  arguments and the arguments unchanged (`ref_run`).
-/
import proofs.«209252_g55662776156339_cont_9to1_m_525_47_alg».proof.Proof.RefSpec
import Idealize.ShloMosaic.Lib.StableHlo.Run

noncomputable section

namespace Cert.RefSide

open Idealize.ShloMosaic Idealize.ShloMosaic.TcCoe Idealize.SL.Sem Idealize.ShloMosaic.StableHlo
open Cert.ReferenceIdeal Cert.ReferenceIdeal.Facts₀

variable {F : FTy → Type} [FloatOps F]

/-- @main's operations in order, the calls unfolded: the two index rows (a slice and a reshape each); the row lookup
    at row 0's indices, 23 operations into the first call's buffers (the select helper's one operation seventh among
    them); the same at row 1's indices into the second call's; then the product, the zero, the sum over columns, the
    negation, the exponential, the two broadcast ones, the sum and the quotient. -/
abbrev ops : List (HloOp τ sig (Elt F)) :=
  [
    StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.TRef.nullary main_call0.c (constantI S_ 32 0#32),
    StableHlo.TRef.unary main_call0.c main_call0.v0 (broadcastInDim S320000 ![] bcast_S_S320000),
    StableHlo.TRef.binary (.of main_v1 : StableHlo.TRef sig ⟨S320000, .i32⟩) main_call0.v0 main_call0.v1 (cmpi .slt),
    StableHlo.TRef.nullary main_call0.c_0 (constantI S_ 32 10000#32),
    StableHlo.TRef.unary main_call0.c_0 main_call0.v2 (broadcastInDim S320000 ![] bcast_S_S320000),
    StableHlo.TRef.binary (.of main_v1 : StableHlo.TRef sig ⟨S320000, .i32⟩) main_call0.v2 main_call0.v3 addi,
    StableHlo.TRef.ternary main_call0.v1 main_call0.v3 (.of main_v1 : StableHlo.TRef sig ⟨S320000, .i32⟩) main_call0.call0.v0 select,
    StableHlo.TRef.unary main_call0.call0.v0 main_call0.v5 (broadcastInDim S320000x1 ![0] bcast_S320000_S320000x1_0),
    StableHlo.TRef.nullary main_call0.c_1 (constantI S1 32 9999#32),
    StableHlo.TRef.nullary main_call0.c_2 (constantI S_ 32 0#32),
    StableHlo.TRef.unary main_call0.c_2 main_call0.v6 (broadcastInDim S320000x1 ![] bcast_S_S320000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S320000x1 ![0, 1] bcast_S1x1_S320000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S320000x1_S320000_d1 h_S_),
    StableHlo.TRef.binary (.of main_arg0 : StableHlo.TRef sig ⟨S10000x128, .f32⟩) main_call0.v5 main_call0.v13 (fun x i => Host.gather gather_S10000x128_S320000x1_S320000x128_1_0_n_n_0_1_1128 x i),
    StableHlo.TRef.unary main_call0.v12 main_call0.v14 (broadcastInDim S320000x128 ![0] bcast_S320000_S320000x128_0),
    StableHlo.TRef.nullary main_call0.cst (constant S_ .f32 0x7FC00000#32),
    StableHlo.TRef.unary main_call0.cst main_call0.v15 (broadcastInDim S320000x128 ![] bcast_S_S320000x128),
    StableHlo.TRef.ternary main_call0.v14 main_call0.v13 main_call0.v15 main_call0.v16 select,
    StableHlo.TRef.nullary main_call1.c (constantI S_ 32 0#32),
    StableHlo.TRef.unary main_call1.c main_call1.v0 (broadcastInDim S320000 ![] bcast_S_S320000),
    StableHlo.TRef.binary (.of main_v3 : StableHlo.TRef sig ⟨S320000, .i32⟩) main_call1.v0 main_call1.v1 (cmpi .slt),
    StableHlo.TRef.nullary main_call1.c_0 (constantI S_ 32 10000#32),
    StableHlo.TRef.unary main_call1.c_0 main_call1.v2 (broadcastInDim S320000 ![] bcast_S_S320000),
    StableHlo.TRef.binary (.of main_v3 : StableHlo.TRef sig ⟨S320000, .i32⟩) main_call1.v2 main_call1.v3 addi,
    StableHlo.TRef.ternary main_call1.v1 main_call1.v3 (.of main_v3 : StableHlo.TRef sig ⟨S320000, .i32⟩) main_call1.call0.v0 select,
    StableHlo.TRef.unary main_call1.call0.v0 main_call1.v5 (broadcastInDim S320000x1 ![0] bcast_S320000_S320000x1_0),
    StableHlo.TRef.nullary main_call1.c_1 (constantI S1 32 9999#32),
    StableHlo.TRef.nullary main_call1.c_2 (constantI S_ 32 0#32),
    StableHlo.TRef.unary main_call1.c_2 main_call1.v6 (broadcastInDim S320000x1 ![] bcast_S_S320000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S320000x1 ![0, 1] bcast_S1x1_S320000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S320000x1_S320000_d1 h_S_),
    StableHlo.TRef.binary (.of main_arg0 : StableHlo.TRef sig ⟨S10000x128, .f32⟩) main_call1.v5 main_call1.v13 (fun x i => Host.gather gather_S10000x128_S320000x1_S320000x128_1_0_n_n_0_1_1128 x i),
    StableHlo.TRef.unary main_call1.v12 main_call1.v14 (broadcastInDim S320000x128 ![0] bcast_S320000_S320000x128_0),
    StableHlo.TRef.nullary main_call1.cst (constant S_ .f32 0x7FC00000#32),
    StableHlo.TRef.unary main_call1.cst main_call1.v15 (broadcastInDim S320000x128 ![] bcast_S_S320000x128),
    StableHlo.TRef.ternary main_call1.v14 main_call1.v13 main_call1.v15 main_call1.v16 select,
    StableHlo.binary main_v4 main_v5 main_v6 (mulf : (⟨S320000x128, .f32⟩ : BufTy).Contents (Elt F) → (⟨S320000x128, .f32⟩ : BufTy).Contents (Elt F) → (⟨S320000x128, .f32⟩ : BufTy).Contents (Elt F)),
    StableHlo.nullary main_cst (constant S_ .f32 0x00000000#32),
    StableHlo.binary main_v6 main_cst main_v7 ((fun x v => Host.reduceAdd x v reducesTo_S320000x128_S320000_d1 h_S_) : (⟨S320000x128, .f32⟩ : BufTy).Contents (Elt F) → (⟨S_, .f32⟩ : BufTy).Contents (Elt F) → (⟨S320000, .f32⟩ : BufTy).Contents (Elt F)),
    StableHlo.unary main_v7 main_v8 (Host.negf : (⟨S320000, .f32⟩ : BufTy).Contents (Elt F) → (⟨S320000, .f32⟩ : BufTy).Contents (Elt F)),
    StableHlo.unary main_v8 main_v9 (Host.exp : (⟨S320000, .f32⟩ : BufTy).Contents (Elt F) → (⟨S320000, .f32⟩ : BufTy).Contents (Elt F)),
    StableHlo.nullary main_cst_0 (constant S_ .f32 0x3F800000#32),
    StableHlo.unary main_cst_0 main_v10 (broadcastInDim S320000 ![] bcast_S_S320000 : (⟨S_, .f32⟩ : BufTy).Contents (Elt F) → (⟨S320000, .f32⟩ : BufTy).Contents (Elt F)),
    StableHlo.binary main_v10 main_v9 main_v11 (addf : (⟨S320000, .f32⟩ : BufTy).Contents (Elt F) → (⟨S320000, .f32⟩ : BufTy).Contents (Elt F) → (⟨S320000, .f32⟩ : BufTy).Contents (Elt F)),
    StableHlo.nullary main_cst_1 (constant S_ .f32 0x3F800000#32),
    StableHlo.unary main_cst_1 main_v12 (broadcastInDim S320000 ![] bcast_S_S320000 : (⟨S_, .f32⟩ : BufTy).Contents (Elt F) → (⟨S320000, .f32⟩ : BufTy).Contents (Elt F)),
    StableHlo.binary main_v12 main_v11 main_v13 (Host.divf : (⟨S320000, .f32⟩ : BufTy).Contents (Elt F) → (⟨S320000, .f32⟩ : BufTy).Contents (Elt F) → (⟨S320000, .f32⟩ : BufTy).Contents (Elt F)) ]

set_option maxRecDepth 2048 in
/-- @main is that straight line: the helper functions' definitions unfolded at their calls, both sides are one chain
    of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., nullary_bufs_sub .., nullary_bufs_sub .., unary_bufs_sub ..,
    binary_bufs_sub .., unary_bufs_sub .., unary_bufs_sub .., binary_bufs_sub .., binary_bufs_sub ..,
    nullary_bufs_sub .., binary_bufs_sub .., binary_bufs_sub .., unary_bufs_sub .., nullary_bufs_sub ..,
    unary_bufs_sub .., ternary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., nullary_bufs_sub .., binary_bufs_sub .., unary_bufs_sub .., unary_bufs_sub ..,
    nullary_bufs_sub .., unary_bufs_sub .., binary_bufs_sub .., nullary_bufs_sub .., unary_bufs_sub ..,
    binary_bufs_sub ..⟩

attribute [local irreducible] Host.reduce Host.gather Host.reduceAdd in
set_option maxRecDepth 8192 in
set_option maxHeartbeats 400000 in
/-- The fold at the result buffer: each operation's result decides whether the buffer read is the one it writes, and
    the typed references' transports are the identity at these literal references; what is left is `refOut` of the
    argument buffers' contents, operation for operation. The reductions and the gather stay folded meanwhile. -/
theorem out_eq (V : Valuation τ sig (Elt F)) :
    after ops V (main_v13 : DevRef τ sig) = refOut (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- From any memory with zero counters: every weakly fair execution of @main terminates with the result buffer at
    `refOut` of the two argument arrays and the arguments unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v13)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v13).trans (out_eq _), (h c main_arg0).trans (arg0_eq _),
      (h c main_arg1).trans (arg1_eq _)⟩)
    (run_seq scopedRefs_eq scopedSems_eq defs main (fun _ => ops) main_eq (fun _ => ops_sub) m ρ)

end Cert.RefSide

end
-- ==== Proof.lean ====
/- The proof of `Cert.Claim`: the kernel's frame at both instances from its run (the launch of the SparseCore program
   over the proof of one vector subcore's task), the reference's frame from its run, and the algebraic claim from the
   two runs and the equation of the two result functions at the ideal instance. -/
import proofs.«209252_g55662776156339_cont_9to1_m_525_47_alg».proof.Defs
import proofs.«209252_g55662776156339_cont_9to1_m_525_47_alg».proof.Proof.KBClaims
import proofs.«209252_g55662776156339_cont_9to1_m_525_47_alg».proof.Proof.KIClaims
import proofs.«209252_g55662776156339_cont_9to1_m_525_47_alg».proof.Proof.KIAlgebra
import proofs.«209252_g55662776156339_cont_9to1_m_525_47_alg».proof.Proof.RefRun
import proofs.«209252_g55662776156339_cont_9to1_m_525_47_alg».proof.Proof.PreRange
import proofs.«209252_g55662776156339_cont_9to1_m_525_47_alg».proof.Proof.Gen.Kernel
import proofs.«209252_g55662776156339_cont_9to1_m_525_47_alg».proof.Proof.Gen.KernelIdeal
import proofs.«209252_g55662776156339_cont_9to1_m_525_47_alg».proof.Proof.Gen.ReferenceIdeal
import proofs.«209252_g55662776156339_cont_9to1_m_525_47_alg».proof.Proof.Gen.Pre_input_domain
import Idealize.ShloMosaic.Adequacy
import Idealize.ShloMosaic.Init

noncomputable section

namespace Cert.Proof

open Idealize.ShloMosaic Idealize.SL.Sem

/-- The reference's frame: its run, the result's value dropped. -/
theorem frame_ref : Cert.frame_ReferenceIdeal := fun m ρ _ =>
  (θ_run Cert.ReferenceIdeal.defs _ _).mono (fun _ h c => (h c).2) (Cert.RefSide.ref_run (F := Ideal) m ρ)

/-- At the ideal instance the kernel's result array ends at the claimed function of its arguments and the reference's
    at its own function of arguments that agree with them; under the precondition the two are one function. -/
theorem algebraic :
    Cert.algebraic_KernelIdeal_ReferenceIdeal := by
  intro m ρ m' ρ' hpre hagree
  refine ⟨fun c => Cert.Proof.KI.outOf m (Cert.Proof.KI.A₀ m) c, Cert.Proof.KI.run_kernel m ρ hpre, ?_⟩
  refine (θ_run Cert.ReferenceIdeal.defs _ _).mono (fun _ h c => ⟨(h c).1.trans ?_, (h c).2⟩) (Cert.RefSide.ref_run (F := Ideal) m' ρ')
  rw [(hagree c).1, (hagree c).2]
  exact (Cert.Proof.KI.outSpec_eq_refOut _ _ _ _ (Cert.Proof.KI.A₀_ri m c) (Cert.Proof.KI.A₀_ci m c)
    (Cert.RefSide.range_of_pre _ _ (hpre c))).symm

theorem claim : Cert.Claim :=
  ⟨Cert.Kernel.Gen.facts, Cert.KernelIdeal.Gen.facts, Cert.ReferenceIdeal.Gen.facts, Cert.Pre_input_domain.Gen.facts,
    Cert.Proof.KB.frame_claim, Cert.Proof.KI.frame_claim, frame_ref, trivial, algebraic⟩

end Cert.Proof

end
